-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x368x640 : Shape := ⟨4, ![8, 16, 368, 640]⟩
abbrev S8x1x368x640 : Shape := ⟨4, ![8, 1, 368, 640]⟩
abbrev S_ : Shape := ⟨0, ![]⟩

class Facts : Prop where
  bcast_S_S8x16x368x640 : S_.BroadcastsInDim S8x16x368x640 (![] : Fin 0 → Fin S8x16x368x640.rank)
  reducesTo_S8x16x368x640_S_d0_1_2_3 : S8x16x368x640.ReducesTo [0, 1, 2, 3] S_
  h_S_ : 0 < S_.numel

variable [Facts]

def fn {F : FTy → Type} [FloatOps F] (main_arg0 : FVec F S8x16x368x640 .f32) (main_arg1 : IVec S8x1x368x640 32) : IVec S_ 1 :=
  let main_v0 : FVec F S8x16x368x640 .f32 := Host.absf main_arg0
  let main_cst : FVec F S_ .f32 := constant S_ .f32 0x7F800000#32
  let main_v1 : FVec F S8x16x368x640 .f32 := broadcastInDim S8x16x368x640 ![] bcast_S_S8x16x368x640 main_cst
  let main_v2 : IVec S8x16x368x640 1 := cmpf .olt main_v0 main_v1
  let main_c : IVec S_ 1 := constantI S_ 1 1#1
  let main_v3 : IVec S_ 1 := (fun x v => Host.reduce IntOp.andi x v reducesTo_S8x16x368x640_S_d0_1_2_3 h_S_) main_v2 main_c
  main_v3
-- ==== Kernel.lean ====
abbrev S8x16x368x640 : Shape := ⟨4, ![8, 16, 368, 640]⟩
abbrev S8x1x368x640 : Shape := ⟨4, ![8, 1, 368, 640]⟩
abbrev S8x16x235520 : Shape := ⟨3, ![8, 16, 235520]⟩
abbrev S8x1x235520 : Shape := ⟨3, ![8, 1, 235520]⟩
abbrev S8x12x16 : Shape := ⟨3, ![8, 12, 16]⟩
abbrev S8x12x1 : Shape := ⟨3, ![8, 12, 1]⟩
abbrev S1x16x58880 : Shape := ⟨3, ![1, 16, 58880]⟩
abbrev S1x1x58880 : Shape := ⟨3, ![1, 1, 58880]⟩
abbrev S1x12x16 : Shape := ⟨3, ![1, 12, 16]⟩
abbrev S1x12x1 : Shape := ⟨3, ![1, 12, 1]⟩
abbrev S16x58880 : Shape := ⟨2, ![16, 58880]⟩
abbrev S58880 : Shape := ⟨1, ![58880]⟩
abbrev S12x1 : Shape := ⟨2, ![12, 1]⟩
abbrev S1x58880 : Shape := ⟨2, ![1, 58880]⟩
abbrev S12x58880 : Shape := ⟨2, ![12, 58880]⟩
abbrev S12x16 : Shape := ⟨2, ![12, 16]⟩
abbrev S12 : Shape := ⟨1, ![12]⟩
abbrev S1x12 : Shape := ⟨2, ![1, 12]⟩
abbrev S8x12 : Shape := ⟨2, ![8, 12]⟩
abbrev S_ : Shape := ⟨0, ![]⟩
abbrev S8x12x1x16 : Shape := ⟨4, ![8, 12, 1, 16]⟩
abbrev S8x1x12x16 : Shape := ⟨4, ![8, 1, 12, 16]⟩
abbrev S8x12x12x16 : Shape := ⟨4, ![8, 12, 12, 16]⟩
abbrev S8x12x12 : Shape := ⟨3, ![8, 12, 12]⟩
abbrev S12x12 : Shape := ⟨2, ![12, 12]⟩
abbrev S8x1x12 : Shape := ⟨3, ![8, 1, 12]⟩
abbrev S1x12x12 : Shape := ⟨3, ![1, 12, 12]⟩

abbrev nBuf : Space → Nat
  | .hbm => 96
  | .vmem => 11
  | .smem => 0
  | _ => 0

abbrev bufTy : (tb : Table) → Fin (tcTables nBuf tb) → BufTy
  | .hbm, ⟨0, _⟩ => ⟨S8x16x368x640, .f32⟩
  | .hbm, ⟨1, _⟩ => ⟨S8x1x368x640, .i32⟩
  | .hbm, ⟨2, _⟩ => ⟨S8x16x235520, .f32⟩
  | .hbm, ⟨3, _⟩ => ⟨S8x1x235520, .i32⟩
  | .hbm, ⟨4, _⟩ => ⟨S8x12x16, .f32⟩
  | .hbm, ⟨5, _⟩ => ⟨S8x12x1, .f32⟩
  | .hbm, ⟨6, _⟩ => ⟨S8x12x1, .f32⟩
  | .hbm, ⟨7, _⟩ => ⟨S8x12, .f32⟩
  | .hbm, ⟨8, _⟩ => ⟨S_, .f32⟩
  | .hbm, ⟨9, _⟩ => ⟨S8x12, .f32⟩
  | .hbm, ⟨10, _⟩ => ⟨S8x12, .i1⟩
  | .hbm, ⟨11, _⟩ => ⟨S_, .f32⟩
  | .hbm, ⟨12, _⟩ => ⟨S8x12, .f32⟩
  | .hbm, ⟨13, _⟩ => ⟨S8x12, .f32⟩
  | .hbm, ⟨14, _⟩ => ⟨S8x12, .f32⟩
  | .hbm, ⟨15, _⟩ => ⟨S8x12, .f32⟩
  | .hbm, ⟨16, _⟩ => ⟨S8x12, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S8x12, .f32⟩
  | .hbm, ⟨22, _⟩ => ⟨S8x12, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S8x12x1x16, .f32⟩
  | .hbm, ⟨36, _⟩ => ⟨S8x1x12x16, .f32⟩
  | .hbm, ⟨37, _⟩ => ⟨S8x12x12x16, .f32⟩
  | .hbm, ⟨38, _⟩ => ⟨S8x12x12x16, .f32⟩
  | .hbm, ⟨39, _⟩ => ⟨S8x12x12x16, .f32⟩
  | .hbm, ⟨40, _⟩ => ⟨S8x12x12x16, .f32⟩
  | .hbm, ⟨41, _⟩ => ⟨S_, .f32⟩
  | .hbm, ⟨42, _⟩ => ⟨S8x12x12, .f32⟩
  | .hbm, ⟨43, _⟩ => ⟨S_, .f32⟩
  | .hbm, ⟨44, _⟩ => ⟨S8x12x12, .f32⟩
  | .hbm, ⟨45, _⟩ => ⟨S8x12x12, .i1⟩
  | .hbm, ⟨46, _⟩ => ⟨S_, .f32⟩
  | .hbm, ⟨47, _⟩ => ⟨S_, .f32⟩
  | .hbm, ⟨48, _⟩ => ⟨S8x12x12, .f32⟩
  | .hbm, ⟨49, _⟩ => ⟨S8x12x12, .f32⟩
  | .hbm, ⟨50, _⟩ => ⟨S8x12x12, .f32⟩
  | .hbm, ⟨51, _⟩ => ⟨S_, .f32⟩
  | .hbm, ⟨52, _⟩ => ⟨S8x12x12, .f32⟩
  | .hbm, ⟨53, _⟩ => ⟨S8x12x12, .i1⟩
  | .hbm, ⟨54, _⟩ => ⟨S_, .f32⟩
  | .hbm, ⟨55, _⟩ => ⟨S_, .f32⟩
  | .hbm, ⟨56, _⟩ => ⟨S8x12x12, .f32⟩
  | .hbm, ⟨57, _⟩ => ⟨S8x12x12, .f32⟩
  | .hbm, ⟨58, _⟩ => ⟨S12x12, .i32⟩
  | .hbm, ⟨59, _⟩ => ⟨S12x12, .i32⟩
  | .hbm, ⟨60, _⟩ => ⟨S_, .i32⟩
  | .hbm, ⟨61, _⟩ => ⟨S12x12, .i32⟩
  | .hbm, ⟨62, _⟩ => ⟨S12x12, .i32⟩
  | .hbm, ⟨63, _⟩ => ⟨S12x12, .i1⟩
  | .hbm, ⟨64, _⟩ => ⟨S8x12x1, .i1⟩
  | .hbm, ⟨65, _⟩ => ⟨S8x1x12, .i1⟩
  | .hbm, ⟨66, _⟩ => ⟨S8x12x12, .i1⟩
  | .hbm, ⟨67, _⟩ => ⟨S8x12x12, .i1⟩
  | .hbm, ⟨68, _⟩ => ⟨S8x12x12, .i1⟩
  | .hbm, ⟨69, _⟩ => ⟨S12x12, .i1⟩
  | .hbm, ⟨70, _⟩ => ⟨S1x12x12, .i1⟩
  | .hbm, ⟨71, _⟩ => ⟨S8x12x12, .i1⟩
  | .hbm, ⟨72, _⟩ => ⟨S8x12x12, .i1⟩
  | .hbm, ⟨73, _⟩ => ⟨S8x12x12, .f32⟩
  | .hbm, ⟨74, _⟩ => ⟨S_, .f32⟩
  | .hbm, ⟨75, _⟩ => ⟨S8x12x12, .f32⟩
  | .hbm, ⟨76, _⟩ => ⟨S8x12x12, .f32⟩
  | .hbm, ⟨77, _⟩ => ⟨S_, .f32⟩
  | .hbm, ⟨78, _⟩ => ⟨S8x12x12, .f32⟩
  | .hbm, ⟨79, _⟩ => ⟨S8x12x12, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .i1⟩
  | .hbm, ⟨84, _⟩ => ⟨S8x12x12, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .local _ .vmem, ⟨0, _⟩ => ⟨S1x16x58880, .f32⟩
  | .local _ .vmem, ⟨1, _⟩ => ⟨S1x16x58880, .f32⟩
  | .local _ .vmem, ⟨2, _⟩ => ⟨S1x1x58880, .i32⟩
  | .local _ .vmem, ⟨3, _⟩ => ⟨S1x1x58880, .i32⟩
  | .local _ .vmem, ⟨4, _⟩ => ⟨S1x12x16, .f32⟩
  | .local _ .vmem, ⟨5, _⟩ => ⟨S1x12x16, .f32⟩
  | .local _ .vmem, ⟨6, _⟩ => ⟨S1x12x1, .f32⟩
  | .local _ .vmem, ⟨7, _⟩ => ⟨S1x12x1, .f32⟩
  | .local _ .vmem, ⟨8, _⟩ => ⟨S1x12x1, .f32⟩
  | .local _ .vmem, ⟨9, _⟩ => ⟨S1x12x1, .f32⟩
  | .local _ .vmem, ⟨10, _⟩ => ⟨S1x12x1, .f32⟩
  | _, _ => ⟨S8x16x368x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_cst_5 : Ref sig .tc := ⟨.hbm, 27, rfl⟩
abbrev main_v15 : Ref sig .tc := ⟨.hbm, 28, rfl⟩
abbrev main_v16 : Ref sig .tc := ⟨.hbm, 29, rfl⟩
abbrev main_cst_6 : Ref sig .tc := ⟨.hbm, 30, rfl⟩
abbrev main_call1_v0 : Ref sig .tc := ⟨.hbm, 31, rfl⟩
abbrev main_v17 : Ref sig .tc := ⟨.hbm, 32, rfl⟩
abbrev main_cst_7 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_8 : Ref sig .tc := ⟨.hbm, 41, rfl⟩
abbrev main_v25 : Ref sig .tc := ⟨.hbm, 42, rfl⟩
abbrev main_cst_9 : Ref sig .tc := ⟨.hbm, 43, rfl⟩
abbrev main_v26 : Ref sig .tc := ⟨.hbm, 44, rfl⟩
abbrev main_v27 : Ref sig .tc := ⟨.hbm, 45, rfl⟩
abbrev main_cst_10 : Ref sig .tc := ⟨.hbm, 46, rfl⟩
abbrev main_call2_v0 : Ref sig .tc := ⟨.hbm, 47, rfl⟩
abbrev main_call2_v1 : Ref sig .tc := ⟨.hbm, 48, rfl⟩
abbrev main_v28 : Ref sig .tc := ⟨.hbm, 49, rfl⟩
abbrev main_v29 : Ref sig .tc := ⟨.hbm, 50, rfl⟩
abbrev main_cst_11 : Ref sig .tc := ⟨.hbm, 51, rfl⟩
abbrev main_v30 : Ref sig .tc := ⟨.hbm, 52, rfl⟩
abbrev main_v31 : Ref sig .tc := ⟨.hbm, 53, rfl⟩
abbrev main_cst_12 : Ref sig .tc := ⟨.hbm, 54, rfl⟩
abbrev main_call3_v0 : Ref sig .tc := ⟨.hbm, 55, rfl⟩
abbrev main_call3_v1 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_13 : Ref sig .tc := ⟨.hbm, 74, rfl⟩
abbrev main_v48 : Ref sig .tc := ⟨.hbm, 75, rfl⟩
abbrev main_v49 : Ref sig .tc := ⟨.hbm, 76, rfl⟩
abbrev main_cst_14 : Ref sig .tc := ⟨.hbm, 77, rfl⟩
abbrev main_v50 : Ref sig .tc := ⟨.hbm, 78, rfl⟩
abbrev main_v51 : Ref sig .tc := ⟨.hbm, 79, rfl⟩
abbrev main_cst_15 : Ref sig .tc := ⟨.hbm, 80, rfl⟩
abbrev main_v52 : Ref sig .tc := ⟨.hbm, 81, rfl⟩
abbrev main_cst_16 : Ref sig .tc := ⟨.hbm, 82, rfl⟩
abbrev main_v53 : Ref sig .tc := ⟨.hbm, 83, rfl⟩
abbrev main_v54 : Ref sig .tc := ⟨.hbm, 84, rfl⟩
abbrev main_cst_17 : Ref sig .tc := ⟨.hbm, 85, rfl⟩
abbrev main_v55 : Ref sig .tc := ⟨.hbm, 86, rfl⟩
abbrev main_cst_18 : Ref sig .tc := ⟨.hbm, 87, rfl⟩
abbrev main_v56 : Ref sig .tc := ⟨.hbm, 88, rfl⟩
abbrev main_v57 : Ref sig .tc := ⟨.hbm, 89, rfl⟩
abbrev main_cst_19 : Ref sig .tc := ⟨.hbm, 90, rfl⟩
abbrev main_call4_v0 : Ref sig .tc := ⟨.hbm, 91, rfl⟩
abbrev main_v58 : Ref sig .tc := ⟨.hbm, 92, rfl⟩
abbrev main_cst_20 : Ref sig .tc := ⟨.hbm, 93, rfl⟩
abbrev main_v59 : Ref sig .tc := ⟨.hbm, 94, rfl⟩
abbrev main_v60 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def k0_cond1 (i : grid0.Coords) : BitVec 1 :=
  let arg1 : BitVec 32 := BitVec.ofNat 32 (i 1).val
  let c0_i32 : BitVec 32 := 0#32
  let v13 : BitVec 1 := Scalar.cmpi .eq arg1 c0_i32
  let arg2 : BitVec 32 := BitVec.ofNat 32 (i 2).val
  let c0_i32_5 : BitVec 32 := 0#32
  let v14 : BitVec 1 := Scalar.cmpi .eq arg2 c0_i32_5
  let v15 : BitVec 1 := Scalar.andi v13 v14
  let v16 : BitVec 32 := Scalar.extui v15
  let c0_i32_6 : BitVec 32 := 0#32
  let v17 : BitVec 1 := Scalar.cmpi .ne v16 c0_i32_6
  v17

def k0_cond2 (i : grid0.Coords) : BitVec 1 :=
  let arg1 : BitVec 32 := BitVec.ofNat 32 (i 1).val
  let c0_i32_7 : BitVec 32 := 0#32
  let v18 : BitVec 1 := Scalar.cmpi .eq arg1 c0_i32_7
  let v19 : BitVec 32 := Scalar.extui v18
  let c0_i32_8 : BitVec 32 := 0#32
  let v20 : BitVec 1 := Scalar.cmpi .ne v19 c0_i32_8
  v20

def k0_cond3 (i : grid0.Coords) : BitVec 1 :=
  let arg1 : BitVec 32 := BitVec.ofNat 32 (i 1).val
  let c0_i32_9 : BitVec 32 := 0#32
  let v21 : BitVec 1 := Scalar.cmpi .eq arg1 c0_i32_9
  let arg2 : BitVec 32 := BitVec.ofNat 32 (i 2).val
  let c3_i32 : BitVec 32 := 3#32
  let v22 : BitVec 1 := Scalar.cmpi .eq arg2 c3_i32
  let v23 : BitVec 1 := Scalar.andi v21 v22
  let v24 : BitVec 32 := Scalar.extui v23
  let c0_i32_10 : BitVec 32 := 0#32
  let v25 : BitVec 1 := Scalar.cmpi .ne v24 c0_i32_10
  v25

def k0_cond4 (i : grid0.Coords) : BitVec 1 :=
  let arg1 : BitVec 32 := BitVec.ofNat 32 (i 1).val
  let c1_i32_11 : BitVec 32 := 1#32
  let v26 : BitVec 1 := Scalar.cmpi .eq arg1 c1_i32_11
  let arg2 : BitVec 32 := BitVec.ofNat 32 (i 2).val
  let c0_i32_12 : BitVec 32 := 0#32
  let v27 : BitVec 1 := Scalar.cmpi .eq arg2 c0_i32_12
  let v28 : BitVec 1 := Scalar.andi v26 v27
  let v29 : BitVec 32 := Scalar.extui v28
  let c0_i32_13 : BitVec 32 := 0#32
  let v30 : BitVec 1 := Scalar.cmpi .ne v29 c0_i32_13
  v30

def k0_cond5 (i : grid0.Coords) : BitVec 1 :=
  let arg1 : BitVec 32 := BitVec.ofNat 32 (i 1).val
  let c1_i32_14 : BitVec 32 := 1#32
  let v31 : BitVec 1 := Scalar.cmpi .eq arg1 c1_i32_14
  let v32 : BitVec 32 := Scalar.extui v31
  let c0_i32_15 : BitVec 32 := 0#32
  let v33 : BitVec 1 := Scalar.cmpi .ne v32 c0_i32_15
  v33

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16x58880 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x58880 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x12x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x12x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x12x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

class Facts₀ : Prop where
  shapeCasts_S8x16x368x640_S8x16x235520 : S8x16x368x640.ShapeCasts S8x16x235520
  shapeCasts_S8x1x368x640_S8x1x235520 : S8x1x368x640.ShapeCasts S8x1x235520
  inb_S1x16x58880_S1x16x58880_0_0_0 : ∀ a, (![0, 0, 0] : Fin 3 → Nat) a + S1x16x58880.size a ≤ S1x16x58880.size a
  h_S1x16x58880 : 0 < S1x16x58880.numel
  shapeCasts_S1x16x58880_S16x58880 : S1x16x58880.ShapeCasts S16x58880
  inb_S1x1x58880_S1x1x58880_0_0_0 : ∀ a, (![0, 0, 0] : Fin 3 → Nat) a + S1x1x58880.size a ≤ S1x1x58880.size a
  h_S1x1x58880 : 0 < S1x1x58880.numel
  shapeCasts_S1x1x58880_S58880 : S1x1x58880.ShapeCasts S58880
  iota_S12x1_d0_w32 : S12x1.Iotas .tc 32 [0]
  shapeCasts_S58880_S1x58880 : S58880.ShapeCasts S1x58880
  broadcasts_S1x58880_S12x58880 : S1x58880.Broadcasts S12x58880
  broadcasts_S12x1_S12x58880 : S12x1.Broadcasts S12x58880
  natLt_1_32 : 1 < 32
  inb_S1x12x16_S1x12x16_0_0_0 : ∀ a, (![0, 0, 0] : Fin 3 → Nat) a + S1x12x16.size a ≤ S1x12x16.size a
  h_S1x12x16 : 0 < S1x12x16.numel
  inb_S1x12x1_S1x12x1_0_0_0 : ∀ a, (![0, 0, 0] : Fin 3 → Nat) a + S1x12x1.size a ≤ S1x12x1.size a
  h_S1x12x1 : 0 < S1x12x1.numel
  bitsLt_bf16_f32 : FTy.bits .bf16 < FTy.bits .f32
  reduces_S12x58880_S12 : S12x58880.Reduces [1] S12
  shapeCasts_S12_S12x1 : S12.ShapeCasts S12x1
  shapeCasts_S1x12x16_S1x12x16 : S1x12x16.ShapeCasts S1x12x16
  shapeCasts_S12x16_S1x12x16 : S12x16.ShapeCasts S1x12x16
  shapeCasts_S1x12x1_S1x12x1 : S1x12x1.ShapeCasts S1x12x1
  shapeCasts_S12x1_S1x12x1 : S12x1.ShapeCasts S1x12x1
  broadcasts_S1x12x1_S1x12x16 : S1x12x1.Broadcasts S1x12x16
  reduces_S1x12x16_S1x12 : S1x12x16.Reduces [2] S1x12
  shapeCasts_S1x12_S1x12x1 : S1x12.ShapeCasts S1x12x1
  shapeCasts_S1x12x16_S12x16 : S1x12x16.ShapeCasts S12x16
  shapeCasts_S1x12x1_S12 : S1x12x1.ShapeCasts S12
  reduces_S16x58880_S58880 : S16x58880.Reduces [0] S58880
  shapeCasts_S8x12x1_S8x12 : S8x12x1.ShapeCasts S8x12
  bcast_S_S8x12 : S_.BroadcastsInDim S8x12 (![] : Fin 0 → Fin S8x12.rank)
  reducesTo_S8x12_S_d0_1 : S8x12.ReducesTo [0, 1] S_
  h_S_ : 0 < S_.numel
  bcast_S8x12x16_S8x12x1x16_0_1_3 : S8x12x16.BroadcastsInDim S8x12x1x16 (![0, 1, 3] : Fin 3 → Fin S8x12x1x16.rank)
  bcast_S8x12x16_S8x1x12x16_0_2_3 : S8x12x16.BroadcastsInDim S8x1x12x16 (![0, 2, 3] : Fin 3 → Fin S8x1x12x16.rank)
  bcast_S8x12x1x16_S8x12x12x16_0_1_2_3 : S8x12x1x16.BroadcastsInDim S8x12x12x16 (![0, 1, 2, 3] : Fin 4 → Fin S8x12x12x16.rank)
  bcast_S8x1x12x16_S8x12x12x16_0_1_2_3 : S8x1x12x16.BroadcastsInDim S8x12x12x16 (![0, 1, 2, 3] : Fin 4 → Fin S8x12x12x16.rank)
  reducesTo_S8x12x12x16_S8x12x12_d3 : S8x12x12x16.ReducesTo [3] S8x12x12
  bcast_S_S8x12x12 : S_.BroadcastsInDim S8x12x12 (![] : Fin 0 → Fin S8x12x12.rank)
  bcast_S_S12x12 : S_.BroadcastsInDim S12x12 (![] : Fin 0 → Fin S12x12.rank)
  bcast_S8x12_S8x12x1_0_1 : S8x12.BroadcastsInDim S8x12x1 (![0, 1] : Fin 2 → Fin S8x12x1.rank)
  bcast_S8x12_S8x1x12_0_2 : S8x12.BroadcastsInDim S8x1x12 (![0, 2] : Fin 2 → Fin S8x1x12.rank)
  bcast_S8x12x1_S8x12x12_0_1_2 : S8x12x1.BroadcastsInDim S8x12x12 (![0, 1, 2] : Fin 3 → Fin S8x12x12.rank)
  bcast_S8x1x12_S8x12x12_0_1_2 : S8x1x12.BroadcastsInDim S8x12x12 (![0, 1, 2] : Fin 3 → Fin S8x12x12.rank)
  bcast_S12x12_S1x12x12_1_2 : S12x12.BroadcastsInDim S1x12x12 (![1, 2] : Fin 2 → Fin S1x12x12.rank)
  bcast_S1x12x12_S8x12x12_0_1_2 : S1x12x12.BroadcastsInDim S8x12x12 (![0, 1, 2] : Fin 3 → Fin S8x12x12.rank)
  reducesTo_S8x12x12_S_d0_1_2 : S8x12x12.ReducesTo [0, 1, 2] S_
  dot_S12x58880_S16x58880_S12x16_1_1_0_0_n_n_wf : DotDims.WF S12x58880 S16x58880 S12x16 [1] [1] [0] [0] [] []
  dot_S12x16_S16x58880_S12x58880_1_0_0_1_n_n_wf : DotDims.WF S12x16 S16x58880 S12x58880 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x58880.size a ≤ S8x16x235520.size a
  hwx0_0 : ∀ i : grid0.Coords, EltTy.bits .f32 = 32 ∨ (Rect.block (s := S8x16x235520) S1x16x58880.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x58880.size a ≤ S8x1x235520.size a
  hwx0_1 : ∀ i : grid0.Coords, EltTy.bits .i32 = 32 ∨ (Rect.block (s := S8x1x235520) S1x1x58880.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x12x16.size a ≤ S8x12x16.size a
  hwx0_2 : ∀ i : grid0.Coords, EltTy.bits .f32 = 32 ∨ (Rect.block (s := S8x12x16) S1x12x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x12x1.size a ≤ S8x12x1.size a
  hwx0_3 : ∀ i : grid0.Coords, EltTy.bits .f32 = 32 ∨ (Rect.block (s := S8x12x1) S1x12x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x12x1.size a ≤ S8x12x1.size a
  hwx0_4 : ∀ i : grid0.Coords, EltTy.bits .f32 = 32 ∨ (Rect.block (s := S8x12x1) S1x12x1.size (cc0_transform_4 i) (hinb0_4 i)).WholeWords (EltTy.packing .f32)

variable [Facts₀]

def dot_S12x58880_S16x58880_S12x16_1_1_0_0_n_n : DotDims S12x58880 S16x58880 S12x16 where
  lhsContracting := [1]
  rhsContracting := [1]
  lhsNonContracting := [0]
  rhsNonContracting := [0]
  lhsBatch := []
  rhsBatch := []
  wf := dot_S12x58880_S16x58880_S12x16_1_1_0_0_n_n_wf
def dot_S12x16_S16x58880_S12x58880_1_0_0_1_n_n : DotDims S12x16 S16x58880 S12x58880 where
  lhsContracting := [1]
  rhsContracting := [0]
  lhsNonContracting := [0]
  rhsNonContracting := [1]
  lhsBatch := []
  rhsBatch := []
  wf := dot_S12x16_S16x58880_S12x58880_1_0_0_1_n_n_wf

abbrev win0_0 : Pipeline.Window sig grid0 :=
  Pipeline.Window.ofSpec (Memref.whole main_v0) S1x16x58880.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x58880.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x12x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x12x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x12x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun i => !(k0_cond1 i == 1#1) && !(k0_cond2 i == 1#1) && !(k0_cond3 i == 1#1) | 3 => fun i => !(k0_cond1 i == 1#1) && !(k0_cond2 i == 1#1) | 4 => fun i => !(k0_cond4 i == 1#1) && !(k0_cond5 i == 1#1) | ⟨_ + 5, h⟩ => absurd h (Nat.not_lt.2 (Nat.le_add_left _ _))

class Facts : Prop extends Facts₀ where

variable [Facts]
-- ==== ReferenceIdeal.lean ====
abbrev S8x16x368x640 : Shape := ⟨4, ![8, 16, 368, 640]⟩
abbrev S8x1x368x640 : Shape := ⟨4, ![8, 1, 368, 640]⟩
abbrev S8x16x235520 : Shape := ⟨3, ![8, 16, 235520]⟩
abbrev S8x235520 : Shape := ⟨2, ![8, 235520]⟩
abbrev S12 : Shape := ⟨1, ![12]⟩
abbrev S_ : Shape := ⟨0, ![]⟩
abbrev S8x1x235520 : Shape := ⟨3, ![8, 1, 235520]⟩
abbrev S1x12x1 : Shape := ⟨3, ![1, 12, 1]⟩
abbrev S8x12x235520 : Shape := ⟨3, ![8, 12, 235520]⟩
abbrev S8x12 : Shape := ⟨2, ![8, 12]⟩
abbrev S8x12x16 : Shape := ⟨3, ![8, 12, 16]⟩
abbrev S8x12x1 : Shape := ⟨3, ![8, 12, 1]⟩
abbrev S8x12x1x16 : Shape := ⟨4, ![8, 12, 1, 16]⟩
abbrev S8x1x12x16 : Shape := ⟨4, ![8, 1, 12, 16]⟩
abbrev S8x12x12x16 : Shape := ⟨4, ![8, 12, 12, 16]⟩
abbrev S8x12x12 : Shape := ⟨3, ![8, 12, 12]⟩
abbrev S8x1x12 : Shape := ⟨3, ![8, 1, 12]⟩
abbrev S12x12 : Shape := ⟨2, ![12, 12]⟩
abbrev S1x12x12 : Shape := ⟨3, ![1, 12, 12]⟩

abbrev nBuf : Space → Nat
  | .hbm => 158
  | .vmem => 0
  | .smem => 0
  | _ => 0

abbrev hbmTy0_0 (i : Nat) : BufTy := match i % 128 with
  | 0 => ⟨S8x16x368x640, .f32⟩
  | 1 => ⟨S8x1x368x640, .i32⟩
  | 2 => ⟨S8x16x235520, .f32⟩
  | 3 => ⟨S8x235520, .i32⟩
  | 4 => ⟨S12, .i32⟩
  | 5 => ⟨S_, .i32⟩
  | 6 => ⟨S12, .i32⟩
  | 7 => ⟨S12, .i32⟩
  | 8 => ⟨S8x1x235520, .i32⟩
  | 9 => ⟨S1x12x1, .i32⟩
  | 10 => ⟨S8x12x235520, .i32⟩
  | 11 => ⟨S8x12x235520, .i32⟩
  | 12 => ⟨S8x12x235520, .i1⟩
  | 13 => ⟨S8x12x235520, .f32⟩
  | 14 => ⟨S_, .f32⟩
  | 15 => ⟨S8x12, .f32⟩
  | 16 => ⟨S_, .f32⟩
  | 17 => ⟨S8x12, .f32⟩
  | 18 => ⟨S8x12, .i1⟩
  | 19 => ⟨S_, .f32⟩
  | 20 => ⟨S8x12, .f32⟩
  | 21 => ⟨S8x12, .f32⟩
  | 22 => ⟨S8x12x16, .f32⟩
  | 23 => ⟨S8x12x1, .f32⟩
  | 24 => ⟨S8x12x16, .f32⟩
  | 25 => ⟨S8x12x16, .f32⟩
  | 26 => ⟨S8x16x235520, .f32⟩
  | 27 => ⟨S_, .f32⟩
  | 28 => ⟨S8x235520, .f32⟩
  | 29 => ⟨S8x12x16, .f32⟩
  | 30 => ⟨S_, .f32⟩
  | 31 => ⟨S8x12, .f32⟩
  | 32 => ⟨S8x12x235520, .f32⟩
  | 33 => ⟨S8x1x235520, .f32⟩
  | 34 => ⟨S8x12x1, .f32⟩
  | 35 => ⟨S8x12x235520, .f32⟩
  | 36 => ⟨S8x12x235520, .f32⟩
  | 37 => ⟨S8x12x235520, .f32⟩
  | 38 => ⟨S_, .f32⟩
  | 39 => ⟨S8x12x235520, .f32⟩
  | 40 => ⟨S8x12x235520, .f32⟩
  | 41 => ⟨S8x12x235520, .f32⟩
  | 42 => ⟨S_, .f32⟩
  | 43 => ⟨S8x12x235520, .f32⟩
  | 44 => ⟨S8x12x235520, .f32⟩
  | 45 => ⟨S_, .f32⟩
  | 46 => ⟨S8x12x235520, .f32⟩
  | 47 => ⟨S8x12x235520, .i1⟩
  | 48 => ⟨S_, .f32⟩
  | 49 => ⟨S8x12x235520, .f32⟩
  | 50 => ⟨S8x12x235520, .i1⟩
  | 51 => ⟨S_, .f32⟩
  | 52 => ⟨S_, .f32⟩
  | 53 => ⟨S8x12x235520, .f32⟩
  | 54 => ⟨S8x12x235520, .f32⟩
  | 55 => ⟨S8x12x235520, .f32⟩
  | 56 => ⟨S_, .f32⟩
  | 57 => ⟨S_, .f32⟩
  | 58 => ⟨S8x12x235520, .f32⟩
  | 59 => ⟨S8x12x235520, .f32⟩
  | 60 => ⟨S_, .f32⟩
  | 61 => ⟨S8x12x235520, .f32⟩
  | 62 => ⟨S8x12x235520, .f32⟩
  | 63 => ⟨S_, .f32⟩
  | 64 => ⟨S8x12x235520, .f32⟩
  | 65 => ⟨S8x12x235520, .f32⟩
  | 66 => ⟨S8x12x235520, .f32⟩
  | 67 => ⟨S_, .f32⟩
  | 68 => ⟨S8x12, .f32⟩
  | 69 => ⟨S8x12, .f32⟩
  | 70 => ⟨S8x12, .f32⟩
  | 71 => ⟨S_, .f32⟩
  | 72 => ⟨S_, .f32⟩
  | 73 => ⟨S_, .f32⟩
  | 74 => ⟨S_, .i1⟩
  | 75 => ⟨S_, .f32⟩
  | 76 => ⟨S_, .f32⟩
  | 77 => ⟨S8x12, .f32⟩
  | 78 => ⟨S8x12, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S8x12x1x16, .f32⟩
  | 94 => ⟨S8x1x12x16, .f32⟩
  | 95 => ⟨S8x12x12x16, .f32⟩
  | 96 => ⟨S8x12x12x16, .f32⟩
  | 97 => ⟨S8x12x12x16, .f32⟩
  | 98 => ⟨S8x12x12x16, .f32⟩
  | 99 => ⟨S_, .f32⟩
  | 100 => ⟨S8x12x12, .f32⟩
  | 101 => ⟨S_, .f32⟩
  | 102 => ⟨S8x12x12, .f32⟩
  | 103 => ⟨S8x12x12, .i1⟩
  | 104 => ⟨S_, .f32⟩
  | 105 => ⟨S8x12x12, .f32⟩
  | 106 => ⟨S8x12x12, .i1⟩
  | 107 => ⟨S_, .f32⟩
  | 108 => ⟨S_, .f32⟩
  | 109 => ⟨S8x12x12, .f32⟩
  | 110 => ⟨S8x12x12, .f32⟩
  | 111 => ⟨S8x12x12, .f32⟩
  | 112 => ⟨S_, .f32⟩
  | 113 => ⟨S_, .f32⟩
  | 114 => ⟨S8x12x12, .f32⟩
  | 115 => ⟨S8x12x12, .f32⟩
  | 116 => ⟨S8x12x1, .i1⟩
  | 117 => ⟨S8x1x12, .i1⟩
  | 118 => ⟨S8x12x12, .i1⟩
  | 119 => ⟨S8x12x12, .i1⟩
  | 120 => ⟨S8x12x12, .i1⟩
  | 121 => ⟨S12x12, .i32⟩
  | 122 => ⟨S12x12, .i32⟩
  | 123 => ⟨S_, .i32⟩
  | 124 => ⟨S12x12, .i32⟩
  | 125 => ⟨S12x12, .i32⟩
  | 126 => ⟨S12x12, .i1⟩
  | 127 => ⟨S12x12, .i1⟩
  | _ => ⟨S8x16x368x640, .f32⟩

abbrev hbmTy0_1 (i : Nat) : BufTy := match i % 128 with
  | 0 => ⟨S1x12x12, .i1⟩
  | 1 => ⟨S8x12x12, .i1⟩
  | 2 => ⟨S8x12x12, .i1⟩
  | 3 => ⟨S8x12x12, .f32⟩
  | 4 => ⟨S_, .f32⟩
  | 5 => ⟨S8x12x12, .f32⟩
  | 6 => ⟨S8x12x12, .f32⟩
  | 7 => ⟨S_, .f32⟩
  | 8 => ⟨S8x12x12, .f32⟩
  | 9 => ⟨S8x12x12, .f32⟩
  | 10 => ⟨S_, .f32⟩
  | 11 => ⟨S_, .f32⟩
  | 12 => ⟨S_, .f32⟩
  | 13 => ⟨S_, .i1⟩
  | 14 => ⟨S8x12x12, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | _ => ⟨S8x16x368x640, .f32⟩

abbrev hbmTy (i : Nat) : BufTy := match i / 128 with
  | 0 => hbmTy0_0 i
  | 1 => hbmTy0_1 i
  | _ => ⟨S8x16x368x640, .f32⟩

abbrev bufTy : (tb : Table) → Fin (tcTables nBuf tb) → BufTy
  | .hbm, ⟨i, _⟩ => hbmTy i
  | _, _ => ⟨S8x16x368x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_cst_8 : Ref sig .tc := ⟨.hbm, 51, rfl⟩
abbrev main_call0_v0 : Ref sig .tc := ⟨.hbm, 52, rfl⟩
abbrev main_call0_v1 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_call1_v0 : Ref sig .tc := ⟨.hbm, 57, rfl⟩
abbrev main_call1_v1 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_13 : Ref sig .tc := ⟨.hbm, 71, rfl⟩
abbrev main_v50 : Ref sig .tc := ⟨.hbm, 72, rfl⟩
abbrev main_cst_14 : Ref sig .tc := ⟨.hbm, 73, rfl⟩
abbrev main_v51 : Ref sig .tc := ⟨.hbm, 74, rfl⟩
abbrev main_cst_15 : Ref sig .tc := ⟨.hbm, 75, rfl⟩
abbrev main_call2_v0 : Ref sig .tc := ⟨.hbm, 76, rfl⟩
abbrev main_call2_v1 : Ref sig .tc := ⟨.hbm, 77, rfl⟩
abbrev main_v52 : Ref sig .tc := ⟨.hbm, 78, rfl⟩
abbrev main_cst_16 : Ref sig .tc := ⟨.hbm, 79, rfl⟩
abbrev main_v53 : Ref sig .tc := ⟨.hbm, 80, rfl⟩
abbrev main_cst_17 : Ref sig .tc := ⟨.hbm, 81, rfl⟩
abbrev main_v54 : Ref sig .tc := ⟨.hbm, 82, rfl⟩
abbrev main_v55 : Ref sig .tc := ⟨.hbm, 83, rfl⟩
abbrev main_cst_18 : Ref sig .tc := ⟨.hbm, 84, rfl⟩
abbrev main_v56 : Ref sig .tc := ⟨.hbm, 85, rfl⟩
abbrev main_cst_19 : Ref sig .tc := ⟨.hbm, 86, rfl⟩
abbrev main_v57 : Ref sig .tc := ⟨.hbm, 87, rfl⟩
abbrev main_cst_20 : Ref sig .tc := ⟨.hbm, 88, rfl⟩
abbrev main_v58 : Ref sig .tc := ⟨.hbm, 89, rfl⟩
abbrev main_v59 : Ref sig .tc := ⟨.hbm, 90, rfl⟩
abbrev main_cst_21 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_22 : Ref sig .tc := ⟨.hbm, 99, rfl⟩
abbrev main_v67 : Ref sig .tc := ⟨.hbm, 100, rfl⟩
abbrev main_cst_23 : Ref sig .tc := ⟨.hbm, 101, rfl⟩
abbrev main_v68 : Ref sig .tc := ⟨.hbm, 102, rfl⟩
abbrev main_v69 : Ref sig .tc := ⟨.hbm, 103, rfl⟩
abbrev main_cst_24 : Ref sig .tc := ⟨.hbm, 104, rfl⟩
abbrev main_v70 : Ref sig .tc := ⟨.hbm, 105, rfl⟩
abbrev main_v71 : Ref sig .tc := ⟨.hbm, 106, rfl⟩
abbrev main_cst_25 : Ref sig .tc := ⟨.hbm, 107, rfl⟩
abbrev main_call4_v0 : Ref sig .tc := ⟨.hbm, 108, rfl⟩
abbrev main_call4_v1 : Ref sig .tc := ⟨.hbm, 109, rfl⟩
abbrev main_v72 : Ref sig .tc := ⟨.hbm, 110, rfl⟩
abbrev main_v73 : Ref sig .tc := ⟨.hbm, 111, rfl⟩
abbrev main_cst_26 : Ref sig .tc := ⟨.hbm, 112, rfl⟩
abbrev main_call5_v0 : Ref sig .tc := ⟨.hbm, 113, rfl⟩
abbrev main_call5_v1 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_27 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_cst_28 : Ref sig .tc := ⟨.hbm, 132, rfl⟩
abbrev main_v90 : Ref sig .tc := ⟨.hbm, 133, rfl⟩
abbrev main_v91 : Ref sig .tc := ⟨.hbm, 134, rfl⟩
abbrev main_cst_29 : Ref sig .tc := ⟨.hbm, 135, rfl⟩
abbrev main_v92 : Ref sig .tc := ⟨.hbm, 136, rfl⟩
abbrev main_v93 : Ref sig .tc := ⟨.hbm, 137, rfl⟩
abbrev main_cst_30 : Ref sig .tc := ⟨.hbm, 138, rfl⟩
abbrev main_v94 : Ref sig .tc := ⟨.hbm, 139, rfl⟩
abbrev main_cst_31 : Ref sig .tc := ⟨.hbm, 140, rfl⟩
abbrev main_v95 : Ref sig .tc := ⟨.hbm, 141, rfl⟩
abbrev main_v96 : Ref sig .tc := ⟨.hbm, 142, rfl⟩
abbrev main_cst_32 : Ref sig .tc := ⟨.hbm, 143, rfl⟩
abbrev main_v97 : Ref sig .tc := ⟨.hbm, 144, rfl⟩
abbrev main_cst_33 : Ref sig .tc := ⟨.hbm, 145, rfl⟩
abbrev main_v98 : Ref sig .tc := ⟨.hbm, 146, rfl⟩
abbrev main_v99 : Ref sig .tc := ⟨.hbm, 147, rfl⟩
abbrev main_cst_34 : Ref sig .tc := ⟨.hbm, 148, rfl⟩
abbrev main_v100 : Ref sig .tc := ⟨.hbm, 149, rfl⟩
abbrev main_cst_35 : Ref sig .tc := ⟨.hbm, 150, rfl⟩
abbrev main_v101 : Ref sig .tc := ⟨.hbm, 151, rfl⟩
abbrev main_cst_36 : Ref sig .tc := ⟨.hbm, 152, rfl⟩
abbrev main_v102 : Ref sig .tc := ⟨.hbm, 153, rfl⟩
abbrev main_v103 : Ref sig .tc := ⟨.hbm, 154, rfl⟩
abbrev main_cst_37 : Ref sig .tc := ⟨.hbm, 155, rfl⟩
abbrev main_v104 : Ref sig .tc := ⟨.hbm, 156, rfl⟩
abbrev main_v105 : Ref sig .tc := ⟨.hbm, 157, rfl⟩

abbrev nD : Nat := 1
abbrev τ : Topo := Topo.v7x

variable {F : FTy → Type} [FloatOps F]

class Facts₀ : Prop where
  shapeCasts_S8x16x368x640_S8x16x235520 : S8x16x368x640.ShapeCasts S8x16x235520
  shapeCasts_S8x1x368x640_S8x235520 : S8x1x368x640.ShapeCasts S8x235520
  bcast_S_S12 : S_.BroadcastsInDim S12 (![] : Fin 0 → Fin S12.rank)
  bcast_S8x235520_S8x1x235520_0_2 : S8x235520.BroadcastsInDim S8x1x235520 (![0, 2] : Fin 2 → Fin S8x1x235520.rank)
  bcast_S12_S1x12x1_1 : S12.BroadcastsInDim S1x12x1 (![1] : Fin 1 → Fin S1x12x1.rank)
  bcast_S8x1x235520_S8x12x235520_0_1_2 : S8x1x235520.BroadcastsInDim S8x12x235520 (![0, 1, 2] : Fin 3 → Fin S8x12x235520.rank)
  bcast_S1x12x1_S8x12x235520_0_1_2 : S1x12x1.BroadcastsInDim S8x12x235520 (![0, 1, 2] : Fin 3 → Fin S8x12x235520.rank)
  reducesTo_S8x12x235520_S8x12_d2 : S8x12x235520.ReducesTo [2] S8x12
  h_S_ : 0 < S_.numel
  bcast_S_S8x12 : S_.BroadcastsInDim S8x12 (![] : Fin 0 → Fin S8x12.rank)
  bcast_S8x12_S8x12x1_0_1 : S8x12.BroadcastsInDim S8x12x1 (![0, 1] : Fin 2 → Fin S8x12x1.rank)
  bcast_S8x12x1_S8x12x16_0_1_2 : S8x12x1.BroadcastsInDim S8x12x16 (![0, 1, 2] : Fin 3 → Fin S8x12x16.rank)
  reducesTo_S8x16x235520_S8x235520_d1 : S8x16x235520.ReducesTo [1] S8x235520
  reducesTo_S8x12x16_S8x12_d2 : S8x12x16.ReducesTo [2] S8x12
  bcast_S8x12x1_S8x12x235520_0_1_2 : S8x12x1.BroadcastsInDim S8x12x235520 (![0, 1, 2] : Fin 3 → Fin S8x12x235520.rank)
  bcast_S_S8x12x235520 : S_.BroadcastsInDim S8x12x235520 (![] : Fin 0 → Fin S8x12x235520.rank)
  reducesTo_S8x12_S_d0_1 : S8x12.ReducesTo [0, 1] S_
  reducesTo_S8x16x235520_S_d0_1_2 : S8x16x235520.ReducesTo [0, 1, 2] S_
  bcast_S8x12x16_S8x12x1x16_0_1_3 : S8x12x16.BroadcastsInDim S8x12x1x16 (![0, 1, 3] : Fin 3 → Fin S8x12x1x16.rank)
  bcast_S8x12x16_S8x1x12x16_0_2_3 : S8x12x16.BroadcastsInDim S8x1x12x16 (![0, 2, 3] : Fin 3 → Fin S8x1x12x16.rank)
  bcast_S8x12x1x16_S8x12x12x16_0_1_2_3 : S8x12x1x16.BroadcastsInDim S8x12x12x16 (![0, 1, 2, 3] : Fin 4 → Fin S8x12x12x16.rank)
  bcast_S8x1x12x16_S8x12x12x16_0_1_2_3 : S8x1x12x16.BroadcastsInDim S8x12x12x16 (![0, 1, 2, 3] : Fin 4 → Fin S8x12x12x16.rank)
  reducesTo_S8x12x12x16_S8x12x12_d3 : S8x12x12x16.ReducesTo [3] S8x12x12
  bcast_S_S8x12x12 : S_.BroadcastsInDim S8x12x12 (![] : Fin 0 → Fin S8x12x12.rank)
  bcast_S8x12_S8x1x12_0_2 : S8x12.BroadcastsInDim S8x1x12 (![0, 2] : Fin 2 → Fin S8x1x12.rank)
  bcast_S8x12x1_S8x12x12_0_1_2 : S8x12x1.BroadcastsInDim S8x12x12 (![0, 1, 2] : Fin 3 → Fin S8x12x12.rank)
  bcast_S8x1x12_S8x12x12_0_1_2 : S8x1x12.BroadcastsInDim S8x12x12 (![0, 1, 2] : Fin 3 → Fin S8x12x12.rank)
  bcast_S_S12x12 : S_.BroadcastsInDim S12x12 (![] : Fin 0 → Fin S12x12.rank)
  bcast_S12x12_S1x12x12_1_2 : S12x12.BroadcastsInDim S1x12x12 (![1, 2] : Fin 2 → Fin S1x12x12.rank)
  bcast_S1x12x12_S8x12x12_0_1_2 : S1x12x12.BroadcastsInDim S8x12x12 (![0, 1, 2] : Fin 3 → Fin S8x12x12.rank)
  reducesTo_S8x12x12_S_d0_1_2 : S8x12x12.ReducesTo [0, 1, 2] S_
  dot_S8x12x235520_S8x16x235520_S8x12x16_2_2_1_1_0_0_wf : DotDims.WF S8x12x235520 S8x16x235520 S8x12x16 [2] [2] [1] [1] [0] [0]
  dot_S8x12x16_S8x16x235520_S8x12x235520_2_1_1_2_0_0_wf : DotDims.WF S8x12x16 S8x16x235520 S8x12x235520 [2] [1] [1] [2] [0] [0]

variable [Facts₀]

def dot_S8x12x235520_S8x16x235520_S8x12x16_2_2_1_1_0_0 : DotDims S8x12x235520 S8x16x235520 S8x12x16 where
  lhsContracting := [2]
  rhsContracting := [2]
  lhsNonContracting := [1]
  rhsNonContracting := [1]
  lhsBatch := [0]
  rhsBatch := [0]
  wf := dot_S8x12x235520_S8x16x235520_S8x12x16_2_2_1_1_0_0_wf
def dot_S8x12x16_S8x16x235520_S8x12x235520_2_1_1_2_0_0 : DotDims S8x12x16 S8x16x235520 S8x12x235520 where
  lhsContracting := [2]
  rhsContracting := [1]
  lhsNonContracting := [1]
  rhsNonContracting := [2]
  lhsBatch := [0]
  rhsBatch := [0]
  wf := dot_S8x12x16_S8x16x235520_S8x12x235520_2_1_1_2_0_0_wf

class Facts : Prop extends Facts₀ where

variable [Facts]
-- ==== Proof.K.Base.lean ====
/-
  The frame of the fused push-pull kernel, first part: the program around its one region.
  The program is two reshapes (the feature map to [8,16,235520], the labels to [8,1,235520]), the region over the grid
  (8 batch elements) x (2 phases) x (4 pixel tiles), and then eighty-nine host operations on the region's three results.
  Here: the buffers' contents when the region is entered, the program as "prefix, region, tail", the side conditions
  the tail's operations must meet (they touch unscoped buffers only, allocate nothing and write none of the
  region's arrays), the blocks the two input windows read, the five branch conditions of the body in closed form
  over the point's position modulo 8, and where each output window is idle.
-/
import proofs.«106792_j1022202216835_2_alg».proof.Proof.Gen.Kernel.Launch
import proofs.«106792_j1022202216835_2_alg».proof.Proof.Gen.Kernel.Skeleton
import proofs.«106792_j1022202216835_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The eleven stretches of host operations after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10]

/-- The buffers' contents when the region is entered: the launch contents after the two reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- The program is the two reshapes, the region, and the tail's stretches: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The tail touches the region's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- It allocates nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

/-- No operation of a stretch writes one of the five arrays the windows stage (each writes its own result buffer). -/
theorem keeps_of (ops : List (HloOp τ sig (Elt F)))
    (h : ops.Forall fun op => ∀ w, Proc.devRef .tc (Pipeline.arrRef spec0 w) ∉ op.writes) :
    ∀ op ∈ ops, ∀ w, Proc.devRef .tc (Pipeline.arrRef spec0 w) ∉ op.writes :=
  fun op hop => (List.forall_iff_forall_mem.mp h) op hop

theorem hostOps1_keeps : (hostOps1 : List (HloOp τ sig (Elt F))).Forall fun op => ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [hostOps1_1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [hostOps1_2, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [hostOps1_3, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [hostOps1_4, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keeps : (hostOps1_5 : List (HloOp τ sig (Elt F))).Forall fun op => ∀ w, Proc.devRef .tc (Pipeline.arrRef spec0 w) ∉ op.writes := by
  simp only [hostOps1_5, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keeps : (hostOps1_6 : List (HloOp τ sig (Elt F))).Forall fun op => ∀ w, Proc.devRef .tc (Pipeline.arrRef spec0 w) ∉ op.writes := by
  simp only [hostOps1_6, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_keeps : (hostOps1_7 : List (HloOp τ sig (Elt F))).Forall fun op => ∀ w, Proc.devRef .tc (Pipeline.arrRef spec0 w) ∉ op.writes := by
  simp only [hostOps1_7, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_keeps : (hostOps1_8 : List (HloOp τ sig (Elt F))).Forall fun op => ∀ w, Proc.devRef .tc (Pipeline.arrRef spec0 w) ∉ op.writes := by
  simp only [hostOps1_8, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_9_keeps : (hostOps1_9 : List (HloOp τ sig (Elt F))).Forall fun op => ∀ w, Proc.devRef .tc (Pipeline.arrRef spec0 w) ∉ op.writes := by
  simp only [hostOps1_9, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_10_keeps : (hostOps1_10 : List (HloOp τ sig (Elt F))).Forall fun op => ∀ w, Proc.devRef .tc (Pipeline.arrRef spec0 w) ∉ op.writes := by
  simp only [hostOps1_10, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The tail writes none of the region's arrays. -/
theorem sfx_keeps : ∀ ops ∈ (tailOps : List (List (HloOp τ sig (Elt F)))), ∀ op ∈ ops,
    ∀ w, Proc.devRef .tc (Pipeline.arrRef spec0 w) ∉ op.writes := by
  intro ops hops
  simp only [tailOps, List.mem_cons, List.mem_nil_iff, or_false] at hops
  rcases hops with rfl | rfl | rfl | rfl | rfl | rfl | rfl | rfl | rfl | rfl | rfl
  · exact keeps_of _ hostOps1_keeps
  · exact keeps_of _ hostOps1_1_keeps
  · exact keeps_of _ hostOps1_2_keeps
  · exact keeps_of _ hostOps1_3_keeps
  · exact keeps_of _ hostOps1_4_keeps
  · exact keeps_of _ hostOps1_5_keeps
  · exact keeps_of _ hostOps1_6_keeps
  · exact keeps_of _ hostOps1_7_keeps
  · exact keeps_of _ hostOps1_8_keeps
  · exact keeps_of _ hostOps1_9_keeps
  · exact keeps_of _ hostOps1_10_keeps

end Cert.Kernel.Frm

end
-- ==== Proof.K.Kit.lean ====
/-
  The frame of the fused push-pull kernel, second part: what the body is handed.
  The two input windows (features [1,16,58880] and labels [1,1,58880]) hold their blocks at every point; the three output
  windows (centers [1,12,16], counts [1,12,1], pull [1,12,1]) keep one block per batch element, written back after
  the batch element's eighth point. A point's position t in the grid is 8·b + 4·phase + tile, so the body's five
  conditions read: first tile of phase 0 ⇔ t % 8 = 0; phase 0 ⇔ t % 8 < 4; last tile of phase 0 ⇔ t % 8 = 3;
  first tile of phase 1 ⇔ t % 8 = 4; phase 1 ⇔ 4 ≤ t % 8.
-/
import proofs.«106792_j1022202216835_2_alg».proof.Proof.K.Base

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays are untouched by the host operations -/

/-- Neither reshape writes the feature map. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Neither reshape writes the labels. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the tail writes buffer `b`, when `b` is none of the tail's result buffers. -/
theorem tail_not_writes (b : Ref sig .tc)
    (h : ((tailOps (F := F)).flatten).Forall fun op => Proc.devRef .tc b ∉ op.writes) :
    ∀ op ∈ (tailOps (F := F)).flatten, Proc.devRef .tc b ∉ op.writes :=
  List.forall_iff_forall_mem.mp h

theorem tail_keeps_arg0 : ((tailOps (F := F)).flatten).Forall fun op => Proc.devRef .tc main_arg0 ∉ op.writes := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem tail_keeps_arg1 : ((tailOps (F := F)).flatten).Forall fun op => Proc.devRef .tc main_arg1 ∉ op.writes := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The feature map ends as launched: no window stages it and no host operation writes it. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (tail_not_writes main_arg0 tail_keeps_arg0),
    Pipeline.withArrays_of_ne _ c (V0 m c) _ main_arg0 (by exact (by decide : ∀ w, Pipeline.arrRef spec0 w ≠ main_arg0))]
  exact V_main_arg0 m c

/-- So do the labels. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_not_writes main_arg1 tail_keeps_arg1),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's current buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- So does the label window's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data, a frame run's post read at the two argument arrays is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's five conditions, in closed form over the grid -/

abbrev cnd1 (i : grid0.Coords) : Prop := k0_cond1 i = 1#1
abbrev cnd2 (i : grid0.Coords) : Prop := k0_cond2 i = 1#1
abbrev cnd3 (i : grid0.Coords) : Prop := k0_cond3 i = 1#1
abbrev cnd4 (i : grid0.Coords) : Prop := k0_cond4 i = 1#1
abbrev cnd5 (i : grid0.Coords) : Prop := k0_cond5 i = 1#1

theorem hcnd1 : ∀ t : Fin cfg0.N, cnd1 (grid0.coords t) ↔ t.val % 8 = 0 :=
  (by decide +kernel : ∀ t : Fin grid0.N, cnd1 (grid0.coords t) ↔ t.val % 8 = 0)
theorem hcnd2 : ∀ t : Fin cfg0.N, cnd2 (grid0.coords t) ↔ t.val % 8 < 4 :=
  (by decide +kernel : ∀ t : Fin grid0.N, cnd2 (grid0.coords t) ↔ t.val % 8 < 4)
theorem hcnd3 : ∀ t : Fin cfg0.N, cnd3 (grid0.coords t) ↔ t.val % 8 = 3 :=
  (by decide +kernel : ∀ t : Fin grid0.N, cnd3 (grid0.coords t) ↔ t.val % 8 = 3)
theorem hcnd4 : ∀ t : Fin cfg0.N, cnd4 (grid0.coords t) ↔ t.val % 8 = 4 :=
  (by decide +kernel : ∀ t : Fin grid0.N, cnd4 (grid0.coords t) ↔ t.val % 8 = 4)
theorem hcnd5 : ∀ t : Fin cfg0.N, cnd5 (grid0.coords t) ↔ 4 ≤ t.val % 8 :=
  (by decide +kernel : ∀ t : Fin grid0.N, cnd5 (grid0.coords t) ↔ 4 ≤ t.val % 8)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- The centers and the counts are stored in phase 0 only; the pull sums in phase 1 only. -/
theorem idle2 : ∀ t : Fin cfg0.N, cfg0.idle 2 (grid0.coords t) = decide (4 ≤ t.val % 8) := by decide +kernel
theorem idle3 : ∀ t : Fin cfg0.N, cfg0.idle 3 (grid0.coords t) = decide (4 ≤ t.val % 8) := by decide +kernel
theorem idle4 : ∀ t : Fin cfg0.N, cfg0.idle 4 (grid0.coords t) = decide (t.val % 8 < 4) := by decide +kernel

/-! ## The staging memrefs the body is called with -/

abbrev ms0 (t : Fin cfg0.N) : Memref sig .tc .vmem S1x16x58880 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x58880 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x12x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x12x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x12x1 .f32 := win0_4.stage (cfg0.slots t 4)
abbrev hs4 (t : Fin cfg0.N) : (ms4 t).IsWhole := hstage0_4 ((cfg0.slots t 4).cast nbuf0_4)
/-- The scratch holding the centers' squared norms, carried from phase 0 to phase 1. -/
abbrev scM : Memref sig .tc .vmem S1x12x1 .f32 := Memref.whole cc0_scratch0

/-- The region's invariant, with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Frm

end
-- ==== Proof.K.RunA.lean ====
/-
  The body at the first tile of phase 0 (t % 8 = 0): it resets the centers and counts blocks to zero, then adds this
  tile's contribution. The pull block and the scratch are left as found. The body's stores are found as pieces.
-/
import proofs.«106792_j1022202216835_2_alg».proof.Proof.K.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- First tile of phase 0: the stores into the centers block and the counts block, as pieces. -/
noncomputable def runA (c : Dev nD) (i : grid0.Coords) (a3 : Memref sig .tc .vmem S1x16x58880 .f32) (h3 : a3.IsWhole) (a4 : Memref sig .tc .vmem S1x1x58880 .i32) (h4 : a4.IsWhole) (a5 : Memref sig .tc .vmem S1x12x16 .f32) (h5 : a5.IsWhole) (a6 : Memref sig .tc .vmem S1x12x1 .f32) (h6 : a6.IsWhole) (a7 : Memref sig .tc .vmem S1x12x1 .f32) (h7 : a7.IsWhole) (a8 : Memref sig .tc .vmem S1x12x1 .f32) (h8 : a8.IsWhole)
    (hc1 : cnd1 i) (hc2 : cnd2 i) (hc3 : ¬cnd3 i) (hc4 : ¬cnd4 i) (hc5 : ¬cnd5 i)
    (x0 : Vec F S1x16x58880 .f32) (x1 : Vec F S1x1x58880 .i32) :
    Σ' (L2 : List (View.Piece (Elt F) S1x12x16 .f32)), { L3 : List (View.Piece (Elt F) S1x12x1 .f32) //
      ∀ (xi4 xs : Vec F S1x12x1 .f32) (E : Set ℕ) (K : PUnit → sProp 𝕄),
        iprop(owns (c : Thread nD τ) a3 fullShare x0 ∗ owns (c : Thread nD τ) a4 fullShare x1 ∗ (∃ d, owns (c : Thread nD τ) a5 fullShare d) ∗ (∃ d, owns (c : Thread nD τ) a6 fullShare d) ∗ owns (c : Thread nD τ) a7 fullShare xi4 ∗ owns (c : Thread nD τ) a8 fullShare xs
            ∗ (iprop(owns (c : Thread nD τ) a3 fullShare x0 ∗ owns (c : Thread nD τ) a4 fullShare x1 ∗ (∃ f, a5.view.loc (c : Thread nD τ) ↦[a5.view.set]{fullShare} a5.view.writes (Elt F) f L2) ∗ (∃ f, a6.view.loc (c : Thread nD τ) ↦[a6.view.set]{fullShare} a6.view.writes (Elt F) f L3) ∗ owns (c : Thread nD τ) a7 fullShare xi4 ∗ owns (c : Thread nD τ) a8 fullShare xs) -∗ K ⟨⟩))
          ⊢ wp frame (wpE (defs₀ (F := F)) Variants.none c none) E (cc0__fused_kernel i a3 h3 a4 h4 a5 h5 a6 h6 a7 h7 a8 h8) K } := by
  refine ⟨?_, ?_, fun xi4 xs E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%fs, %hfs, HS⟩, Hk⟩
    obtain rfl := h3.eq_unread hf0; obtain rfl := h4.eq_unread hf1; obtain rfl := h7.eq_unread hf4; obtain rfl := h8.eq_unread hfs
    sl_exec (disch := first | exact hc1 | exact hc2 | exact hc3 | exact hc4 | exact hc5)
    sl_step
    iapply Hk
    isplitl [H0]
    · iexists _; isplitr; · ipureintro; exact h3.read_unread _
      iexact H0
    isplitl [H1]
    · iexists _; isplitr; · ipureintro; exact h4.read_unread _
      iexact H1
    isplitl [H2]; · iexists _; iexact H2
    isplitl [H3]; · iexists _; iexact H3
    isplitl [H4]
    · iexists _; isplitr; · ipureintro; exact h7.read_unread _
      iexact H4
    iexists _; isplitr; · ipureintro; exact h8.read_unread _
    iexact HS

end Cert.Kernel.Frm

end
-- ==== Proof.K.RunB.lean ====
/-
  The body at the middle tiles of phase 0 (t % 8 = 1, 2): it adds the tile's contribution to the centers and counts blocks it finds.
-/
import proofs.«106792_j1022202216835_2_alg».proof.Proof.K.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A later tile of phase 0 that is not the last: the centers and counts blocks, found at `y2`, `y3`, get this tile's contribution added. -/
noncomputable def runB (c : Dev nD) (i : grid0.Coords) (a3 : Memref sig .tc .vmem S1x16x58880 .f32) (h3 : a3.IsWhole) (a4 : Memref sig .tc .vmem S1x1x58880 .i32) (h4 : a4.IsWhole) (a5 : Memref sig .tc .vmem S1x12x16 .f32) (h5 : a5.IsWhole) (a6 : Memref sig .tc .vmem S1x12x1 .f32) (h6 : a6.IsWhole) (a7 : Memref sig .tc .vmem S1x12x1 .f32) (h7 : a7.IsWhole) (a8 : Memref sig .tc .vmem S1x12x1 .f32) (h8 : a8.IsWhole)
    (hc1 : ¬cnd1 i) (hc2 : cnd2 i) (hc3 : ¬cnd3 i) (hc4 : ¬cnd4 i) (hc5 : ¬cnd5 i)
    (x0 : Vec F S1x16x58880 .f32) (x1 : Vec F S1x1x58880 .i32) (y2 : Vec F S1x12x16 .f32) (y3 : Vec F S1x12x1 .f32) :
    Σ' (L2 : List (View.Piece (Elt F) S1x12x16 .f32)), { L3 : List (View.Piece (Elt F) S1x12x1 .f32) //
      ∀ (xi4 xs : Vec F S1x12x1 .f32) (E : Set ℕ) (K : PUnit → sProp 𝕄),
        iprop(owns (c : Thread nD τ) a3 fullShare x0 ∗ owns (c : Thread nD τ) a4 fullShare x1 ∗ owns (c : Thread nD τ) a5 fullShare y2 ∗ owns (c : Thread nD τ) a6 fullShare y3 ∗ owns (c : Thread nD τ) a7 fullShare xi4 ∗ owns (c : Thread nD τ) a8 fullShare xs
            ∗ (iprop(owns (c : Thread nD τ) a3 fullShare x0 ∗ owns (c : Thread nD τ) a4 fullShare x1 ∗ (∃ f, a5.view.loc (c : Thread nD τ) ↦[a5.view.set]{fullShare} a5.view.writes (Elt F) f L2) ∗ (∃ f, a6.view.loc (c : Thread nD τ) ↦[a6.view.set]{fullShare} a6.view.writes (Elt F) f L3) ∗ owns (c : Thread nD τ) a7 fullShare xi4 ∗ owns (c : Thread nD τ) a8 fullShare xs) -∗ K ⟨⟩))
          ⊢ wp frame (wpE (defs₀ (F := F)) Variants.none c none) E (cc0__fused_kernel i a3 h3 a4 h4 a5 h5 a6 h6 a7 h7 a8 h8) K } := by
  refine ⟨?_, ?_, fun xi4 xs E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := h3.eq_unread hf0; obtain rfl := h4.eq_unread hf1; obtain rfl := h5.eq_unread hf2; obtain rfl := h6.eq_unread hf3; obtain rfl := h7.eq_unread hf4; obtain rfl := h8.eq_unread hfs
    sl_exec (disch := first | exact hc1 | exact hc2 | exact hc3 | exact hc4 | exact hc5)
    sl_step
    iapply Hk
    isplitl [H0]
    · iexists _; isplitr; · ipureintro; exact h3.read_unread _
      iexact H0
    isplitl [H1]
    · iexists _; isplitr; · ipureintro; exact h4.read_unread _
      iexact H1
    isplitl [H2]; · iexists _; iexact H2
    isplitl [H3]; · iexists _; iexact H3
    isplitl [H4]
    · iexists _; isplitr; · ipureintro; exact h7.read_unread _
      iexact H4
    iexists _; isplitr; · ipureintro; exact h8.read_unread _
    iexact HS

end Cert.Kernel.Frm

end
-- ==== Proof.K.RunC.lean ====
/-
  The body at the last tile of phase 0 (t % 8 = 3): after adding the tile's contribution it normalizes the centers by
  max(counts, 1) in place and stores each center's squared norm in the scratch.
-/
import proofs.«106792_j1022202216835_2_alg».proof.Proof.K.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Last tile of phase 0: the contribution is added, the centers are divided by the clamped counts, and the squared norms go to the scratch. -/
noncomputable def runC (c : Dev nD) (i : grid0.Coords) (a3 : Memref sig .tc .vmem S1x16x58880 .f32) (h3 : a3.IsWhole) (a4 : Memref sig .tc .vmem S1x1x58880 .i32) (h4 : a4.IsWhole) (a5 : Memref sig .tc .vmem S1x12x16 .f32) (h5 : a5.IsWhole) (a6 : Memref sig .tc .vmem S1x12x1 .f32) (h6 : a6.IsWhole) (a7 : Memref sig .tc .vmem S1x12x1 .f32) (h7 : a7.IsWhole) (a8 : Memref sig .tc .vmem S1x12x1 .f32) (h8 : a8.IsWhole)
    (hc1 : ¬cnd1 i) (hc2 : cnd2 i) (hc3 : cnd3 i) (hc4 : ¬cnd4 i) (hc5 : ¬cnd5 i)
    (x0 : Vec F S1x16x58880 .f32) (x1 : Vec F S1x1x58880 .i32) (y2 : Vec F S1x12x16 .f32) (y3 : Vec F S1x12x1 .f32) :
    Σ' (L2 : List (View.Piece (Elt F) S1x12x16 .f32)) (L3 : List (View.Piece (Elt F) S1x12x1 .f32)), { LS : List (View.Piece (Elt F) S1x12x1 .f32) //
      ∀ (xi4 : Vec F S1x12x1 .f32) (E : Set ℕ) (K : PUnit → sProp 𝕄),
        iprop(owns (c : Thread nD τ) a3 fullShare x0 ∗ owns (c : Thread nD τ) a4 fullShare x1 ∗ owns (c : Thread nD τ) a5 fullShare y2 ∗ owns (c : Thread nD τ) a6 fullShare y3 ∗ owns (c : Thread nD τ) a7 fullShare xi4 ∗ (∃ d, owns (c : Thread nD τ) a8 fullShare d)
            ∗ (iprop(owns (c : Thread nD τ) a3 fullShare x0 ∗ owns (c : Thread nD τ) a4 fullShare x1 ∗ (∃ f, a5.view.loc (c : Thread nD τ) ↦[a5.view.set]{fullShare} a5.view.writes (Elt F) f L2) ∗ (∃ f, a6.view.loc (c : Thread nD τ) ↦[a6.view.set]{fullShare} a6.view.writes (Elt F) f L3) ∗ owns (c : Thread nD τ) a7 fullShare xi4 ∗ (∃ f, a8.view.loc (c : Thread nD τ) ↦[a8.view.set]{fullShare} a8.view.writes (Elt F) f LS)) -∗ K ⟨⟩))
          ⊢ wp frame (wpE (defs₀ (F := F)) Variants.none c none) E (cc0__fused_kernel i a3 h3 a4 h4 a5 h5 a6 h6 a7 h7 a8 h8) K } := by
  refine ⟨?_, ?_, ?_, fun xi4 E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := h3.eq_unread hf0; obtain rfl := h4.eq_unread hf1; obtain rfl := h5.eq_unread hf2; obtain rfl := h6.eq_unread hf3; obtain rfl := h7.eq_unread hf4
    sl_exec (disch := first | exact hc1 | exact hc2 | exact hc3 | exact hc4 | exact hc5)
    sl_step
    iapply Hk
    isplitl [H0]
    · iexists _; isplitr; · ipureintro; exact h3.read_unread _
      iexact H0
    isplitl [H1]
    · iexists _; isplitr; · ipureintro; exact h4.read_unread _
      iexact H1
    isplitl [H2]; · iexists _; iexact H2
    isplitl [H3]; · iexists _; iexact H3
    isplitl [H4]
    · iexists _; isplitr; · ipureintro; exact h7.read_unread _
      iexact H4
    iexists _; iexact HS

end Cert.Kernel.Frm

end
-- ==== Proof.K.RunD.lean ====
/-
  The body at the first tile of phase 1 (t % 8 = 4): it resets the pull block and adds the tile's hinge sum, reading the
  finished centers and their squared norms.
-/
import proofs.«106792_j1022202216835_2_alg».proof.Proof.K.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- First tile of phase 1: the pull block is reset to zero, then gets this tile's hinge sum; centers, counts and scratch are read only. -/
noncomputable def runD (c : Dev nD) (i : grid0.Coords) (a3 : Memref sig .tc .vmem S1x16x58880 .f32) (h3 : a3.IsWhole) (a4 : Memref sig .tc .vmem S1x1x58880 .i32) (h4 : a4.IsWhole) (a5 : Memref sig .tc .vmem S1x12x16 .f32) (h5 : a5.IsWhole) (a6 : Memref sig .tc .vmem S1x12x1 .f32) (h6 : a6.IsWhole) (a7 : Memref sig .tc .vmem S1x12x1 .f32) (h7 : a7.IsWhole) (a8 : Memref sig .tc .vmem S1x12x1 .f32) (h8 : a8.IsWhole)
    (hc1 : ¬cnd1 i) (hc2 : ¬cnd2 i) (hc3 : ¬cnd3 i) (hc4 : cnd4 i) (hc5 : cnd5 i)
    (x0 : Vec F S1x16x58880 .f32) (x1 : Vec F S1x1x58880 .i32) (y2 : Vec F S1x12x16 .f32) (ys : Vec F S1x12x1 .f32) :
    { L4 : List (View.Piece (Elt F) S1x12x1 .f32) //
      ∀ (xi3 : Vec F S1x12x1 .f32) (E : Set ℕ) (K : PUnit → sProp 𝕄),
        iprop(owns (c : Thread nD τ) a3 fullShare x0 ∗ owns (c : Thread nD τ) a4 fullShare x1 ∗ owns (c : Thread nD τ) a5 fullShare y2 ∗ owns (c : Thread nD τ) a6 fullShare xi3 ∗ (∃ d, owns (c : Thread nD τ) a7 fullShare d) ∗ owns (c : Thread nD τ) a8 fullShare ys
            ∗ (iprop(owns (c : Thread nD τ) a3 fullShare x0 ∗ owns (c : Thread nD τ) a4 fullShare x1 ∗ owns (c : Thread nD τ) a5 fullShare y2 ∗ owns (c : Thread nD τ) a6 fullShare xi3 ∗ (∃ f, a7.view.loc (c : Thread nD τ) ↦[a7.view.set]{fullShare} a7.view.writes (Elt F) f L4) ∗ owns (c : Thread nD τ) a8 fullShare ys) -∗ K ⟨⟩))
          ⊢ wp frame (wpE (defs₀ (F := F)) Variants.none c none) E (cc0__fused_kernel i a3 h3 a4 h4 a5 h5 a6 h6 a7 h7 a8 h8) K } := by
  refine ⟨?_, fun xi3 E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := h3.eq_unread hf0; obtain rfl := h4.eq_unread hf1; obtain rfl := h5.eq_unread hf2; obtain rfl := h6.eq_unread hf3; obtain rfl := h8.eq_unread hfs
    sl_exec (disch := first | exact hc1 | exact hc2 | exact hc3 | exact hc4 | exact hc5)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]; · iexists _; iexact H4
    iexists _; isplitr; · ipureintro; exact h8.read_unread _
    iexact HS

end Cert.Kernel.Frm

end
-- ==== Proof.K.RunE.lean ====
/-
  The body at the later tiles of phase 1 (t % 8 = 5, 6, 7): it adds the tile's hinge sum to the pull block it finds.
-/
import proofs.«106792_j1022202216835_2_alg».proof.Proof.K.Kit

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A later tile of phase 1: the pull block, found at `y4`, gets this tile's hinge sum added. -/
noncomputable def runE (c : Dev nD) (i : grid0.Coords) (a3 : Memref sig .tc .vmem S1x16x58880 .f32) (h3 : a3.IsWhole) (a4 : Memref sig .tc .vmem S1x1x58880 .i32) (h4 : a4.IsWhole) (a5 : Memref sig .tc .vmem S1x12x16 .f32) (h5 : a5.IsWhole) (a6 : Memref sig .tc .vmem S1x12x1 .f32) (h6 : a6.IsWhole) (a7 : Memref sig .tc .vmem S1x12x1 .f32) (h7 : a7.IsWhole) (a8 : Memref sig .tc .vmem S1x12x1 .f32) (h8 : a8.IsWhole)
    (hc1 : ¬cnd1 i) (hc2 : ¬cnd2 i) (hc3 : ¬cnd3 i) (hc4 : ¬cnd4 i) (hc5 : cnd5 i)
    (x0 : Vec F S1x16x58880 .f32) (x1 : Vec F S1x1x58880 .i32) (y2 : Vec F S1x12x16 .f32) (ys y4 : Vec F S1x12x1 .f32) :
    { L4 : List (View.Piece (Elt F) S1x12x1 .f32) //
      ∀ (xi3 : Vec F S1x12x1 .f32) (E : Set ℕ) (K : PUnit → sProp 𝕄),
        iprop(owns (c : Thread nD τ) a3 fullShare x0 ∗ owns (c : Thread nD τ) a4 fullShare x1 ∗ owns (c : Thread nD τ) a5 fullShare y2 ∗ owns (c : Thread nD τ) a6 fullShare xi3 ∗ owns (c : Thread nD τ) a7 fullShare y4 ∗ owns (c : Thread nD τ) a8 fullShare ys
            ∗ (iprop(owns (c : Thread nD τ) a3 fullShare x0 ∗ owns (c : Thread nD τ) a4 fullShare x1 ∗ owns (c : Thread nD τ) a5 fullShare y2 ∗ owns (c : Thread nD τ) a6 fullShare xi3 ∗ (∃ f, a7.view.loc (c : Thread nD τ) ↦[a7.view.set]{fullShare} a7.view.writes (Elt F) f L4) ∗ owns (c : Thread nD τ) a8 fullShare ys) -∗ K ⟨⟩))
          ⊢ wp frame (wpE (defs₀ (F := F)) Variants.none c none) E (cc0__fused_kernel i a3 h3 a4 h4 a5 h5 a6 h6 a7 h7 a8 h8) K } := by
  refine ⟨?_, fun xi3 E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := h3.eq_unread hf0; obtain rfl := h4.eq_unread hf1; obtain rfl := h5.eq_unread hf2; obtain rfl := h6.eq_unread hf3; obtain rfl := h7.eq_unread hf4; obtain rfl := h8.eq_unread hfs
    sl_exec (disch := first | exact hc1 | exact hc2 | exact hc3 | exact hc4 | exact hc5)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]; · iexists _; iexact H4
    iexists _; isplitr; · ipureintro; exact h8.read_unread _
    iexact HS

end Cert.Kernel.Frm

end
-- ==== Proof.K.Outs.lean ====
/-
  The frame of the fused push-pull kernel, third part: what the three output blocks and the scratch hold after each point.
  The eight points of one batch element run the five cases in the order A B B C D E E E. Each case's stores into a
  buffer cover it, so what the buffer holds afterwards is the stores read back. The contents after point n are
  defined by recursion on n: a case that reads a block before overwriting it takes what the point before left there;
  a block a case does not store into keeps what it held.
-/
import proofs.«106792_j1022202216835_2_alg».proof.Proof.K.RunA
import proofs.«106792_j1022202216835_2_alg».proof.Proof.K.RunB
import proofs.«106792_j1022202216835_2_alg».proof.Proof.K.RunC
import proofs.«106792_j1022202216835_2_alg».proof.Proof.K.RunD
import proofs.«106792_j1022202216835_2_alg».proof.Proof.K.RunE

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in, from its position modulo 8 -/

theorem caseA (t : Fin cfg0.N) (h : t.val % 8 = 0) :
    cnd1 (grid0.coords t) ∧ cnd2 (grid0.coords t) ∧ ¬cnd3 (grid0.coords t) ∧ ¬cnd4 (grid0.coords t) ∧ ¬cnd5 (grid0.coords t) :=
  ⟨(hcnd1 t).mpr h, (hcnd2 t).mpr (by omega), fun h' => by have := (hcnd3 t).mp h'; omega,
    fun h' => by have := (hcnd4 t).mp h'; omega, fun h' => by have := (hcnd5 t).mp h'; omega⟩

theorem caseB (t : Fin cfg0.N) (h : t.val % 8 = 1 ∨ t.val % 8 = 2) :
    ¬cnd1 (grid0.coords t) ∧ cnd2 (grid0.coords t) ∧ ¬cnd3 (grid0.coords t) ∧ ¬cnd4 (grid0.coords t) ∧ ¬cnd5 (grid0.coords t) :=
  ⟨fun h' => by have := (hcnd1 t).mp h'; omega, (hcnd2 t).mpr (by omega), fun h' => by have := (hcnd3 t).mp h'; omega,
    fun h' => by have := (hcnd4 t).mp h'; omega, fun h' => by have := (hcnd5 t).mp h'; omega⟩

theorem caseC (t : Fin cfg0.N) (h : t.val % 8 = 3) :
    ¬cnd1 (grid0.coords t) ∧ cnd2 (grid0.coords t) ∧ cnd3 (grid0.coords t) ∧ ¬cnd4 (grid0.coords t) ∧ ¬cnd5 (grid0.coords t) :=
  ⟨fun h' => by have := (hcnd1 t).mp h'; omega, (hcnd2 t).mpr (by omega), (hcnd3 t).mpr h,
    fun h' => by have := (hcnd4 t).mp h'; omega, fun h' => by have := (hcnd5 t).mp h'; omega⟩

theorem caseD (t : Fin cfg0.N) (h : t.val % 8 = 4) :
    ¬cnd1 (grid0.coords t) ∧ ¬cnd2 (grid0.coords t) ∧ ¬cnd3 (grid0.coords t) ∧ cnd4 (grid0.coords t) ∧ cnd5 (grid0.coords t) :=
  ⟨fun h' => by have := (hcnd1 t).mp h'; omega, fun h' => by have := (hcnd2 t).mp h'; omega, fun h' => by have := (hcnd3 t).mp h'; omega,
    (hcnd4 t).mpr h, (hcnd5 t).mpr (by omega)⟩

theorem caseE (t : Fin cfg0.N) (h : 5 ≤ t.val % 8) :
    ¬cnd1 (grid0.coords t) ∧ ¬cnd2 (grid0.coords t) ∧ ¬cnd3 (grid0.coords t) ∧ ¬cnd4 (grid0.coords t) ∧ cnd5 (grid0.coords t) :=
  ⟨fun h' => by have := (hcnd1 t).mp h'; omega, fun h' => by have := (hcnd2 t).mp h'; omega, fun h' => by have := (hcnd3 t).mp h'; omega,
    fun h' => by have := (hcnd4 t).mp h'; omega, (hcnd5 t).mpr (by omega)⟩

/-! ## The cases' runs at a point of the grid -/

abbrev rA (c : Dev nD) (t : Fin cfg0.N) (h : t.val % 8 = 0) (x0 : Vec F S1x16x58880 .f32) (x1 : Vec F S1x1x58880 .i32) :=
  runA (F := F) c (grid0.coords t) (ms0 t) (hs0 t) (ms1 t) (hs1 t) (ms2 t) (hs2 t) (ms3 t) (hs3 t) (ms4 t) (hs4 t) scM (Memref.isWhole_whole _) (caseA t h).1 (caseA t h).2.1 (caseA t h).2.2.1 (caseA t h).2.2.2.1 (caseA t h).2.2.2.2 x0 x1
abbrev rB (c : Dev nD) (t : Fin cfg0.N) (h : t.val % 8 = 1 ∨ t.val % 8 = 2) (x0 : Vec F S1x16x58880 .f32) (x1 : Vec F S1x1x58880 .i32) (y2 : Vec F S1x12x16 .f32) (y3 : Vec F S1x12x1 .f32) :=
  runB (F := F) c (grid0.coords t) (ms0 t) (hs0 t) (ms1 t) (hs1 t) (ms2 t) (hs2 t) (ms3 t) (hs3 t) (ms4 t) (hs4 t) scM (Memref.isWhole_whole _) (caseB t h).1 (caseB t h).2.1 (caseB t h).2.2.1 (caseB t h).2.2.2.1 (caseB t h).2.2.2.2 x0 x1 y2 y3
abbrev rC (c : Dev nD) (t : Fin cfg0.N) (h : t.val % 8 = 3) (x0 : Vec F S1x16x58880 .f32) (x1 : Vec F S1x1x58880 .i32) (y2 : Vec F S1x12x16 .f32) (y3 : Vec F S1x12x1 .f32) :=
  runC (F := F) c (grid0.coords t) (ms0 t) (hs0 t) (ms1 t) (hs1 t) (ms2 t) (hs2 t) (ms3 t) (hs3 t) (ms4 t) (hs4 t) scM (Memref.isWhole_whole _) (caseC t h).1 (caseC t h).2.1 (caseC t h).2.2.1 (caseC t h).2.2.2.1 (caseC t h).2.2.2.2 x0 x1 y2 y3
abbrev rD (c : Dev nD) (t : Fin cfg0.N) (h : t.val % 8 = 4) (x0 : Vec F S1x16x58880 .f32) (x1 : Vec F S1x1x58880 .i32) (y2 : Vec F S1x12x16 .f32) (ys : Vec F S1x12x1 .f32) :=
  runD (F := F) c (grid0.coords t) (ms0 t) (hs0 t) (ms1 t) (hs1 t) (ms2 t) (hs2 t) (ms3 t) (hs3 t) (ms4 t) (hs4 t) scM (Memref.isWhole_whole _) (caseD t h).1 (caseD t h).2.1 (caseD t h).2.2.1 (caseD t h).2.2.2.1 (caseD t h).2.2.2.2 x0 x1 y2 ys
abbrev rE (c : Dev nD) (t : Fin cfg0.N) (h : 5 ≤ t.val % 8) (x0 : Vec F S1x16x58880 .f32) (x1 : Vec F S1x1x58880 .i32) (y2 : Vec F S1x12x16 .f32) (ys y4 : Vec F S1x12x1 .f32) :=
  runE (F := F) c (grid0.coords t) (ms0 t) (hs0 t) (ms1 t) (hs1 t) (ms2 t) (hs2 t) (ms3 t) (hs3 t) (ms4 t) (hs4 t) scM (Memref.isWhole_whole _) (caseE t h).1 (caseE t h).2.1 (caseE t h).2.2.1 (caseE t h).2.2.2.1 (caseE t h).2.2.2.2 x0 x1 y2 ys y4

/-! ## The views the contents are stated through, and the cases' stores read back -/

/-- A whole [1,12,16] buffer's view (which buffer does not matter once the stores cover it). -/
abbrev VC : View sig .tc .vmem S1x12x16 .f32 := (Memref.whole cc0_stg2_0 : Memref sig .tc .vmem S1x12x16 .f32).view
/-- A whole [1,12,1] buffer's view. -/
abbrev VS : View sig .tc .vmem S1x12x1 .f32 := (scM : Memref sig .tc .vmem S1x12x1 .f32).view

/-- A list of stores into a [1,12,16] buffer, read back. -/
abbrev back16 (L : List (View.Piece (Elt F) S1x12x16 .f32)) : Vec F S1x12x16 .f32 := VC.read (Elt F) (VC.writes (Elt F) VC.junk L)
/-- A list of stores into a [1,12,1] buffer, read back. -/
abbrev back1 (L : List (View.Piece (Elt F) S1x12x1 .f32)) : Vec F S1x12x1 .f32 := VS.read (Elt F) (VS.writes (Elt F) VS.junk L)

/-- Placeholder contents of a [1,12,1] buffer nothing has stored into yet. -/
abbrev unk1 : Vec F S1x12x1 .f32 := back1 (F := F) []

variable (c : Dev nD)

theorem coverA2 (t : Fin cfg0.N) (h) (x0) (x1) (y : S1x12x16.Idx) : ∃ pc ∈ (rA (F := F) c t h x0 x1).1, y ∈ pc.1.set :=
  View.cover_of_tiledL (rA (F := F) c t h x0 x1).1 S1x12x16.size (by sl_kernel_rfl) y
theorem coverA3 (t : Fin cfg0.N) (h) (x0) (x1) (y : S1x12x1.Idx) : ∃ pc ∈ (rA (F := F) c t h x0 x1).2.1, y ∈ pc.1.set :=
  View.cover_of_tiledL (rA (F := F) c t h x0 x1).2.1 S1x12x1.size (by sl_kernel_rfl) y
theorem coverB2 (t : Fin cfg0.N) (h) (x0) (x1) (y2) (y3) (y : S1x12x16.Idx) : ∃ pc ∈ (rB (F := F) c t h x0 x1 y2 y3).1, y ∈ pc.1.set :=
  View.cover_of_tiledL (rB (F := F) c t h x0 x1 y2 y3).1 S1x12x16.size (by sl_kernel_rfl) y
theorem coverB3 (t : Fin cfg0.N) (h) (x0) (x1) (y2) (y3) (y : S1x12x1.Idx) : ∃ pc ∈ (rB (F := F) c t h x0 x1 y2 y3).2.1, y ∈ pc.1.set :=
  View.cover_of_tiledL (rB (F := F) c t h x0 x1 y2 y3).2.1 S1x12x1.size (by sl_kernel_rfl) y
theorem coverC2 (t : Fin cfg0.N) (h) (x0) (x1) (y2) (y3) (y : S1x12x16.Idx) : ∃ pc ∈ (rC (F := F) c t h x0 x1 y2 y3).1, y ∈ pc.1.set :=
  View.cover_of_tiledL (rC (F := F) c t h x0 x1 y2 y3).1 S1x12x16.size (by sl_kernel_rfl) y
theorem coverC3 (t : Fin cfg0.N) (h) (x0) (x1) (y2) (y3) (y : S1x12x1.Idx) : ∃ pc ∈ (rC (F := F) c t h x0 x1 y2 y3).2.1, y ∈ pc.1.set :=
  View.cover_of_tiledL (rC (F := F) c t h x0 x1 y2 y3).2.1 S1x12x1.size (by sl_kernel_rfl) y
theorem coverCS (t : Fin cfg0.N) (h) (x0) (x1) (y2) (y3) (y : S1x12x1.Idx) : ∃ pc ∈ (rC (F := F) c t h x0 x1 y2 y3).2.2.1, y ∈ pc.1.set :=
  View.cover_of_tiledL (rC (F := F) c t h x0 x1 y2 y3).2.2.1 S1x12x1.size (by sl_kernel_rfl) y
theorem coverD4 (t : Fin cfg0.N) (h) (x0) (x1) (y2) (ys) (y : S1x12x1.Idx) : ∃ pc ∈ (rD (F := F) c t h x0 x1 y2 ys).1, y ∈ pc.1.set :=
  View.cover_of_tiledL (rD (F := F) c t h x0 x1 y2 ys).1 S1x12x1.size (by sl_kernel_rfl) y
theorem coverE4 (t : Fin cfg0.N) (h) (x0) (x1) (y2) (ys) (y4) (y : S1x12x1.Idx) : ∃ pc ∈ (rE (F := F) c t h x0 x1 y2 ys y4).1, y ∈ pc.1.set :=
  View.cover_of_tiledL (rE (F := F) c t h x0 x1 y2 ys y4).1 S1x12x1.size (by sl_kernel_rfl) y

/-! ## What the buffers hold after each point -/

/-- The contents after a point: the centers block, the counts block, the pull block, the scratch. -/
structure Outs (F : FTy → Type) [FloatOps F] where
  cen : Vec F S1x12x16 .f32
  cnt : Vec F S1x12x1 .f32
  pul : Vec F S1x12x1 .f32
  scr : Vec F S1x12x1 .f32

/-- One point's effect on the contents the point before left (`prev`), by the point's position modulo 8. -/
def stepOuts (t : Fin cfg0.N) (prev : Outs F) : Outs F :=
  if hA : t.val % 8 = 0 then
    { cen := back16 (rA (F := F) c t hA (iblk m c 0 t) (iblk m c 1 t)).1
      cnt := back1 (rA (F := F) c t hA (iblk m c 0 t) (iblk m c 1 t)).2.1
      pul := prev.pul, scr := prev.scr }
  else if hB : t.val % 8 = 1 ∨ t.val % 8 = 2 then
    { cen := back16 (rB (F := F) c t hB (iblk m c 0 t) (iblk m c 1 t) prev.cen prev.cnt).1
      cnt := back1 (rB (F := F) c t hB (iblk m c 0 t) (iblk m c 1 t) prev.cen prev.cnt).2.1
      pul := prev.pul, scr := prev.scr }
  else if hC : t.val % 8 = 3 then
    { cen := back16 (rC (F := F) c t hC (iblk m c 0 t) (iblk m c 1 t) prev.cen prev.cnt).1
      cnt := back1 (rC (F := F) c t hC (iblk m c 0 t) (iblk m c 1 t) prev.cen prev.cnt).2.1
      pul := prev.pul
      scr := back1 (rC (F := F) c t hC (iblk m c 0 t) (iblk m c 1 t) prev.cen prev.cnt).2.2.1 }
  else if hD : t.val % 8 = 4 then
    { cen := prev.cen, cnt := prev.cnt
      pul := back1 (rD (F := F) c t hD (iblk m c 0 t) (iblk m c 1 t) prev.cen prev.scr).1
      scr := prev.scr }
  else
    { cen := prev.cen, cnt := prev.cnt
      pul := back1 (rE (F := F) c t (by omega) (iblk m c 0 t) (iblk m c 1 t) prev.cen prev.scr prev.pul).1
      scr := prev.scr }

/-- Before the first point nothing is known of the buffers. -/
def outs0 : Outs F := { cen := back16 (F := F) [], cnt := unk1, pul := unk1, scr := unk1 }

/-- The contents after the point at position `n`. -/
def outsAt : (n : ℕ) → n < cfg0.N → Outs F
  | 0, hn => stepOuts m c ⟨0, hn⟩ outs0
  | n + 1, hn => stepOuts m c ⟨n + 1, hn⟩ (outsAt n (Nat.lt_of_succ_lt hn))

/-- The contents before the point at position `n`: what the point before left. -/
def outsBefore (n : ℕ) (hn : n < cfg0.N) : Outs F :=
  match n, hn with
  | 0, _ => outs0
  | n + 1, hn => outsAt m c n (Nat.lt_of_succ_lt hn)

theorem outsAt_step (t : Fin cfg0.N) : outsAt m c t.val t.isLt = stepOuts m c t (outsBefore m c t.val t.isLt) := by
  obtain ⟨n, hn⟩ := t
  cases n with
  | zero => rfl
  | succ n => rfl

theorem outsBefore_pos (n : ℕ) (hn : n < cfg0.N) (h0 : n ≠ 0) :
    outsBefore m c n hn = outsAt m c (n - 1) (Nat.lt_of_le_of_lt (Nat.sub_le _ _) hn) := by
  cases n with
  | zero => exact absurd rfl h0
  | succ n => rfl

end Cert.Kernel.Frm

end
-- ==== Proof.K.Dats.lean ====
/-
  The frame of the fused push-pull kernel, fourth part: the region's proof data.
  After each point the two input windows hold their blocks and the three output windows hold the contents defined
  by the recursion; the invariant carries the scratch: from the last tile of phase 0 to the end of the batch element it
  holds the squared norms of that batch element's centers, otherwise anything. What an output window's buffer holds
  when the body is called is what the point before left in it, also across the points at which the window is idle,
  up to the write-back after the batch element's eighth point.
-/
import proofs.«106792_j1022202216835_2_alg».proof.Proof.K.Outs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

/-! ## A block a case does not store into keeps its contents -/

theorem step_cen_idle (t : Fin cfg0.N) (h : 4 ≤ t.val % 8) (prev : Outs F) : (stepOuts m c t prev).cen = prev.cen := by
  unfold stepOuts
  rw [dif_neg (by omega), dif_neg (by omega), dif_neg (by omega)]
  by_cases hD : t.val % 8 = 4
  · rw [dif_pos hD]
  · rw [dif_neg hD]

theorem step_cnt_idle (t : Fin cfg0.N) (h : 4 ≤ t.val % 8) (prev : Outs F) : (stepOuts m c t prev).cnt = prev.cnt := by
  unfold stepOuts
  rw [dif_neg (by omega), dif_neg (by omega), dif_neg (by omega)]
  by_cases hD : t.val % 8 = 4
  · rw [dif_pos hD]
  · rw [dif_neg hD]

theorem step_scr_keep (t : Fin cfg0.N) (h : t.val % 8 ≠ 3) (prev : Outs F) : (stepOuts m c t prev).scr = prev.scr := by
  unfold stepOuts
  by_cases hA : t.val % 8 = 0
  · rw [dif_pos hA]
  · rw [dif_neg hA]
    by_cases hB : t.val % 8 = 1 ∨ t.val % 8 = 2
    · rw [dif_pos hB]
    · rw [dif_neg hB, dif_neg h]
      by_cases hD : t.val % 8 = 4
      · rw [dif_pos hD]
      · rw [dif_neg hD]

/-! ## The invariant: the scratch between points -/

/-- The scratch after the point at position `n`: named from the last tile of phase 0 on, anything before it. -/
def scrAt (n : ℕ) (hn : n < cfg0.N) : sProp 𝕄 :=
  if 3 ≤ n % 8 then owns (c : Thread nD τ) scM fullShare (outsAt m c n hn).scr
  else iprop(∃ d, owns (c : Thread nD τ) scM fullShare d)

theorem scrAt_named (n : ℕ) (hn : n < cfg0.N) (h : 3 ≤ n % 8) :
    scrAt m c n hn = owns (c : Thread nD τ) scM fullShare (outsAt m c n hn).scr := if_pos h

theorem scrAt_any (n : ℕ) (hn : n < cfg0.N) (h : ¬ 3 ≤ n % 8) :
    scrAt m c n hn = iprop(∃ d, owns (c : Thread nD τ) scM fullShare d) := if_neg h

theorem scrAt_forget (n : ℕ) (hn : n < cfg0.N) : scrAt m c n hn ⊢ (iprop(∃ d, owns (c : Thread nD τ) scM fullShare d) : sProp 𝕄) := by
  by_cases h : 3 ≤ n % 8
  · rw [scrAt_named m c n hn h]; iintro H; iexists _; iexact H
  · rw [scrAt_any m c n hn h]

/-- The region's invariant before the point at position `n`. -/
def PhiS : (n : ℕ) → n ≤ cfg0.N → sProp 𝕄
  | 0, _ => Pipeline.ΦA spec0 c
  | n + 1, hn => iprop(scrAt m c n hn ∗ (∃ r, prngReg c r))

theorem PhiS_zero (n : ℕ) (h : n ≤ cfg0.N) (hz : n = 0) : PhiS m c n h = Pipeline.ΦA spec0 c := by
  subst hz; rfl

theorem PhiS_succ (n : ℕ) (hn : n < cfg0.N) :
    PhiS m c (n + 1) hn = iprop(scrAt m c n hn ∗ (∃ r, prngReg c r)) := rfl

theorem PhiS_pos (n : ℕ) (h : n ≤ cfg0.N) (hz : n ≠ 0) :
    PhiS m c n h = iprop(scrAt m c (n - 1) (by omega) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).cen
    | ⟨3, _⟩ => (outsAt m c t.val t.isLt).cnt
    | ⟨4, _⟩ => (outsAt m c t.val t.isLt).pul
  Φ t := PhiS m c t.val (Nat.le_of_lt_succ t.isLt)
  q _ := fullShare
  owed _ := 0

theorem A_eq (w : Fin cfg0.W) : (dats m 0 c).A w = V m c (Pipeline.arrRef spec0 w) := by
  dsimp only [dats]

theorem PhiS_castSucc (t : Fin cfg0.N) :
    (dats m 0 c).Φ t.castSucc = PhiS m c t.val (Nat.le_of_lt t.isLt) := by
  dsimp only [dats]; simp only [Fin.coe_castSucc]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = (outsAt m c t.val t.isLt).cen := by dsimp only [dats]
theorem after3 (t : Fin cfg0.N) : (dats m 0 c).after 3 t = (outsAt m c t.val t.isLt).cnt := by dsimp only [dats]
theorem after4 (t : Fin cfg0.N) : (dats m 0 c).after 4 t = (outsAt m c t.val t.isLt).pul := by dsimp only [dats]

theorem before0 (t : Fin cfg0.N) (d) : (dats m 0 c).before 0 t d = iblk m c 0 t :=
  before0_0_of m (dats m 0 c) (A_eq m c 0) (after0 m c) t d
theorem before1 (t : Fin cfg0.N) (d) : (dats m 0 c).before 1 t d = iblk m c 1 t :=
  before0_1_of m (dats m 0 c) (A_eq m c 1) (after1 m c) t d

/-- At a point where an uncut output window is live, what the next point finds is all of what the body left. -/
theorem kept_eq_after (w : Fin cfg0.W) (hclip : ∀ (i : cfg0.grid.Coords) a, (cfg0.win w).clip i a = none) (t : Fin cfg0.N) (d) :
    (dats m 0 c).kept w t d = (dats m 0 c).after w t := by
  unfold Dat.kept
  rw [Pipeline.fill_of_clip_none w _ (hclip _) d ((dats m 0 c).after w t), Window.fill_cut]

/-- The centers block when the body is called, at any point but a batch element's first: what the point before left,
    also through the idle points of phase 1. -/
theorem before2 : ∀ (n : ℕ) (hn : n < cfg0.N), n % 8 ≠ 0 → ∀ d,
    (dats m 0 c).before 2 ⟨n, hn⟩ d = (outsBefore m c n hn).cen
  | 0, _, h, _ => absurd (Nat.zero_mod 8) h
  | n + 1, hn, h, d => by
    have hN : cfg0.N = 64 := N_0
    have hn' : n < cfg0.N := Nat.lt_of_succ_lt hn
    rw [Dat.before_of_pos _ 2 ⟨n + 1, hn⟩ (Nat.succ_ne_zero n) ((cfg0.win 2).fetch_out rfl _) d]
    show (if (cfg0.win 2).flush ⟨n, hn'⟩ = true then d else (dats m 0 c).left 2 ⟨n, hn'⟩ d) = (outsAt m c n hn').cen
    have hfl : (cfg0.win 2).flush ⟨n, hn'⟩ = false :=
      Bool.eq_false_iff.mpr fun hf => by have := (flush0_2 ⟨n, hn'⟩).mp hf; dsimp only at this; omega
    rw [hfl, if_neg Bool.false_ne_true]
    unfold Dat.left
    rw [idle2 ⟨n, hn'⟩]
    by_cases hi : 4 ≤ n % 8
    · rw [decide_eq_true hi]
      dsimp only
      rw [before2 n hn' (by omega) d, outsAt_step m c ⟨n, hn'⟩, step_cen_idle m c ⟨n, hn'⟩ hi]
    · rw [decide_eq_false hi]
      dsimp only
      rw [kept_eq_after m c 2 (fun _ _ => rfl), after2]

/-- The counts block, likewise. -/
theorem before3 : ∀ (n : ℕ) (hn : n < cfg0.N), n % 8 ≠ 0 → ∀ d,
    (dats m 0 c).before 3 ⟨n, hn⟩ d = (outsBefore m c n hn).cnt
  | 0, _, h, _ => absurd (Nat.zero_mod 8) h
  | n + 1, hn, h, d => by
    have hN : cfg0.N = 64 := N_0
    have hn' : n < cfg0.N := Nat.lt_of_succ_lt hn
    rw [Dat.before_of_pos _ 3 ⟨n + 1, hn⟩ (Nat.succ_ne_zero n) ((cfg0.win 3).fetch_out rfl _) d]
    show (if (cfg0.win 3).flush ⟨n, hn'⟩ = true then d else (dats m 0 c).left 3 ⟨n, hn'⟩ d) = (outsAt m c n hn').cnt
    have hfl : (cfg0.win 3).flush ⟨n, hn'⟩ = false :=
      Bool.eq_false_iff.mpr fun hf => by have := (flush0_3 ⟨n, hn'⟩).mp hf; dsimp only at this; omega
    rw [hfl, if_neg Bool.false_ne_true]
    unfold Dat.left
    rw [idle3 ⟨n, hn'⟩]
    by_cases hi : 4 ≤ n % 8
    · rw [decide_eq_true hi]
      dsimp only
      rw [before3 n hn' (by omega) d, outsAt_step m c ⟨n, hn'⟩, step_cnt_idle m c ⟨n, hn'⟩ hi]
    · rw [decide_eq_false hi]
      dsimp only
      rw [kept_eq_after m c 3 (fun _ _ => rfl), after3]

/-- The pull block when the body is called at a later tile of phase 1: what the point before left. -/
theorem before4 (n : ℕ) (hn : n < cfg0.N) (h : 5 ≤ n % 8) (d) :
    (dats m 0 c).before 4 ⟨n, hn⟩ d = (outsBefore m c n hn).pul := by
  have hN : cfg0.N = 64 := N_0
  obtain ⟨k, rfl⟩ : ∃ k, n = k + 1 := ⟨n - 1, by omega⟩
  have hn' : k < cfg0.N := Nat.lt_of_succ_lt hn
  rw [Dat.before_of_pos _ 4 ⟨k + 1, hn⟩ (Nat.succ_ne_zero k) ((cfg0.win 4).fetch_out rfl _) d]
  show (if (cfg0.win 4).flush ⟨k, hn'⟩ = true then d else (dats m 0 c).left 4 ⟨k, hn'⟩ d) = (outsAt m c k hn').pul
  have hfl : (cfg0.win 4).flush ⟨k, hn'⟩ = false :=
    Bool.eq_false_iff.mpr fun hf => by have := (flush0_4 ⟨k, hn'⟩).mp hf; dsimp only at this; omega
  rw [hfl, if_neg Bool.false_ne_true]
  unfold Dat.left
  rw [idle4 ⟨k, hn'⟩, decide_eq_false (by dsimp only; omega)]
  dsimp only
  rw [kept_eq_after m c 4 (fun _ _ => rfl), after4]

end Cert.Kernel.Frm

end
-- ==== Proof.K.BodyDefs.lean ====
/-
  The frame of the fused push-pull kernel, fifth part: what the body is called with at a point and what it must return,
  window by window. An input window's buffer is returned at its block. An output window's buffer is returned at its
  new contents where the case stores into it or the point writes it back, and as found where the window is idle.
-/
import proofs.«106792_j1022202216835_2_alg».proof.Proof.K.Dats

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

/-- What the body is called with at point `t`. -/
def bodyPre (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (t : Fin cfg0.N) : (dats m 0 c).leavesExact 0 t = owns (c : Thread nD τ) (ms0 t) fullShare (iblk m c 0 t) := by
  unfold Dat.leavesExact; rw [live0 t, after0]
theorem leaves1 (t : Fin cfg0.N) : (dats m 0 c).leavesExact 1 t = owns (c : Thread nD τ) (ms1 t) fullShare (iblk m c 1 t) := by
  unfold Dat.leavesExact; rw [live1 t, after1]

theorem leaves2_live (t : Fin cfg0.N) (h : t.val % 8 < 4) :
    (dats m 0 c).leavesExact 2 t = owns (c : Thread nD τ) (ms2 t) fullShare (outsAt m c t.val t.isLt).cen := by
  unfold Dat.leavesExact; rw [idle2 t, decide_eq_false (by omega : ¬ 4 ≤ t.val % 8), after2]
theorem leaves3_live (t : Fin cfg0.N) (h : t.val % 8 < 4) :
    (dats m 0 c).leavesExact 3 t = owns (c : Thread nD τ) (ms3 t) fullShare (outsAt m c t.val t.isLt).cnt := by
  unfold Dat.leavesExact; rw [idle3 t, decide_eq_false (by omega : ¬ 4 ≤ t.val % 8), after3]
theorem leaves4_live (t : Fin cfg0.N) (h : 4 ≤ t.val % 8) :
    (dats m 0 c).leavesExact 4 t = owns (c : Thread nD τ) (ms4 t) fullShare (outsAt m c t.val t.isLt).pul := by
  unfold Dat.leavesExact; rw [idle4 t, decide_eq_false (by omega : ¬ t.val % 8 < 4), after4]

theorem leaves2_idle (t : Fin cfg0.N) (h : 4 ≤ t.val % 8) (h7 : t.val % 8 ≠ 7) :
    (dats m 0 c).leavesExact 2 t = iprop(∃ d, owns (c : Thread nD τ) (ms2 t) fullShare ((dats m 0 c).before 2 t d)) :=
  Dat.leavesExact_idle (dats m 0 c) 2 t (by rw [idle2 t]; exact decide_eq_true h)
    (Bool.eq_false_iff.mpr fun hf => h7 ((flush0_2 t).mp hf))
theorem leaves3_idle (t : Fin cfg0.N) (h : 4 ≤ t.val % 8) (h7 : t.val % 8 ≠ 7) :
    (dats m 0 c).leavesExact 3 t = iprop(∃ d, owns (c : Thread nD τ) (ms3 t) fullShare ((dats m 0 c).before 3 t d)) :=
  Dat.leavesExact_idle (dats m 0 c) 3 t (by rw [idle3 t]; exact decide_eq_true h)
    (Bool.eq_false_iff.mpr fun hf => h7 ((flush0_3 t).mp hf))
theorem leaves4_idle (t : Fin cfg0.N) (h : t.val % 8 < 4) :
    (dats m 0 c).leavesExact 4 t = iprop(∃ d, owns (c : Thread nD τ) (ms4 t) fullShare ((dats m 0 c).before 4 t d)) :=
  Dat.leavesExact_idle (dats m 0 c) 4 t (by rw [idle4 t]; exact decide_eq_true h)
    (Bool.eq_false_iff.mpr fun hf => by have := (flush0_4 t).mp hf; omega)

theorem leaves2_flush (t : Fin cfg0.N) (h7 : t.val % 8 = 7) :
    (dats m 0 c).leavesExact 2 t = owns (c : Thread nD τ) (ms2 t) fullShare (outsAt m c t.val t.isLt).cen := by
  unfold Dat.leavesExact; rw [idle2 t, decide_eq_true (by omega : 4 ≤ t.val % 8), (flush0_2 t).mpr h7, after2]
theorem leaves3_flush (t : Fin cfg0.N) (h7 : t.val % 8 = 7) :
    (dats m 0 c).leavesExact 3 t = owns (c : Thread nD τ) (ms3 t) fullShare (outsAt m c t.val t.isLt).cnt := by
  unfold Dat.leavesExact; rw [idle3 t, decide_eq_true (by omega : 4 ≤ t.val % 8), (flush0_3 t).mpr h7, after3]

/-- Whatever the invariant says of the scratch, it holds something. -/
theorem PhiS_forget (n : ℕ) (h : n ≤ cfg0.N) :
    PhiS m c n h ⊢ (iprop(iprop((∃ d, owns (c : Thread nD τ) scM fullShare d)) ∗ (∃ r, prngReg c r)) : sProp 𝕄) := by
  cases n with
  | zero => rw [PhiS_zero m c 0 h rfl, PhiA0_eq]
  | succ n =>
    rw [PhiS_succ]
    iintro ⟨HS, Hg⟩
    isplitl [HS]
    · iapply (scrAt_forget m c n h) $$ HS
    iexact Hg

end Cert.Kernel.Frm

end
-- ==== Proof.K.BodyA.lean ====
/-
  The body obligation at the first tile of phase 0 (t % 8 = 0).
-/
import proofs.«106792_j1022202216835_2_alg».proof.Proof.K.BodyDefs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

set_option maxHeartbeats 4000000 in
theorem soundA (t : Fin cfg0.N) (h : t.val % 8 = 0) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ, PhiS_castSucc m c t]
  rw [scrAt_any m c t.val t.isLt (by omega)]
  rw [leaves0, leaves1, leaves2_live m c t (by omega), leaves3_live m c t (by omega), leaves4_idle m c t (by omega)]
  rw [outsAt_step m c t]
  unfold stepOuts
  rw [dif_pos h]
  dsimp only
  by_cases hz : t.val = 0
  · rw [PhiS_zero m c _ _ hz, PhiA0_eq]
    iintro ⟨⟨⟨%ds, HS⟩, Hg⟩, Ho, ⟨%d0, H0⟩, ⟨%d1, H1⟩, ⟨%d2, H2⟩, ⟨%d3, H3⟩, ⟨%d4, H4⟩⟩
    iapply ((rA (F := F) c t h (iblk m c 0 t) (iblk m c 1 t)).2.2 _ _ Set.univ _)
    isplitl [H0]; · iexact H0
    isplitl [H1]; · iexact H1
    isplitl [H2]; · iexists _; iexact H2
    isplitl [H3]; · iexists _; iexact H3
    isplitl [H4]; · iexact H4
    isplitl [HS]; · iexact HS
    iintro ⟨H0, H1, ⟨%e2, H2⟩, ⟨%e3, H3⟩, H4, HS⟩
    isplitl [HS Hg]
    · isplitl [HS]
      · iexists _; iexact HS
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA2 c t h _ _)
    isplitl [H3]
    · unfold owns; iexists _; isplitr
      swap; · iexact H3
      ipureintro; exact View.read_writes_of_cover _ _ _ _ _ (coverA3 c t h _ _)
    iexists _; iexact H4
  · have hN : cfg0.N = 64 := N_0
    rw [PhiS_pos m c _ _ hz, scrAt_named m c (t.val - 1) (by omega) (by omega)]
    iintro ⟨⟨HS, Hg⟩, Ho, ⟨%d0, H0⟩, ⟨%d1, H1⟩, ⟨%d2, H2⟩, ⟨%d3, H3⟩, ⟨%d4, H4⟩⟩
    iapply ((rA (F := F) c t h (iblk m c 0 t) (iblk m c 1 t)).2.2 _ _ Set.univ _)
    isplitl [H0]; · iexact H0
    isplitl [H1]; · iexact H1
    isplitl [H2]; · iexists _; iexact H2
    isplitl [H3]; · iexists _; iexact H3
    isplitl [H4]; · iexact H4
    isplitl [HS]; · iexact HS
    iintro ⟨H0, H1, ⟨%e2, H2⟩, ⟨%e3, H3⟩, H4, HS⟩
    isplitl [HS Hg]
    · isplitl [HS]
      · iexists _; iexact HS
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA2 c t h _ _)
    isplitl [H3]
    · unfold owns; iexists _; isplitr
      swap; · iexact H3
      ipureintro; exact View.read_writes_of_cover _ _ _ _ _ (coverA3 c t h _ _)
    iexists _; iexact H4

end Cert.Kernel.Frm

end
-- ==== Proof.K.BodyB.lean ====
/-
  The body obligation at the middle tiles of phase 0 (t % 8 = 1, 2).
-/
import proofs.«106792_j1022202216835_2_alg».proof.Proof.K.BodyDefs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

set_option maxHeartbeats 4000000 in
theorem soundB (t : Fin cfg0.N) (h : t.val % 8 = 1 ∨ t.val % 8 = 2) :
    bodyPre m c t ⊢ wp frame (wpE (defs₀ (F := F)) Variants.none c none) Set.univ (bodyAt0 t) (fun _ => bodyPost m c t) := by
  unfold bodyPre bodyPost bodyAt0
  have hN : cfg0.N = 64 := N_0
  simp only [before0, before1, before2 m c t.val t.isLt (by omega), before3 m c t.val t.isLt (by omega)]
  rw [show (dats m 0 c).owesAt () t.succ = (dats m 0 c).owesAt () t.castSucc from rfl]
  rw [show (dats m 0 c).Φ t.succ = PhiS m c (t.val + 1) t.isLt from rfl, PhiS_succ, PhiS_castSucc m c t]
  rw [scrAt_any m c t.val t.isLt (by omega)]
  rw [leaves0, leaves1, leaves2_live m c t (by omega), leaves3_live m c t (by omega), leaves4_idle m c t (by omega)]
  rw [outsAt_step m c t]
  unfold stepOuts
  rw [dif_neg (by omega), dif_pos h]
  dsimp only
  rw [PhiS_pos m c t.val (Nat.le_of_lt t.isLt) (by omega), scrAt_any m c (t.val - 1) (by omega) (by omega)]
  iintro ⟨⟨⟨%ds, HS⟩, Hg⟩, Ho, ⟨%d0, H0⟩, ⟨%d1, H1⟩, ⟨%d2, H2⟩, ⟨%d3, H3⟩, ⟨%d4, H4⟩⟩
  iapply ((rB (F := F) c t h (iblk m c 0 t) (iblk m c 1 t) (outsBefore m c t.val t.isLt).cen (outsBefore m c t.val t.isLt).cnt).2.2 _ _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, ⟨%e2, H2⟩, ⟨%e3, H3⟩, H4, HS⟩
  isplitl [HS Hg]
  · isplitl [HS]
    · iexists _; iexact HS
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (coverB2 c t h _ _ _ _)
  isplitl [H3]
  · unfold owns; iexists _; isplitr
    swap; · iexact H3
    ipureintro; exact View.read_writes_of_cover _ _ _ _ _ (coverB3 c t h _ _ _ _)
  iexists _; iexact H4

end Cert.Kernel.Frm

end
-- ==== Proof.K.BodyC.lean ====
/-
  The body obligation at the last tile of phase 0 (t % 8 = 3): from here on the scratch holds the squared norms.
-/
import proofs.«106792_j1022202216835_2_alg».proof.Proof.K.BodyDefs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

set_option maxHeartbeats 4000000 in
theorem soundC (t : Fin cfg0.N) (h : t.val % 8 = 3) :
    bodyPre m c t ⊢ wp frame (wpE (defs₀ (F := F)) Variants.none c none) Set.univ (bodyAt0 t) (fun _ => bodyPost m c t) := by
  unfold bodyPre bodyPost bodyAt0
  have hN : cfg0.N = 64 := N_0
  simp only [before0, before1, before2 m c t.val t.isLt (by omega), before3 m c t.val t.isLt (by omega)]
  rw [show (dats m 0 c).owesAt () t.succ = (dats m 0 c).owesAt () t.castSucc from rfl]
  rw [show (dats m 0 c).Φ t.succ = PhiS m c (t.val + 1) t.isLt from rfl, PhiS_succ, PhiS_castSucc m c t]
  rw [scrAt_named m c t.val t.isLt (by omega)]
  rw [leaves0, leaves1, leaves2_live m c t (by omega), leaves3_live m c t (by omega), leaves4_idle m c t (by omega)]
  rw [outsAt_step m c t]
  unfold stepOuts
  rw [dif_neg (by omega), dif_neg (by omega), dif_pos h]
  dsimp only
  rw [PhiS_pos m c t.val (Nat.le_of_lt t.isLt) (by omega), scrAt_any m c (t.val - 1) (by omega) (by omega)]
  iintro ⟨⟨⟨%ds, HS⟩, Hg⟩, Ho, ⟨%d0, H0⟩, ⟨%d1, H1⟩, ⟨%d2, H2⟩, ⟨%d3, H3⟩, ⟨%d4, H4⟩⟩
  iapply ((rC (F := F) c t h (iblk m c 0 t) (iblk m c 1 t) (outsBefore m c t.val t.isLt).cen (outsBefore m c t.val t.isLt).cnt).2.2.2 _ Set.univ _)
  isplitl [H0]; · iexact H0
  isplitl [H1]; · iexact H1
  isplitl [H2]; · iexact H2
  isplitl [H3]; · iexact H3
  isplitl [H4]; · iexact H4
  isplitl [HS]; · iexists _; iexact HS
  iintro ⟨H0, H1, ⟨%e2, H2⟩, ⟨%e3, H3⟩, H4, ⟨%es, HS⟩⟩
  isplitl [HS Hg]
  · isplitl [HS]
    · unfold owns; iexists _; isplitr
      swap; · iexact HS
      ipureintro; exact View.read_writes_of_cover _ _ _ _ _ (coverCS c t h _ _ _ _)
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (coverC2 c t h _ _ _ _)
  isplitl [H3]
  · unfold owns; iexists _; isplitr
    swap; · iexact H3
    ipureintro; exact View.read_writes_of_cover _ _ _ _ _ (coverC3 c t h _ _ _ _)
  iexists _; iexact H4

end Cert.Kernel.Frm

end
-- ==== Proof.K.BodyD.lean ====
/-
  The body obligation at the first tile of phase 1 (t % 8 = 4): the centers and counts blocks are handed back as found.
-/
import proofs.«106792_j1022202216835_2_alg».proof.Proof.K.BodyDefs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

set_option maxHeartbeats 4000000 in
theorem soundD (t : Fin cfg0.N) (h : t.val % 8 = 4) :
    bodyPre m c t ⊢ wp frame (wpE (defs₀ (F := F)) Variants.none c none) Set.univ (bodyAt0 t) (fun _ => bodyPost m c t) := by
  unfold bodyPre bodyPost bodyAt0
  have hN : cfg0.N = 64 := N_0
  simp only [before0, before1, before2 m c t.val t.isLt (by omega), before3 m c t.val t.isLt (by omega)]
  rw [show (dats m 0 c).owesAt () t.succ = (dats m 0 c).owesAt () t.castSucc from rfl]
  rw [show (dats m 0 c).Φ t.succ = PhiS m c (t.val + 1) t.isLt from rfl, PhiS_succ, PhiS_castSucc m c t]
  rw [PhiS_pos m c t.val (Nat.le_of_lt t.isLt) (by omega), scrAt_named m c (t.val - 1) (by omega) (by omega),
    scrAt_named m c t.val t.isLt (by omega)]
  rw [leaves0, leaves1, leaves2_idle m c t (by omega) (by omega), leaves3_idle m c t (by omega) (by omega), leaves4_live m c t (by omega)]
  simp only [before2 m c t.val t.isLt (by omega), before3 m c t.val t.isLt (by omega)]
  rw [outsAt_step m c t, outsBefore_pos m c t.val t.isLt (by omega)]
  unfold stepOuts
  rw [dif_neg (by omega), dif_neg (by omega), dif_neg (by omega), dif_pos h]
  dsimp only
  iintro ⟨⟨HS, Hg⟩, Ho, ⟨%d0, H0⟩, ⟨%d1, H1⟩, ⟨%d2, H2⟩, ⟨%d3, H3⟩, ⟨%d4, H4⟩⟩
  iapply ((rD (F := F) c t h (iblk m c 0 t) (iblk m c 1 t) _ _).2 _ Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, HS⟩
  isplitl [HS Hg]
  · isplitl [HS]
    · iexact HS
    iexact Hg
  isplitl [Ho]; · iexact Ho
  isplitl [H0]; · iexact H0
  isplitl [H1]; · iexact H1
  isplitl [H2]; · iexists d2; iexact H2
  isplitl [H3]; · iexists d3; iexact H3
  unfold owns; iexists _; isplitr
  swap; · iexact H4
  ipureintro; exact View.read_writes_of_cover _ _ _ _ _ (coverD4 c t h _ _ _ _)

end Cert.Kernel.Frm

end
-- ==== Proof.K.BodyE.lean ====
/-
  The body obligation at the later tiles of phase 1 (t % 8 = 5, 6, 7); after the last one the three blocks are written back,
  so there the centers and counts blocks are returned at their named contents.
-/
import proofs.«106792_j1022202216835_2_alg».proof.Proof.K.BodyDefs

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

set_option maxHeartbeats 4000000 in
theorem soundE (t : Fin cfg0.N) (h : 5 ≤ t.val % 8) (h7 : t.val % 8 ≠ 7) :
    bodyPre m c t ⊢ wp frame (wpE (defs₀ (F := F)) Variants.none c none) Set.univ (bodyAt0 t) (fun _ => bodyPost m c t) := by
  unfold bodyPre bodyPost bodyAt0
  have hN : cfg0.N = 64 := N_0
  simp only [before0, before1, before2 m c t.val t.isLt (by omega), before3 m c t.val t.isLt (by omega), before4 m c t.val t.isLt h]
  rw [show (dats m 0 c).owesAt () t.succ = (dats m 0 c).owesAt () t.castSucc from rfl]
  rw [show (dats m 0 c).Φ t.succ = PhiS m c (t.val + 1) t.isLt from rfl, PhiS_succ, PhiS_castSucc m c t]
  rw [PhiS_pos m c t.val (Nat.le_of_lt t.isLt) (by omega), scrAt_named m c (t.val - 1) (by omega) (by omega),
    scrAt_named m c t.val t.isLt (by omega)]
  rw [leaves0, leaves1, leaves2_idle m c t (by omega) h7, leaves3_idle m c t (by omega) h7, leaves4_live m c t (by omega)]
  simp only [before2 m c t.val t.isLt (by omega), before3 m c t.val t.isLt (by omega)]
  rw [outsAt_step m c t, outsBefore_pos m c t.val t.isLt (by omega)]
  unfold stepOuts
  rw [dif_neg (by omega), dif_neg (by omega), dif_neg (by omega), dif_neg (by omega)]
  dsimp only
  iintro ⟨⟨HS, Hg⟩, Ho, ⟨%d0, H0⟩, ⟨%d1, H1⟩, ⟨%d2, H2⟩, ⟨%d3, H3⟩, ⟨%d4, H4⟩⟩
  iapply ((rE (F := F) c t h (iblk m c 0 t) (iblk m c 1 t) _ _ _).2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, ⟨%e4, H4⟩, HS⟩
  isplitl [HS Hg]
  · isplitl [HS]
    · iexact HS
    iexact Hg
  isplitl [Ho]; · iexact Ho
  isplitl [H0]; · iexact H0
  isplitl [H1]; · iexact H1
  isplitl [H2]; · iexists d2; iexact H2
  isplitl [H3]; · iexists d3; iexact H3
  unfold owns; iexists _; isplitr
  swap; · iexact H4
  ipureintro; exact View.read_writes_of_cover _ _ _ _ _ (coverE4 c t (by omega) _ _ _ _ _)

set_option maxHeartbeats 4000000 in
theorem soundE7 (t : Fin cfg0.N) (h7 : t.val % 8 = 7) :
    bodyPre m c t ⊢ wp frame (wpE (defs₀ (F := F)) Variants.none c none) Set.univ (bodyAt0 t) (fun _ => bodyPost m c t) := by
  unfold bodyPre bodyPost bodyAt0
  have hN : cfg0.N = 64 := N_0
  simp only [before0, before1, before2 m c t.val t.isLt (by omega), before3 m c t.val t.isLt (by omega), before4 m c t.val t.isLt (by omega)]
  rw [show (dats m 0 c).owesAt () t.succ = (dats m 0 c).owesAt () t.castSucc from rfl]
  rw [show (dats m 0 c).Φ t.succ = PhiS m c (t.val + 1) t.isLt from rfl, PhiS_succ, PhiS_castSucc m c t]
  rw [PhiS_pos m c t.val (Nat.le_of_lt t.isLt) (by omega), scrAt_named m c (t.val - 1) (by omega) (by omega),
    scrAt_named m c t.val t.isLt (by omega)]
  rw [leaves0, leaves1, leaves2_flush m c t h7, leaves3_flush m c t h7, leaves4_live m c t (by omega)]
  rw [outsAt_step m c t, outsBefore_pos m c t.val t.isLt (by omega)]
  unfold stepOuts
  rw [dif_neg (by omega), dif_neg (by omega), dif_neg (by omega), dif_neg (by omega)]
  dsimp only
  iintro ⟨⟨HS, Hg⟩, Ho, ⟨%d0, H0⟩, ⟨%d1, H1⟩, ⟨%d2, H2⟩, ⟨%d3, H3⟩, ⟨%d4, H4⟩⟩
  iapply ((rE (F := F) c t (by omega) (iblk m c 0 t) (iblk m c 1 t) _ _ _).2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, ⟨%e4, H4⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverE4 c t (by omega) _ _ _ _ _)

end Cert.Kernel.Frm

end
-- ==== Proof.K.Frame.lean ====
/-
  The frame of the fused push-pull kernel, last part: the body obligation at every point, the run of the whole program,
  and the frame claim: every weakly fair execution terminates, nothing faults, the two argument arrays end unchanged.
  The run's post also has the three result arrays at what the proof data says the write-backs wrote, and every other
  buffer at what the tail's operations compute from them.
-/
import proofs.«106792_j1022202216835_2_alg».proof.Proof.K.BodyA
import proofs.«106792_j1022202216835_2_alg».proof.Proof.K.BodyB
import proofs.«106792_j1022202216835_2_alg».proof.Proof.K.BodyC
import proofs.«106792_j1022202216835_2_alg».proof.Proof.K.BodyD
import proofs.«106792_j1022202216835_2_alg».proof.Proof.K.BodyE

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

/-- The body at any point: the point's position modulo 8 selects the case. -/
theorem sound_body (t : Fin cfg0.N) :
    bodyPre m c t ⊢ wp frame (wpE (defs₀ (F := F)) Variants.none c none) Set.univ (bodyAt0 t) (fun _ => bodyPost m c t) := by
  by_cases hA : t.val % 8 = 0
  · exact soundA m c t hA
  by_cases hB : t.val % 8 = 1 ∨ t.val % 8 = 2
  · exact soundB m c t hB
  by_cases hC : t.val % 8 = 3
  · exact soundC m c t hC
  by_cases hD : t.val % 8 = 4
  · exact soundD m c t hD
  by_cases h7 : t.val % 8 = 7
  · exact soundE7 m c t h7
  · exact soundE m c t (by omega) h7

theorem body_obligation : BodyObligation (dats (F := F) m 0 c) (defs₀ (F := F)) Variants.none () Set.univ := fun t => by
  rw [bigSep_W0, bigSep_W0]
  exact sound_body m c t

/-- What the launch hands the region is the invariant before the first point. -/
theorem hin : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch's contents are forgotten. -/
theorem hout : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_forget m c _ _

set_option backward.isDefEq.respectTransparency.types false in
/-- The run: every weakly fair execution of the program terminates, with every array of the region at what the write-backs
    wrote and every other unscoped buffer at what the tail computes. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.Kernel.Frm

end
-- ==== Proof.KI.Base.lean ====
/-
  The frame of the fused push-pull kernel, first part: the program around its one region.
  The program is two reshapes (the feature map to [8,16,235520], the labels to [8,1,235520]), the region over the grid
  (8 batch elements) x (2 phases) x (4 pixel tiles), and then eighty-nine host operations on the region's three results.
  Here: the buffers' contents when the region is entered, the program as "prefix, region, tail", the side conditions
  the tail's operations must meet (they touch unscoped buffers only, allocate nothing and write none of the
  region's arrays), the blocks the two input windows read, the five branch conditions of the body in closed form
  over the point's position modulo 8, and where each output window is idle.
-/
import proofs.«106792_j1022202216835_2_alg».proof.Proof.Gen.KernelIdeal.Launch
import proofs.«106792_j1022202216835_2_alg».proof.Proof.Gen.KernelIdeal.Skeleton
import proofs.«106792_j1022202216835_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around the region -/

/-- The eleven stretches of host operations after the region, in order. -/
abbrev tailOps : List (List (HloOp τ sig (Elt F))) :=
  [hostOps1, hostOps1_1, hostOps1_2, hostOps1_3, hostOps1_4, hostOps1_5, hostOps1_6, hostOps1_7, hostOps1_8, hostOps1_9, hostOps1_10]

/-- The buffers' contents when the region is entered: the launch contents after the two reshapes. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor

/-- The program is the two reshapes, the region, and the tail's stretches: it reduces to the region continued by the tail. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The tail touches the region's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)

/-- It allocates nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop

/-- No operation of a stretch writes one of the five arrays the windows stage (each writes its own result buffer). -/
theorem keeps_of (ops : List (HloOp τ sig (Elt F)))
    (h : ops.Forall fun op => ∀ w, Proc.devRef .tc (Pipeline.arrRef spec0 w) ∉ op.writes) :
    ∀ op ∈ ops, ∀ w, Proc.devRef .tc (Pipeline.arrRef spec0 w) ∉ op.writes :=
  fun op hop => (List.forall_iff_forall_mem.mp h) op hop

theorem hostOps1_keeps : (hostOps1 : List (HloOp τ sig (Elt F))).Forall fun op => ∀ w, Proc.devRef .tc (Pipeline.arrRef spec0 w) ∉ op.writes := by
  simp only [hostOps1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_1_keeps : (hostOps1_1 : List (HloOp τ sig (Elt F))).Forall fun op => ∀ w, Proc.devRef .tc (Pipeline.arrRef spec0 w) ∉ op.writes := by
  simp only [hostOps1_1, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_2_keeps : (hostOps1_2 : List (HloOp τ sig (Elt F))).Forall fun op => ∀ w, Proc.devRef .tc (Pipeline.arrRef spec0 w) ∉ op.writes := by
  simp only [hostOps1_2, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_3_keeps : (hostOps1_3 : List (HloOp τ sig (Elt F))).Forall fun op => ∀ w, Proc.devRef .tc (Pipeline.arrRef spec0 w) ∉ op.writes := by
  simp only [hostOps1_3, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_4_keeps : (hostOps1_4 : List (HloOp τ sig (Elt F))).Forall fun op => ∀ w, Proc.devRef .tc (Pipeline.arrRef spec0 w) ∉ op.writes := by
  simp only [hostOps1_4, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_5_keeps : (hostOps1_5 : List (HloOp τ sig (Elt F))).Forall fun op => ∀ w, Proc.devRef .tc (Pipeline.arrRef spec0 w) ∉ op.writes := by
  simp only [hostOps1_5, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_6_keeps : (hostOps1_6 : List (HloOp τ sig (Elt F))).Forall fun op => ∀ w, Proc.devRef .tc (Pipeline.arrRef spec0 w) ∉ op.writes := by
  simp only [hostOps1_6, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_7_keeps : (hostOps1_7 : List (HloOp τ sig (Elt F))).Forall fun op => ∀ w, Proc.devRef .tc (Pipeline.arrRef spec0 w) ∉ op.writes := by
  simp only [hostOps1_7, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_8_keeps : (hostOps1_8 : List (HloOp τ sig (Elt F))).Forall fun op => ∀ w, Proc.devRef .tc (Pipeline.arrRef spec0 w) ∉ op.writes := by
  simp only [hostOps1_8, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_9_keeps : (hostOps1_9 : List (HloOp τ sig (Elt F))).Forall fun op => ∀ w, Proc.devRef .tc (Pipeline.arrRef spec0 w) ∉ op.writes := by
  simp only [hostOps1_9, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
theorem hostOps1_10_keeps : (hostOps1_10 : List (HloOp τ sig (Elt F))).Forall fun op => ∀ w, Proc.devRef .tc (Pipeline.arrRef spec0 w) ∉ op.writes := by
  simp only [hostOps1_10, List.Forall]
  repeat' apply And.intro
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The tail writes none of the region's arrays. -/
theorem sfx_keeps : ∀ ops ∈ (tailOps : List (List (HloOp τ sig (Elt F)))), ∀ op ∈ ops,
    ∀ w, Proc.devRef .tc (Pipeline.arrRef spec0 w) ∉ op.writes := by
  intro ops hops
  simp only [tailOps, List.mem_cons, List.mem_nil_iff, or_false] at hops
  rcases hops with rfl | rfl | rfl | rfl | rfl | rfl | rfl | rfl | rfl | rfl | rfl
  · exact keeps_of _ hostOps1_keeps
  · exact keeps_of _ hostOps1_1_keeps
  · exact keeps_of _ hostOps1_2_keeps
  · exact keeps_of _ hostOps1_3_keeps
  · exact keeps_of _ hostOps1_4_keeps
  · exact keeps_of _ hostOps1_5_keeps
  · exact keeps_of _ hostOps1_6_keeps
  · exact keeps_of _ hostOps1_7_keeps
  · exact keeps_of _ hostOps1_8_keeps
  · exact keeps_of _ hostOps1_9_keeps
  · exact keeps_of _ hostOps1_10_keeps

end Cert.KernelIdeal.Frm

end
-- ==== Proof.KI.Kit.lean ====
/-
  The frame of the fused push-pull kernel, second part: what the body is handed.
  The two input windows (features [1,16,58880] and labels [1,1,58880]) hold their blocks at every point; the three output
  windows (centers [1,12,16], counts [1,12,1], pull [1,12,1]) keep one block per batch element, written back after
  the batch element's eighth point. A point's position t in the grid is 8·b + 4·phase + tile, so the body's five
  conditions read: first tile of phase 0 ⇔ t % 8 = 0; phase 0 ⇔ t % 8 < 4; last tile of phase 0 ⇔ t % 8 = 3;
  first tile of phase 1 ⇔ t % 8 = 4; phase 1 ⇔ 4 ≤ t % 8.
-/
import proofs.«106792_j1022202216835_2_alg».proof.Proof.KI.Base

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The argument arrays are untouched by the host operations -/

/-- Neither reshape writes the feature map. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Neither reshape writes the labels. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation of the tail writes buffer `b`, when `b` is none of the tail's result buffers. -/
theorem tail_not_writes (b : Ref sig .tc)
    (h : ((tailOps (F := F)).flatten).Forall fun op => Proc.devRef .tc b ∉ op.writes) :
    ∀ op ∈ (tailOps (F := F)).flatten, Proc.devRef .tc b ∉ op.writes :=
  List.forall_iff_forall_mem.mp h

theorem tail_keeps_arg0 : ((tailOps (F := F)).flatten).Forall fun op => Proc.devRef .tc main_arg0 ∉ op.writes := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem tail_keeps_arg1 : ((tailOps (F := F)).flatten).Forall fun op => Proc.devRef .tc main_arg1 ∉ op.writes := by
  simp only [tailOps, hostOps1, hostOps1_1, hostOps1_2, hostOps1_3, hostOps1_4, hostOps1_5, hostOps1_6, hostOps1_7, hostOps1_8, hostOps1_9, hostOps1_10, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

/-- The feature map ends as launched: no window stages it and no host operation writes it. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (tail_not_writes main_arg0 tail_keeps_arg0),
    Pipeline.withArrays_of_ne _ c (V0 m c) _ main_arg0 (by exact (by decide : ∀ w, Pipeline.arrRef spec0 w ≠ main_arg0))]
  exact V_main_arg0 m c

/-- So do the labels. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (tail_not_writes main_arg1 tail_keeps_arg1),
    Pipeline.withArrays_of_ne _ c (V0 m c) _ main_arg1 (by exact (by decide : ∀ w, Pipeline.arrRef spec0 w ≠ main_arg1))]
  exact V_main_arg1 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The feature window's current buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- So does the label window's. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run's -/

/-- For any proof data, a frame run's post read at the two argument arrays is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c)⟩) h

/-! ## The body's five conditions, in closed form over the grid -/

abbrev cnd1 (i : grid0.Coords) : Prop := k0_cond1 i = 1#1
abbrev cnd2 (i : grid0.Coords) : Prop := k0_cond2 i = 1#1
abbrev cnd3 (i : grid0.Coords) : Prop := k0_cond3 i = 1#1
abbrev cnd4 (i : grid0.Coords) : Prop := k0_cond4 i = 1#1
abbrev cnd5 (i : grid0.Coords) : Prop := k0_cond5 i = 1#1

theorem hcnd1 : ∀ t : Fin cfg0.N, cnd1 (grid0.coords t) ↔ t.val % 8 = 0 :=
  (by decide +kernel : ∀ t : Fin grid0.N, cnd1 (grid0.coords t) ↔ t.val % 8 = 0)
theorem hcnd2 : ∀ t : Fin cfg0.N, cnd2 (grid0.coords t) ↔ t.val % 8 < 4 :=
  (by decide +kernel : ∀ t : Fin grid0.N, cnd2 (grid0.coords t) ↔ t.val % 8 < 4)
theorem hcnd3 : ∀ t : Fin cfg0.N, cnd3 (grid0.coords t) ↔ t.val % 8 = 3 :=
  (by decide +kernel : ∀ t : Fin grid0.N, cnd3 (grid0.coords t) ↔ t.val % 8 = 3)
theorem hcnd4 : ∀ t : Fin cfg0.N, cnd4 (grid0.coords t) ↔ t.val % 8 = 4 :=
  (by decide +kernel : ∀ t : Fin grid0.N, cnd4 (grid0.coords t) ↔ t.val % 8 = 4)
theorem hcnd5 : ∀ t : Fin cfg0.N, cnd5 (grid0.coords t) ↔ 4 ≤ t.val % 8 :=
  (by decide +kernel : ∀ t : Fin grid0.N, cnd5 (grid0.coords t) ↔ 4 ≤ t.val % 8)

/-! ## Where the windows are idle -/

theorem live0 : ∀ t : Fin cfg0.N, cfg0.idle 0 (grid0.coords t) = false := by decide +kernel
theorem live1 : ∀ t : Fin cfg0.N, cfg0.idle 1 (grid0.coords t) = false := by decide +kernel
/-- The centers and the counts are stored in phase 0 only; the pull sums in phase 1 only. -/
theorem idle2 : ∀ t : Fin cfg0.N, cfg0.idle 2 (grid0.coords t) = decide (4 ≤ t.val % 8) := by decide +kernel
theorem idle3 : ∀ t : Fin cfg0.N, cfg0.idle 3 (grid0.coords t) = decide (4 ≤ t.val % 8) := by decide +kernel
theorem idle4 : ∀ t : Fin cfg0.N, cfg0.idle 4 (grid0.coords t) = decide (t.val % 8 < 4) := by decide +kernel

/-! ## The staging memrefs the body is called with -/

abbrev ms0 (t : Fin cfg0.N) : Memref sig .tc .vmem S1x16x58880 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x1x58880 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x12x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x12x1 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x12x1 .f32 := win0_4.stage (cfg0.slots t 4)
abbrev hs4 (t : Fin cfg0.N) : (ms4 t).IsWhole := hstage0_4 ((cfg0.slots t 4).cast nbuf0_4)
/-- The scratch holding the centers' squared norms, carried from phase 0 to phase 1. -/
abbrev scM : Memref sig .tc .vmem S1x12x1 .f32 := Memref.whole cc0_scratch0

/-- The region's invariant, with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Frm

end
-- ==== Proof.KI.RunA.lean ====
/-
  The body at the first tile of phase 0 (t % 8 = 0): it resets the centers and counts blocks to zero, then adds this
  tile's contribution. The pull block and the scratch are left as found. The body's stores are found as pieces.
-/
import proofs.«106792_j1022202216835_2_alg».proof.Proof.KI.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- First tile of phase 0: the stores into the centers block and the counts block, as pieces. -/
noncomputable def runA (c : Dev nD) (i : grid0.Coords) (a3 : Memref sig .tc .vmem S1x16x58880 .f32) (h3 : a3.IsWhole) (a4 : Memref sig .tc .vmem S1x1x58880 .i32) (h4 : a4.IsWhole) (a5 : Memref sig .tc .vmem S1x12x16 .f32) (h5 : a5.IsWhole) (a6 : Memref sig .tc .vmem S1x12x1 .f32) (h6 : a6.IsWhole) (a7 : Memref sig .tc .vmem S1x12x1 .f32) (h7 : a7.IsWhole) (a8 : Memref sig .tc .vmem S1x12x1 .f32) (h8 : a8.IsWhole)
    (hc1 : cnd1 i) (hc2 : cnd2 i) (hc3 : ¬cnd3 i) (hc4 : ¬cnd4 i) (hc5 : ¬cnd5 i)
    (x0 : Vec F S1x16x58880 .f32) (x1 : Vec F S1x1x58880 .i32) :
    Σ' (L2 : List (View.Piece (Elt F) S1x12x16 .f32)), { L3 : List (View.Piece (Elt F) S1x12x1 .f32) //
      ∀ (xi4 xs : Vec F S1x12x1 .f32) (E : Set ℕ) (K : PUnit → sProp 𝕄),
        iprop(owns (c : Thread nD τ) a3 fullShare x0 ∗ owns (c : Thread nD τ) a4 fullShare x1 ∗ (∃ d, owns (c : Thread nD τ) a5 fullShare d) ∗ (∃ d, owns (c : Thread nD τ) a6 fullShare d) ∗ owns (c : Thread nD τ) a7 fullShare xi4 ∗ owns (c : Thread nD τ) a8 fullShare xs
            ∗ (iprop(owns (c : Thread nD τ) a3 fullShare x0 ∗ owns (c : Thread nD τ) a4 fullShare x1 ∗ (∃ f, a5.view.loc (c : Thread nD τ) ↦[a5.view.set]{fullShare} a5.view.writes (Elt F) f L2) ∗ (∃ f, a6.view.loc (c : Thread nD τ) ↦[a6.view.set]{fullShare} a6.view.writes (Elt F) f L3) ∗ owns (c : Thread nD τ) a7 fullShare xi4 ∗ owns (c : Thread nD τ) a8 fullShare xs) -∗ K ⟨⟩))
          ⊢ wp frame (wpE (defs₀ (F := F)) Variants.none c none) E (cc0__fused_kernel i a3 h3 a4 h4 a5 h5 a6 h6 a7 h7 a8 h8) K } := by
  refine ⟨?_, ?_, fun xi4 xs E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%d2, %f2, -, H2⟩, ⟨%d3, %f3, -, H3⟩, ⟨%f4, %hf4, H4⟩, ⟨%fs, %hfs, HS⟩, Hk⟩
    obtain rfl := h3.eq_unread hf0; obtain rfl := h4.eq_unread hf1; obtain rfl := h7.eq_unread hf4; obtain rfl := h8.eq_unread hfs
    sl_exec (disch := first | exact hc1 | exact hc2 | exact hc3 | exact hc4 | exact hc5)
    sl_step
    iapply Hk
    isplitl [H0]
    · iexists _; isplitr; · ipureintro; exact h3.read_unread _
      iexact H0
    isplitl [H1]
    · iexists _; isplitr; · ipureintro; exact h4.read_unread _
      iexact H1
    isplitl [H2]; · iexists _; iexact H2
    isplitl [H3]; · iexists _; iexact H3
    isplitl [H4]
    · iexists _; isplitr; · ipureintro; exact h7.read_unread _
      iexact H4
    iexists _; isplitr; · ipureintro; exact h8.read_unread _
    iexact HS

end Cert.KernelIdeal.Frm

end
-- ==== Proof.KI.RunB.lean ====
/-
  The body at the middle tiles of phase 0 (t % 8 = 1, 2): it adds the tile's contribution to the centers and counts blocks it finds.
-/
import proofs.«106792_j1022202216835_2_alg».proof.Proof.KI.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A later tile of phase 0 that is not the last: the centers and counts blocks, found at `y2`, `y3`, get this tile's contribution added. -/
noncomputable def runB (c : Dev nD) (i : grid0.Coords) (a3 : Memref sig .tc .vmem S1x16x58880 .f32) (h3 : a3.IsWhole) (a4 : Memref sig .tc .vmem S1x1x58880 .i32) (h4 : a4.IsWhole) (a5 : Memref sig .tc .vmem S1x12x16 .f32) (h5 : a5.IsWhole) (a6 : Memref sig .tc .vmem S1x12x1 .f32) (h6 : a6.IsWhole) (a7 : Memref sig .tc .vmem S1x12x1 .f32) (h7 : a7.IsWhole) (a8 : Memref sig .tc .vmem S1x12x1 .f32) (h8 : a8.IsWhole)
    (hc1 : ¬cnd1 i) (hc2 : cnd2 i) (hc3 : ¬cnd3 i) (hc4 : ¬cnd4 i) (hc5 : ¬cnd5 i)
    (x0 : Vec F S1x16x58880 .f32) (x1 : Vec F S1x1x58880 .i32) (y2 : Vec F S1x12x16 .f32) (y3 : Vec F S1x12x1 .f32) :
    Σ' (L2 : List (View.Piece (Elt F) S1x12x16 .f32)), { L3 : List (View.Piece (Elt F) S1x12x1 .f32) //
      ∀ (xi4 xs : Vec F S1x12x1 .f32) (E : Set ℕ) (K : PUnit → sProp 𝕄),
        iprop(owns (c : Thread nD τ) a3 fullShare x0 ∗ owns (c : Thread nD τ) a4 fullShare x1 ∗ owns (c : Thread nD τ) a5 fullShare y2 ∗ owns (c : Thread nD τ) a6 fullShare y3 ∗ owns (c : Thread nD τ) a7 fullShare xi4 ∗ owns (c : Thread nD τ) a8 fullShare xs
            ∗ (iprop(owns (c : Thread nD τ) a3 fullShare x0 ∗ owns (c : Thread nD τ) a4 fullShare x1 ∗ (∃ f, a5.view.loc (c : Thread nD τ) ↦[a5.view.set]{fullShare} a5.view.writes (Elt F) f L2) ∗ (∃ f, a6.view.loc (c : Thread nD τ) ↦[a6.view.set]{fullShare} a6.view.writes (Elt F) f L3) ∗ owns (c : Thread nD τ) a7 fullShare xi4 ∗ owns (c : Thread nD τ) a8 fullShare xs) -∗ K ⟨⟩))
          ⊢ wp frame (wpE (defs₀ (F := F)) Variants.none c none) E (cc0__fused_kernel i a3 h3 a4 h4 a5 h5 a6 h6 a7 h7 a8 h8) K } := by
  refine ⟨?_, ?_, fun xi4 xs E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := h3.eq_unread hf0; obtain rfl := h4.eq_unread hf1; obtain rfl := h5.eq_unread hf2; obtain rfl := h6.eq_unread hf3; obtain rfl := h7.eq_unread hf4; obtain rfl := h8.eq_unread hfs
    sl_exec (disch := first | exact hc1 | exact hc2 | exact hc3 | exact hc4 | exact hc5)
    sl_step
    iapply Hk
    isplitl [H0]
    · iexists _; isplitr; · ipureintro; exact h3.read_unread _
      iexact H0
    isplitl [H1]
    · iexists _; isplitr; · ipureintro; exact h4.read_unread _
      iexact H1
    isplitl [H2]; · iexists _; iexact H2
    isplitl [H3]; · iexists _; iexact H3
    isplitl [H4]
    · iexists _; isplitr; · ipureintro; exact h7.read_unread _
      iexact H4
    iexists _; isplitr; · ipureintro; exact h8.read_unread _
    iexact HS

end Cert.KernelIdeal.Frm

end
-- ==== Proof.KI.RunC.lean ====
/-
  The body at the last tile of phase 0 (t % 8 = 3): after adding the tile's contribution it normalizes the centers by
  max(counts, 1) in place and stores each center's squared norm in the scratch.
-/
import proofs.«106792_j1022202216835_2_alg».proof.Proof.KI.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Last tile of phase 0: the contribution is added, the centers are divided by the clamped counts, and the squared norms go to the scratch. -/
noncomputable def runC (c : Dev nD) (i : grid0.Coords) (a3 : Memref sig .tc .vmem S1x16x58880 .f32) (h3 : a3.IsWhole) (a4 : Memref sig .tc .vmem S1x1x58880 .i32) (h4 : a4.IsWhole) (a5 : Memref sig .tc .vmem S1x12x16 .f32) (h5 : a5.IsWhole) (a6 : Memref sig .tc .vmem S1x12x1 .f32) (h6 : a6.IsWhole) (a7 : Memref sig .tc .vmem S1x12x1 .f32) (h7 : a7.IsWhole) (a8 : Memref sig .tc .vmem S1x12x1 .f32) (h8 : a8.IsWhole)
    (hc1 : ¬cnd1 i) (hc2 : cnd2 i) (hc3 : cnd3 i) (hc4 : ¬cnd4 i) (hc5 : ¬cnd5 i)
    (x0 : Vec F S1x16x58880 .f32) (x1 : Vec F S1x1x58880 .i32) (y2 : Vec F S1x12x16 .f32) (y3 : Vec F S1x12x1 .f32) :
    Σ' (L2 : List (View.Piece (Elt F) S1x12x16 .f32)) (L3 : List (View.Piece (Elt F) S1x12x1 .f32)), { LS : List (View.Piece (Elt F) S1x12x1 .f32) //
      ∀ (xi4 : Vec F S1x12x1 .f32) (E : Set ℕ) (K : PUnit → sProp 𝕄),
        iprop(owns (c : Thread nD τ) a3 fullShare x0 ∗ owns (c : Thread nD τ) a4 fullShare x1 ∗ owns (c : Thread nD τ) a5 fullShare y2 ∗ owns (c : Thread nD τ) a6 fullShare y3 ∗ owns (c : Thread nD τ) a7 fullShare xi4 ∗ (∃ d, owns (c : Thread nD τ) a8 fullShare d)
            ∗ (iprop(owns (c : Thread nD τ) a3 fullShare x0 ∗ owns (c : Thread nD τ) a4 fullShare x1 ∗ (∃ f, a5.view.loc (c : Thread nD τ) ↦[a5.view.set]{fullShare} a5.view.writes (Elt F) f L2) ∗ (∃ f, a6.view.loc (c : Thread nD τ) ↦[a6.view.set]{fullShare} a6.view.writes (Elt F) f L3) ∗ owns (c : Thread nD τ) a7 fullShare xi4 ∗ (∃ f, a8.view.loc (c : Thread nD τ) ↦[a8.view.set]{fullShare} a8.view.writes (Elt F) f LS)) -∗ K ⟨⟩))
          ⊢ wp frame (wpE (defs₀ (F := F)) Variants.none c none) E (cc0__fused_kernel i a3 h3 a4 h4 a5 h5 a6 h6 a7 h7 a8 h8) K } := by
  refine ⟨?_, ?_, ?_, fun xi4 E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := h3.eq_unread hf0; obtain rfl := h4.eq_unread hf1; obtain rfl := h5.eq_unread hf2; obtain rfl := h6.eq_unread hf3; obtain rfl := h7.eq_unread hf4
    sl_exec (disch := first | exact hc1 | exact hc2 | exact hc3 | exact hc4 | exact hc5)
    sl_step
    iapply Hk
    isplitl [H0]
    · iexists _; isplitr; · ipureintro; exact h3.read_unread _
      iexact H0
    isplitl [H1]
    · iexists _; isplitr; · ipureintro; exact h4.read_unread _
      iexact H1
    isplitl [H2]; · iexists _; iexact H2
    isplitl [H3]; · iexists _; iexact H3
    isplitl [H4]
    · iexists _; isplitr; · ipureintro; exact h7.read_unread _
      iexact H4
    iexists _; iexact HS

end Cert.KernelIdeal.Frm

end
-- ==== Proof.KI.RunD.lean ====
/-
  The body at the first tile of phase 1 (t % 8 = 4): it resets the pull block and adds the tile's hinge sum, reading the
  finished centers and their squared norms.
-/
import proofs.«106792_j1022202216835_2_alg».proof.Proof.KI.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- First tile of phase 1: the pull block is reset to zero, then gets this tile's hinge sum; centers, counts and scratch are read only. -/
noncomputable def runD (c : Dev nD) (i : grid0.Coords) (a3 : Memref sig .tc .vmem S1x16x58880 .f32) (h3 : a3.IsWhole) (a4 : Memref sig .tc .vmem S1x1x58880 .i32) (h4 : a4.IsWhole) (a5 : Memref sig .tc .vmem S1x12x16 .f32) (h5 : a5.IsWhole) (a6 : Memref sig .tc .vmem S1x12x1 .f32) (h6 : a6.IsWhole) (a7 : Memref sig .tc .vmem S1x12x1 .f32) (h7 : a7.IsWhole) (a8 : Memref sig .tc .vmem S1x12x1 .f32) (h8 : a8.IsWhole)
    (hc1 : ¬cnd1 i) (hc2 : ¬cnd2 i) (hc3 : ¬cnd3 i) (hc4 : cnd4 i) (hc5 : cnd5 i)
    (x0 : Vec F S1x16x58880 .f32) (x1 : Vec F S1x1x58880 .i32) (y2 : Vec F S1x12x16 .f32) (ys : Vec F S1x12x1 .f32) :
    { L4 : List (View.Piece (Elt F) S1x12x1 .f32) //
      ∀ (xi3 : Vec F S1x12x1 .f32) (E : Set ℕ) (K : PUnit → sProp 𝕄),
        iprop(owns (c : Thread nD τ) a3 fullShare x0 ∗ owns (c : Thread nD τ) a4 fullShare x1 ∗ owns (c : Thread nD τ) a5 fullShare y2 ∗ owns (c : Thread nD τ) a6 fullShare xi3 ∗ (∃ d, owns (c : Thread nD τ) a7 fullShare d) ∗ owns (c : Thread nD τ) a8 fullShare ys
            ∗ (iprop(owns (c : Thread nD τ) a3 fullShare x0 ∗ owns (c : Thread nD τ) a4 fullShare x1 ∗ owns (c : Thread nD τ) a5 fullShare y2 ∗ owns (c : Thread nD τ) a6 fullShare xi3 ∗ (∃ f, a7.view.loc (c : Thread nD τ) ↦[a7.view.set]{fullShare} a7.view.writes (Elt F) f L4) ∗ owns (c : Thread nD τ) a8 fullShare ys) -∗ K ⟨⟩))
          ⊢ wp frame (wpE (defs₀ (F := F)) Variants.none c none) E (cc0__fused_kernel i a3 h3 a4 h4 a5 h5 a6 h6 a7 h7 a8 h8) K } := by
  refine ⟨?_, fun xi3 E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := h3.eq_unread hf0; obtain rfl := h4.eq_unread hf1; obtain rfl := h5.eq_unread hf2; obtain rfl := h6.eq_unread hf3; obtain rfl := h8.eq_unread hfs
    sl_exec (disch := first | exact hc1 | exact hc2 | exact hc3 | exact hc4 | exact hc5)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]; · iexists _; iexact H4
    iexists _; isplitr; · ipureintro; exact h8.read_unread _
    iexact HS

end Cert.KernelIdeal.Frm

end
-- ==== Proof.KI.RunE.lean ====
/-
  The body at the later tiles of phase 1 (t % 8 = 5, 6, 7): it adds the tile's hinge sum to the pull block it finds.
-/
import proofs.«106792_j1022202216835_2_alg».proof.Proof.KI.Kit

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A later tile of phase 1: the pull block, found at `y4`, gets this tile's hinge sum added. -/
noncomputable def runE (c : Dev nD) (i : grid0.Coords) (a3 : Memref sig .tc .vmem S1x16x58880 .f32) (h3 : a3.IsWhole) (a4 : Memref sig .tc .vmem S1x1x58880 .i32) (h4 : a4.IsWhole) (a5 : Memref sig .tc .vmem S1x12x16 .f32) (h5 : a5.IsWhole) (a6 : Memref sig .tc .vmem S1x12x1 .f32) (h6 : a6.IsWhole) (a7 : Memref sig .tc .vmem S1x12x1 .f32) (h7 : a7.IsWhole) (a8 : Memref sig .tc .vmem S1x12x1 .f32) (h8 : a8.IsWhole)
    (hc1 : ¬cnd1 i) (hc2 : ¬cnd2 i) (hc3 : ¬cnd3 i) (hc4 : ¬cnd4 i) (hc5 : cnd5 i)
    (x0 : Vec F S1x16x58880 .f32) (x1 : Vec F S1x1x58880 .i32) (y2 : Vec F S1x12x16 .f32) (ys y4 : Vec F S1x12x1 .f32) :
    { L4 : List (View.Piece (Elt F) S1x12x1 .f32) //
      ∀ (xi3 : Vec F S1x12x1 .f32) (E : Set ℕ) (K : PUnit → sProp 𝕄),
        iprop(owns (c : Thread nD τ) a3 fullShare x0 ∗ owns (c : Thread nD τ) a4 fullShare x1 ∗ owns (c : Thread nD τ) a5 fullShare y2 ∗ owns (c : Thread nD τ) a6 fullShare xi3 ∗ owns (c : Thread nD τ) a7 fullShare y4 ∗ owns (c : Thread nD τ) a8 fullShare ys
            ∗ (iprop(owns (c : Thread nD τ) a3 fullShare x0 ∗ owns (c : Thread nD τ) a4 fullShare x1 ∗ owns (c : Thread nD τ) a5 fullShare y2 ∗ owns (c : Thread nD τ) a6 fullShare xi3 ∗ (∃ f, a7.view.loc (c : Thread nD τ) ↦[a7.view.set]{fullShare} a7.view.writes (Elt F) f L4) ∗ owns (c : Thread nD τ) a8 fullShare ys) -∗ K ⟨⟩))
          ⊢ wp frame (wpE (defs₀ (F := F)) Variants.none c none) E (cc0__fused_kernel i a3 h3 a4 h4 a5 h5 a6 h6 a7 h7 a8 h8) K } := by
  refine ⟨?_, fun xi3 E K => ?run⟩
  case run =>
    simp only [cc0__fused_kernel_eq_skeleton]; unfold cc0__fused_kernel_skel
    simp only [k0_part1_eq_skeleton, k0_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := h3.eq_unread hf0; obtain rfl := h4.eq_unread hf1; obtain rfl := h5.eq_unread hf2; obtain rfl := h6.eq_unread hf3; obtain rfl := h7.eq_unread hf4; obtain rfl := h8.eq_unread hfs
    sl_exec (disch := first | exact hc1 | exact hc2 | exact hc3 | exact hc4 | exact hc5)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]; · iexists _; iexact H4
    iexists _; isplitr; · ipureintro; exact h8.read_unread _
    iexact HS

end Cert.KernelIdeal.Frm

end
-- ==== Proof.KI.Outs.lean ====
/-
  The frame of the fused push-pull kernel, third part: what the three output blocks and the scratch hold after each point.
  The eight points of one batch element run the five cases in the order A B B C D E E E. Each case's stores into a
  buffer cover it, so what the buffer holds afterwards is the stores read back. The contents after point n are
  defined by recursion on n: a case that reads a block before overwriting it takes what the point before left there;
  a block a case does not store into keeps what it held.
-/
import proofs.«106792_j1022202216835_2_alg».proof.Proof.KI.RunA
import proofs.«106792_j1022202216835_2_alg».proof.Proof.KI.RunB
import proofs.«106792_j1022202216835_2_alg».proof.Proof.KI.RunC
import proofs.«106792_j1022202216835_2_alg».proof.Proof.KI.RunD
import proofs.«106792_j1022202216835_2_alg».proof.Proof.KI.RunE

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in, from its position modulo 8 -/

theorem caseA (t : Fin cfg0.N) (h : t.val % 8 = 0) :
    cnd1 (grid0.coords t) ∧ cnd2 (grid0.coords t) ∧ ¬cnd3 (grid0.coords t) ∧ ¬cnd4 (grid0.coords t) ∧ ¬cnd5 (grid0.coords t) :=
  ⟨(hcnd1 t).mpr h, (hcnd2 t).mpr (by omega), fun h' => by have := (hcnd3 t).mp h'; omega,
    fun h' => by have := (hcnd4 t).mp h'; omega, fun h' => by have := (hcnd5 t).mp h'; omega⟩

theorem caseB (t : Fin cfg0.N) (h : t.val % 8 = 1 ∨ t.val % 8 = 2) :
    ¬cnd1 (grid0.coords t) ∧ cnd2 (grid0.coords t) ∧ ¬cnd3 (grid0.coords t) ∧ ¬cnd4 (grid0.coords t) ∧ ¬cnd5 (grid0.coords t) :=
  ⟨fun h' => by have := (hcnd1 t).mp h'; omega, (hcnd2 t).mpr (by omega), fun h' => by have := (hcnd3 t).mp h'; omega,
    fun h' => by have := (hcnd4 t).mp h'; omega, fun h' => by have := (hcnd5 t).mp h'; omega⟩

theorem caseC (t : Fin cfg0.N) (h : t.val % 8 = 3) :
    ¬cnd1 (grid0.coords t) ∧ cnd2 (grid0.coords t) ∧ cnd3 (grid0.coords t) ∧ ¬cnd4 (grid0.coords t) ∧ ¬cnd5 (grid0.coords t) :=
  ⟨fun h' => by have := (hcnd1 t).mp h'; omega, (hcnd2 t).mpr (by omega), (hcnd3 t).mpr h,
    fun h' => by have := (hcnd4 t).mp h'; omega, fun h' => by have := (hcnd5 t).mp h'; omega⟩

theorem caseD (t : Fin cfg0.N) (h : t.val % 8 = 4) :
    ¬cnd1 (grid0.coords t) ∧ ¬cnd2 (grid0.coords t) ∧ ¬cnd3 (grid0.coords t) ∧ cnd4 (grid0.coords t) ∧ cnd5 (grid0.coords t) :=
  ⟨fun h' => by have := (hcnd1 t).mp h'; omega, fun h' => by have := (hcnd2 t).mp h'; omega, fun h' => by have := (hcnd3 t).mp h'; omega,
    (hcnd4 t).mpr h, (hcnd5 t).mpr (by omega)⟩

theorem caseE (t : Fin cfg0.N) (h : 5 ≤ t.val % 8) :
    ¬cnd1 (grid0.coords t) ∧ ¬cnd2 (grid0.coords t) ∧ ¬cnd3 (grid0.coords t) ∧ ¬cnd4 (grid0.coords t) ∧ cnd5 (grid0.coords t) :=
  ⟨fun h' => by have := (hcnd1 t).mp h'; omega, fun h' => by have := (hcnd2 t).mp h'; omega, fun h' => by have := (hcnd3 t).mp h'; omega,
    fun h' => by have := (hcnd4 t).mp h'; omega, (hcnd5 t).mpr (by omega)⟩

/-! ## The cases' runs at a point of the grid -/

abbrev rA (c : Dev nD) (t : Fin cfg0.N) (h : t.val % 8 = 0) (x0 : Vec F S1x16x58880 .f32) (x1 : Vec F S1x1x58880 .i32) :=
  runA (F := F) c (grid0.coords t) (ms0 t) (hs0 t) (ms1 t) (hs1 t) (ms2 t) (hs2 t) (ms3 t) (hs3 t) (ms4 t) (hs4 t) scM (Memref.isWhole_whole _) (caseA t h).1 (caseA t h).2.1 (caseA t h).2.2.1 (caseA t h).2.2.2.1 (caseA t h).2.2.2.2 x0 x1
abbrev rB (c : Dev nD) (t : Fin cfg0.N) (h : t.val % 8 = 1 ∨ t.val % 8 = 2) (x0 : Vec F S1x16x58880 .f32) (x1 : Vec F S1x1x58880 .i32) (y2 : Vec F S1x12x16 .f32) (y3 : Vec F S1x12x1 .f32) :=
  runB (F := F) c (grid0.coords t) (ms0 t) (hs0 t) (ms1 t) (hs1 t) (ms2 t) (hs2 t) (ms3 t) (hs3 t) (ms4 t) (hs4 t) scM (Memref.isWhole_whole _) (caseB t h).1 (caseB t h).2.1 (caseB t h).2.2.1 (caseB t h).2.2.2.1 (caseB t h).2.2.2.2 x0 x1 y2 y3
abbrev rC (c : Dev nD) (t : Fin cfg0.N) (h : t.val % 8 = 3) (x0 : Vec F S1x16x58880 .f32) (x1 : Vec F S1x1x58880 .i32) (y2 : Vec F S1x12x16 .f32) (y3 : Vec F S1x12x1 .f32) :=
  runC (F := F) c (grid0.coords t) (ms0 t) (hs0 t) (ms1 t) (hs1 t) (ms2 t) (hs2 t) (ms3 t) (hs3 t) (ms4 t) (hs4 t) scM (Memref.isWhole_whole _) (caseC t h).1 (caseC t h).2.1 (caseC t h).2.2.1 (caseC t h).2.2.2.1 (caseC t h).2.2.2.2 x0 x1 y2 y3
abbrev rD (c : Dev nD) (t : Fin cfg0.N) (h : t.val % 8 = 4) (x0 : Vec F S1x16x58880 .f32) (x1 : Vec F S1x1x58880 .i32) (y2 : Vec F S1x12x16 .f32) (ys : Vec F S1x12x1 .f32) :=
  runD (F := F) c (grid0.coords t) (ms0 t) (hs0 t) (ms1 t) (hs1 t) (ms2 t) (hs2 t) (ms3 t) (hs3 t) (ms4 t) (hs4 t) scM (Memref.isWhole_whole _) (caseD t h).1 (caseD t h).2.1 (caseD t h).2.2.1 (caseD t h).2.2.2.1 (caseD t h).2.2.2.2 x0 x1 y2 ys
abbrev rE (c : Dev nD) (t : Fin cfg0.N) (h : 5 ≤ t.val % 8) (x0 : Vec F S1x16x58880 .f32) (x1 : Vec F S1x1x58880 .i32) (y2 : Vec F S1x12x16 .f32) (ys y4 : Vec F S1x12x1 .f32) :=
  runE (F := F) c (grid0.coords t) (ms0 t) (hs0 t) (ms1 t) (hs1 t) (ms2 t) (hs2 t) (ms3 t) (hs3 t) (ms4 t) (hs4 t) scM (Memref.isWhole_whole _) (caseE t h).1 (caseE t h).2.1 (caseE t h).2.2.1 (caseE t h).2.2.2.1 (caseE t h).2.2.2.2 x0 x1 y2 ys y4

/-! ## The views the contents are stated through, and the cases' stores read back -/

/-- A whole [1,12,16] buffer's view (which buffer does not matter once the stores cover it). -/
abbrev VC : View sig .tc .vmem S1x12x16 .f32 := (Memref.whole cc0_stg2_0 : Memref sig .tc .vmem S1x12x16 .f32).view
/-- A whole [1,12,1] buffer's view. -/
abbrev VS : View sig .tc .vmem S1x12x1 .f32 := (scM : Memref sig .tc .vmem S1x12x1 .f32).view

/-- A list of stores into a [1,12,16] buffer, read back. -/
abbrev back16 (L : List (View.Piece (Elt F) S1x12x16 .f32)) : Vec F S1x12x16 .f32 := VC.read (Elt F) (VC.writes (Elt F) VC.junk L)
/-- A list of stores into a [1,12,1] buffer, read back. -/
abbrev back1 (L : List (View.Piece (Elt F) S1x12x1 .f32)) : Vec F S1x12x1 .f32 := VS.read (Elt F) (VS.writes (Elt F) VS.junk L)

/-- Placeholder contents of a [1,12,1] buffer nothing has stored into yet. -/
abbrev unk1 : Vec F S1x12x1 .f32 := back1 (F := F) []

variable (c : Dev nD)

theorem coverA2 (t : Fin cfg0.N) (h) (x0) (x1) (y : S1x12x16.Idx) : ∃ pc ∈ (rA (F := F) c t h x0 x1).1, y ∈ pc.1.set :=
  View.cover_of_tiledL (rA (F := F) c t h x0 x1).1 S1x12x16.size (by sl_kernel_rfl) y
theorem coverA3 (t : Fin cfg0.N) (h) (x0) (x1) (y : S1x12x1.Idx) : ∃ pc ∈ (rA (F := F) c t h x0 x1).2.1, y ∈ pc.1.set :=
  View.cover_of_tiledL (rA (F := F) c t h x0 x1).2.1 S1x12x1.size (by sl_kernel_rfl) y
theorem coverB2 (t : Fin cfg0.N) (h) (x0) (x1) (y2) (y3) (y : S1x12x16.Idx) : ∃ pc ∈ (rB (F := F) c t h x0 x1 y2 y3).1, y ∈ pc.1.set :=
  View.cover_of_tiledL (rB (F := F) c t h x0 x1 y2 y3).1 S1x12x16.size (by sl_kernel_rfl) y
theorem coverB3 (t : Fin cfg0.N) (h) (x0) (x1) (y2) (y3) (y : S1x12x1.Idx) : ∃ pc ∈ (rB (F := F) c t h x0 x1 y2 y3).2.1, y ∈ pc.1.set :=
  View.cover_of_tiledL (rB (F := F) c t h x0 x1 y2 y3).2.1 S1x12x1.size (by sl_kernel_rfl) y
theorem coverC2 (t : Fin cfg0.N) (h) (x0) (x1) (y2) (y3) (y : S1x12x16.Idx) : ∃ pc ∈ (rC (F := F) c t h x0 x1 y2 y3).1, y ∈ pc.1.set :=
  View.cover_of_tiledL (rC (F := F) c t h x0 x1 y2 y3).1 S1x12x16.size (by sl_kernel_rfl) y
theorem coverC3 (t : Fin cfg0.N) (h) (x0) (x1) (y2) (y3) (y : S1x12x1.Idx) : ∃ pc ∈ (rC (F := F) c t h x0 x1 y2 y3).2.1, y ∈ pc.1.set :=
  View.cover_of_tiledL (rC (F := F) c t h x0 x1 y2 y3).2.1 S1x12x1.size (by sl_kernel_rfl) y
theorem coverCS (t : Fin cfg0.N) (h) (x0) (x1) (y2) (y3) (y : S1x12x1.Idx) : ∃ pc ∈ (rC (F := F) c t h x0 x1 y2 y3).2.2.1, y ∈ pc.1.set :=
  View.cover_of_tiledL (rC (F := F) c t h x0 x1 y2 y3).2.2.1 S1x12x1.size (by sl_kernel_rfl) y
theorem coverD4 (t : Fin cfg0.N) (h) (x0) (x1) (y2) (ys) (y : S1x12x1.Idx) : ∃ pc ∈ (rD (F := F) c t h x0 x1 y2 ys).1, y ∈ pc.1.set :=
  View.cover_of_tiledL (rD (F := F) c t h x0 x1 y2 ys).1 S1x12x1.size (by sl_kernel_rfl) y
theorem coverE4 (t : Fin cfg0.N) (h) (x0) (x1) (y2) (ys) (y4) (y : S1x12x1.Idx) : ∃ pc ∈ (rE (F := F) c t h x0 x1 y2 ys y4).1, y ∈ pc.1.set :=
  View.cover_of_tiledL (rE (F := F) c t h x0 x1 y2 ys y4).1 S1x12x1.size (by sl_kernel_rfl) y

/-! ## What the buffers hold after each point -/

/-- The contents after a point: the centers block, the counts block, the pull block, the scratch. -/
structure Outs (F : FTy → Type) [FloatOps F] where
  cen : Vec F S1x12x16 .f32
  cnt : Vec F S1x12x1 .f32
  pul : Vec F S1x12x1 .f32
  scr : Vec F S1x12x1 .f32

/-- One point's effect on the contents the point before left (`prev`), by the point's position modulo 8. -/
def stepOuts (t : Fin cfg0.N) (prev : Outs F) : Outs F :=
  if hA : t.val % 8 = 0 then
    { cen := back16 (rA (F := F) c t hA (iblk m c 0 t) (iblk m c 1 t)).1
      cnt := back1 (rA (F := F) c t hA (iblk m c 0 t) (iblk m c 1 t)).2.1
      pul := prev.pul, scr := prev.scr }
  else if hB : t.val % 8 = 1 ∨ t.val % 8 = 2 then
    { cen := back16 (rB (F := F) c t hB (iblk m c 0 t) (iblk m c 1 t) prev.cen prev.cnt).1
      cnt := back1 (rB (F := F) c t hB (iblk m c 0 t) (iblk m c 1 t) prev.cen prev.cnt).2.1
      pul := prev.pul, scr := prev.scr }
  else if hC : t.val % 8 = 3 then
    { cen := back16 (rC (F := F) c t hC (iblk m c 0 t) (iblk m c 1 t) prev.cen prev.cnt).1
      cnt := back1 (rC (F := F) c t hC (iblk m c 0 t) (iblk m c 1 t) prev.cen prev.cnt).2.1
      pul := prev.pul
      scr := back1 (rC (F := F) c t hC (iblk m c 0 t) (iblk m c 1 t) prev.cen prev.cnt).2.2.1 }
  else if hD : t.val % 8 = 4 then
    { cen := prev.cen, cnt := prev.cnt
      pul := back1 (rD (F := F) c t hD (iblk m c 0 t) (iblk m c 1 t) prev.cen prev.scr).1
      scr := prev.scr }
  else
    { cen := prev.cen, cnt := prev.cnt
      pul := back1 (rE (F := F) c t (by omega) (iblk m c 0 t) (iblk m c 1 t) prev.cen prev.scr prev.pul).1
      scr := prev.scr }

/-- Before the first point nothing is known of the buffers. -/
def outs0 : Outs F := { cen := back16 (F := F) [], cnt := unk1, pul := unk1, scr := unk1 }

/-- The contents after the point at position `n`. -/
def outsAt : (n : ℕ) → n < cfg0.N → Outs F
  | 0, hn => stepOuts m c ⟨0, hn⟩ outs0
  | n + 1, hn => stepOuts m c ⟨n + 1, hn⟩ (outsAt n (Nat.lt_of_succ_lt hn))

/-- The contents before the point at position `n`: what the point before left. -/
def outsBefore (n : ℕ) (hn : n < cfg0.N) : Outs F :=
  match n, hn with
  | 0, _ => outs0
  | n + 1, hn => outsAt m c n (Nat.lt_of_succ_lt hn)

theorem outsAt_step (t : Fin cfg0.N) : outsAt m c t.val t.isLt = stepOuts m c t (outsBefore m c t.val t.isLt) := by
  obtain ⟨n, hn⟩ := t
  cases n with
  | zero => rfl
  | succ n => rfl

theorem outsBefore_pos (n : ℕ) (hn : n < cfg0.N) (h0 : n ≠ 0) :
    outsBefore m c n hn = outsAt m c (n - 1) (Nat.lt_of_le_of_lt (Nat.sub_le _ _) hn) := by
  cases n with
  | zero => exact absurd rfl h0
  | succ n => rfl

end Cert.KernelIdeal.Frm

end
-- ==== Proof.KI.Dats.lean ====
/-
  The frame of the fused push-pull kernel, fourth part: the region's proof data.
  After each point the two input windows hold their blocks and the three output windows hold the contents defined
  by the recursion; the invariant carries the scratch: from the last tile of phase 0 to the end of the batch element it
  holds the squared norms of that batch element's centers, otherwise anything. What an output window's buffer holds
  when the body is called is what the point before left in it, also across the points at which the window is idle,
  up to the write-back after the batch element's eighth point.
-/
import proofs.«106792_j1022202216835_2_alg».proof.Proof.KI.Outs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

/-! ## A block a case does not store into keeps its contents -/

theorem step_cen_idle (t : Fin cfg0.N) (h : 4 ≤ t.val % 8) (prev : Outs F) : (stepOuts m c t prev).cen = prev.cen := by
  unfold stepOuts
  rw [dif_neg (by omega), dif_neg (by omega), dif_neg (by omega)]
  by_cases hD : t.val % 8 = 4
  · rw [dif_pos hD]
  · rw [dif_neg hD]

theorem step_cnt_idle (t : Fin cfg0.N) (h : 4 ≤ t.val % 8) (prev : Outs F) : (stepOuts m c t prev).cnt = prev.cnt := by
  unfold stepOuts
  rw [dif_neg (by omega), dif_neg (by omega), dif_neg (by omega)]
  by_cases hD : t.val % 8 = 4
  · rw [dif_pos hD]
  · rw [dif_neg hD]

theorem step_scr_keep (t : Fin cfg0.N) (h : t.val % 8 ≠ 3) (prev : Outs F) : (stepOuts m c t prev).scr = prev.scr := by
  unfold stepOuts
  by_cases hA : t.val % 8 = 0
  · rw [dif_pos hA]
  · rw [dif_neg hA]
    by_cases hB : t.val % 8 = 1 ∨ t.val % 8 = 2
    · rw [dif_pos hB]
    · rw [dif_neg hB, dif_neg h]
      by_cases hD : t.val % 8 = 4
      · rw [dif_pos hD]
      · rw [dif_neg hD]

/-! ## The invariant: the scratch between points -/

/-- The scratch after the point at position `n`: named from the last tile of phase 0 on, anything before it. -/
def scrAt (n : ℕ) (hn : n < cfg0.N) : sProp 𝕄 :=
  if 3 ≤ n % 8 then owns (c : Thread nD τ) scM fullShare (outsAt m c n hn).scr
  else iprop(∃ d, owns (c : Thread nD τ) scM fullShare d)

theorem scrAt_named (n : ℕ) (hn : n < cfg0.N) (h : 3 ≤ n % 8) :
    scrAt m c n hn = owns (c : Thread nD τ) scM fullShare (outsAt m c n hn).scr := if_pos h

theorem scrAt_any (n : ℕ) (hn : n < cfg0.N) (h : ¬ 3 ≤ n % 8) :
    scrAt m c n hn = iprop(∃ d, owns (c : Thread nD τ) scM fullShare d) := if_neg h

theorem scrAt_forget (n : ℕ) (hn : n < cfg0.N) : scrAt m c n hn ⊢ (iprop(∃ d, owns (c : Thread nD τ) scM fullShare d) : sProp 𝕄) := by
  by_cases h : 3 ≤ n % 8
  · rw [scrAt_named m c n hn h]; iintro H; iexists _; iexact H
  · rw [scrAt_any m c n hn h]

/-- The region's invariant before the point at position `n`. -/
def PhiS : (n : ℕ) → n ≤ cfg0.N → sProp 𝕄
  | 0, _ => Pipeline.ΦA spec0 c
  | n + 1, hn => iprop(scrAt m c n hn ∗ (∃ r, prngReg c r))

theorem PhiS_zero (n : ℕ) (h : n ≤ cfg0.N) (hz : n = 0) : PhiS m c n h = Pipeline.ΦA spec0 c := by
  subst hz; rfl

theorem PhiS_succ (n : ℕ) (hn : n < cfg0.N) :
    PhiS m c (n + 1) hn = iprop(scrAt m c n hn ∗ (∃ r, prngReg c r)) := rfl

theorem PhiS_pos (n : ℕ) (h : n ≤ cfg0.N) (hz : n ≠ 0) :
    PhiS m c n h = iprop(scrAt m c (n - 1) (by omega) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).cen
    | ⟨3, _⟩ => (outsAt m c t.val t.isLt).cnt
    | ⟨4, _⟩ => (outsAt m c t.val t.isLt).pul
  Φ t := PhiS m c t.val (Nat.le_of_lt_succ t.isLt)
  q _ := fullShare
  owed _ := 0

theorem A_eq (w : Fin cfg0.W) : (dats m 0 c).A w = V m c (Pipeline.arrRef spec0 w) := by
  dsimp only [dats]

theorem PhiS_castSucc (t : Fin cfg0.N) :
    (dats m 0 c).Φ t.castSucc = PhiS m c t.val (Nat.le_of_lt t.isLt) := by
  dsimp only [dats]; simp only [Fin.coe_castSucc]

theorem after0 (t : Fin cfg0.N) : (dats m 0 c).after 0 t = iblk m c 0 t := by dsimp only [dats]
theorem after1 (t : Fin cfg0.N) : (dats m 0 c).after 1 t = iblk m c 1 t := by dsimp only [dats]
theorem after2 (t : Fin cfg0.N) : (dats m 0 c).after 2 t = (outsAt m c t.val t.isLt).cen := by dsimp only [dats]
theorem after3 (t : Fin cfg0.N) : (dats m 0 c).after 3 t = (outsAt m c t.val t.isLt).cnt := by dsimp only [dats]
theorem after4 (t : Fin cfg0.N) : (dats m 0 c).after 4 t = (outsAt m c t.val t.isLt).pul := by dsimp only [dats]

theorem before0 (t : Fin cfg0.N) (d) : (dats m 0 c).before 0 t d = iblk m c 0 t :=
  before0_0_of m (dats m 0 c) (A_eq m c 0) (after0 m c) t d
theorem before1 (t : Fin cfg0.N) (d) : (dats m 0 c).before 1 t d = iblk m c 1 t :=
  before0_1_of m (dats m 0 c) (A_eq m c 1) (after1 m c) t d

/-- At a point where an uncut output window is live, what the next point finds is all of what the body left. -/
theorem kept_eq_after (w : Fin cfg0.W) (hclip : ∀ (i : cfg0.grid.Coords) a, (cfg0.win w).clip i a = none) (t : Fin cfg0.N) (d) :
    (dats m 0 c).kept w t d = (dats m 0 c).after w t := by
  unfold Dat.kept
  rw [Pipeline.fill_of_clip_none w _ (hclip _) d ((dats m 0 c).after w t), Window.fill_cut]

/-- The centers block when the body is called, at any point but a batch element's first: what the point before left,
    also through the idle points of phase 1. -/
theorem before2 : ∀ (n : ℕ) (hn : n < cfg0.N), n % 8 ≠ 0 → ∀ d,
    (dats m 0 c).before 2 ⟨n, hn⟩ d = (outsBefore m c n hn).cen
  | 0, _, h, _ => absurd (Nat.zero_mod 8) h
  | n + 1, hn, h, d => by
    have hN : cfg0.N = 64 := N_0
    have hn' : n < cfg0.N := Nat.lt_of_succ_lt hn
    rw [Dat.before_of_pos _ 2 ⟨n + 1, hn⟩ (Nat.succ_ne_zero n) ((cfg0.win 2).fetch_out rfl _) d]
    show (if (cfg0.win 2).flush ⟨n, hn'⟩ = true then d else (dats m 0 c).left 2 ⟨n, hn'⟩ d) = (outsAt m c n hn').cen
    have hfl : (cfg0.win 2).flush ⟨n, hn'⟩ = false :=
      Bool.eq_false_iff.mpr fun hf => by have := (flush0_2 ⟨n, hn'⟩).mp hf; dsimp only at this; omega
    rw [hfl, if_neg Bool.false_ne_true]
    unfold Dat.left
    rw [idle2 ⟨n, hn'⟩]
    by_cases hi : 4 ≤ n % 8
    · rw [decide_eq_true hi]
      dsimp only
      rw [before2 n hn' (by omega) d, outsAt_step m c ⟨n, hn'⟩, step_cen_idle m c ⟨n, hn'⟩ hi]
    · rw [decide_eq_false hi]
      dsimp only
      rw [kept_eq_after m c 2 (fun _ _ => rfl), after2]

/-- The counts block, likewise. -/
theorem before3 : ∀ (n : ℕ) (hn : n < cfg0.N), n % 8 ≠ 0 → ∀ d,
    (dats m 0 c).before 3 ⟨n, hn⟩ d = (outsBefore m c n hn).cnt
  | 0, _, h, _ => absurd (Nat.zero_mod 8) h
  | n + 1, hn, h, d => by
    have hN : cfg0.N = 64 := N_0
    have hn' : n < cfg0.N := Nat.lt_of_succ_lt hn
    rw [Dat.before_of_pos _ 3 ⟨n + 1, hn⟩ (Nat.succ_ne_zero n) ((cfg0.win 3).fetch_out rfl _) d]
    show (if (cfg0.win 3).flush ⟨n, hn'⟩ = true then d else (dats m 0 c).left 3 ⟨n, hn'⟩ d) = (outsAt m c n hn').cnt
    have hfl : (cfg0.win 3).flush ⟨n, hn'⟩ = false :=
      Bool.eq_false_iff.mpr fun hf => by have := (flush0_3 ⟨n, hn'⟩).mp hf; dsimp only at this; omega
    rw [hfl, if_neg Bool.false_ne_true]
    unfold Dat.left
    rw [idle3 ⟨n, hn'⟩]
    by_cases hi : 4 ≤ n % 8
    · rw [decide_eq_true hi]
      dsimp only
      rw [before3 n hn' (by omega) d, outsAt_step m c ⟨n, hn'⟩, step_cnt_idle m c ⟨n, hn'⟩ hi]
    · rw [decide_eq_false hi]
      dsimp only
      rw [kept_eq_after m c 3 (fun _ _ => rfl), after3]

/-- The pull block when the body is called at a later tile of phase 1: what the point before left. -/
theorem before4 (n : ℕ) (hn : n < cfg0.N) (h : 5 ≤ n % 8) (d) :
    (dats m 0 c).before 4 ⟨n, hn⟩ d = (outsBefore m c n hn).pul := by
  have hN : cfg0.N = 64 := N_0
  obtain ⟨k, rfl⟩ : ∃ k, n = k + 1 := ⟨n - 1, by omega⟩
  have hn' : k < cfg0.N := Nat.lt_of_succ_lt hn
  rw [Dat.before_of_pos _ 4 ⟨k + 1, hn⟩ (Nat.succ_ne_zero k) ((cfg0.win 4).fetch_out rfl _) d]
  show (if (cfg0.win 4).flush ⟨k, hn'⟩ = true then d else (dats m 0 c).left 4 ⟨k, hn'⟩ d) = (outsAt m c k hn').pul
  have hfl : (cfg0.win 4).flush ⟨k, hn'⟩ = false :=
    Bool.eq_false_iff.mpr fun hf => by have := (flush0_4 ⟨k, hn'⟩).mp hf; dsimp only at this; omega
  rw [hfl, if_neg Bool.false_ne_true]
  unfold Dat.left
  rw [idle4 ⟨k, hn'⟩, decide_eq_false (by dsimp only; omega)]
  dsimp only
  rw [kept_eq_after m c 4 (fun _ _ => rfl), after4]

end Cert.KernelIdeal.Frm

end
-- ==== Proof.KI.BodyDefs.lean ====
/-
  The frame of the fused push-pull kernel, fifth part: what the body is called with at a point and what it must return,
  window by window. An input window's buffer is returned at its block. An output window's buffer is returned at its
  new contents where the case stores into it or the point writes it back, and as found where the window is idle.
-/
import proofs.«106792_j1022202216835_2_alg».proof.Proof.KI.Dats

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

/-- What the body is called with at point `t`. -/
def bodyPre (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- What it returns. -/
def bodyPost (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (t : Fin cfg0.N) : (dats m 0 c).leavesExact 0 t = owns (c : Thread nD τ) (ms0 t) fullShare (iblk m c 0 t) := by
  unfold Dat.leavesExact; rw [live0 t, after0]
theorem leaves1 (t : Fin cfg0.N) : (dats m 0 c).leavesExact 1 t = owns (c : Thread nD τ) (ms1 t) fullShare (iblk m c 1 t) := by
  unfold Dat.leavesExact; rw [live1 t, after1]

theorem leaves2_live (t : Fin cfg0.N) (h : t.val % 8 < 4) :
    (dats m 0 c).leavesExact 2 t = owns (c : Thread nD τ) (ms2 t) fullShare (outsAt m c t.val t.isLt).cen := by
  unfold Dat.leavesExact; rw [idle2 t, decide_eq_false (by omega : ¬ 4 ≤ t.val % 8), after2]
theorem leaves3_live (t : Fin cfg0.N) (h : t.val % 8 < 4) :
    (dats m 0 c).leavesExact 3 t = owns (c : Thread nD τ) (ms3 t) fullShare (outsAt m c t.val t.isLt).cnt := by
  unfold Dat.leavesExact; rw [idle3 t, decide_eq_false (by omega : ¬ 4 ≤ t.val % 8), after3]
theorem leaves4_live (t : Fin cfg0.N) (h : 4 ≤ t.val % 8) :
    (dats m 0 c).leavesExact 4 t = owns (c : Thread nD τ) (ms4 t) fullShare (outsAt m c t.val t.isLt).pul := by
  unfold Dat.leavesExact; rw [idle4 t, decide_eq_false (by omega : ¬ t.val % 8 < 4), after4]

theorem leaves2_idle (t : Fin cfg0.N) (h : 4 ≤ t.val % 8) (h7 : t.val % 8 ≠ 7) :
    (dats m 0 c).leavesExact 2 t = iprop(∃ d, owns (c : Thread nD τ) (ms2 t) fullShare ((dats m 0 c).before 2 t d)) :=
  Dat.leavesExact_idle (dats m 0 c) 2 t (by rw [idle2 t]; exact decide_eq_true h)
    (Bool.eq_false_iff.mpr fun hf => h7 ((flush0_2 t).mp hf))
theorem leaves3_idle (t : Fin cfg0.N) (h : 4 ≤ t.val % 8) (h7 : t.val % 8 ≠ 7) :
    (dats m 0 c).leavesExact 3 t = iprop(∃ d, owns (c : Thread nD τ) (ms3 t) fullShare ((dats m 0 c).before 3 t d)) :=
  Dat.leavesExact_idle (dats m 0 c) 3 t (by rw [idle3 t]; exact decide_eq_true h)
    (Bool.eq_false_iff.mpr fun hf => h7 ((flush0_3 t).mp hf))
theorem leaves4_idle (t : Fin cfg0.N) (h : t.val % 8 < 4) :
    (dats m 0 c).leavesExact 4 t = iprop(∃ d, owns (c : Thread nD τ) (ms4 t) fullShare ((dats m 0 c).before 4 t d)) :=
  Dat.leavesExact_idle (dats m 0 c) 4 t (by rw [idle4 t]; exact decide_eq_true h)
    (Bool.eq_false_iff.mpr fun hf => by have := (flush0_4 t).mp hf; omega)

theorem leaves2_flush (t : Fin cfg0.N) (h7 : t.val % 8 = 7) :
    (dats m 0 c).leavesExact 2 t = owns (c : Thread nD τ) (ms2 t) fullShare (outsAt m c t.val t.isLt).cen := by
  unfold Dat.leavesExact; rw [idle2 t, decide_eq_true (by omega : 4 ≤ t.val % 8), (flush0_2 t).mpr h7, after2]
theorem leaves3_flush (t : Fin cfg0.N) (h7 : t.val % 8 = 7) :
    (dats m 0 c).leavesExact 3 t = owns (c : Thread nD τ) (ms3 t) fullShare (outsAt m c t.val t.isLt).cnt := by
  unfold Dat.leavesExact; rw [idle3 t, decide_eq_true (by omega : 4 ≤ t.val % 8), (flush0_3 t).mpr h7, after3]

/-- Whatever the invariant says of the scratch, it holds something. -/
theorem PhiS_forget (n : ℕ) (h : n ≤ cfg0.N) :
    PhiS m c n h ⊢ (iprop(iprop((∃ d, owns (c : Thread nD τ) scM fullShare d)) ∗ (∃ r, prngReg c r)) : sProp 𝕄) := by
  cases n with
  | zero => rw [PhiS_zero m c 0 h rfl, PhiA0_eq]
  | succ n =>
    rw [PhiS_succ]
    iintro ⟨HS, Hg⟩
    isplitl [HS]
    · iapply (scrAt_forget m c n h) $$ HS
    iexact Hg

end Cert.KernelIdeal.Frm

end
-- ==== Proof.KI.BodyA.lean ====
/-
  The body obligation at the first tile of phase 0 (t % 8 = 0).
-/
import proofs.«106792_j1022202216835_2_alg».proof.Proof.KI.BodyDefs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

set_option maxHeartbeats 4000000 in
theorem soundA (t : Fin cfg0.N) (h : t.val % 8 = 0) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).owesAt () t.succ = (dats m 0 c).owesAt () t.castSucc from rfl]
  rw [show (dats m 0 c).Φ t.succ = PhiS m c (t.val + 1) t.isLt from rfl, PhiS_succ, PhiS_castSucc m c t]
  rw [scrAt_any m c t.val t.isLt (by omega)]
  rw [leaves0, leaves1, leaves2_live m c t (by omega), leaves3_live m c t (by omega), leaves4_idle m c t (by omega)]
  rw [outsAt_step m c t]
  unfold stepOuts
  rw [dif_pos h]
  dsimp only
  by_cases hz : t.val = 0
  · rw [PhiS_zero m c _ _ hz, PhiA0_eq]
    iintro ⟨⟨⟨%ds, HS⟩, Hg⟩, Ho, ⟨%d0, H0⟩, ⟨%d1, H1⟩, ⟨%d2, H2⟩, ⟨%d3, H3⟩, ⟨%d4, H4⟩⟩
    iapply ((rA (F := F) c t h (iblk m c 0 t) (iblk m c 1 t)).2.2 _ _ Set.univ _)
    isplitl [H0]; · iexact H0
    isplitl [H1]; · iexact H1
    isplitl [H2]; · iexists _; iexact H2
    isplitl [H3]; · iexists _; iexact H3
    isplitl [H4]; · iexact H4
    isplitl [HS]; · iexact HS
    iintro ⟨H0, H1, ⟨%e2, H2⟩, ⟨%e3, H3⟩, H4, HS⟩
    isplitl [HS Hg]
    · isplitl [HS]
      · iexists _; iexact HS
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA2 c t h _ _)
    isplitl [H3]
    · unfold owns; iexists _; isplitr
      swap; · iexact H3
      ipureintro; exact View.read_writes_of_cover _ _ _ _ _ (coverA3 c t h _ _)
    iexists _; iexact H4
  · have hN : cfg0.N = 64 := N_0
    rw [PhiS_pos m c _ _ hz, scrAt_named m c (t.val - 1) (by omega) (by omega)]
    iintro ⟨⟨HS, Hg⟩, Ho, ⟨%d0, H0⟩, ⟨%d1, H1⟩, ⟨%d2, H2⟩, ⟨%d3, H3⟩, ⟨%d4, H4⟩⟩
    iapply ((rA (F := F) c t h (iblk m c 0 t) (iblk m c 1 t)).2.2 _ _ Set.univ _)
    isplitl [H0]; · iexact H0
    isplitl [H1]; · iexact H1
    isplitl [H2]; · iexists _; iexact H2
    isplitl [H3]; · iexists _; iexact H3
    isplitl [H4]; · iexact H4
    isplitl [HS]; · iexact HS
    iintro ⟨H0, H1, ⟨%e2, H2⟩, ⟨%e3, H3⟩, H4, HS⟩
    isplitl [HS Hg]
    · isplitl [HS]
      · iexists _; iexact HS
      iexact Hg
    isplitl [Ho]; · iexact Ho
    isplitl [H0]; · iexact H0
    isplitl [H1]; · iexact H1
    isplitl [H2]
    · unfold owns; iexists _; isplitr
      swap; · iexact H2
      ipureintro; exact View.read_writes_of_cover _ _ _ _ _ (coverA2 c t h _ _)
    isplitl [H3]
    · unfold owns; iexists _; isplitr
      swap; · iexact H3
      ipureintro; exact View.read_writes_of_cover _ _ _ _ _ (coverA3 c t h _ _)
    iexists _; iexact H4

end Cert.KernelIdeal.Frm

end
-- ==== Proof.KI.BodyB.lean ====
/-
  The body obligation at the middle tiles of phase 0 (t % 8 = 1, 2).
-/
import proofs.«106792_j1022202216835_2_alg».proof.Proof.KI.BodyDefs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

set_option maxHeartbeats 4000000 in
theorem soundB (t : Fin cfg0.N) (h : t.val % 8 = 1 ∨ t.val % 8 = 2) :
    bodyPre m c t ⊢ wp frame (wpE (defs₀ (F := F)) Variants.none c none) Set.univ (bodyAt0 t) (fun _ => bodyPost m c t) := by
  unfold bodyPre bodyPost bodyAt0
  have hN : cfg0.N = 64 := N_0
  simp only [before0, before1, before2 m c t.val t.isLt (by omega), before3 m c t.val t.isLt (by omega)]
  rw [show (dats m 0 c).owesAt () t.succ = (dats m 0 c).owesAt () t.castSucc from rfl]
  rw [show (dats m 0 c).Φ t.succ = PhiS m c (t.val + 1) t.isLt from rfl, PhiS_succ, PhiS_castSucc m c t]
  rw [scrAt_any m c t.val t.isLt (by omega)]
  rw [leaves0, leaves1, leaves2_live m c t (by omega), leaves3_live m c t (by omega), leaves4_idle m c t (by omega)]
  rw [outsAt_step m c t]
  unfold stepOuts
  rw [dif_neg (by omega), dif_pos h]
  dsimp only
  rw [PhiS_pos m c t.val (Nat.le_of_lt t.isLt) (by omega), scrAt_any m c (t.val - 1) (by omega) (by omega)]
  iintro ⟨⟨⟨%ds, HS⟩, Hg⟩, Ho, ⟨%d0, H0⟩, ⟨%d1, H1⟩, ⟨%d2, H2⟩, ⟨%d3, H3⟩, ⟨%d4, H4⟩⟩
  iapply ((rB (F := F) c t h (iblk m c 0 t) (iblk m c 1 t) (outsBefore m c t.val t.isLt).cen (outsBefore m c t.val t.isLt).cnt).2.2 _ _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, ⟨%e2, H2⟩, ⟨%e3, H3⟩, H4, HS⟩
  isplitl [HS Hg]
  · isplitl [HS]
    · iexists _; iexact HS
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (coverB2 c t h _ _ _ _)
  isplitl [H3]
  · unfold owns; iexists _; isplitr
    swap; · iexact H3
    ipureintro; exact View.read_writes_of_cover _ _ _ _ _ (coverB3 c t h _ _ _ _)
  iexists _; iexact H4

end Cert.KernelIdeal.Frm

end
-- ==== Proof.KI.BodyC.lean ====
/-
  The body obligation at the last tile of phase 0 (t % 8 = 3): from here on the scratch holds the squared norms.
-/
import proofs.«106792_j1022202216835_2_alg».proof.Proof.KI.BodyDefs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

set_option maxHeartbeats 4000000 in
theorem soundC (t : Fin cfg0.N) (h : t.val % 8 = 3) :
    bodyPre m c t ⊢ wp frame (wpE (defs₀ (F := F)) Variants.none c none) Set.univ (bodyAt0 t) (fun _ => bodyPost m c t) := by
  unfold bodyPre bodyPost bodyAt0
  have hN : cfg0.N = 64 := N_0
  simp only [before0, before1, before2 m c t.val t.isLt (by omega), before3 m c t.val t.isLt (by omega)]
  rw [show (dats m 0 c).owesAt () t.succ = (dats m 0 c).owesAt () t.castSucc from rfl]
  rw [show (dats m 0 c).Φ t.succ = PhiS m c (t.val + 1) t.isLt from rfl, PhiS_succ, PhiS_castSucc m c t]
  rw [scrAt_named m c t.val t.isLt (by omega)]
  rw [leaves0, leaves1, leaves2_live m c t (by omega), leaves3_live m c t (by omega), leaves4_idle m c t (by omega)]
  rw [outsAt_step m c t]
  unfold stepOuts
  rw [dif_neg (by omega), dif_neg (by omega), dif_pos h]
  dsimp only
  rw [PhiS_pos m c t.val (Nat.le_of_lt t.isLt) (by omega), scrAt_any m c (t.val - 1) (by omega) (by omega)]
  iintro ⟨⟨⟨%ds, HS⟩, Hg⟩, Ho, ⟨%d0, H0⟩, ⟨%d1, H1⟩, ⟨%d2, H2⟩, ⟨%d3, H3⟩, ⟨%d4, H4⟩⟩
  iapply ((rC (F := F) c t h (iblk m c 0 t) (iblk m c 1 t) (outsBefore m c t.val t.isLt).cen (outsBefore m c t.val t.isLt).cnt).2.2.2 _ Set.univ _)
  isplitl [H0]; · iexact H0
  isplitl [H1]; · iexact H1
  isplitl [H2]; · iexact H2
  isplitl [H3]; · iexact H3
  isplitl [H4]; · iexact H4
  isplitl [HS]; · iexists _; iexact HS
  iintro ⟨H0, H1, ⟨%e2, H2⟩, ⟨%e3, H3⟩, H4, ⟨%es, HS⟩⟩
  isplitl [HS Hg]
  · isplitl [HS]
    · unfold owns; iexists _; isplitr
      swap; · iexact HS
      ipureintro; exact View.read_writes_of_cover _ _ _ _ _ (coverCS c t h _ _ _ _)
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (coverC2 c t h _ _ _ _)
  isplitl [H3]
  · unfold owns; iexists _; isplitr
    swap; · iexact H3
    ipureintro; exact View.read_writes_of_cover _ _ _ _ _ (coverC3 c t h _ _ _ _)
  iexists _; iexact H4

end Cert.KernelIdeal.Frm

end
-- ==== Proof.KI.BodyD.lean ====
/-
  The body obligation at the first tile of phase 1 (t % 8 = 4): the centers and counts blocks are handed back as found.
-/
import proofs.«106792_j1022202216835_2_alg».proof.Proof.KI.BodyDefs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

set_option maxHeartbeats 4000000 in
theorem soundD (t : Fin cfg0.N) (h : t.val % 8 = 4) :
    bodyPre m c t ⊢ wp frame (wpE (defs₀ (F := F)) Variants.none c none) Set.univ (bodyAt0 t) (fun _ => bodyPost m c t) := by
  unfold bodyPre bodyPost bodyAt0
  have hN : cfg0.N = 64 := N_0
  simp only [before0, before1, before2 m c t.val t.isLt (by omega), before3 m c t.val t.isLt (by omega)]
  rw [show (dats m 0 c).owesAt () t.succ = (dats m 0 c).owesAt () t.castSucc from rfl]
  rw [show (dats m 0 c).Φ t.succ = PhiS m c (t.val + 1) t.isLt from rfl, PhiS_succ, PhiS_castSucc m c t]
  rw [PhiS_pos m c t.val (Nat.le_of_lt t.isLt) (by omega), scrAt_named m c (t.val - 1) (by omega) (by omega),
    scrAt_named m c t.val t.isLt (by omega)]
  rw [leaves0, leaves1, leaves2_idle m c t (by omega) (by omega), leaves3_idle m c t (by omega) (by omega), leaves4_live m c t (by omega)]
  simp only [before2 m c t.val t.isLt (by omega), before3 m c t.val t.isLt (by omega)]
  rw [outsAt_step m c t, outsBefore_pos m c t.val t.isLt (by omega)]
  unfold stepOuts
  rw [dif_neg (by omega), dif_neg (by omega), dif_neg (by omega), dif_pos h]
  dsimp only
  iintro ⟨⟨HS, Hg⟩, Ho, ⟨%d0, H0⟩, ⟨%d1, H1⟩, ⟨%d2, H2⟩, ⟨%d3, H3⟩, ⟨%d4, H4⟩⟩
  iapply ((rD (F := F) c t h (iblk m c 0 t) (iblk m c 1 t) _ _).2 _ Set.univ _)
  isplitl [H0]; · iexact H0
  isplitl [H1]; · iexact H1
  isplitl [H2]; · iexact H2
  isplitl [H3]; · iexact H3
  isplitl [H4]; · iexists _; iexact H4
  isplitl [HS]; · iexact HS
  iintro ⟨H0, H1, H2, H3, ⟨%e4, H4⟩, HS⟩
  isplitl [HS Hg]
  · isplitl [HS]
    · iexact HS
    iexact Hg
  isplitl [Ho]; · iexact Ho
  isplitl [H0]; · iexact H0
  isplitl [H1]; · iexact H1
  isplitl [H2]; · iexists d2; iexact H2
  isplitl [H3]; · iexists d3; iexact H3
  unfold owns; iexists _; isplitr
  swap; · iexact H4
  ipureintro; exact View.read_writes_of_cover _ _ _ _ _ (coverD4 c t h _ _ _ _)

end Cert.KernelIdeal.Frm

end
-- ==== Proof.KI.BodyE.lean ====
/-
  The body obligation at the later tiles of phase 1 (t % 8 = 5, 6, 7); after the last one the three blocks are written back,
  so there the centers and counts blocks are returned at their named contents.
-/
import proofs.«106792_j1022202216835_2_alg».proof.Proof.KI.BodyDefs

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

set_option maxHeartbeats 4000000 in
theorem soundE (t : Fin cfg0.N) (h : 5 ≤ t.val % 8) (h7 : t.val % 8 ≠ 7) :
    bodyPre m c t ⊢ wp frame (wpE (defs₀ (F := F)) Variants.none c none) Set.univ (bodyAt0 t) (fun _ => bodyPost m c t) := by
  unfold bodyPre bodyPost bodyAt0
  have hN : cfg0.N = 64 := N_0
  simp only [before0, before1, before2 m c t.val t.isLt (by omega), before3 m c t.val t.isLt (by omega), before4 m c t.val t.isLt h]
  rw [show (dats m 0 c).owesAt () t.succ = (dats m 0 c).owesAt () t.castSucc from rfl]
  rw [show (dats m 0 c).Φ t.succ = PhiS m c (t.val + 1) t.isLt from rfl, PhiS_succ, PhiS_castSucc m c t]
  rw [PhiS_pos m c t.val (Nat.le_of_lt t.isLt) (by omega), scrAt_named m c (t.val - 1) (by omega) (by omega),
    scrAt_named m c t.val t.isLt (by omega)]
  rw [leaves0, leaves1, leaves2_idle m c t (by omega) h7, leaves3_idle m c t (by omega) h7, leaves4_live m c t (by omega)]
  simp only [before2 m c t.val t.isLt (by omega), before3 m c t.val t.isLt (by omega)]
  rw [outsAt_step m c t, outsBefore_pos m c t.val t.isLt (by omega)]
  unfold stepOuts
  rw [dif_neg (by omega), dif_neg (by omega), dif_neg (by omega), dif_neg (by omega)]
  dsimp only
  iintro ⟨⟨HS, Hg⟩, Ho, ⟨%d0, H0⟩, ⟨%d1, H1⟩, ⟨%d2, H2⟩, ⟨%d3, H3⟩, ⟨%d4, H4⟩⟩
  iapply ((rE (F := F) c t h (iblk m c 0 t) (iblk m c 1 t) _ _ _).2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, ⟨%e4, H4⟩, HS⟩
  isplitl [HS Hg]
  · isplitl [HS]
    · iexact HS
    iexact Hg
  isplitl [Ho]; · iexact Ho
  isplitl [H0]; · iexact H0
  isplitl [H1]; · iexact H1
  isplitl [H2]; · iexists d2; iexact H2
  isplitl [H3]; · iexists d3; iexact H3
  unfold owns; iexists _; isplitr
  swap; · iexact H4
  ipureintro; exact View.read_writes_of_cover _ _ _ _ _ (coverE4 c t (by omega) _ _ _ _ _)

set_option maxHeartbeats 4000000 in
theorem soundE7 (t : Fin cfg0.N) (h7 : t.val % 8 = 7) :
    bodyPre m c t ⊢ wp frame (wpE (defs₀ (F := F)) Variants.none c none) Set.univ (bodyAt0 t) (fun _ => bodyPost m c t) := by
  unfold bodyPre bodyPost bodyAt0
  have hN : cfg0.N = 64 := N_0
  simp only [before0, before1, before2 m c t.val t.isLt (by omega), before3 m c t.val t.isLt (by omega), before4 m c t.val t.isLt (by omega)]
  rw [show (dats m 0 c).owesAt () t.succ = (dats m 0 c).owesAt () t.castSucc from rfl]
  rw [show (dats m 0 c).Φ t.succ = PhiS m c (t.val + 1) t.isLt from rfl, PhiS_succ, PhiS_castSucc m c t]
  rw [PhiS_pos m c t.val (Nat.le_of_lt t.isLt) (by omega), scrAt_named m c (t.val - 1) (by omega) (by omega),
    scrAt_named m c t.val t.isLt (by omega)]
  rw [leaves0, leaves1, leaves2_flush m c t h7, leaves3_flush m c t h7, leaves4_live m c t (by omega)]
  rw [outsAt_step m c t, outsBefore_pos m c t.val t.isLt (by omega)]
  unfold stepOuts
  rw [dif_neg (by omega), dif_neg (by omega), dif_neg (by omega), dif_neg (by omega)]
  dsimp only
  iintro ⟨⟨HS, Hg⟩, Ho, ⟨%d0, H0⟩, ⟨%d1, H1⟩, ⟨%d2, H2⟩, ⟨%d3, H3⟩, ⟨%d4, H4⟩⟩
  iapply ((rE (F := F) c t (by omega) (iblk m c 0 t) (iblk m c 1 t) _ _ _).2 _ Set.univ _)
  isplitl [H0]; · iexact H0
  isplitl [H1]; · iexact H1
  isplitl [H2]; · iexact H2
  isplitl [H3]; · iexact H3
  isplitl [H4]; · iexact H4
  isplitl [HS]; · iexact HS
  iintro ⟨H0, H1, H2, H3, ⟨%e4, H4⟩, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (coverE4 c t (by omega) _ _ _ _ _)

end Cert.KernelIdeal.Frm

end
-- ==== Proof.KI.Frame.lean ====
/-
  The frame of the fused push-pull kernel, last part: the body obligation at every point, the run of the whole program,
  and the frame claim: every weakly fair execution terminates, nothing faults, the two argument arrays end unchanged.
  The run's post also has the three result arrays at what the proof data says the write-backs wrote, and every other
  buffer at what the tail's operations compute from them.
-/
import proofs.«106792_j1022202216835_2_alg».proof.Proof.KI.BodyA
import proofs.«106792_j1022202216835_2_alg».proof.Proof.KI.BodyB
import proofs.«106792_j1022202216835_2_alg».proof.Proof.KI.BodyC
import proofs.«106792_j1022202216835_2_alg».proof.Proof.KI.BodyD
import proofs.«106792_j1022202216835_2_alg».proof.Proof.KI.BodyE

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

/-- The body at any point: the point's position modulo 8 selects the case. -/
theorem sound_body (t : Fin cfg0.N) :
    bodyPre m c t ⊢ wp frame (wpE (defs₀ (F := F)) Variants.none c none) Set.univ (bodyAt0 t) (fun _ => bodyPost m c t) := by
  by_cases hA : t.val % 8 = 0
  · exact soundA m c t hA
  by_cases hB : t.val % 8 = 1 ∨ t.val % 8 = 2
  · exact soundB m c t hB
  by_cases hC : t.val % 8 = 3
  · exact soundC m c t hC
  by_cases hD : t.val % 8 = 4
  · exact soundD m c t hD
  by_cases h7 : t.val % 8 = 7
  · exact soundE7 m c t h7
  · exact soundE m c t (by omega) h7

theorem body_obligation : BodyObligation (dats (F := F) m 0 c) (defs₀ (F := F)) Variants.none () Set.univ := fun t => by
  rw [bigSep_W0, bigSep_W0]
  exact sound_body m c t

/-- What the launch hands the region is the invariant before the first point. -/
theorem hin : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the scratch's contents are forgotten. -/
theorem hout : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_forget m c _ _

set_option backward.isDefEq.respectTransparency.types false in
/-- The run: every weakly fair execution of the program terminates, with every array of the region at what the write-backs
    wrote and every other unscoped buffer at what the tail computes. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (run_main m ρ)

end Cert.KernelIdeal.Frm

end
-- ==== Proof.KI.RunValue.lean ====
/-
  The run of the program with its result named: the scalar the tail's operations compute from the three result arrays
  the write-backs left, the two argument arrays unchanged.
-/
import proofs.«106792_j1022202216835_2_alg».proof.Proof.KI.Frame

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program's result after the run: the tail's operations applied to the buffers as the region leaves them. -/
abbrev result (c : Dev nD) : Buf (Elt F) ((c : Thread nD τ).loc main_v60) :=
  Pipeline.afterTail₀ cfgs (dats m) 0 (V0 m) tailOps c main_v60

/-- Every weakly fair execution terminates with the result buffer at `result` and the arguments unchanged. -/
theorem run_value : θ_run defs (onTc (τ := τ) (main (F := F))) ⟨m, fun _ => 0, ρ⟩ (fun r => ∀ c : Dev nD,
      r.2.mem ((c.tc : Thread nD τ).loc main_v60) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c).2 main_v60 (Pipeline.mem_restRefs_of main_v60 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Frm

end
-- ==== Proof.KI.Arrays.lean ====
/-
  What the three result arrays hold after the run. The eight points of batch element b are positions 8·b … 8·b + 7; the output
  windows' blocks [1,12,16] / [1,12,1] sit at block index (b, 0, 0) and are written back after the eighth point only. So row b of
  each result array is what that point left in the window's buffer, and the eight write-backs cover the array.
-/
import proofs.«106792_j1022202216835_2_alg».proof.Proof.KI.Dats
import Idealize.ShloMosaic.Lib.Pipeline.Value
import Idealize.ShloMosaic.Lib.ValueIdx

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

variable (c : Dev nD)

/-! ## The contents after a point depend on the position only -/

theorem cen_congr (n n' : ℕ) (hn : n < cfg0.N) (hn' : n' < cfg0.N) (e : n = n') (y y' : S1x12x16.Idx) (ey : y = y') :
    (outsAt m c n hn).cen y = (outsAt m c n' hn').cen y' := by subst e; subst ey; rfl
theorem cnt_congr (n n' : ℕ) (hn : n < cfg0.N) (hn' : n' < cfg0.N) (e : n = n') (y y' : S1x12x1.Idx) (ey : y = y') :
    (outsAt m c n hn).cnt y = (outsAt m c n' hn').cnt y' := by subst e; subst ey; rfl
theorem pul_congr (n n' : ℕ) (hn : n < cfg0.N) (hn' : n' < cfg0.N) (e : n = n') (y y' : S1x12x1.Idx) (ey : y = y') :
    (outsAt m c n hn).pul y = (outsAt m c n' hn').pul y' := by subst e; subst ey; rfl

/-! ## Output window 2: the centers -/

/-- Where window 2's block sits: batch t / 8. -/
theorem idxO2 : ∀ t : Fin cfg0.N, win0_2.index t 0 = t.val / 8 ∧ win0_2.index t 1 = 0 ∧ win0_2.index t 2 = 0 :=
  (by decide +kernel : ∀ t : Fin grid0.N, win0_2.index t 0 = t.val / 8 ∧ win0_2.index t 1 = 0 ∧ win0_2.index t 2 = 0)

/-- An index of the array is in point `t`'s block iff each coordinate is in the block's range on its axis. -/
theorem mem_blk2 (t : Fin cfg0.N) (i : S8x12x16.Idx) :
    i ∈ ((cfg0.win 2).blk t).view.set ↔ ∀ a : Fin 3, win0_2.index t a * S1x12x16.size a ≤ (i a).val ∧ (i a).val < win0_2.index t a * S1x12x16.size a + S1x12x16.size a := by
  show i ∈ ((View.whole main_v2_0).slice (win0_2.rect t)).set ↔ _
  rw [View.set_slice_whole, Rect.mem_set_unit]
  exact Iff.rfl

/-- The centers array after the run: row b is what batch element b's eighth point left in the window's buffer. -/
def cenArr : Buf (Elt F) ((c : Thread nD τ).loc main_v2_0) :=
  fun i : S8x12x16.Idx =>
    (outsAt m c (8 * (i 0).val + 7) (by have h0 : (i 0).val < 8 := (i 0).isLt; have hN : cfg0.N = 64 := N_0; omega)).cen
      (ix3 (0 : Fin 1) (⟨(i 1).val, (i 1).isLt⟩ : Fin 12) (⟨(i 2).val, (i 2).isLt⟩ : Fin 16))

/-- The write-back after a batch element's eighth point writes that row of the array. -/
theorem flushed2_eq (t : Fin cfg0.N) (hf : (cfg0.win 2).flush t = true) :
    (dats m 0 c).flushed 2 t = ((cfg0.win 2).blk t).view.read (Elt F) (cenArr m c) := by
  have hN : cfg0.N = 64 := N_0
  have h7 : t.val % 8 = 7 := (flush0_2 t).mp hf
  obtain ⟨i0, i1, i2⟩ := idxO2 t
  show (cfg0.win 2).cut (grid0.coords t) ((dats m 0 c).after 2 t) = _
  rw [after2]
  funext y
  rw [View.read_apply]
  show (outsAt m c t.val t.isLt).cen y = cenArr m c (((cfg0.win 2).blk t).view.emb y)
  have hy0 : (y 0).val < 1 := (y 0).isLt
  have e0 : ((((cfg0.win 2).blk t).view.emb y) 0).val = t.val / 8 := by
    show win0_2.index t 0 * 1 + 1 * (y 0).val = t.val / 8
    rw [i0]; omega
  have e1 : ((((cfg0.win 2).blk t).view.emb y) 1).val = (y 1).val := by
    show win0_2.index t 1 * 12 + 1 * (y 1).val = (y 1).val
    rw [i1]; omega
  have e2 : ((((cfg0.win 2).blk t).view.emb y) 2).val = (y 2).val := by
    show win0_2.index t 2 * 16 + 1 * (y 2).val = (y 2).val
    rw [i2]; omega
  unfold cenArr
  refine cen_congr m c _ _ _ _ (by rw [e0]; omega) _ _ (funext fun a => Fin.ext ?_)
  match a with
  | ⟨0, _⟩ => show (y 0).val = 0; omega
  | ⟨1, _⟩ => exact e1.symm
  | ⟨2, _⟩ => exact e2.symm

/-- After the run the array holds `cenArr`: the eight write-backs cover its eight rows. -/
theorem final_cen : (dats m 0 c).arrAt 2 cfg0.N = cenArr m c :=
  (dats m 0 c).arrAt_eq_of_cover 2 (cenArr m c) (flushed2_eq m c) fun i => by
    have hN : cfg0.N = 64 := N_0
    have h0 : (i 0 : Nat) < 8 := (i 0).isLt
    have h1 : (i 1 : Nat) < 12 := (i 1).isLt
    have h2 : (i 2 : Nat) < 16 := (i 2).isLt
    refine ⟨⟨8 * (i 0).val + 7, by omega⟩, (flush0_2 _).mpr (by show (8 * (i 0).val + 7) % 8 = 7; omega), ?_⟩
    obtain ⟨i0, i1, i2⟩ := idxO2 ⟨8 * (i 0).val + 7, by omega⟩
    rw [mem_blk2]
    intro a
    match a with
    | ⟨0, _⟩ =>
      show win0_2.index ⟨8 * (i 0).val + 7, _⟩ 0 * 1 ≤ (i 0).val ∧ (i 0).val < win0_2.index ⟨8 * (i 0).val + 7, _⟩ 0 * 1 + 1
      rw [i0]; dsimp only; omega
    | ⟨1, _⟩ =>
      show win0_2.index ⟨8 * (i 0).val + 7, _⟩ 1 * 12 ≤ (i 1).val ∧ (i 1).val < win0_2.index ⟨8 * (i 0).val + 7, _⟩ 1 * 12 + 12
      rw [i1]; omega
    | ⟨2, _⟩ =>
      show win0_2.index ⟨8 * (i 0).val + 7, _⟩ 2 * 16 ≤ (i 2).val ∧ (i 2).val < win0_2.index ⟨8 * (i 0).val + 7, _⟩ 2 * 16 + 16
      rw [i2]; omega

/-! ## Output window 3: the counts -/

/-- Where window 3's block sits: batch t / 8. -/
theorem idxO3 : ∀ t : Fin cfg0.N, win0_3.index t 0 = t.val / 8 ∧ win0_3.index t 1 = 0 ∧ win0_3.index t 2 = 0 :=
  (by decide +kernel : ∀ t : Fin grid0.N, win0_3.index t 0 = t.val / 8 ∧ win0_3.index t 1 = 0 ∧ win0_3.index t 2 = 0)

/-- An index of the array is in point `t`'s block iff each coordinate is in the block's range on its axis. -/
theorem mem_blk3 (t : Fin cfg0.N) (i : S8x12x1.Idx) :
    i ∈ ((cfg0.win 3).blk t).view.set ↔ ∀ a : Fin 3, win0_3.index t a * S1x12x1.size a ≤ (i a).val ∧ (i a).val < win0_3.index t a * S1x12x1.size a + S1x12x1.size a := by
  show i ∈ ((View.whole main_v2_1).slice (win0_3.rect t)).set ↔ _
  rw [View.set_slice_whole, Rect.mem_set_unit]
  exact Iff.rfl

/-- The counts array after the run: row b is what batch element b's eighth point left in the window's buffer. -/
def cntArr : Buf (Elt F) ((c : Thread nD τ).loc main_v2_1) :=
  fun i : S8x12x1.Idx =>
    (outsAt m c (8 * (i 0).val + 7) (by have h0 : (i 0).val < 8 := (i 0).isLt; have hN : cfg0.N = 64 := N_0; omega)).cnt
      (ix3 (0 : Fin 1) (⟨(i 1).val, (i 1).isLt⟩ : Fin 12) (⟨(i 2).val, (i 2).isLt⟩ : Fin 1))

/-- The write-back after a batch element's eighth point writes that row of the array. -/
theorem flushed3_eq (t : Fin cfg0.N) (hf : (cfg0.win 3).flush t = true) :
    (dats m 0 c).flushed 3 t = ((cfg0.win 3).blk t).view.read (Elt F) (cntArr m c) := by
  have hN : cfg0.N = 64 := N_0
  have h7 : t.val % 8 = 7 := (flush0_3 t).mp hf
  obtain ⟨i0, i1, i2⟩ := idxO3 t
  show (cfg0.win 3).cut (grid0.coords t) ((dats m 0 c).after 3 t) = _
  rw [after3]
  funext y
  rw [View.read_apply]
  show (outsAt m c t.val t.isLt).cnt y = cntArr m c (((cfg0.win 3).blk t).view.emb y)
  have hy0 : (y 0).val < 1 := (y 0).isLt
  have e0 : ((((cfg0.win 3).blk t).view.emb y) 0).val = t.val / 8 := by
    show win0_3.index t 0 * 1 + 1 * (y 0).val = t.val / 8
    rw [i0]; omega
  have e1 : ((((cfg0.win 3).blk t).view.emb y) 1).val = (y 1).val := by
    show win0_3.index t 1 * 12 + 1 * (y 1).val = (y 1).val
    rw [i1]; omega
  have e2 : ((((cfg0.win 3).blk t).view.emb y) 2).val = (y 2).val := by
    show win0_3.index t 2 * 1 + 1 * (y 2).val = (y 2).val
    rw [i2]; omega
  unfold cntArr
  refine cnt_congr m c _ _ _ _ (by rw [e0]; omega) _ _ (funext fun a => Fin.ext ?_)
  match a with
  | ⟨0, _⟩ => show (y 0).val = 0; omega
  | ⟨1, _⟩ => exact e1.symm
  | ⟨2, _⟩ => exact e2.symm

/-- After the run the array holds `cntArr`: the eight write-backs cover its eight rows. -/
theorem final_cnt : (dats m 0 c).arrAt 3 cfg0.N = cntArr m c :=
  (dats m 0 c).arrAt_eq_of_cover 3 (cntArr m c) (flushed3_eq m c) fun i => by
    have hN : cfg0.N = 64 := N_0
    have h0 : (i 0 : Nat) < 8 := (i 0).isLt
    have h1 : (i 1 : Nat) < 12 := (i 1).isLt
    have h2 : (i 2 : Nat) < 1 := (i 2).isLt
    refine ⟨⟨8 * (i 0).val + 7, by omega⟩, (flush0_3 _).mpr (by show (8 * (i 0).val + 7) % 8 = 7; omega), ?_⟩
    obtain ⟨i0, i1, i2⟩ := idxO3 ⟨8 * (i 0).val + 7, by omega⟩
    rw [mem_blk3]
    intro a
    match a with
    | ⟨0, _⟩ =>
      show win0_3.index ⟨8 * (i 0).val + 7, _⟩ 0 * 1 ≤ (i 0).val ∧ (i 0).val < win0_3.index ⟨8 * (i 0).val + 7, _⟩ 0 * 1 + 1
      rw [i0]; dsimp only; omega
    | ⟨1, _⟩ =>
      show win0_3.index ⟨8 * (i 0).val + 7, _⟩ 1 * 12 ≤ (i 1).val ∧ (i 1).val < win0_3.index ⟨8 * (i 0).val + 7, _⟩ 1 * 12 + 12
      rw [i1]; omega
    | ⟨2, _⟩ =>
      show win0_3.index ⟨8 * (i 0).val + 7, _⟩ 2 * 1 ≤ (i 2).val ∧ (i 2).val < win0_3.index ⟨8 * (i 0).val + 7, _⟩ 2 * 1 + 1
      rw [i2]; omega

/-! ## Output window 4: the pull -/

/-- Where window 4's block sits: batch t / 8. -/
theorem idxO4 : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)

/-- An index of the array is in point `t`'s block iff each coordinate is in the block's range on its axis. -/
theorem mem_blk4 (t : Fin cfg0.N) (i : S8x12x1.Idx) :
    i ∈ ((cfg0.win 4).blk t).view.set ↔ ∀ a : Fin 3, win0_4.index t a * S1x12x1.size a ≤ (i a).val ∧ (i a).val < win0_4.index t a * S1x12x1.size a + S1x12x1.size a := by
  show i ∈ ((View.whole main_v2_2).slice (win0_4.rect t)).set ↔ _
  rw [View.set_slice_whole, Rect.mem_set_unit]
  exact Iff.rfl

/-- The pull array after the run: row b is what batch element b's eighth point left in the window's buffer. -/
def pulArr : Buf (Elt F) ((c : Thread nD τ).loc main_v2_2) :=
  fun i : S8x12x1.Idx =>
    (outsAt m c (8 * (i 0).val + 7) (by have h0 : (i 0).val < 8 := (i 0).isLt; have hN : cfg0.N = 64 := N_0; omega)).pul
      (ix3 (0 : Fin 1) (⟨(i 1).val, (i 1).isLt⟩ : Fin 12) (⟨(i 2).val, (i 2).isLt⟩ : Fin 1))

/-- The write-back after a batch element's eighth point writes that row of the array. -/
theorem flushed4_eq (t : Fin cfg0.N) (hf : (cfg0.win 4).flush t = true) :
    (dats m 0 c).flushed 4 t = ((cfg0.win 4).blk t).view.read (Elt F) (pulArr m c) := by
  have hN : cfg0.N = 64 := N_0
  have h7 : t.val % 8 = 7 := (flush0_4 t).mp hf
  obtain ⟨i0, i1, i2⟩ := idxO4 t
  show (cfg0.win 4).cut (grid0.coords t) ((dats m 0 c).after 4 t) = _
  rw [after4]
  funext y
  rw [View.read_apply]
  show (outsAt m c t.val t.isLt).pul y = pulArr m c (((cfg0.win 4).blk t).view.emb y)
  have hy0 : (y 0).val < 1 := (y 0).isLt
  have e0 : ((((cfg0.win 4).blk t).view.emb y) 0).val = t.val / 8 := by
    show win0_4.index t 0 * 1 + 1 * (y 0).val = t.val / 8
    rw [i0]; omega
  have e1 : ((((cfg0.win 4).blk t).view.emb y) 1).val = (y 1).val := by
    show win0_4.index t 1 * 12 + 1 * (y 1).val = (y 1).val
    rw [i1]; omega
  have e2 : ((((cfg0.win 4).blk t).view.emb y) 2).val = (y 2).val := by
    show win0_4.index t 2 * 1 + 1 * (y 2).val = (y 2).val
    rw [i2]; omega
  unfold pulArr
  refine pul_congr m c _ _ _ _ (by rw [e0]; omega) _ _ (funext fun a => Fin.ext ?_)
  match a with
  | ⟨0, _⟩ => show (y 0).val = 0; omega
  | ⟨1, _⟩ => exact e1.symm
  | ⟨2, _⟩ => exact e2.symm

/-- After the run the array holds `pulArr`: the eight write-backs cover its eight rows. -/
theorem final_pul : (dats m 0 c).arrAt 4 cfg0.N = pulArr m c :=
  (dats m 0 c).arrAt_eq_of_cover 4 (pulArr m c) (flushed4_eq m c) fun i => by
    have hN : cfg0.N = 64 := N_0
    have h0 : (i 0 : Nat) < 8 := (i 0).isLt
    have h1 : (i 1 : Nat) < 12 := (i 1).isLt
    have h2 : (i 2 : Nat) < 1 := (i 2).isLt
    refine ⟨⟨8 * (i 0).val + 7, by omega⟩, (flush0_4 _).mpr (by show (8 * (i 0).val + 7) % 8 = 7; omega), ?_⟩
    obtain ⟨i0, i1, i2⟩ := idxO4 ⟨8 * (i 0).val + 7, by omega⟩
    rw [mem_blk4]
    intro a
    match a with
    | ⟨0, _⟩ =>
      show win0_4.index ⟨8 * (i 0).val + 7, _⟩ 0 * 1 ≤ (i 0).val ∧ (i 0).val < win0_4.index ⟨8 * (i 0).val + 7, _⟩ 0 * 1 + 1
      rw [i0]; dsimp only; omega
    | ⟨1, _⟩ =>
      show win0_4.index ⟨8 * (i 0).val + 7, _⟩ 1 * 12 ≤ (i 1).val ∧ (i 1).val < win0_4.index ⟨8 * (i 0).val + 7, _⟩ 1 * 12 + 12
      rw [i1]; omega
    | ⟨2, _⟩ =>
      show win0_4.index ⟨8 * (i 0).val + 7, _⟩ 2 * 1 ≤ (i 2).val ∧ (i 2).val < win0_4.index ⟨8 * (i 0).val + 7, _⟩ 2 * 1 + 1
      rw [i2]; omega

/-! ## The arrays at an index -/

theorem cenArr_apply (b : Fin 8) (cc : Fin 12) (n : Fin 16) :
    cenArr m c (ix3 b cc n)
      = (outsAt m c (8 * b.val + 7) (by have := b.isLt; have hN : cfg0.N = 64 := N_0; omega)).cen (ix3 (0 : Fin 1) cc n) := rfl

theorem cntArr_apply (b : Fin 8) (cc : Fin 12) :
    cntArr m c (ix3 b cc (0 : Fin 1))
      = (outsAt m c (8 * b.val + 7) (by have := b.isLt; have hN : cfg0.N = 64 := N_0; omega)).cnt (ix3 (0 : Fin 1) cc (0 : Fin 1)) := rfl

theorem pulArr_apply (b : Fin 8) (cc : Fin 12) :
    pulArr m c (ix3 b cc (0 : Fin 1))
      = (outsAt m c (8 * b.val + 7) (by have := b.isLt; have hN : cfg0.N = 64 := N_0; omega)).pul (ix3 (0 : Fin 1) cc (0 : Fin 1)) := rfl

end Cert.KernelIdeal.Frm

end
-- ==== Proof.KerChainSum.lean ====
/-
  A sum over the 235520 pixels of one batch element splits into the four tiles of 58880 pixels: pixel p = 58880·k + q.
  An accumulator that starts at 0 and gains one tile's sum per step therefore ends at the whole sum.
-/
import Mathlib.Algebra.BigOperators.Fin
import Mathlib.Data.Fintype.BigOperators
import Mathlib.Logic.Equiv.Fin.Basic

open scoped BigOperators

namespace Cert.KerBody

/-- Pixel q of tile k among the batch element's 235520 pixels. -/
def pix (k : Fin 4) (q : Fin 58880) : Fin 235520 :=
  ⟨58880 * k.val + q.val, by have := k.isLt; have := q.isLt; omega⟩

theorem pix_val (k : Fin 4) (q : Fin 58880) : (pix k q).val = 58880 * k.val + q.val := rfl

/-- The sum over all pixels is the sum over the tiles of the sums over a tile's pixels. -/
theorem sum_pix {M : Type*} [AddCommMonoid M] (g : Fin 235520 → M) :
    ∑ p : Fin 235520, g p = ∑ k : Fin 4, ∑ q : Fin 58880, g (pix k q) := by
  have h := Equiv.sum_comp (finProdFinEquiv : Fin 4 × Fin 58880 ≃ Fin (4 * 58880)) (g : Fin (4 * 58880) → M)
  rw [Fintype.sum_prod_type] at h
  refine h.symm.trans ?_
  refine Finset.sum_congr rfl fun k _ => Finset.sum_congr rfl fun q _ => congrArg g (Fin.ext ?_)
  show q.val + 58880 * k.val = 58880 * k.val + q.val
  omega

/-- Four accumulation steps from 0, the k-th adding tile k's sum, give the sum over all pixels. -/
theorem chain4 {M : Type*} [AddCommMonoid M] (g : Fin 235520 → M) {s0 s1 s2 s3 : M}
    (h0 : s0 = ∑ q : Fin 58880, g (pix 0 q)) (h1 : s1 = ∑ q : Fin 58880, g (pix 1 q))
    (h2 : s2 = ∑ q : Fin 58880, g (pix 2 q)) (h3 : s3 = ∑ q : Fin 58880, g (pix 3 q)) :
    0 + s0 + s1 + s2 + s3 = ∑ p : Fin 235520, g p := by
  rw [sum_pix, Fin.sum_univ_four, zero_add, h0, h1, h2, h3]

end Cert.KerBody
-- ==== Proof.KI.Blocks.lean ====
/-
  The blocks the two input windows read, at an index. The point at position t is batch element t / 8 and tile t % 4 (the
  phase does not move the input windows), so the feature block there is the [16,58880] slab of the reshaped feature map
  at batch t / 8 and pixels 58880·(t % 4) …, and the label block the matching slab of the reshaped labels.
-/
import proofs.«106792_j1022202216835_2_alg».proof.Proof.KI.Kit
import Idealize.ShloMosaic.Lib.Pipeline.Value
import Idealize.ShloMosaic.Lib.ValueIdx
import Idealize.ShloMosaic.Lib.StableHlo.Run
import proofs.«106792_j1022202216835_2_alg».proof.Proof.KerChainSum

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx

variable (c : Dev nD)

/-- The reshaped feature map [8,16,235520] the region reads: the first reshape's result. -/
theorem V_feat : (V m c main_v0 : S8x16x235520.Idx → Elt F .f32)
    = shapeCast S8x16x235520 (m ((c : Thread nD τ).loc main_arg0)) shapeCasts_S8x16x368x640_S8x16x235520 := by
  show StableHlo.after (List.flatten [hostOps0]) (fun b => m (c, b)) (Proc.devRef .tc main_v0) = _
  simp only [hostOps0, List.flatten_cons, List.flatten_nil, List.append_nil]
  after_results
  rfl

/-- The reshaped labels [8,1,235520]: the second reshape's result. -/
theorem V_lab : (V m c main_v1 : S8x1x235520.Idx → Elt F .i32)
    = shapeCast S8x1x235520 (m ((c : Thread nD τ).loc main_arg1)) shapeCasts_S8x1x368x640_S8x1x235520 := by
  show StableHlo.after (List.flatten [hostOps0]) (fun b => m (c, b)) (Proc.devRef .tc main_v1) = _
  simp only [hostOps0, List.flatten_cons, List.flatten_nil, List.append_nil]
  after_results
  rfl

/-- Where the input windows' blocks sit: batch t / 8, tile t % 4. -/
theorem idx0 : ∀ t : Fin cfg0.N, win0_0.index t 0 = t.val / 8 ∧ win0_0.index t 1 = 0 ∧ win0_0.index t 2 = t.val % 4 :=
  (by decide +kernel : ∀ t : Fin grid0.N, win0_0.index t 0 = t.val / 8 ∧ win0_0.index t 1 = 0 ∧ win0_0.index t 2 = t.val % 4)
theorem idx1 : ∀ t : Fin cfg0.N, win0_1.index t 0 = t.val / 8 ∧ win0_1.index t 1 = 0 ∧ win0_1.index t 2 = t.val % 4 :=
  (by decide +kernel : ∀ t : Fin grid0.N, win0_1.index t 0 = t.val / 8 ∧ win0_1.index t 1 = 0 ∧ win0_1.index t 2 = t.val % 4)

/-- The feature block at point `t`, at channel `n` and position `q`. -/
theorem iblk0_apply (t : Fin cfg0.N) (n : Fin 16) (q : Fin 58880) :
    (iblk m c 0 t : Vec F S1x16x58880 .f32) (ix3 (0 : Fin 1) n q)
      = (V m c main_v0 : S8x16x235520.Idx → Elt F .f32)
          (ix3 (⟨t.val / 8, by have := t.isLt; have hN : cfg0.N = 64 := N_0; omega⟩ : Fin 8) n (Cert.KerBody.pix ⟨t.val % 4, Nat.mod_lt _ (by decide)⟩ q)) := by
  obtain ⟨h0, h1, h2⟩ := idx0 t
  unfold iblk
  rw [View.read_apply]
  show V m c main_v0 _ = V m c main_v0 _
  refine congrArg _ ?_
  funext a
  apply Fin.ext
  match a with
  | ⟨0, _⟩ => show win0_0.index t 0 * 1 + 1 * 0 = t.val / 8; rw [h0]; omega
  | ⟨1, _⟩ => show win0_0.index t 1 * 16 + 1 * n.val = n.val; rw [h1]; omega
  | ⟨2, _⟩ => show win0_0.index t 2 * 58880 + 1 * q.val = 58880 * (t.val % 4) + q.val; rw [h2]; omega

/-- The label block at point `t`, at position `q`. -/
theorem iblk1_apply (t : Fin cfg0.N) (q : Fin 58880) :
    (iblk m c 1 t : Vec F S1x1x58880 .i32) (ix3 (0 : Fin 1) (0 : Fin 1) q)
      = (V m c main_v1 : S8x1x235520.Idx → Elt F .i32)
          (ix3 (⟨t.val / 8, by have := t.isLt; have hN : cfg0.N = 64 := N_0; omega⟩ : Fin 8) (0 : Fin 1) (Cert.KerBody.pix ⟨t.val % 4, Nat.mod_lt _ (by decide)⟩ q)) := by
  obtain ⟨h0, h1, h2⟩ := idx1 t
  unfold iblk
  rw [View.read_apply]
  show V m c main_v1 _ = V m c main_v1 _
  refine congrArg _ ?_
  funext a
  apply Fin.ext
  match a with
  | ⟨0, _⟩ => show win0_1.index t 0 * 1 + 1 * 0 = t.val / 8; rw [h0]; omega
  | ⟨1, _⟩ => show win0_1.index t 1 * 1 + 1 * 0 = 0; rw [h1]
  | ⟨2, _⟩ => show win0_1.index t 2 * 58880 + 1 * q.val = 58880 * (t.val % 4) + q.val; rw [h2]; omega

end Cert.KernelIdeal.Frm

end
-- ==== Proof.KI.Vals.lean ====
/-
  What each case's stores leave, as the body's arithmetic. Every store of the body writes a whole buffer, so a buffer ends at
  the payload of its last store, and a load that follows a store reads that store's payload. Hence: phase 0 adds the tile's
  counts and masked feature sums to what the blocks held (zero at the first tile), the last tile of phase 0 divides the
  sums by the clamped counts and keeps the squared norms of the quotients, and phase 1 adds the tile's hinge sum to the
  pull block (zero at its first tile).
-/
import proofs.«106792_j1022202216835_2_alg».proof.Proof.KI.Outs
import Idealize.ShloMosaic.Lib.Pipeline.Value

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD)

theorem hz3 : (![0, 0, 0] : Fin 3 → Nat) = fun _ => 0 := funext fun a => by fin_cases a <;> rfl

/-- A load of a whole buffer after stores the last of which wrote the whole buffer reads that store's payload. -/
theorem readCov_cons_unit_zero {Val : EltTy → Type} [∀ e, Nonempty (Val e)] {S : Shape} {e : EltTy}
    {sig' : RefSig} {κ : Kind} {sp : Space} (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

theorem valB_cen (t : Fin cfg0.N) (h) (x0) (x1) (y2) (y3) :
    back16 (rB (F := F) c t h x0 x1 y2 y3).1 = k0_pay6 x0 x1 y2 := by
  show VC.read (Elt F) (VC.writes (Elt F) VC.junk _) = _
  rw [View.read_writes_eq_canon _ _ _ (coverB2 c t h x0 x1 y2 y3)]
  unfold rB runB
  dsimp only
  sl_unfold_words
  simp only [View.canon_cons_unit_zero (S := S1x12x16) hz3, View.canon_unit_zero (S := S1x12x16) hz3]
  simp only [View.readAt_eq_ld, (hs0 t).read_unread, (hs1 t).read_unread, (hs2 t).read_unread, (hs3 t).read_unread,
    View.ld_unit_zero (S := S1x16x58880) hz3, View.ld_unit_zero (S := S1x1x58880) hz3, View.ld_unit_zero (S := S1x12x16) hz3, View.ld_unit_zero (S := S1x12x1) hz3]

theorem valB_cnt (t : Fin cfg0.N) (h) (x0) (x1) (y2) (y3) :
    back1 (rB (F := F) c t h x0 x1 y2 y3).2.1 = k0_pay7 x1 y3 := by
  show VS.read (Elt F) (VS.writes (Elt F) VS.junk _) = _
  rw [View.read_writes_eq_canon _ _ _ (coverB3 c t h x0 x1 y2 y3)]
  unfold rB runB
  dsimp only
  sl_unfold_words
  simp only [View.canon_cons_unit_zero (S := S1x12x1) hz3, View.canon_unit_zero (S := S1x12x1) hz3]
  simp only [View.readAt_eq_ld, (hs0 t).read_unread, (hs1 t).read_unread, (hs2 t).read_unread, (hs3 t).read_unread,
    View.ld_unit_zero (S := S1x16x58880) hz3, View.ld_unit_zero (S := S1x1x58880) hz3, View.ld_unit_zero (S := S1x12x16) hz3, View.ld_unit_zero (S := S1x12x1) hz3]

theorem valA_cen (t : Fin cfg0.N) (h) (x0) (x1) :
    back16 (rA (F := F) c t h x0 x1).1 = k0_pay6 x0 x1 (k0_pay4 (F := F)) := by
  show VC.read (Elt F) (VC.writes (Elt F) VC.junk _) = _
  rw [View.read_writes_eq_canon _ _ _ (coverA2 c t h x0 x1)]
  unfold rA runA
  dsimp only
  sl_unfold_words
  simp only [View.canon_cons_unit_zero (S := S1x12x16) hz3, View.canon_unit_zero (S := S1x12x16) hz3,
    readCov_cons_unit_zero (S := S1x12x16) _ hz3, View.readCov_unit_zero (S := S1x12x16) _ hz3,
    readCov_cons_unit_zero (S := S1x12x1) _ hz3, View.readCov_unit_zero (S := S1x12x1) _ hz3]
  simp only [View.readAt_eq_ld, (hs0 t).read_unread, (hs1 t).read_unread,
    View.ld_unit_zero (S := S1x16x58880) hz3, View.ld_unit_zero (S := S1x1x58880) hz3, View.ld_unit_zero (S := S1x12x16) hz3, View.ld_unit_zero (S := S1x12x1) hz3]

theorem valA_cnt (t : Fin cfg0.N) (h) (x0) (x1) :
    back1 (rA (F := F) c t h x0 x1).2.1 = k0_pay7 x1 (k0_pay5 (F := F)) := by
  show VS.read (Elt F) (VS.writes (Elt F) VS.junk _) = _
  rw [View.read_writes_eq_canon _ _ _ (coverA3 c t h x0 x1)]
  unfold rA runA
  dsimp only
  sl_unfold_words
  simp only [View.canon_cons_unit_zero (S := S1x12x1) hz3, View.canon_unit_zero (S := S1x12x1) hz3,
    readCov_cons_unit_zero (S := S1x12x16) _ hz3, View.readCov_unit_zero (S := S1x12x16) _ hz3,
    readCov_cons_unit_zero (S := S1x12x1) _ hz3, View.readCov_unit_zero (S := S1x12x1) _ hz3]
  simp only [View.readAt_eq_ld, (hs0 t).read_unread, (hs1 t).read_unread,
    View.ld_unit_zero (S := S1x16x58880) hz3, View.ld_unit_zero (S := S1x1x58880) hz3, View.ld_unit_zero (S := S1x12x16) hz3, View.ld_unit_zero (S := S1x12x1) hz3]

theorem valC_cnt (t : Fin cfg0.N) (h) (x0) (x1) (y2) (y3) :
    back1 (rC (F := F) c t h x0 x1 y2 y3).2.1 = k0_pay7 x1 y3 := by
  show VS.read (Elt F) (VS.writes (Elt F) VS.junk _) = _
  rw [View.read_writes_eq_canon _ _ _ (coverC3 c t h x0 x1 y2 y3)]
  unfold rC runC
  dsimp only
  sl_unfold_words
  simp only [View.canon_cons_unit_zero (S := S1x12x1) hz3, View.canon_unit_zero (S := S1x12x1) hz3,
    readCov_cons_unit_zero (S := S1x12x16) _ hz3, View.readCov_unit_zero (S := S1x12x16) _ hz3,
    readCov_cons_unit_zero (S := S1x12x1) _ hz3, View.readCov_unit_zero (S := S1x12x1) _ hz3]
  simp only [View.readAt_eq_ld, (hs0 t).read_unread, (hs1 t).read_unread, (hs2 t).read_unread, (hs3 t).read_unread,
    View.ld_unit_zero (S := S1x16x58880) hz3, View.ld_unit_zero (S := S1x1x58880) hz3, View.ld_unit_zero (S := S1x12x16) hz3, View.ld_unit_zero (S := S1x12x1) hz3]

theorem valC_cen (t : Fin cfg0.N) (h) (x0) (x1) (y2) (y3) :
    back16 (rC (F := F) c t h x0 x1 y2 y3).1 = k0_pay8 (k0_pay7 x1 y3) (k0_pay6 x0 x1 y2) := by
  show VC.read (Elt F) (VC.writes (Elt F) VC.junk _) = _
  rw [View.read_writes_eq_canon _ _ _ (coverC2 c t h x0 x1 y2 y3)]
  unfold rC runC
  dsimp only
  sl_unfold_words
  simp only [View.canon_cons_unit_zero (S := S1x12x16) hz3, View.canon_unit_zero (S := S1x12x16) hz3,
    readCov_cons_unit_zero (S := S1x12x16) _ hz3, View.readCov_unit_zero (S := S1x12x16) _ hz3,
    readCov_cons_unit_zero (S := S1x12x1) _ hz3, View.readCov_unit_zero (S := S1x12x1) _ hz3]
  simp only [View.readAt_eq_ld, (hs0 t).read_unread, (hs1 t).read_unread, (hs2 t).read_unread, (hs3 t).read_unread,
    View.ld_unit_zero (S := S1x16x58880) hz3, View.ld_unit_zero (S := S1x1x58880) hz3, View.ld_unit_zero (S := S1x12x16) hz3, View.ld_unit_zero (S := S1x12x1) hz3]

theorem valC_scr (t : Fin cfg0.N) (h) (x0) (x1) (y2) (y3) :
    back1 (rC (F := F) c t h x0 x1 y2 y3).2.2.1
      = k0_pay9 (k0_pay8 (k0_pay7 x1 y3) (k0_pay6 x0 x1 y2)) (k0_pay8 (k0_pay7 x1 y3) (k0_pay6 x0 x1 y2)) := by
  show VS.read (Elt F) (VS.writes (Elt F) VS.junk _) = _
  rw [View.read_writes_eq_canon _ _ _ (coverCS c t h x0 x1 y2 y3)]
  unfold rC runC
  dsimp only
  sl_unfold_words
  simp only [View.canon_cons_unit_zero (S := S1x12x1) hz3, View.canon_unit_zero (S := S1x12x1) hz3,
    readCov_cons_unit_zero (S := S1x12x16) _ hz3, View.readCov_unit_zero (S := S1x12x16) _ hz3,
    readCov_cons_unit_zero (S := S1x12x1) _ hz3, View.readCov_unit_zero (S := S1x12x1) _ hz3]
  simp only [View.readAt_eq_ld, (hs0 t).read_unread, (hs1 t).read_unread, (hs2 t).read_unread, (hs3 t).read_unread,
    View.ld_unit_zero (S := S1x16x58880) hz3, View.ld_unit_zero (S := S1x1x58880) hz3, View.ld_unit_zero (S := S1x12x16) hz3, View.ld_unit_zero (S := S1x12x1) hz3]

theorem valD_pul (t : Fin cfg0.N) (h) (x0) (x1) (y2) (ys) :
    back1 (rD (F := F) c t h x0 x1 y2 ys).1 = k0_pay1 (k0_pay2 x0) (k0_pay3 x1) y2 ys (k0_pay10 (F := F)) := by
  show VS.read (Elt F) (VS.writes (Elt F) VS.junk _) = _
  rw [View.read_writes_eq_canon _ _ _ (coverD4 c t h x0 x1 y2 ys)]
  unfold rD runD
  dsimp only
  sl_unfold_words
  simp only [View.canon_cons_unit_zero (S := S1x12x1) hz3, View.canon_unit_zero (S := S1x12x1) hz3,
    readCov_cons_unit_zero (S := S1x12x16) _ hz3, View.readCov_unit_zero (S := S1x12x16) _ hz3,
    readCov_cons_unit_zero (S := S1x12x1) _ hz3, View.readCov_unit_zero (S := S1x12x1) _ hz3]
  simp only [View.readAt_eq_ld, (hs0 t).read_unread, (hs1 t).read_unread, (hs2 t).read_unread, (Memref.isWhole_whole (cc0_scratch0 : Ref sig .tc)).read_unread,
    View.ld_unit_zero (S := S1x16x58880) hz3, View.ld_unit_zero (S := S1x1x58880) hz3, View.ld_unit_zero (S := S1x12x16) hz3, View.ld_unit_zero (S := S1x12x1) hz3]

theorem valE_pul (t : Fin cfg0.N) (h) (x0) (x1) (y2) (ys) (y4) :
    back1 (rE (F := F) c t h x0 x1 y2 ys y4).1 = k0_pay1 (k0_pay2 x0) (k0_pay3 x1) y2 ys y4 := by
  show VS.read (Elt F) (VS.writes (Elt F) VS.junk _) = _
  rw [View.read_writes_eq_canon _ _ _ (coverE4 c t h x0 x1 y2 ys y4)]
  unfold rE runE
  dsimp only
  sl_unfold_words
  simp only [View.canon_cons_unit_zero (S := S1x12x1) hz3, View.canon_unit_zero (S := S1x12x1) hz3,
    readCov_cons_unit_zero (S := S1x12x16) _ hz3, View.readCov_unit_zero (S := S1x12x16) _ hz3,
    readCov_cons_unit_zero (S := S1x12x1) _ hz3, View.readCov_unit_zero (S := S1x12x1) _ hz3]
  simp only [View.readAt_eq_ld, (hs0 t).read_unread, (hs1 t).read_unread, (hs2 t).read_unread, (hs4 t).read_unread, (Memref.isWhole_whole (cc0_scratch0 : Ref sig .tc)).read_unread,
    View.ld_unit_zero (S := S1x16x58880) hz3, View.ld_unit_zero (S := S1x1x58880) hz3, View.ld_unit_zero (S := S1x12x16) hz3, View.ld_unit_zero (S := S1x12x1) hz3]

end Cert.KernelIdeal.Frm

end
-- ==== Proof.KI.Batch.lean ====
/-
  The eight points of one batch element, unrolled. The points 8b, …, 8b+7 run the cases A B B C D E E E. Phase 0
  accumulates over the four tiles the counts (each tile adds its mask's row sums to what the block held, zero at the
  first tile) and the masked feature sums; at the fourth tile the sums are divided by the clamped counts, which gives
  the centres, and the squared norms of the centres go to the scratch. Phase 1 accumulates over the four tiles the
  hinge sums against those centres and squared norms (zero at its first tile). What the buffers hold after the eighth
  point is therefore a fixed composition of the body's arithmetic over the eight input blocks.
-/
import proofs.«106792_j1022202216835_2_alg».proof.Proof.KI.Vals
import proofs.«106792_j1022202216835_2_alg».proof.Proof.KI.Dats

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

variable (c : Dev nD)

/-! ## One point's effect, field by field, as the body's arithmetic -/

theorem stepA_cen (t : Fin cfg0.N) (h : t.val % 8 = 0) (prev : Outs F) :
    (stepOuts m c t prev).cen = k0_pay6 (iblk m c 0 t) (iblk m c 1 t) (k0_pay4 (F := F)) := by
  unfold stepOuts
  rw [dif_pos h]
  exact valA_cen c t h (iblk m c 0 t) (iblk m c 1 t)

theorem stepA_cnt (t : Fin cfg0.N) (h : t.val % 8 = 0) (prev : Outs F) :
    (stepOuts m c t prev).cnt = k0_pay7 (iblk m c 1 t) (k0_pay5 (F := F)) := by
  unfold stepOuts
  rw [dif_pos h]
  exact valA_cnt c t h (iblk m c 0 t) (iblk m c 1 t)

theorem stepB_cen (t : Fin cfg0.N) (h : t.val % 8 = 1 ∨ t.val % 8 = 2) (prev : Outs F) :
    (stepOuts m c t prev).cen = k0_pay6 (iblk m c 0 t) (iblk m c 1 t) prev.cen := by
  unfold stepOuts
  rw [dif_neg (by omega), dif_pos h]
  exact valB_cen c t h (iblk m c 0 t) (iblk m c 1 t) prev.cen prev.cnt

theorem stepB_cnt (t : Fin cfg0.N) (h : t.val % 8 = 1 ∨ t.val % 8 = 2) (prev : Outs F) :
    (stepOuts m c t prev).cnt = k0_pay7 (iblk m c 1 t) prev.cnt := by
  unfold stepOuts
  rw [dif_neg (by omega), dif_pos h]
  exact valB_cnt c t h (iblk m c 0 t) (iblk m c 1 t) prev.cen prev.cnt

theorem stepC_cnt (t : Fin cfg0.N) (h : t.val % 8 = 3) (prev : Outs F) :
    (stepOuts m c t prev).cnt = k0_pay7 (iblk m c 1 t) prev.cnt := by
  unfold stepOuts
  rw [dif_neg (by omega), dif_neg (by omega), dif_pos h]
  exact valC_cnt c t h (iblk m c 0 t) (iblk m c 1 t) prev.cen prev.cnt

theorem stepC_cen (t : Fin cfg0.N) (h : t.val % 8 = 3) (prev : Outs F) :
    (stepOuts m c t prev).cen
      = k0_pay8 (k0_pay7 (iblk m c 1 t) prev.cnt) (k0_pay6 (iblk m c 0 t) (iblk m c 1 t) prev.cen) := by
  unfold stepOuts
  rw [dif_neg (by omega), dif_neg (by omega), dif_pos h]
  exact valC_cen c t h (iblk m c 0 t) (iblk m c 1 t) prev.cen prev.cnt

theorem stepC_scr (t : Fin cfg0.N) (h : t.val % 8 = 3) (prev : Outs F) :
    (stepOuts m c t prev).scr
      = k0_pay9 (k0_pay8 (k0_pay7 (iblk m c 1 t) prev.cnt) (k0_pay6 (iblk m c 0 t) (iblk m c 1 t) prev.cen))
          (k0_pay8 (k0_pay7 (iblk m c 1 t) prev.cnt) (k0_pay6 (iblk m c 0 t) (iblk m c 1 t) prev.cen)) := by
  unfold stepOuts
  rw [dif_neg (by omega), dif_neg (by omega), dif_pos h]
  exact valC_scr c t h (iblk m c 0 t) (iblk m c 1 t) prev.cen prev.cnt

theorem stepD_pul (t : Fin cfg0.N) (h : t.val % 8 = 4) (prev : Outs F) :
    (stepOuts m c t prev).pul
      = k0_pay1 (k0_pay2 (iblk m c 0 t)) (k0_pay3 (iblk m c 1 t)) prev.cen prev.scr (k0_pay10 (F := F)) := by
  unfold stepOuts
  rw [dif_neg (by omega), dif_neg (by omega), dif_neg (by omega), dif_pos h]
  exact valD_pul c t h (iblk m c 0 t) (iblk m c 1 t) prev.cen prev.scr

theorem stepE_pul (t : Fin cfg0.N) (h : 5 ≤ t.val % 8) (prev : Outs F) :
    (stepOuts m c t prev).pul
      = k0_pay1 (k0_pay2 (iblk m c 0 t)) (k0_pay3 (iblk m c 1 t)) prev.cen prev.scr prev.pul := by
  unfold stepOuts
  rw [dif_neg (by omega), dif_neg (by omega), dif_neg (by omega), dif_neg (by omega)]
  exact valE_pul c t (by omega) (iblk m c 0 t) (iblk m c 1 t) prev.cen prev.scr prev.pul

/-! ## The eight points of batch element `b` -/

section Batch

variable (b : ℕ) (hb : 8 * b + 7 < cfg0.N)

/-- The `k`-th point of batch element `b`. -/
abbrev PB (k : ℕ) (hk : k ≤ 7) : Fin cfg0.N := ⟨8 * b + k, by omega⟩

/-- Its feature block. -/
abbrev XB (k : ℕ) (hk : k ≤ 7) : Vec F S1x16x58880 .f32 := iblk m c 0 (PB b hb k hk)
/-- Its label block. -/
abbrev LB (k : ℕ) (hk : k ≤ 7) : Vec F S1x1x58880 .i32 := iblk m c 1 (PB b hb k hk)

/-- The counts of the batch element: the four tiles' mask row sums, added up from zero. -/
def cntB : Vec F S1x12x1 .f32 :=
  k0_pay7 (LB m c b hb 3 (by omega)) (k0_pay7 (LB m c b hb 2 (by omega)) (k0_pay7 (LB m c b hb 1 (by omega)) (k0_pay7 (LB m c b hb 0 (by omega)) (k0_pay5 (F := F)))))

/-- The masked feature sums of the batch element: the four tiles' products, added up from zero. -/
def sumB : Vec F S1x12x16 .f32 :=
  k0_pay6 (XB m c b hb 3 (by omega)) (LB m c b hb 3 (by omega)) (k0_pay6 (XB m c b hb 2 (by omega)) (LB m c b hb 2 (by omega)) (k0_pay6 (XB m c b hb 1 (by omega)) (LB m c b hb 1 (by omega)) (k0_pay6 (XB m c b hb 0 (by omega)) (LB m c b hb 0 (by omega)) (k0_pay4 (F := F)))))

/-- The centres: the sums divided by the clamped counts. -/
def cenB : Vec F S1x12x16 .f32 := k0_pay8 (cntB m c b hb) (sumB m c b hb)

/-- The centres' squared norms. -/
def scrB : Vec F S1x12x1 .f32 := k0_pay9 (cenB m c b hb) (cenB m c b hb)

/-- One tile's hinge sum added to an accumulator. -/
def QB (k : ℕ) (hk : k ≤ 7) (acc : Vec F S1x12x1 .f32) : Vec F S1x12x1 .f32 :=
  k0_pay1 (k0_pay2 (XB m c b hb k hk)) (k0_pay3 (LB m c b hb k hk)) (cenB m c b hb) (scrB m c b hb) acc

/-- The pull sums: the four tiles' hinge sums, added up from zero. -/
def pulB : Vec F S1x12x1 .f32 :=
  QB m c b hb 7 (by omega) (QB m c b hb 6 (by omega) (QB m c b hb 5 (by omega) (QB m c b hb 4 (by omega) (k0_pay10 (F := F)))))

/-- The contents after a point are the point's effect on the contents after the point before. -/
theorem outsAt_succ (n : ℕ) (hn : n + 1 < cfg0.N) :
    outsAt m c (n + 1) hn = stepOuts m c ⟨n + 1, hn⟩ (outsAt m c n (Nat.lt_of_succ_lt hn)) := rfl

/-- After the first four points the counts block holds the batch element's counts … -/
theorem batch3_cnt : (outsAt m c (8 * b + 3) (by omega)).cnt = cntB m c b hb := by
  have n0 : (outsAt m c (8 * b + 0) (by omega)).cnt = k0_pay7 (LB m c b hb 0 (by omega)) (k0_pay5 (F := F)) :=
    (congrArg Outs.cnt (outsAt_step m c (PB b hb 0 (by omega)))).trans (stepA_cnt m c (PB b hb 0 (by omega)) (show (8 * b + 0) % 8 = 0 by omega) _)
  have n1 : (outsAt m c (8 * b + 1) (by omega)).cnt = k0_pay7 (LB m c b hb 1 (by omega)) (k0_pay7 (LB m c b hb 0 (by omega)) (k0_pay5 (F := F))) :=
    (stepB_cnt m c (PB b hb 1 (by omega)) (show (8 * b + 1) % 8 = 1 ∨ (8 * b + 1) % 8 = 2 by omega) (outsAt m c (8 * b + 0) (by omega))).trans (congrArg (k0_pay7 (LB m c b hb 1 (by omega))) n0)
  have n2 : (outsAt m c (8 * b + 2) (by omega)).cnt = k0_pay7 (LB m c b hb 2 (by omega)) (k0_pay7 (LB m c b hb 1 (by omega)) (k0_pay7 (LB m c b hb 0 (by omega)) (k0_pay5 (F := F)))) :=
    (stepB_cnt m c (PB b hb 2 (by omega)) (show (8 * b + 2) % 8 = 1 ∨ (8 * b + 2) % 8 = 2 by omega) (outsAt m c (8 * b + 1) (by omega))).trans (congrArg (k0_pay7 (LB m c b hb 2 (by omega))) n1)
  exact (stepC_cnt m c (PB b hb 3 (by omega)) (show (8 * b + 3) % 8 = 3 by omega) (outsAt m c (8 * b + 2) (by omega))).trans (congrArg (k0_pay7 (LB m c b hb 3 (by omega))) n2)

/-- … the centres block the centres … -/
theorem batch3_cen : (outsAt m c (8 * b + 3) (by omega)).cen = cenB m c b hb := by
  have n0 : (outsAt m c (8 * b + 0) (by omega)).cnt = k0_pay7 (LB m c b hb 0 (by omega)) (k0_pay5 (F := F)) :=
    (congrArg Outs.cnt (outsAt_step m c (PB b hb 0 (by omega)))).trans (stepA_cnt m c (PB b hb 0 (by omega)) (show (8 * b + 0) % 8 = 0 by omega) _)
  have n1 : (outsAt m c (8 * b + 1) (by omega)).cnt = k0_pay7 (LB m c b hb 1 (by omega)) (k0_pay7 (LB m c b hb 0 (by omega)) (k0_pay5 (F := F))) :=
    (stepB_cnt m c (PB b hb 1 (by omega)) (show (8 * b + 1) % 8 = 1 ∨ (8 * b + 1) % 8 = 2 by omega) (outsAt m c (8 * b + 0) (by omega))).trans (congrArg (k0_pay7 (LB m c b hb 1 (by omega))) n0)
  have n2 : (outsAt m c (8 * b + 2) (by omega)).cnt = k0_pay7 (LB m c b hb 2 (by omega)) (k0_pay7 (LB m c b hb 1 (by omega)) (k0_pay7 (LB m c b hb 0 (by omega)) (k0_pay5 (F := F)))) :=
    (stepB_cnt m c (PB b hb 2 (by omega)) (show (8 * b + 2) % 8 = 1 ∨ (8 * b + 2) % 8 = 2 by omega) (outsAt m c (8 * b + 1) (by omega))).trans (congrArg (k0_pay7 (LB m c b hb 2 (by omega))) n1)
  have c0 : (outsAt m c (8 * b + 0) (by omega)).cen = k0_pay6 (XB m c b hb 0 (by omega)) (LB m c b hb 0 (by omega)) (k0_pay4 (F := F)) :=
    (congrArg Outs.cen (outsAt_step m c (PB b hb 0 (by omega)))).trans (stepA_cen m c (PB b hb 0 (by omega)) (show (8 * b + 0) % 8 = 0 by omega) _)
  have c1 : (outsAt m c (8 * b + 1) (by omega)).cen = k0_pay6 (XB m c b hb 1 (by omega)) (LB m c b hb 1 (by omega)) (k0_pay6 (XB m c b hb 0 (by omega)) (LB m c b hb 0 (by omega)) (k0_pay4 (F := F))) :=
    (stepB_cen m c (PB b hb 1 (by omega)) (show (8 * b + 1) % 8 = 1 ∨ (8 * b + 1) % 8 = 2 by omega) (outsAt m c (8 * b + 0) (by omega))).trans (congrArg (k0_pay6 (XB m c b hb 1 (by omega)) (LB m c b hb 1 (by omega))) c0)
  have c2 : (outsAt m c (8 * b + 2) (by omega)).cen = k0_pay6 (XB m c b hb 2 (by omega)) (LB m c b hb 2 (by omega)) (k0_pay6 (XB m c b hb 1 (by omega)) (LB m c b hb 1 (by omega)) (k0_pay6 (XB m c b hb 0 (by omega)) (LB m c b hb 0 (by omega)) (k0_pay4 (F := F)))) :=
    (stepB_cen m c (PB b hb 2 (by omega)) (show (8 * b + 2) % 8 = 1 ∨ (8 * b + 2) % 8 = 2 by omega) (outsAt m c (8 * b + 1) (by omega))).trans (congrArg (k0_pay6 (XB m c b hb 2 (by omega)) (LB m c b hb 2 (by omega))) c1)
  refine (stepC_cen m c (PB b hb 3 (by omega)) (show (8 * b + 3) % 8 = 3 by omega) (outsAt m c (8 * b + 2) (by omega))).trans ?_
  rw [n2, c2]
  rfl

/-- … and the scratch the centres' squared norms. -/
theorem batch3_scr : (outsAt m c (8 * b + 3) (by omega)).scr = scrB m c b hb := by
  have e := batch3_cen m c b hb
  have hs := stepC_scr m c (PB b hb 3 (by omega)) (show (8 * b + 3) % 8 = 3 by omega) (outsAt m c (8 * b + 2) (by omega))
  have hc := stepC_cen m c (PB b hb 3 (by omega)) (show (8 * b + 3) % 8 = 3 by omega) (outsAt m c (8 * b + 2) (by omega))
  rw [← hc] at hs
  refine hs.trans ?_
  show k0_pay9 (outsAt m c (8 * b + 3) (by omega)).cen (outsAt m c (8 * b + 3) (by omega)).cen = _
  rw [e]
  rfl

/-- The four points of phase 1 leave the centres, the counts and the scratch as they found them. -/
theorem batch_keep (k : ℕ) (hk4 : 4 ≤ k) (hk : k ≤ 7) :
    (outsAt m c (8 * b + k) (by omega)).cen = cenB m c b hb ∧ (outsAt m c (8 * b + k) (by omega)).cnt = cntB m c b hb
      ∧ (outsAt m c (8 * b + k) (by omega)).scr = scrB m c b hb := by
  obtain ⟨j, rfl⟩ : ∃ j, k = 4 + j := ⟨k - 4, by omega⟩
  induction j with
  | zero =>
    exact ⟨(step_cen_idle m c (PB b hb 4 (by omega)) (by show 4 ≤ (8 * b + 4) % 8; omega) (outsAt m c (8 * b + 3) (by omega))).trans (batch3_cen m c b hb),
      (step_cnt_idle m c (PB b hb 4 (by omega)) (by show 4 ≤ (8 * b + 4) % 8; omega) (outsAt m c (8 * b + 3) (by omega))).trans (batch3_cnt m c b hb),
      (step_scr_keep m c (PB b hb 4 (by omega)) (by show (8 * b + 4) % 8 ≠ 3; omega) (outsAt m c (8 * b + 3) (by omega))).trans (batch3_scr m c b hb)⟩
  | succ j ih =>
    have ih' := ih (by omega) (by omega)
    exact ⟨(step_cen_idle m c ⟨8 * b + (4 + (j + 1)), by omega⟩ (by show 4 ≤ (8 * b + (4 + (j + 1))) % 8; omega) (outsAt m c (8 * b + (4 + j)) (by omega))).trans ih'.1,
      (step_cnt_idle m c ⟨8 * b + (4 + (j + 1)), by omega⟩ (by show 4 ≤ (8 * b + (4 + (j + 1))) % 8; omega) (outsAt m c (8 * b + (4 + j)) (by omega))).trans ih'.2.1,
      (step_scr_keep m c ⟨8 * b + (4 + (j + 1)), by omega⟩ (by show (8 * b + (4 + (j + 1))) % 8 ≠ 3; omega) (outsAt m c (8 * b + (4 + j)) (by omega))).trans ih'.2.2⟩

/-- The pull block after the eighth point: the four tiles' hinge sums against the batch element's centres. -/
theorem batch_pul : (outsAt m c (8 * b + 7) hb).pul = pulB m c b hb := by
  have k4 := batch_keep m c b hb 4 (by omega) (by omega)
  have k5 := batch_keep m c b hb 5 (by omega) (by omega)
  have k6 := batch_keep m c b hb 6 (by omega) (by omega)
  have p4 : (outsAt m c (8 * b + 4) (by omega)).pul = QB m c b hb 4 (by omega) (k0_pay10 (F := F)) := by
    refine (stepD_pul m c (PB b hb 4 (by omega)) (show (8 * b + 4) % 8 = 4 by omega) (outsAt m c (8 * b + 3) (by omega))).trans ?_
    rw [batch3_cen m c b hb, batch3_scr m c b hb]
    rfl
  have p5 : (outsAt m c (8 * b + 5) (by omega)).pul = QB m c b hb 5 (by omega) (QB m c b hb 4 (by omega) (k0_pay10 (F := F))) := by
    refine (stepE_pul m c (PB b hb 5 (by omega)) (show 5 ≤ (8 * b + 5) % 8 by omega) (outsAt m c (8 * b + 4) (by omega))).trans ?_
    rw [k4.1, k4.2.2, p4]
    rfl
  have p6 : (outsAt m c (8 * b + 6) (by omega)).pul = QB m c b hb 6 (by omega) (QB m c b hb 5 (by omega) (QB m c b hb 4 (by omega) (k0_pay10 (F := F)))) := by
    refine (stepE_pul m c (PB b hb 6 (by omega)) (show 5 ≤ (8 * b + 6) % 8 by omega) (outsAt m c (8 * b + 5) (by omega))).trans ?_
    rw [k5.1, k5.2.2, p5]
    rfl
  refine (stepE_pul m c (PB b hb 7 (by omega)) (show 5 ≤ (8 * b + 7) % 8 by omega) (outsAt m c (8 * b + 6) (by omega))).trans ?_
  rw [k6.1, k6.2.2, p6]
  rfl

/-- What the four buffers hold after the eighth point of batch element `b`. -/
theorem batch_outs : outsAt m c (8 * b + 7) hb
    = { cen := cenB m c b hb, cnt := cntB m c b hb, pul := pulB m c b hb, scr := scrB m c b hb } := by
  have k7 := batch_keep m c b hb 7 (by omega) (by omega)
  have p7 := batch_pul m c b hb
  rw [← k7.1, ← k7.2.1, ← k7.2.2, ← p7]

end Batch

end Cert.KernelIdeal.Frm

end
-- ==== Proof.KerBodyLayout.lean ====
/-
  Layout steps of the kernel body read at an index given by coordinates: the keepdims column casts
  [a] → [a,1], [1,a] → [1,a,1], [1,a,1] → [a], the lane broadcast [1,a,1] → [1,a,b], and the body's three
  one-axis sums read as sums over the reduced coordinate.
-/
import proofs.«106792_j1022202216835_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KerBody

open Cert.KernelIdeal Cert.KernelIdeal.Gen Idealize.ShloMosaic Idealize.ShloMosaic.ValueIdx

variable {α : Type}

/-- A vector [a] cast to a column [a,1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A row [1,a] cast to [1,a,1] reads, at (u, i, w), the operand at (u, i). -/
theorem shapeCast_1a_1a1_apply {a : ℕ} (x : (⟨2, ![1, a]⟩ : Shape).Idx → α)
    (h : (⟨2, ![1, a]⟩ : Shape).ShapeCasts ⟨3, ![1, a, 1]⟩) (u : Fin 1) (i : Fin a) (w : Fin 1) :
    shapeCast ⟨3, ![1, a, 1]⟩ x h (ix3 u i w) = x (ix2 u i) :=
  shapeCast_apply x h _ _ (by
    have hw : w.val = 0 := by omega
    rw [Shape.rowMajor_val_three, Shape.rowMajor_val_two]
    show u.val * a + i.val = (u.val * a + i.val) * 1 + w.val
    rw [hw, Nat.mul_one, Nat.add_zero])

/-- A block [1,a,1] cast to a vector [a] reads, at i, the operand at (0, i, 0). -/
theorem shapeCast_1a1_a_apply {a : ℕ} (x : (⟨3, ![1, a, 1]⟩ : Shape).Idx → α)
    (h : (⟨3, ![1, a, 1]⟩ : Shape).ShapeCasts ⟨1, ![a]⟩) (i : Fin a) :
    shapeCast ⟨1, ![a]⟩ x h (ix1 i) = x (ix3 (0 : Fin 1) i (0 : Fin 1)) :=
  shapeCast_apply x h _ _ (by
    rw [Shape.rowMajor_val_three, Shape.rowMajor_val_one]
    show (0 * a + i.val) * 1 + 0 = i.val
    rw [Nat.zero_mul, Nat.zero_add, Nat.mul_one, Nat.add_zero])

/-- A block [1,a,1] broadcast along the lanes to [1,a,b] reads its row's one entry. -/
theorem broadcastTo_1a1_1ab_apply {a b : ℕ} (v : (⟨3, ![1, a, 1]⟩ : Shape).Idx → α)
    (h : (⟨3, ![1, a, 1]⟩ : Shape).Broadcasts ⟨3, ![1, a, b]⟩) (u : Fin 1) (p : Fin a) (c : Fin b) :
    broadcastTo ⟨3, ![1, a, b]⟩ v h (ix3 u p c) = v (ix3 (0 : Fin 1) p (0 : Fin 1)) := by
  refine broadcastTo_apply v h (ix3 u p c) (ix3 (0 : Fin 1) p (0 : Fin 1)) fun ax => ?_
  match ax with
  | ⟨0, _⟩ => rfl
  | ⟨1, _⟩ =>
    show p.val = if a = 1 then 0 else p.val
    split
    · have := p.isLt; omega
    · rfl
  | ⟨2, _⟩ => rfl

/-- The sum of a [12,58880] block along the lanes, at row c, is the sum over the pixels q of the entry (c, q). -/
theorem sum_lanes (v : FVec Ideal S12x58880 .f32) (c : Fin 12) :
    multiReduction .add [1] S12 v 0x00000000#32 reduces_S12x58880_S12 (.inl rfl) rfl (ix1 c)
      = ∑ q : Fin 58880, v (ix2 c q) := by
  refine (Ideal.multiReduction_add_single v 0x00000000#32 reduces_S12x58880_S12 (.inl rfl) rfl (ix1 c)).trans ?_
  show ∑ q : Fin 58880, v (reduces_S12x58880_S12.lift (ix1 c) q) = _
  refine Finset.sum_congr rfl fun q _ => congrArg v (funext fun ax => ?_)
  match ax with
  | ⟨0, _⟩ => rfl
  | ⟨1, _⟩ => rfl

/-- The sum of a [16,58880] block along the channels, at pixel q, is the sum over the channels n of the entry (n, q). -/
theorem sum_channels (v : FVec Ideal S16x58880 .f32) (q : Fin 58880) :
    multiReduction .add [0] S58880 v 0x00000000#32 reduces_S16x58880_S58880 (.inl rfl) rfl (ix1 q)
      = ∑ n : Fin 16, v (ix2 n q) := by
  refine (Ideal.multiReduction_add_single v 0x00000000#32 reduces_S16x58880_S58880 (.inl rfl) rfl (ix1 q)).trans ?_
  show ∑ n : Fin 16, v (reduces_S16x58880_S58880.lift (ix1 q) n) = _
  refine Finset.sum_congr rfl fun n _ => congrArg v (funext fun ax => ?_)
  match ax with
  | ⟨0, _⟩ => rfl
  | ⟨1, _⟩ => rfl

/-- The sum of a [1,12,16] block along its last axis, at (0, c), is the sum over n of the entry (0, c, n). -/
theorem sum_last (v : FVec Ideal S1x12x16 .f32) (c : Fin 12) :
    multiReduction .add [2] S1x12 v 0x00000000#32 reduces_S1x12x16_S1x12 (.inl rfl) rfl (ix2 (0 : Fin 1) c)
      = ∑ n : Fin 16, v (ix3 (0 : Fin 1) c n) := by
  refine (Ideal.multiReduction_add_single v 0x00000000#32 reduces_S1x12x16_S1x12 (.inl rfl) rfl (ix2 (0 : Fin 1) c)).trans ?_
  show ∑ n : Fin 16, v (reduces_S1x12x16_S1x12.lift (ix2 (0 : Fin 1) c) n) = _
  refine Finset.sum_congr rfl fun n _ => congrArg v (funext fun ax => ?_)
  match ax with
  | ⟨0, _⟩ => rfl
  | ⟨1, _⟩ => rfl
  | ⟨2, _⟩ => rfl

end Cert.KerBody

end
-- ==== Proof.KerBodyAcc.lean ====
/-
  The first phase's payloads read at an index, at the extended reals:
  the counts block accumulates the mask's row sums, the centers block is divided by max(counts, 1),
  and the squared norm of a center row is the sum over the 16 channels of its squares.
-/
import proofs.«106792_j1022202216835_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«106792_j1022202216835_2_alg».proof.Proof.KerBodyLayout

noncomputable section

open scoped BigOperators

namespace Cert.KerBody

open Cert.KernelIdeal Cert.KernelIdeal.Gen Idealize.ShloMosaic Idealize.ShloMosaic.ValueIdx

/-- The counts accumulator at row c: the previous count plus the number of pixels of the tile carrying instance c+1
    (the sum over the tile's pixels of the mask's row c). -/
theorem pay7_apply (x1 : Vec Ideal S1x1x58880 .i32) (y : Vec Ideal S1x12x1 .f32) (c : Fin 12) :
    k0_pay7 (F := Ideal) x1 y (ix3 (0 : Fin 1) c (0 : Fin 1))
      = y (ix3 (0 : Fin 1) c (0 : Fin 1)) + ∑ q : Fin 58880, k0_pay3 (F := Ideal) x1 (ix2 c q) := by
  unfold k0_pay7
  generalize k0_pay3 (F := Ideal) x1 = m
  refine (addf_apply _ _ _).trans ?_
  refine congrArg₂ (· + ·) (congrFun (shapeCast_self y _) _) ?_
  refine (shapeCast_ab_1ab_apply _ shapeCasts_S12x1_S1x12x1 0 c 0).trans ?_
  refine (shapeCast_a_a1_apply _ shapeCasts_S12_S12x1 c 0).trans ?_
  exact sum_lanes m c

/-- The normalised center at (c, n): the accumulated center divided by max(count, 1), the count read from the row's one entry. -/
theorem pay8_apply (cnt : Vec Ideal S1x12x1 .f32) (cen : Vec Ideal S1x12x16 .f32) (c : Fin 12) (n : Fin 16) :
    k0_pay8 (F := Ideal) cnt cen (ix3 (0 : Fin 1) c n)
      = Ideal.div (cen (ix3 (0 : Fin 1) c n))
          (max (cnt (ix3 (0 : Fin 1) c (0 : Fin 1))) (Ideal.ofBits .f32 0x3F800000#32)) := by
  unfold k0_pay8
  refine (divf_apply _ _ _).trans ?_
  refine congrArg₂ Ideal.div (congrFun (shapeCast_self cen _) _) ?_
  refine (broadcastTo_1a1_1ab_apply _ broadcasts_S1x12x1_S1x12x16 0 c n).trans ?_
  refine (maximumf_apply _ _ _).trans ?_
  exact congrArg₂ max (congrFun (shapeCast_self cnt _) _) rfl

/-- The row product sum at c: the sum over the 16 channels of the products of the two blocks' entries (c, n). -/
theorem pay9_apply (a b : Vec Ideal S1x12x16 .f32) (c : Fin 12) :
    k0_pay9 (F := Ideal) a b (ix3 (0 : Fin 1) c (0 : Fin 1))
      = ∑ n : Fin 16, a (ix3 (0 : Fin 1) c n) * b (ix3 (0 : Fin 1) c n) := by
  unfold k0_pay9
  refine (congrFun (shapeCast_self _ shapeCasts_S1x12x1_S1x12x1) _).trans ?_
  refine (shapeCast_1a_1a1_apply _ shapeCasts_S1x12_S1x12x1 0 c 0).trans ?_
  refine (sum_last _ c).trans ?_
  refine Finset.sum_congr rfl fun n _ => ?_
  refine (mulf_apply _ _ _).trans ?_
  exact congrArg₂ (· * ·) (congrFun (shapeCast_self a _) _) (congrFun (shapeCast_self b _) _)

end Cert.KerBody

end
-- ==== Proof.KerBodyMask.lean ====
/-
  The kernel body's two input views read at an index, at the extended reals.
  The feature block [1,16,58880] viewed as [16,58880] reads (0, n, q) at (n, q).
  The instance mask [12,58880] is 1 where the pixel's label equals the row's instance number c+1 and 0 elsewhere.
-/
import proofs.«106792_j1022202216835_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KerBody

open Cert.KernelIdeal Cert.KernelIdeal.Gen Idealize.ShloMosaic Idealize.ShloMosaic.ValueIdx

/-- The feature block viewed [16, 58880] reads the block at (0, n, q). -/
theorem pay2_apply (x0 : Vec Ideal S1x16x58880 .f32) (n : Fin 16) (q : Fin 58880) :
    k0_pay2 (F := Ideal) x0 (ix2 n q) = x0 (ix3 (0 : Fin 1) n q) := by
  unfold k0_pay2
  exact shapeCast_1ab_ab_apply x0 shapeCasts_S1x16x58880_S16x58880 n q

/-- A column [a,1] broadcast along the lanes to [a,b] reads its row's one entry. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The mask entry as a function of the pixel's label word and the row: 1 when the label is the row's instance number c+1. -/
def maskS (w : BitVec 32) (c : Fin 12) : EReal :=
  FloatOps.sitofp (F := Ideal) .f32 ((IntOp.cmpi .eq w (IntOp.addi (BitVec.ofNat 32 c.val) 1#32)).setWidth 32)

/-- The instance mask at (c, q) is `maskS` of the label at pixel q. -/
theorem pay3_apply (x1 : Vec Ideal S1x1x58880 .i32) (c : Fin 12) (q : Fin 58880) :
    k0_pay3 (F := Ideal) x1 (ix2 c q) = maskS (x1 (ix3 (0 : Fin 1) (0 : Fin 1) q)) c := by
  unfold k0_pay3 maskS
  have eA : broadcastTo S12x58880 (shapeCast S1x58880 (shapeCast S58880 x1 shapeCasts_S1x1x58880_S58880)
      shapeCasts_S58880_S1x58880) broadcasts_S1x58880_S12x58880 (ix2 c q) = x1 (ix3 (0 : Fin 1) (0 : Fin 1) q) := by
    refine (broadcastTo_1b_ab_apply _ broadcasts_S1x58880_S12x58880 c q).trans ?_
    refine (shapeCast_a_1a_apply _ shapeCasts_S58880_S1x58880 0 q).trans ?_
    exact shapeCast_apply x1 shapeCasts_S1x1x58880_S58880 (ix1 q) (ix3 (0 : Fin 1) (0 : Fin 1) q) (by
      rw [Shape.rowMajor_val_three, Shape.rowMajor_val_one]
      show (0 * 1 + 0) * 58880 + q.val = q.val
      omega)
  have eB : broadcastTo S12x58880 (addi (iota .tc S12x1 32 [0] iota_S12x1_d0_w32) (broadcast S12x1 1#32))
      broadcasts_S12x1_S12x58880 (ix2 c q) = IntOp.addi (BitVec.ofNat 32 c.val) 1#32 := by
    refine (broadcastTo_a1_ab_apply _ broadcasts_S12x1_S12x58880 c q).trans ?_
    show IntOp.addi (iota .tc S12x1 32 [0] iota_S12x1_d0_w32 (ix2 c (0 : Fin 1))) 1#32 = _
    rw [iota_single_apply]
  exact congrArg₂ (fun a b => FloatOps.sitofp (F := Ideal) .f32 ((IntOp.cmpi .eq a b).setWidth 32)) eA eB

/-- `maskS` is the indicator of "the label is c+1". -/
theorem maskS_eq (w : BitVec 32) (c : Fin 12) :
    maskS w c = if w = BitVec.ofNat 32 (c.val + 1) then 1 else 0 := by
  have e : IntOp.addi (BitVec.ofNat 32 c.val) 1#32 = BitVec.ofNat 32 (c.val + 1) := by
    unfold IntOp.addi
    exact (BitVec.ofNat_add c.val 1).symm
  unfold maskS
  rw [e]
  by_cases h : w = BitVec.ofNat 32 (c.val + 1)
  · rw [if_pos h]
    have h1 : IntOp.cmpi .eq w (BitVec.ofNat 32 (c.val + 1)) = 1#1 := by
      unfold IntOp.cmpi; simp [h]
    rw [h1]
    show (((BitVec.setWidth 32 1#1).toInt : ℝ) : EReal) = 1
    have h2 : (BitVec.setWidth 32 1#1).toInt = 1 := by decide
    rw [h2]; simp
  · rw [if_neg h]
    have h1 : IntOp.cmpi .eq w (BitVec.ofNat 32 (c.val + 1)) = 0#1 := by
      show BitVec.ofBool (w == BitVec.ofNat 32 (c.val + 1)) = 0#1
      rw [beq_eq_false_iff_ne.mpr h]; rfl
    rw [h1]
    show (((BitVec.setWidth 32 0#1).toInt : ℝ) : EReal) = 0
    have h2 : (BitVec.setWidth 32 0#1).toInt = 0 := by decide
    rw [h2]; simp

end Cert.KerBody

end
-- ==== Proof.KerBodyCen.lean ====
/-
  The centers accumulator read at an index, at the extended reals: the previous center entry plus the sum over the
  tile's pixels of mask(c, q) · feature(n, q). The product of the [12,58880] mask with the [16,58880] features,
  contracted over the pixel axis, is re-indexed through its one contraction coordinate.
-/
import proofs.«106792_j1022202216835_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«106792_j1022202216835_2_alg».proof.Proof.KerBodyMask
import proofs.«106792_j1022202216835_2_alg».proof.Proof.KerBodyLayout

noncomputable section

open scoped BigOperators

namespace Cert.KerBody

open Cert.KernelIdeal Cert.KernelIdeal.Gen Idealize.ShloMosaic Idealize.ShloMosaic.ValueIdx

/-- The dimension numbers of the mask-by-features product: both operands contracted on the pixel axis. -/
abbrev dotCen : DotDims S12x58880 S16x58880 S12x16 := dot_S12x58880_S16x58880_S12x16_1_1_0_0_n_n

theorem dotCen_lhs_0 (c : Fin 12) (n : Fin 16) (k : dotCen.contr.Idx) :
    (dotCen.lhsIdx (ix2 c n) k 0).val = c.val := by
  unfold DotDims.lhsIdx
  rw [dif_neg (show ¬(0 : Fin S12x58880.rank) ∈ dotCen.lhsBatch by decide),
    dif_pos (show (0 : Fin S12x58880.rank) ∈ dotCen.lhsNonContracting by decide)]
  rfl

theorem dotCen_rhs_0 (c : Fin 12) (n : Fin 16) (k : dotCen.contr.Idx) :
    (dotCen.rhsIdx (ix2 c n) k 0).val = n.val := by
  unfold DotDims.rhsIdx
  rw [dif_neg (show ¬(0 : Fin S16x58880.rank) ∈ dotCen.rhsBatch by decide),
    dif_pos (show (0 : Fin S16x58880.rank) ∈ dotCen.rhsNonContracting by decide)]
  rfl

/-- The product read at (c, n): the sum over the pixels q of left(c, q) · right(n, q). -/
theorem dotCen_apply (l : FVec Ideal S12x58880 .bf16) (r : FVec Ideal S16x58880 .bf16) (c : Fin 12) (n : Fin 16) :
    matmul dotCen none l r (constant S12x16 .f32 0x00000000#32) (ix2 c n)
      = ∑ q : Fin 58880, l (ix2 c q) * r (ix2 n q) := by
  refine (Ideal.matmul_constant_zero_apply dotCen none l r (ix2 c n)).trans ?_
  rw [← Equiv.sum_comp (contrEquiv1 dotCen 58880 rfl rfl).symm]
  refine Finset.sum_congr rfl fun q _ => ?_
  have hk := contrEquiv1_symm_val dotCen 58880 rfl rfl q
  have el : dotCen.lhsIdx (ix2 c n) ((contrEquiv1 dotCen 58880 rfl rfl).symm q) = ix2 c q :=
    funext fun a => Fin.ext (by
      match a with
      | ⟨0, _⟩ => exact dotCen_lhs_0 c n _
      | ⟨1, _⟩ => exact (dotCen.lhsIdx_val_of_single rfl (ix2 c n) _).trans hk)
  have er : dotCen.rhsIdx (ix2 c n) ((contrEquiv1 dotCen 58880 rfl rfl).symm q) = ix2 n q :=
    funext fun a => Fin.ext (by
      match a with
      | ⟨0, _⟩ => exact dotCen_rhs_0 c n _
      | ⟨1, _⟩ => exact (dotCen.rhsIdx_val_of_single rfl (ix2 c n) _).trans hk)
  rw [el, er]

/-- The centers accumulator at (c, n): the previous entry plus the sum over the tile's pixels of mask(c, q) · feature(n, q). -/
theorem pay6_apply (x0 : Vec Ideal S1x16x58880 .f32) (x1 : Vec Ideal S1x1x58880 .i32) (y : Vec Ideal S1x12x16 .f32)
    (c : Fin 12) (n : Fin 16) :
    k0_pay6 (F := Ideal) x0 x1 y (ix3 (0 : Fin 1) c n)
      = y (ix3 (0 : Fin 1) c n)
        + ∑ q : Fin 58880, k0_pay3 (F := Ideal) x1 (ix2 c q) * x0 (ix3 (0 : Fin 1) n q) := by
  unfold k0_pay6
  generalize k0_pay3 (F := Ideal) x1 = m
  refine (addf_apply _ _ _).trans ?_
  refine congrArg₂ (· + ·) (congrFun (shapeCast_self y _) _) ?_
  refine (shapeCast_ab_1ab_apply _ shapeCasts_S12x16_S1x12x16 0 c n).trans ?_
  refine (dotCen_apply _ _ c n).trans ?_
  refine Finset.sum_congr rfl fun q _ => ?_
  exact congrArg (m (ix2 c q) * ·) (pay2_apply x0 n q)

end Cert.KerBody

end
-- ==== Proof.KerBodyPull.lean ====
/-
  The second phase's payload read at an index, at the extended reals. For instance row c the pull accumulator gains the
  sum over the tile's pixels q of hinge(q) · mask(c, q), where hinge(q) is the scalar chain
  max(sqrt'(max(|f_q|² + |μ_c|² − 2·⟨μ_c, f_q⟩, 0)) − 1/2, 0): |f_q|² the sum of the pixel's squared channels, |μ_c|² read from
  the stored squared norms, ⟨μ_c, f_q⟩ the product of the [12,16] centers with the [16,58880] features contracted over the channels,
  and sqrt' the square root guarded at zero by two selects.
-/
import proofs.«106792_j1022202216835_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«106792_j1022202216835_2_alg».proof.Proof.KerBodyMask
import proofs.«106792_j1022202216835_2_alg».proof.Proof.KerBodyLayout

noncomputable section

open scoped BigOperators

namespace Cert.KerBody

open Cert.KernelIdeal Cert.KernelIdeal.Gen Idealize.ShloMosaic Idealize.ShloMosaic.ValueIdx

/-- The dimension numbers of the centers-by-features product: centers contracted on the channel axis 1, features on axis 0. -/
abbrev dotX : DotDims S12x16 S16x58880 S12x58880 := dot_S12x16_S16x58880_S12x58880_1_0_0_1_n_n

theorem dotX_lhs_0 (c : Fin 12) (q : Fin 58880) (k : dotX.contr.Idx) :
    (dotX.lhsIdx (ix2 c q) k 0).val = c.val := by
  unfold DotDims.lhsIdx
  rw [dif_neg (show ¬(0 : Fin S12x16.rank) ∈ dotX.lhsBatch by decide),
    dif_pos (show (0 : Fin S12x16.rank) ∈ dotX.lhsNonContracting by decide)]
  rfl

theorem dotX_rhs_1 (c : Fin 12) (q : Fin 58880) (k : dotX.contr.Idx) :
    (dotX.rhsIdx (ix2 c q) k 1).val = q.val := by
  unfold DotDims.rhsIdx
  rw [dif_neg (show ¬(1 : Fin S16x58880.rank) ∈ dotX.rhsBatch by decide),
    dif_pos (show (1 : Fin S16x58880.rank) ∈ dotX.rhsNonContracting by decide)]
  rfl

/-- The product read at (c, q): the sum over the channels n of left(c, n) · right(n, q). -/
theorem dotX_apply (l : FVec Ideal S12x16 .bf16) (r : FVec Ideal S16x58880 .bf16) (c : Fin 12) (q : Fin 58880) :
    matmul dotX none l r (constant S12x58880 .f32 0x00000000#32) (ix2 c q)
      = ∑ n : Fin 16, l (ix2 c n) * r (ix2 n q) := by
  refine (Ideal.matmul_constant_zero_apply dotX none l r (ix2 c q)).trans ?_
  rw [← Equiv.sum_comp (contrEquiv1 dotX 16 rfl rfl).symm]
  refine Finset.sum_congr rfl fun n _ => ?_
  have hk := contrEquiv1_symm_val dotX 16 rfl rfl n
  have el : dotX.lhsIdx (ix2 c q) ((contrEquiv1 dotX 16 rfl rfl).symm n) = ix2 c n :=
    funext fun a => Fin.ext (by
      match a with
      | ⟨0, _⟩ => exact dotX_lhs_0 c q _
      | ⟨1, _⟩ => exact (dotX.lhsIdx_val_of_single rfl (ix2 c q) _).trans hk)
  have er : dotX.rhsIdx (ix2 c q) ((contrEquiv1 dotX 16 rfl rfl).symm n) = ix2 n q :=
    funext fun a => Fin.ext (by
      match a with
      | ⟨0, _⟩ => exact (dotX.rhsIdx_val_of_single rfl (ix2 c q) _).trans hk
      | ⟨1, _⟩ => exact dotX_rhs_1 c q _)
  rw [el, er]

/-- The scalar chain from (|f|², |μ|², ⟨μ, f⟩) to the hinge: d = max(f + s − 2·x, 0); r = sqrt(select(d > 0, d, 1));
    t = select(d > 0, r, 0); the hinge is max(t − 1/2, 0). -/
def hingeS (f s x : EReal) : EReal :=
  max
    (Scalar.select
        (Ideal.cmp .ogt (max (f + s - Ideal.ofBits .f32 0x40000000#32 * x) (Ideal.ofBits .f32 0x00000000#32))
          (Ideal.ofBits .f32 0x00000000#32))
        (Ideal.sqrt
          (Scalar.select
            (Ideal.cmp .ogt (max (f + s - Ideal.ofBits .f32 0x40000000#32 * x) (Ideal.ofBits .f32 0x00000000#32))
              (Ideal.ofBits .f32 0x00000000#32))
            (max (f + s - Ideal.ofBits .f32 0x40000000#32 * x) (Ideal.ofBits .f32 0x00000000#32))
            (Ideal.ofBits .f32 0x3F800000#32)))
        (Ideal.ofBits .f32 0x00000000#32)
      - Ideal.ofBits .f32 0x3F000000#32)
    (Ideal.ofBits .f32 0x00000000#32)

theorem hingeS_congr {f f' s s' x x' : EReal} (hf : f = f') (hs : s = s') (hx : x = x') :
    hingeS f s x = hingeS f' s' x' := by rw [hf, hs, hx]

/-- The same chain over whole [12,58880] blocks, as the body writes it. -/
def hingeV (A B X : FVec Ideal S12x58880 .f32) : FVec Ideal S12x58880 .f32 :=
  have v47 : FVec Ideal S12x58880 .f32 := addf A B
  have v48 : FVec Ideal S12x58880 .f32 := broadcast S12x58880 (Scalar.ofBits .f32 0x40000000#32 : Ideal .f32)
  have v49 : FVec Ideal S12x58880 .f32 := mulf v48 X
  have v50 : FVec Ideal S12x58880 .f32 := subf v47 v49
  have v51 : FVec Ideal S12x58880 .f32 := broadcast S12x58880 (Scalar.ofBits .f32 0x00000000#32 : Ideal .f32)
  have v52 : FVec Ideal S12x58880 .f32 := maximumf v50 v51
  have v53 : FVec Ideal S12x58880 .f32 := broadcast S12x58880 (Scalar.ofBits .f32 0x00000000#32 : Ideal .f32)
  have v54 : IVec S12x58880 1 := cmpf .ogt v52 v53
  have v55 : FVec Ideal S12x58880 .f32 := broadcast S12x58880 (Scalar.ofBits .f32 0x3F800000#32 : Ideal .f32)
  have v56 : FVec Ideal S12x58880 .f32 := select v54 v52 v55
  have v57 : FVec Ideal S12x58880 .f32 := sqrt v56
  have v58 : FVec Ideal S12x58880 .f32 := broadcast S12x58880 (Scalar.ofBits .f32 0x00000000#32 : Ideal .f32)
  have v59 : IVec S12x58880 1 := cmpf .ogt v52 v58
  have v60 : FVec Ideal S12x58880 .f32 := broadcast S12x58880 (Scalar.ofBits .f32 0x00000000#32 : Ideal .f32)
  have v61 : FVec Ideal S12x58880 .f32 := select v59 v57 v60
  have v62 : FVec Ideal S12x58880 .f32 := broadcast S12x58880 (Scalar.ofBits .f32 0x3F000000#32 : Ideal .f32)
  have v63 : FVec Ideal S12x58880 .f32 := subf v61 v62
  have v64 : FVec Ideal S12x58880 .f32 := broadcast S12x58880 (Scalar.ofBits .f32 0x00000000#32 : Ideal .f32)
  maximumf v63 v64

theorem hingeV_apply (A B X : FVec Ideal S12x58880 .f32) (i : S12x58880.Idx) :
    hingeV A B X i = hingeS (A i) (B i) (X i) := rfl

/-- The pixel's squared norm, broadcast over the instance rows: the sum over the channels of the squared features. -/
theorem featsq_apply (v1 : FVec Ideal S16x58880 .f32) (c : Fin 12) (q : Fin 58880) :
    broadcastTo S12x58880
        (shapeCast S1x58880
          (multiReduction .add [0] S58880 (mulf v1 v1) 0x00000000#32 reduces_S16x58880_S58880 (.inl rfl) rfl)
          shapeCasts_S58880_S1x58880)
        broadcasts_S1x58880_S12x58880 (ix2 c q)
      = ∑ n : Fin 16, v1 (ix2 n q) * v1 (ix2 n q) := by
  refine (broadcastTo_1b_ab_apply _ broadcasts_S1x58880_S12x58880 c q).trans ?_
  refine (shapeCast_a_1a_apply _ shapeCasts_S58880_S1x58880 0 q).trans ?_
  exact sum_channels (mulf v1 v1) q

/-- The center's stored squared norm, broadcast over the pixels: the row's one entry. -/
theorem censq_apply (s : Vec Ideal S1x12x1 .f32) (c : Fin 12) (q : Fin 58880) :
    broadcastTo S12x58880 (shapeCast S12x1 (shapeCast S12 s shapeCasts_S1x12x1_S12) shapeCasts_S12_S12x1)
        broadcasts_S12x1_S12x58880 (ix2 c q)
      = s (ix3 (0 : Fin 1) c (0 : Fin 1)) := by
  refine (broadcastTo_a1_ab_apply _ broadcasts_S12x1_S12x58880 c q).trans ?_
  refine (shapeCast_a_a1_apply _ shapeCasts_S12_S12x1 c 0).trans ?_
  exact shapeCast_1a1_a_apply s shapeCasts_S1x12x1_S12 c

/-- The cross term at (c, q): the sum over the channels of center(c, n) · feature(n, q). -/
theorem cross_apply (cen : Vec Ideal S1x12x16 .f32) (v1 : FVec Ideal S16x58880 .f32) (c : Fin 12) (q : Fin 58880) :
    matmul dotX none
        (truncf (F := Ideal) .bf16 (shapeCast S12x16 cen shapeCasts_S1x12x16_S12x16 : FVec Ideal S12x16 .f32) bitsLt_bf16_f32)
        (truncf (F := Ideal) .bf16 v1 bitsLt_bf16_f32) (constant S12x58880 .f32 0x00000000#32) (ix2 c q)
      = ∑ n : Fin 16, cen (ix3 (0 : Fin 1) c n) * v1 (ix2 n q) := by
  refine (dotX_apply _ _ c q).trans ?_
  refine Finset.sum_congr rfl fun n _ => ?_
  exact congrArg (· * v1 (ix2 n q)) (shapeCast_1ab_ab_apply cen shapeCasts_S1x12x16_S12x16 c n)

/-- The pull accumulator at row c: the previous entry plus the sum over the tile's pixels of hinge(q) · mask(c, q). -/
theorem pay1_apply (v1 : FVec Ideal S16x58880 .f32) (v12 : FVec Ideal S12x58880 .f32) (cen : Vec Ideal S1x12x16 .f32)
    (censq : Vec Ideal S1x12x1 .f32) (acc : Vec Ideal S1x12x1 .f32) (c : Fin 12) :
    k0_pay1 (F := Ideal) v1 v12 cen censq acc (ix3 (0 : Fin 1) c (0 : Fin 1))
      = acc (ix3 (0 : Fin 1) c (0 : Fin 1))
        + ∑ q : Fin 58880,
            hingeS (∑ n : Fin 16, v1 (ix2 n q) * v1 (ix2 n q)) (censq (ix3 (0 : Fin 1) c (0 : Fin 1)))
              (∑ n : Fin 16, cen (ix3 (0 : Fin 1) c n) * v1 (ix2 n q)) * v12 (ix2 c q) := by
  unfold k0_pay1
  refine (addf_apply _ _ _).trans ?_
  refine congrArg₂ (· + ·) (congrFun (shapeCast_self acc _) _) ?_
  refine (shapeCast_ab_1ab_apply _ shapeCasts_S12x1_S1x12x1 0 c 0).trans ?_
  refine (shapeCast_a_a1_apply _ shapeCasts_S12_S12x1 c 0).trans ?_
  refine (sum_lanes _ c).trans ?_
  refine Finset.sum_congr rfl fun q _ => ?_
  refine (mulf_apply _ _ _).trans ?_
  refine congrArg (· * v12 (ix2 c q)) ?_
  refine Eq.trans (b := hingeV _ _ _ (ix2 c q)) rfl ?_
  refine (hingeV_apply _ _ _ _).trans ?_
  exact hingeS_congr (featsq_apply v1 c q) (censq_apply censq c q) (cross_apply cen v1 c q)

end Cert.KerBody

end
-- ==== Proof.KerBodyZero.lean ====
/-
  The three zero blocks the body stores when an accumulation starts, read at an index: every entry is the extended real 0.
-/
import proofs.«106792_j1022202216835_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KerBody

open Cert.KernelIdeal Cert.KernelIdeal.Gen Idealize.ShloMosaic Idealize.ShloMosaic.ValueIdx

/-- The centers block's initial value: 0 at every entry. -/
theorem pay4_apply (i : S1x12x16.Idx) : k0_pay4 (F := Ideal) i = 0 :=
  Ideal.ofBits_zero_f32

/-- The counts block's initial value: 0 at every entry. -/
theorem pay5_apply (i : S1x12x1.Idx) : k0_pay5 (F := Ideal) i = 0 :=
  Ideal.ofBits_zero_f32

/-- The pull block's initial value: 0 at every entry. -/
theorem pay10_apply (i : S1x12x1.Idx) : k0_pay10 (F := Ideal) i = 0 :=
  Ideal.ofBits_zero_f32

end Cert.KerBody

end
-- ==== Proof.KerChain.lean ====
/-
  One batch element's four tiles chained: each accumulator starts at the zero block and gains one tile's sum per step, so
  after the four tiles it holds the sum over all 235520 pixels of the batch element. Tile k's blocks are the whole arrays'
  entries at pixels 58880·k + q.  Counts: Σ_p mask(c, p).  Center sums: Σ_p mask(c, p) · feat(n, p).  Pull: Σ_p hinge(p) · mask(c, p),
  the hinge taken against fixed centers and fixed squared norms.
-/
import proofs.«106792_j1022202216835_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«106792_j1022202216835_2_alg».proof.Proof.KerBodyMask
import proofs.«106792_j1022202216835_2_alg».proof.Proof.KerBodyAcc
import proofs.«106792_j1022202216835_2_alg».proof.Proof.KerBodyCen
import proofs.«106792_j1022202216835_2_alg».proof.Proof.KerBodyPull
import proofs.«106792_j1022202216835_2_alg».proof.Proof.KerBodyZero
import proofs.«106792_j1022202216835_2_alg».proof.Proof.KerChainSum

noncomputable section

open scoped BigOperators

namespace Cert.KerBody

open Cert.KernelIdeal Cert.KernelIdeal.Gen Idealize.ShloMosaic Idealize.ShloMosaic.ValueIdx

section Chains

variable (b : Fin 8) (feat : S8x16x235520.Idx → EReal) (lab : S8x1x235520.Idx → BitVec 32)
  (X : Fin 4 → Vec Ideal S1x16x58880 .f32) (L : Fin 4 → Vec Ideal S1x1x58880 .i32)

/-- The counts after the four tiles: the number of the batch element's pixels carrying instance c+1. -/
theorem counts_chain
    (hL : ∀ (k : Fin 4) (q : Fin 58880), L k (ix3 (0 : Fin 1) (0 : Fin 1) q) = lab (ix3 b (0 : Fin 1) (pix k q)))
    (c : Fin 12) :
    k0_pay7 (F := Ideal) (L 3) (k0_pay7 (F := Ideal) (L 2) (k0_pay7 (F := Ideal) (L 1)
        (k0_pay7 (F := Ideal) (L 0) (k0_pay5 (F := Ideal))))) (ix3 (0 : Fin 1) c (0 : Fin 1))
      = ∑ p : Fin 235520, maskS (lab (ix3 b (0 : Fin 1) p)) c := by
  have tile : ∀ k : Fin 4, (∑ q : Fin 58880, k0_pay3 (F := Ideal) (L k) (ix2 c q))
      = ∑ q : Fin 58880, maskS (lab (ix3 b (0 : Fin 1) (pix k q))) c :=
    fun k => Finset.sum_congr rfl fun q _ => by rw [pay3_apply, hL]
  rw [pay7_apply, pay7_apply, pay7_apply, pay7_apply, pay5_apply]
  exact chain4 (fun p => maskS (lab (ix3 b (0 : Fin 1) p)) c) (tile 0) (tile 1) (tile 2) (tile 3)

/-- The center sums after the four tiles: the sum over the batch element's pixels of mask(c, p) · feat(n, p). -/
theorem sums_chain
    (hX : ∀ (k : Fin 4) (n : Fin 16) (q : Fin 58880), X k (ix3 (0 : Fin 1) n q) = feat (ix3 b n (pix k q)))
    (hL : ∀ (k : Fin 4) (q : Fin 58880), L k (ix3 (0 : Fin 1) (0 : Fin 1) q) = lab (ix3 b (0 : Fin 1) (pix k q)))
    (c : Fin 12) (n : Fin 16) :
    k0_pay6 (F := Ideal) (X 3) (L 3) (k0_pay6 (F := Ideal) (X 2) (L 2) (k0_pay6 (F := Ideal) (X 1) (L 1)
        (k0_pay6 (F := Ideal) (X 0) (L 0) (k0_pay4 (F := Ideal))))) (ix3 (0 : Fin 1) c n)
      = ∑ p : Fin 235520, maskS (lab (ix3 b (0 : Fin 1) p)) c * feat (ix3 b n p) := by
  have tile : ∀ k : Fin 4, (∑ q : Fin 58880, k0_pay3 (F := Ideal) (L k) (ix2 c q) * X k (ix3 (0 : Fin 1) n q))
      = ∑ q : Fin 58880, maskS (lab (ix3 b (0 : Fin 1) (pix k q))) c * feat (ix3 b n (pix k q)) :=
    fun k => Finset.sum_congr rfl fun q _ => by rw [pay3_apply, hL, hX]
  rw [pay6_apply, pay6_apply, pay6_apply, pay6_apply, pay4_apply]
  exact chain4 (fun p => maskS (lab (ix3 b (0 : Fin 1) p)) c * feat (ix3 b n p)) (tile 0) (tile 1) (tile 2) (tile 3)

/-- The pull after the four tiles, against fixed centers `cen` and squared norms `sq`: the sum over the batch element's
    pixels of hinge(p) · mask(c, p). -/
theorem pull_chain
    (hX : ∀ (k : Fin 4) (n : Fin 16) (q : Fin 58880), X k (ix3 (0 : Fin 1) n q) = feat (ix3 b n (pix k q)))
    (hL : ∀ (k : Fin 4) (q : Fin 58880), L k (ix3 (0 : Fin 1) (0 : Fin 1) q) = lab (ix3 b (0 : Fin 1) (pix k q)))
    (cen : Vec Ideal S1x12x16 .f32) (sq : Vec Ideal S1x12x1 .f32) (c : Fin 12) :
    k0_pay1 (F := Ideal) (k0_pay2 (X 3)) (k0_pay3 (L 3)) cen sq
        (k0_pay1 (F := Ideal) (k0_pay2 (X 2)) (k0_pay3 (L 2)) cen sq
          (k0_pay1 (F := Ideal) (k0_pay2 (X 1)) (k0_pay3 (L 1)) cen sq
            (k0_pay1 (F := Ideal) (k0_pay2 (X 0)) (k0_pay3 (L 0)) cen sq (k0_pay10 (F := Ideal)))))
        (ix3 (0 : Fin 1) c (0 : Fin 1))
      = ∑ p : Fin 235520,
          hingeS (∑ n : Fin 16, feat (ix3 b n p) * feat (ix3 b n p)) (sq (ix3 (0 : Fin 1) c (0 : Fin 1)))
            (∑ n : Fin 16, cen (ix3 (0 : Fin 1) c n) * feat (ix3 b n p)) * maskS (lab (ix3 b (0 : Fin 1) p)) c := by
  have tile : ∀ k : Fin 4,
      (∑ q : Fin 58880,
          hingeS (∑ n : Fin 16, k0_pay2 (F := Ideal) (X k) (ix2 n q) * k0_pay2 (F := Ideal) (X k) (ix2 n q))
            (sq (ix3 (0 : Fin 1) c (0 : Fin 1)))
            (∑ n : Fin 16, cen (ix3 (0 : Fin 1) c n) * k0_pay2 (F := Ideal) (X k) (ix2 n q))
            * k0_pay3 (F := Ideal) (L k) (ix2 c q))
      = ∑ q : Fin 58880,
          hingeS (∑ n : Fin 16, feat (ix3 b n (pix k q)) * feat (ix3 b n (pix k q))) (sq (ix3 (0 : Fin 1) c (0 : Fin 1)))
            (∑ n : Fin 16, cen (ix3 (0 : Fin 1) c n) * feat (ix3 b n (pix k q)))
            * maskS (lab (ix3 b (0 : Fin 1) (pix k q))) c :=
    fun k => Finset.sum_congr rfl fun q _ => by simp only [pay2_apply, pay3_apply, hX, hL]
  rw [pay1_apply, pay1_apply, pay1_apply, pay1_apply, pay10_apply]
  exact chain4 (fun p => hingeS (∑ n : Fin 16, feat (ix3 b n p) * feat (ix3 b n p)) (sq (ix3 (0 : Fin 1) c (0 : Fin 1)))
      (∑ n : Fin 16, cen (ix3 (0 : Fin 1) c n) * feat (ix3 b n p)) * maskS (lab (ix3 b (0 : Fin 1) p)) c)
    (tile 0) (tile 1) (tile 2) (tile 3)

end Chains

end Cert.KerBody

end
-- ==== Proof.RefSpec.lean ====
/- The mathematics of the fused push-pull loss up to the three per-instance arrays, as functions of the
   features X [8,16,235520] (batch, channel, pixel) and the labels L [8,235520] (batch, pixel), index by index
   on the extended reals:

     mask(b,c,p)    = 1 if L(b,p) = c + 1 else 0                         (instance c of batch b owns pixel p)
     counts(b,c)    = Σ_p mask(b,c,p)
     centre(b,c,n)  = (Σ_p mask(b,c,p) · X(b,n,p)) / max(counts(b,c), 1)
     featsq(b,p)    = Σ_n X(b,n,p)²
     censq(b,c)     = Σ_n centre(b,c,n)²
     cross(b,c,p)   = Σ_n centre(b,c,n) · X(b,n,p)
     hinge          = max(√'(max(featsq + censq − 2·cross, 0)) − 1/2, 0),   √'(d) = √d where d > 0, else 0
     pull(b,c)      = Σ_p hinge(b,c,p) · mask(b,c,p)

   Every sum starts from the program's initial value (the word of 0.0, kept as a word), and every float literal
   is kept as the extended real its word denotes. The pull sum takes the centres as a parameter, so that it can be
   stated of any array of centres. -/
import Idealize.ShloMosaic.PureOps.Ideal
import Idealize.ShloMosaic.Lib.ValueIdx

noncomputable section

open scoped BigOperators

namespace Cert.RefSpec

open Idealize.ShloMosaic Idealize.ShloMosaic.ValueIdx

/-- Features: [8,16,235520]. -/
abbrev XTy : Type := (⟨3, ![8, 16, 235520]⟩ : Shape).Idx → EReal
/-- Labels: [8,235520], 32-bit words. -/
abbrev LTy : Type := (⟨2, ![8, 235520]⟩ : Shape).Idx → BitVec 32
/-- Centres: [8,12,16]. -/
abbrev CTy : Type := (⟨3, ![8, 12, 16]⟩ : Shape).Idx → EReal

/-- The word of 0.0, as an extended real (the initial value of every sum). -/
abbrev z0 : EReal := Ideal.ofBits .f32 0x00000000#32

/-- mask: 1 where the pixel's label is `c + 1`, else 0 — the one-bit comparison read as an unsigned integer. -/
def maskS (l : BitVec 32) (c : Fin 12) : EReal :=
  (((IntOp.cmpi .eq l (IntOp.addi 1#32 (BitVec.ofNat 32 c.val))).toNat : ℝ) : EReal)

/-- counts(b,c) = Σ_p mask(b,c,p). -/
def countsS (L : LTy) (b : Fin 8) (c : Fin 12) : EReal :=
  z0 + ∑ p : Fin 235520, maskS (L (ix2 b p)) c

/-- centre(b,c,n) = (Σ_p mask(b,c,p) · X(b,n,p)) / max(counts(b,c), 1). -/
def centerS (X : XTy) (L : LTy) (b : Fin 8) (c : Fin 12) (n : Fin 16) : EReal :=
  Ideal.div (∑ p : Fin 235520, maskS (L (ix2 b p)) c * X (ix3 b n p))
    (max (countsS L b c) (Ideal.ofBits .f32 0x3F800000#32))

/-- featsq(b,p) = Σ_n X(b,n,p)². -/
def featsqS (X : XTy) (b : Fin 8) (p : Fin 235520) : EReal :=
  z0 + ∑ n : Fin 16, X (ix3 b n p) * X (ix3 b n p)

/-- censq(b,c) = Σ_n cen(b,c,n)². -/
def censqS (cen : CTy) (b : Fin 8) (c : Fin 12) : EReal :=
  z0 + ∑ n : Fin 16, cen (ix3 b c n) * cen (ix3 b c n)

/-- cross(b,c,p) = Σ_n cen(b,c,n) · X(b,n,p). -/
def crossS (cen : CTy) (X : XTy) (b : Fin 8) (c : Fin 12) (p : Fin 235520) : EReal :=
  ∑ n : Fin 16, cen (ix3 b c n) * X (ix3 b n p)

/-- The scalar chain from (featsq, censq, cross) to the hinge: d = max(featsq + censq − 2·cross, 0); the root is
    taken of d where d > 0 and of 1 elsewhere, and replaced by 0 where d is not positive; then max(· − 1/2, 0). -/
def hingeS (fsq csq cr : EReal) : EReal :=
  max (Scalar.select (Ideal.cmp .ogt (max (fsq + csq - Ideal.ofBits .f32 0x40000000#32 * cr) z0) z0)
        (Ideal.sqrt (Scalar.select (Ideal.cmp .ogt (max (fsq + csq - Ideal.ofBits .f32 0x40000000#32 * cr) z0) z0)
          (max (fsq + csq - Ideal.ofBits .f32 0x40000000#32 * cr) z0) (Ideal.ofBits .f32 0x3F800000#32)))
        z0
      - Ideal.ofBits .f32 0x3F000000#32) z0

/-- pull(b,c) = Σ_p hinge(b,c,p) · mask(b,c,p), over any array of centres. -/
def pullS (cen : CTy) (X : XTy) (L : LTy) (b : Fin 8) (c : Fin 12) : EReal :=
  z0 + ∑ p : Fin 235520, hingeS (featsqS X b p) (censqS cen b c) (crossS cen X b c p) * maskS (L (ix2 b p)) c

end Cert.RefSpec

end
-- ==== Proof.SpecBridge.lean ====
/-
  The kernel-side closed forms are the specification's. The two mask functions are the same indicator of "the label is c + 1"
  (one converts the widened comparison bit as a signed integer, the other reads the bit as a natural number); the two hinge
  chains are the same term; and since the word of 0.0 denotes the extended real 0, a bare sum equals the specification's
  sum started from that word. With the [8,1,235520] labels read as the [8,235520] ones, the counts, the normalised centers,
  the centers' squared norms and the pull of batch element b are the specification's counts, centre, censq and pull.
-/
import proofs.«106792_j1022202216835_2_alg».proof.Proof.KerBodyMask
import proofs.«106792_j1022202216835_2_alg».proof.Proof.KerBodyPull
import proofs.«106792_j1022202216835_2_alg».proof.Proof.RefSpec

noncomputable section

open scoped BigOperators

namespace Cert.KerBody

open Cert.KernelIdeal Cert.KernelIdeal.Gen Idealize.ShloMosaic Idealize.ShloMosaic.ValueIdx

/-- The specification's mask is the indicator of "the label is c + 1". -/
theorem maskS_spec_eq (w : BitVec 32) (c : Fin 12) :
    Cert.RefSpec.maskS w c = if w = BitVec.ofNat 32 (c.val + 1) then 1 else 0 := by
  have e : IntOp.addi 1#32 (BitVec.ofNat 32 c.val) = BitVec.ofNat 32 (c.val + 1) := by
    unfold IntOp.addi
    rw [BitVec.add_comm]
    exact (BitVec.ofNat_add c.val 1).symm
  unfold Cert.RefSpec.maskS
  rw [e]
  by_cases h : w = BitVec.ofNat 32 (c.val + 1)
  · rw [if_pos h]
    have h1 : IntOp.cmpi .eq w (BitVec.ofNat 32 (c.val + 1)) = 1#1 := by
      unfold IntOp.cmpi; simp [h]
    rw [h1]
    have h2 : (1#1 : BitVec 1).toNat = 1 := by decide
    rw [h2]; simp
  · rw [if_neg h]
    have h1 : IntOp.cmpi .eq w (BitVec.ofNat 32 (c.val + 1)) = 0#1 := by
      show BitVec.ofBool (w == BitVec.ofNat 32 (c.val + 1)) = 0#1
      rw [beq_eq_false_iff_ne.mpr h]; rfl
    rw [h1]
    have h2 : (0#1 : BitVec 1).toNat = 0 := by decide
    rw [h2]; simp

/-- The two masks are one function. -/
theorem maskS_eq_spec (w : BitVec 32) (c : Fin 12) : maskS w c = Cert.RefSpec.maskS w c :=
  (maskS_eq w c).trans (maskS_spec_eq w c).symm

/-- The two hinge chains are one function. -/
theorem hingeS_eq_spec (f s x : EReal) : hingeS f s x = Cert.RefSpec.hingeS f s x := rfl

/-- The word of 0.0 denotes the extended real 0. -/
theorem z0_eq : Cert.RefSpec.z0 = 0 := Ideal.ofBits_zero_f32

section Bridge

variable (b : Fin 8) (feat : S8x16x235520.Idx → EReal) (lab : S8x1x235520.Idx → BitVec 32) (L : Cert.RefSpec.LTy)

/-- The counts of batch element b, instance c. -/
theorem counts_spec (hlab : ∀ p : Fin 235520, lab (ix3 b (0 : Fin 1) p) = L (ix2 b p)) (c : Fin 12) :
    ∑ p : Fin 235520, maskS (lab (ix3 b (0 : Fin 1) p)) c = Cert.RefSpec.countsS L b c := by
  unfold Cert.RefSpec.countsS
  rw [z0_eq, zero_add]
  exact Finset.sum_congr rfl fun p _ => by rw [hlab, maskS_eq_spec]

/-- The normalised center of batch element b, instance c, channel n. -/
theorem center_spec (hlab : ∀ p : Fin 235520, lab (ix3 b (0 : Fin 1) p) = L (ix2 b p)) (c : Fin 12) (n : Fin 16) :
    Ideal.div (∑ p : Fin 235520, maskS (lab (ix3 b (0 : Fin 1) p)) c * feat (ix3 b n p))
        (max (∑ p : Fin 235520, maskS (lab (ix3 b (0 : Fin 1) p)) c) (Ideal.ofBits .f32 0x3F800000#32))
      = Cert.RefSpec.centerS feat L b c n := by
  unfold Cert.RefSpec.centerS
  refine congrArg₂ Ideal.div ?_ ?_
  · exact Finset.sum_congr rfl fun p _ => by rw [hlab, maskS_eq_spec]
  · exact congrArg (fun s : EReal => max s (Ideal.ofBits .f32 0x3F800000#32)) (counts_spec b lab L hlab c)

/-- The squared norm of a center row held in a [1,12,16] block whose row c is row (b, c) of the centers array. -/
theorem censq_spec (cenA : Cert.RefSpec.CTy) (a a' : Vec Ideal S1x12x16 .f32) (c : Fin 12)
    (ha : ∀ n : Fin 16, a (ix3 (0 : Fin 1) c n) = cenA (ix3 b c n))
    (ha' : ∀ n : Fin 16, a' (ix3 (0 : Fin 1) c n) = cenA (ix3 b c n)) :
    ∑ n : Fin 16, a (ix3 (0 : Fin 1) c n) * a' (ix3 (0 : Fin 1) c n) = Cert.RefSpec.censqS cenA b c := by
  unfold Cert.RefSpec.censqS
  rw [z0_eq, zero_add]
  exact Finset.sum_congr rfl fun n _ => by rw [ha, ha']

/-- The pull of batch element b, instance c, against the centers array `cenA`: the center block's row c is row (b, c) of
    `cenA`, and the stored squared norm is the specification's. -/
theorem pull_spec (hlab : ∀ p : Fin 235520, lab (ix3 b (0 : Fin 1) p) = L (ix2 b p)) (cenA : Cert.RefSpec.CTy)
    (cen : Vec Ideal S1x12x16 .f32) (sq : Vec Ideal S1x12x1 .f32) (c : Fin 12)
    (hcen : ∀ n : Fin 16, cen (ix3 (0 : Fin 1) c n) = cenA (ix3 b c n))
    (hsq : sq (ix3 (0 : Fin 1) c (0 : Fin 1)) = Cert.RefSpec.censqS cenA b c) :
    ∑ p : Fin 235520,
        hingeS (∑ n : Fin 16, feat (ix3 b n p) * feat (ix3 b n p)) (sq (ix3 (0 : Fin 1) c (0 : Fin 1)))
          (∑ n : Fin 16, cen (ix3 (0 : Fin 1) c n) * feat (ix3 b n p)) * maskS (lab (ix3 b (0 : Fin 1) p)) c
      = Cert.RefSpec.pullS cenA feat L b c := by
  unfold Cert.RefSpec.pullS
  rw [z0_eq, zero_add]
  refine Finset.sum_congr rfl fun p _ => ?_
  rw [hlab, maskS_eq_spec, hingeS_eq_spec, hsq]
  refine congrArg (· * _) ?_
  refine congrArg₂ (fun f x => Cert.RefSpec.hingeS f (Cert.RefSpec.censqS cenA b c) x) ?_ ?_
  · unfold Cert.RefSpec.featsqS
    rw [z0_eq, zero_add]
  · unfold Cert.RefSpec.crossS
    exact Finset.sum_congr rfl fun n _ => by rw [hcen]

end Bridge

end Cert.KerBody

end
-- ==== Proof.KerRows.lean ====
/-
  One batch element's rows of the three result arrays are the specification's. From the four phase-0 tiles (blocks X, L) the
  counts block is Σ_p mask, the centers block is the masked feature sums divided by max(counts, 1), and the scratch block is the
  centers' squared norms; from the four phase-1 tiles (blocks X', L': the same pixels read again) the pull block is the hinge
  sum against those centers and squared norms. With the tiles' blocks read off the whole arrays at pixels 58880·k + q, these are
  the specification's counts, centre, censq and pull of batch element b.
-/
import proofs.«106792_j1022202216835_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«106792_j1022202216835_2_alg».proof.Proof.KerBodyAcc
import proofs.«106792_j1022202216835_2_alg».proof.Proof.KerChain
import proofs.«106792_j1022202216835_2_alg».proof.Proof.SpecBridge

noncomputable section

open scoped BigOperators

namespace Cert.KerBody

open Cert.KernelIdeal Cert.KernelIdeal.Gen Idealize.ShloMosaic Idealize.ShloMosaic.ValueIdx

section Rows

variable (b : Fin 8) (feat : S8x16x235520.Idx → EReal) (lab : S8x1x235520.Idx → BitVec 32) (Lr : Cert.RefSpec.LTy)
  (X X' : Fin 4 → Vec Ideal S1x16x58880 .f32) (L L' : Fin 4 → Vec Ideal S1x1x58880 .i32)

/-- The counts block after the four tiles of phase 0. -/
def cntRow : FVec Ideal S1x12x1 .f32 :=
  k0_pay7 (F := Ideal) (L 3) (k0_pay7 (F := Ideal) (L 2) (k0_pay7 (F := Ideal) (L 1)
    (k0_pay7 (F := Ideal) (L 0) (k0_pay5 (F := Ideal)))))

/-- The masked feature sums after the four tiles of phase 0. -/
def sumRow : FVec Ideal S1x12x16 .f32 :=
  k0_pay6 (F := Ideal) (X 3) (L 3) (k0_pay6 (F := Ideal) (X 2) (L 2) (k0_pay6 (F := Ideal) (X 1) (L 1)
    (k0_pay6 (F := Ideal) (X 0) (L 0) (k0_pay4 (F := Ideal)))))

/-- The centers block: the sums divided by the clamped counts. -/
def cenRow : FVec Ideal S1x12x16 .f32 := k0_pay8 (F := Ideal) (cntRow L) (sumRow X L)

/-- The scratch block: the centers' squared norms. -/
def scrRow : FVec Ideal S1x12x1 .f32 := k0_pay9 (F := Ideal) (cenRow X L) (cenRow X L)

/-- The pull block after the four tiles of phase 1. -/
def pulRow : FVec Ideal S1x12x1 .f32 :=
  k0_pay1 (F := Ideal) (k0_pay2 (X' 3)) (k0_pay3 (L' 3)) (cenRow X L) (scrRow X L)
    (k0_pay1 (F := Ideal) (k0_pay2 (X' 2)) (k0_pay3 (L' 2)) (cenRow X L) (scrRow X L)
      (k0_pay1 (F := Ideal) (k0_pay2 (X' 1)) (k0_pay3 (L' 1)) (cenRow X L) (scrRow X L)
        (k0_pay1 (F := Ideal) (k0_pay2 (X' 0)) (k0_pay3 (L' 0)) (cenRow X L) (scrRow X L) (k0_pay10 (F := Ideal)))))

/-- The counts block's row c is the specification's counts. -/
theorem cntRow_spec
    (hL : ∀ (k : Fin 4) (q : Fin 58880), L k (ix3 (0 : Fin 1) (0 : Fin 1) q) = lab (ix3 b (0 : Fin 1) (pix k q)))
    (hlab : ∀ p : Fin 235520, lab (ix3 b (0 : Fin 1) p) = Lr (ix2 b p)) (c : Fin 12) :
    cntRow L (ix3 (0 : Fin 1) c (0 : Fin 1)) = Cert.RefSpec.countsS Lr b c :=
  (counts_chain b lab L hL c).trans (counts_spec b lab Lr hlab c)

/-- The centers block's entry (c, n) is the specification's centre. -/
theorem cenRow_spec
    (hX : ∀ (k : Fin 4) (n : Fin 16) (q : Fin 58880), X k (ix3 (0 : Fin 1) n q) = feat (ix3 b n (pix k q)))
    (hL : ∀ (k : Fin 4) (q : Fin 58880), L k (ix3 (0 : Fin 1) (0 : Fin 1) q) = lab (ix3 b (0 : Fin 1) (pix k q)))
    (hlab : ∀ p : Fin 235520, lab (ix3 b (0 : Fin 1) p) = Lr (ix2 b p)) (c : Fin 12) (n : Fin 16) :
    cenRow X L (ix3 (0 : Fin 1) c n) = Cert.RefSpec.centerS feat Lr b c n := by
  refine (pay8_apply (cntRow L) (sumRow X L) c n).trans ?_
  refine Eq.trans ?_ (center_spec b feat lab Lr hlab c n)
  exact congrArg₂ (fun s t : EReal => Ideal.div s (max t (Ideal.ofBits .f32 0x3F800000#32)))
    (sums_chain b feat lab X L hX hL c n) (counts_chain b lab L hL c)

/-- The scratch block's row c is the specification's squared norm of the centers array's row (b, c), when the centers block's
    row c is that row. -/
theorem scrRow_spec (cenA : Cert.RefSpec.CTy) (c : Fin 12)
    (hcen : ∀ n : Fin 16, cenRow X L (ix3 (0 : Fin 1) c n) = cenA (ix3 b c n)) :
    scrRow X L (ix3 (0 : Fin 1) c (0 : Fin 1)) = Cert.RefSpec.censqS cenA b c :=
  (pay9_apply (cenRow X L) (cenRow X L) c).trans (censq_spec b cenA (cenRow X L) (cenRow X L) c hcen hcen)

/-- The pull block's row c is the specification's pull against the centers array, when the centers block's row c is the
    array's row (b, c). -/
theorem pulRow_spec
    (hX' : ∀ (k : Fin 4) (n : Fin 16) (q : Fin 58880), X' k (ix3 (0 : Fin 1) n q) = feat (ix3 b n (pix k q)))
    (hL' : ∀ (k : Fin 4) (q : Fin 58880), L' k (ix3 (0 : Fin 1) (0 : Fin 1) q) = lab (ix3 b (0 : Fin 1) (pix k q)))
    (hlab : ∀ p : Fin 235520, lab (ix3 b (0 : Fin 1) p) = Lr (ix2 b p)) (cenA : Cert.RefSpec.CTy) (c : Fin 12)
    (hcen : ∀ n : Fin 16, cenRow X L (ix3 (0 : Fin 1) c n) = cenA (ix3 b c n)) :
    pulRow X X' L L' (ix3 (0 : Fin 1) c (0 : Fin 1)) = Cert.RefSpec.pullS cenA feat Lr b c :=
  (pull_chain b feat lab X' L' hX' hL' (cenRow X L) (scrRow X L) c).trans
    (pull_spec b feat lab Lr hlab cenA (cenRow X L) (scrRow X L) c hcen (scrRow_spec b X L cenA c hcen))

end Rows

end Cert.KerBody

end
-- ==== Proof.KerTail.lean ====
/- The host operations that follow the kernel, read as ONE function of the three arrays the kernel leaves:
   the instance centres `cen` [8,12,16], the instance pixel counts `cnt3` [8,12,1] and the per-instance
   pull sums `pul3` [8,12,1].

   With valid(b,c) := counts(b,c) > 0 and d(b,c) := max(counts(b,c), 1), the result is

     push + pull,

   pull = (Σ_{b,c} [valid] · pul/d) / max(#valid, 1) when some instance is valid, else the fall-back value, and
   push = (Σ_{b,c,c'} max(6 − dist(b,c,c'), 0) · pair(b,c,c')) / max(#pairs, 1) when some pair exists, else the
   fall-back value, where dist is the Euclidean distance of two centres of one batch (its square root taken
   only where the squared distance is positive) and pair(b,c,c') says that c ≠ c' are both valid.

   The two fall-back values are parameters of `tailK'`; `tailK` supplies the kernel's own, the constant zero.
   Each line below is one operation's function applied to the values of earlier lines, in program order. -/
import proofs.«106792_j1022202216835_2_alg».proof.Proof.Gen.KernelIdeal.Launch

noncomputable section

namespace Cert.KerTail

open Cert.KernelIdeal Cert.KernelIdeal.Gen Idealize.ShloMosaic Idealize.ShloMosaic.TcCoe Idealize.SL.Sem Idealize.ShloMosaic.StableHlo

variable {F : FTy → Type} [FloatOps F]

/-- The tail with the two scalar fall-back values (of the mean over valid instances, and of the mean over
    valid pairs) left as parameters. -/
def tailK' (cen : (⟨S8x12x16, .f32⟩ : BufTy).Contents (Elt F)) (cnt3 : (⟨S8x12x1, .f32⟩ : BufTy).Contents (Elt F))
    (pul3 : (⟨S8x12x1, .f32⟩ : BufTy).Contents (Elt F)) (fb1 fb2 : (⟨S_, .f32⟩ : BufTy).Contents (Elt F)) :
    (⟨S_, .f32⟩ : BufTy).Contents (Elt F) :=
  let y_v3 : (⟨S8x12, .f32⟩ : BufTy).Contents (Elt F) := shapeCast _ (cnt3) shapeCasts_S8x12x1_S8x12
  let y_cst : (⟨S_, .f32⟩ : BufTy).Contents (Elt F) := constant S_ .f32 0x00000000#32
  let y_v4 : (⟨S8x12, .f32⟩ : BufTy).Contents (Elt F) := (broadcastInDim S8x12 ![] bcast_S_S8x12 : (⟨S_, .f32⟩ : BufTy).Contents (Elt F) → (⟨S8x12, .f32⟩ : BufTy).Contents (Elt F)) y_cst
  let y_v5 : (⟨S8x12, .i1⟩ : BufTy).Contents (Elt F) := (cmpf .ogt : (⟨S8x12, .f32⟩ : BufTy).Contents (Elt F) → (⟨S8x12, .f32⟩ : BufTy).Contents (Elt F) → (⟨S8x12, .i1⟩ : BufTy).Contents (Elt F)) y_v3 y_v4
  let y_cst_0 : (⟨S_, .f32⟩ : BufTy).Contents (Elt F) := constant S_ .f32 0x3F800000#32
  let y_v6 : (⟨S8x12, .f32⟩ : BufTy).Contents (Elt F) := (broadcastInDim S8x12 ![] bcast_S_S8x12 : (⟨S_, .f32⟩ : BufTy).Contents (Elt F) → (⟨S8x12, .f32⟩ : BufTy).Contents (Elt F)) y_cst_0
  let y_v7 : (⟨S8x12, .f32⟩ : BufTy).Contents (Elt F) := (maximumf : (⟨S8x12, .f32⟩ : BufTy).Contents (Elt F) → (⟨S8x12, .f32⟩ : BufTy).Contents (Elt F) → (⟨S8x12, .f32⟩ : BufTy).Contents (Elt F)) y_v3 y_v6
  let y_v8 : (⟨S8x12, .f32⟩ : BufTy).Contents (Elt F) := shapeCast _ (pul3) shapeCasts_S8x12x1_S8x12
  let y_v9 : (⟨S8x12, .f32⟩ : BufTy).Contents (Elt F) := (Host.divf : (⟨S8x12, .f32⟩ : BufTy).Contents (Elt F) → (⟨S8x12, .f32⟩ : BufTy).Contents (Elt F) → (⟨S8x12, .f32⟩ : BufTy).Contents (Elt F)) y_v8 y_v7
  let y_v10 : (⟨S8x12, .f32⟩ : BufTy).Contents (Elt F) := (uitofp .f32 : (⟨S8x12, .i1⟩ : BufTy).Contents (Elt F) → (⟨S8x12, .f32⟩ : BufTy).Contents (Elt F)) y_v5
  let y_cst_1 : (⟨S_, .f32⟩ : BufTy).Contents (Elt F) := constant S_ .f32 0x00000000#32
  let y_v11 : (⟨S_, .f32⟩ : BufTy).Contents (Elt F) := ((fun x v => Host.reduceAdd x v reducesTo_S8x12_S_d0_1 h_S_) : (⟨S8x12, .f32⟩ : BufTy).Contents (Elt F) → (⟨S_, .f32⟩ : BufTy).Contents (Elt F) → (⟨S_, .f32⟩ : BufTy).Contents (Elt F)) y_v10 y_cst_1
  let y_cst_2 : (⟨S_, .f32⟩ : BufTy).Contents (Elt F) := constant S_ .f32 0x00000000#32
  let y_call0_v0 : (⟨S_, .f32⟩ : BufTy).Contents (Elt F) := id y_cst_2
  let y_call0_v1 : (⟨S8x12, .f32⟩ : BufTy).Contents (Elt F) := broadcastInDim S8x12 ![] bcast_S_S8x12 y_call0_v0
  let y_v12 : (⟨S8x12, .f32⟩ : BufTy).Contents (Elt F) := select y_v5 y_v9 y_call0_v1
  let y_cst_3 : (⟨S_, .f32⟩ : BufTy).Contents (Elt F) := constant S_ .f32 0x00000000#32
  let y_v13 : (⟨S_, .f32⟩ : BufTy).Contents (Elt F) := ((fun x v => Host.reduceAdd x v reducesTo_S8x12_S_d0_1 h_S_) : (⟨S8x12, .f32⟩ : BufTy).Contents (Elt F) → (⟨S_, .f32⟩ : BufTy).Contents (Elt F) → (⟨S_, .f32⟩ : BufTy).Contents (Elt F)) y_v12 y_cst_3
  let y_cst_4 : (⟨S_, .f32⟩ : BufTy).Contents (Elt F) := constant S_ .f32 0x00000000#32
  let y_v14 : (⟨S_, .i1⟩ : BufTy).Contents (Elt F) := (cmpf .ogt : (⟨S_, .f32⟩ : BufTy).Contents (Elt F) → (⟨S_, .f32⟩ : BufTy).Contents (Elt F) → (⟨S_, .i1⟩ : BufTy).Contents (Elt F)) y_v11 y_cst_4
  let y_cst_5 : (⟨S_, .f32⟩ : BufTy).Contents (Elt F) := constant S_ .f32 0x3F800000#32
  let y_v15 : (⟨S_, .f32⟩ : BufTy).Contents (Elt F) := (maximumf : (⟨S_, .f32⟩ : BufTy).Contents (Elt F) → (⟨S_, .f32⟩ : BufTy).Contents (Elt F) → (⟨S_, .f32⟩ : BufTy).Contents (Elt F)) y_v11 y_cst_5
  let y_v16 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) y_v13 y_v15
  let y_v17 : (⟨S_, .f32⟩ : BufTy).Contents (Elt F) := select y_v14 y_v16 fb1
  let y_cst_7 : (⟨S_, .f32⟩ : BufTy).Contents (Elt F) := constant S_ .f32 0x3F800000#32
  let y_v18 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) y_v17 y_cst_7
  let y_v19 : (⟨S8x12x1x16, .f32⟩ : BufTy).Contents (Elt F) := (broadcastInDim S8x12x1x16 ![0, 1, 3] bcast_S8x12x16_S8x12x1x16_0_1_3 : (⟨S8x12x16, .f32⟩ : BufTy).Contents (Elt F) → (⟨S8x12x1x16, .f32⟩ : BufTy).Contents (Elt F)) cen
  let y_v20 : (⟨S8x1x12x16, .f32⟩ : BufTy).Contents (Elt F) := (broadcastInDim S8x1x12x16 ![0, 2, 3] bcast_S8x12x16_S8x1x12x16_0_2_3 : (⟨S8x12x16, .f32⟩ : BufTy).Contents (Elt F) → (⟨S8x1x12x16, .f32⟩ : BufTy).Contents (Elt F)) cen
  let y_v21 : (⟨S8x12x12x16, .f32⟩ : BufTy).Contents (Elt F) := (broadcastInDim S8x12x12x16 ![0, 1, 2, 3] bcast_S8x12x1x16_S8x12x12x16_0_1_2_3 : (⟨S8x12x1x16, .f32⟩ : BufTy).Contents (Elt F) → (⟨S8x12x12x16, .f32⟩ : BufTy).Contents (Elt F)) y_v19
  let y_v22 : (⟨S8x12x12x16, .f32⟩ : BufTy).Contents (Elt F) := (broadcastInDim S8x12x12x16 ![0, 1, 2, 3] bcast_S8x1x12x16_S8x12x12x16_0_1_2_3 : (⟨S8x1x12x16, .f32⟩ : BufTy).Contents (Elt F) → (⟨S8x12x12x16, .f32⟩ : BufTy).Contents (Elt F)) y_v20
  let y_v23 : (⟨S8x12x12x16, .f32⟩ : BufTy).Contents (Elt F) := (subf : (⟨S8x12x12x16, .f32⟩ : BufTy).Contents (Elt F) → (⟨S8x12x12x16, .f32⟩ : BufTy).Contents (Elt F) → (⟨S8x12x12x16, .f32⟩ : BufTy).Contents (Elt F)) y_v21 y_v22
  let y_v24 : (⟨S8x12x12x16, .f32⟩ : BufTy).Contents (Elt F) := (mulf : (⟨S8x12x12x16, .f32⟩ : BufTy).Contents (Elt F) → (⟨S8x12x12x16, .f32⟩ : BufTy).Contents (Elt F) → (⟨S8x12x12x16, .f32⟩ : BufTy).Contents (Elt F)) y_v23 y_v23
  let y_cst_8 : (⟨S_, .f32⟩ : BufTy).Contents (Elt F) := constant S_ .f32 0x00000000#32
  let y_v25 : (⟨S8x12x12, .f32⟩ : BufTy).Contents (Elt F) := ((fun x v => Host.reduceAdd x v reducesTo_S8x12x12x16_S8x12x12_d3 h_S_) : (⟨S8x12x12x16, .f32⟩ : BufTy).Contents (Elt F) → (⟨S_, .f32⟩ : BufTy).Contents (Elt F) → (⟨S8x12x12, .f32⟩ : BufTy).Contents (Elt F)) y_v24 y_cst_8
  let y_cst_9 : (⟨S_, .f32⟩ : BufTy).Contents (Elt F) := constant S_ .f32 0x00000000#32
  let y_v26 : (⟨S8x12x12, .f32⟩ : BufTy).Contents (Elt F) := (broadcastInDim S8x12x12 ![] bcast_S_S8x12x12 : (⟨S_, .f32⟩ : BufTy).Contents (Elt F) → (⟨S8x12x12, .f32⟩ : BufTy).Contents (Elt F)) y_cst_9
  let y_v27 : (⟨S8x12x12, .i1⟩ : BufTy).Contents (Elt F) := (cmpf .ogt : (⟨S8x12x12, .f32⟩ : BufTy).Contents (Elt F) → (⟨S8x12x12, .f32⟩ : BufTy).Contents (Elt F) → (⟨S8x12x12, .i1⟩ : BufTy).Contents (Elt F)) y_v25 y_v26
  let y_cst_10 : (⟨S_, .f32⟩ : BufTy).Contents (Elt F) := constant S_ .f32 0x3F800000#32
  let y_call2_v0 : (⟨S_, .f32⟩ : BufTy).Contents (Elt F) := id y_cst_10
  let y_call2_v1 : (⟨S8x12x12, .f32⟩ : BufTy).Contents (Elt F) := broadcastInDim S8x12x12 ![] bcast_S_S8x12x12 y_call2_v0
  let y_v28 : (⟨S8x12x12, .f32⟩ : BufTy).Contents (Elt F) := select y_v27 y_v25 y_call2_v1
  let y_v29 : (⟨S8x12x12, .f32⟩ : BufTy).Contents (Elt F) := (Host.sqrt : (⟨S8x12x12, .f32⟩ : BufTy).Contents (Elt F) → (⟨S8x12x12, .f32⟩ : BufTy).Contents (Elt F)) y_v28
  let y_cst_11 : (⟨S_, .f32⟩ : BufTy).Contents (Elt F) := constant S_ .f32 0x00000000#32
  let y_v30 : (⟨S8x12x12, .f32⟩ : BufTy).Contents (Elt F) := (broadcastInDim S8x12x12 ![] bcast_S_S8x12x12 : (⟨S_, .f32⟩ : BufTy).Contents (Elt F) → (⟨S8x12x12, .f32⟩ : BufTy).Contents (Elt F)) y_cst_11
  let y_v31 : (⟨S8x12x12, .i1⟩ : BufTy).Contents (Elt F) := (cmpf .ogt : (⟨S8x12x12, .f32⟩ : BufTy).Contents (Elt F) → (⟨S8x12x12, .f32⟩ : BufTy).Contents (Elt F) → (⟨S8x12x12, .i1⟩ : BufTy).Contents (Elt F)) y_v25 y_v30
  let y_cst_12 : (⟨S_, .f32⟩ : BufTy).Contents (Elt F) := constant S_ .f32 0x00000000#32
  let y_call3_v0 : (⟨S_, .f32⟩ : BufTy).Contents (Elt F) := id y_cst_12
  let y_call3_v1 : (⟨S8x12x12, .f32⟩ : BufTy).Contents (Elt F) := broadcastInDim S8x12x12 ![] bcast_S_S8x12x12 y_call3_v0
  let y_v32 : (⟨S8x12x12, .f32⟩ : BufTy).Contents (Elt F) := select y_v31 y_v29 y_call3_v1
  let y_v33 : (⟨S12x12, .i32⟩ : BufTy).Contents (Elt F) := iotaInDim S12x12 32 0
  let y_v34 : (⟨S12x12, .i32⟩ : BufTy).Contents (Elt F) := iotaInDim S12x12 32 1
  let y_c : (⟨S_, .i32⟩ : BufTy).Contents (Elt F) := constantI S_ 32 0#32
  let y_v35 : (⟨S12x12, .i32⟩ : BufTy).Contents (Elt F) := (broadcastInDim S12x12 ![] bcast_S_S12x12 : (⟨S_, .i32⟩ : BufTy).Contents (Elt F) → (⟨S12x12, .i32⟩ : BufTy).Contents (Elt F)) y_c
  let y_v36 : (⟨S12x12, .i32⟩ : BufTy).Contents (Elt F) := (addi : (⟨S12x12, .i32⟩ : BufTy).Contents (Elt F) → (⟨S12x12, .i32⟩ : BufTy).Contents (Elt F) → (⟨S12x12, .i32⟩ : BufTy).Contents (Elt F)) y_v33 y_v35
  let y_v37 : (⟨S12x12, .i1⟩ : BufTy).Contents (Elt F) := (cmpi .eq : (⟨S12x12, .i32⟩ : BufTy).Contents (Elt F) → (⟨S12x12, .i32⟩ : BufTy).Contents (Elt F) → (⟨S12x12, .i1⟩ : BufTy).Contents (Elt F)) y_v36 y_v34
  let y_v38 : (⟨S8x12x1, .i1⟩ : BufTy).Contents (Elt F) := (broadcastInDim S8x12x1 ![0, 1] bcast_S8x12_S8x12x1_0_1 : (⟨S8x12, .i1⟩ : BufTy).Contents (Elt F) → (⟨S8x12x1, .i1⟩ : BufTy).Contents (Elt F)) y_v5
  let y_v39 : (⟨S8x1x12, .i1⟩ : BufTy).Contents (Elt F) := (broadcastInDim S8x1x12 ![0, 2] bcast_S8x12_S8x1x12_0_2 : (⟨S8x12, .i1⟩ : BufTy).Contents (Elt F) → (⟨S8x1x12, .i1⟩ : BufTy).Contents (Elt F)) y_v5
  let y_v40 : (⟨S8x12x12, .i1⟩ : BufTy).Contents (Elt F) := (broadcastInDim S8x12x12 ![0, 1, 2] bcast_S8x12x1_S8x12x12_0_1_2 : (⟨S8x12x1, .i1⟩ : BufTy).Contents (Elt F) → (⟨S8x12x12, .i1⟩ : BufTy).Contents (Elt F)) y_v38
  let y_v41 : (⟨S8x12x12, .i1⟩ : BufTy).Contents (Elt F) := (broadcastInDim S8x12x12 ![0, 1, 2] bcast_S8x1x12_S8x12x12_0_1_2 : (⟨S8x1x12, .i1⟩ : BufTy).Contents (Elt F) → (⟨S8x12x12, .i1⟩ : BufTy).Contents (Elt F)) y_v39
  let y_v42 : (⟨S8x12x12, .i1⟩ : BufTy).Contents (Elt F) := (andi : (⟨S8x12x12, .i1⟩ : BufTy).Contents (Elt F) → (⟨S8x12x12, .i1⟩ : BufTy).Contents (Elt F) → (⟨S8x12x12, .i1⟩ : BufTy).Contents (Elt F)) y_v40 y_v41
  let y_v43 : (⟨S12x12, .i1⟩ : BufTy).Contents (Elt F) := (noti : (⟨S12x12, .i1⟩ : BufTy).Contents (Elt F) → (⟨S12x12, .i1⟩ : BufTy).Contents (Elt F)) y_v37
  let y_v44 : (⟨S1x12x12, .i1⟩ : BufTy).Contents (Elt F) := (broadcastInDim S1x12x12 ![1, 2] bcast_S12x12_S1x12x12_1_2 : (⟨S12x12, .i1⟩ : BufTy).Contents (Elt F) → (⟨S1x12x12, .i1⟩ : BufTy).Contents (Elt F)) y_v43
  let y_v45 : (⟨S8x12x12, .i1⟩ : BufTy).Contents (Elt F) := (broadcastInDim S8x12x12 ![0, 1, 2] bcast_S1x12x12_S8x12x12_0_1_2 : (⟨S1x12x12, .i1⟩ : BufTy).Contents (Elt F) → (⟨S8x12x12, .i1⟩ : BufTy).Contents (Elt F)) y_v44
  let y_v46 : (⟨S8x12x12, .i1⟩ : BufTy).Contents (Elt F) := (andi : (⟨S8x12x12, .i1⟩ : BufTy).Contents (Elt F) → (⟨S8x12x12, .i1⟩ : BufTy).Contents (Elt F) → (⟨S8x12x12, .i1⟩ : BufTy).Contents (Elt F)) y_v42 y_v45
  let y_v47 : (⟨S8x12x12, .f32⟩ : BufTy).Contents (Elt F) := (uitofp .f32 : (⟨S8x12x12, .i1⟩ : BufTy).Contents (Elt F) → (⟨S8x12x12, .f32⟩ : BufTy).Contents (Elt F)) y_v46
  let y_cst_13 : (⟨S_, .f32⟩ : BufTy).Contents (Elt F) := constant S_ .f32 0x40C00000#32
  let y_v48 : (⟨S8x12x12, .f32⟩ : BufTy).Contents (Elt F) := (broadcastInDim S8x12x12 ![] bcast_S_S8x12x12 : (⟨S_, .f32⟩ : BufTy).Contents (Elt F) → (⟨S8x12x12, .f32⟩ : BufTy).Contents (Elt F)) y_cst_13
  let y_v49 : (⟨S8x12x12, .f32⟩ : BufTy).Contents (Elt F) := (subf : (⟨S8x12x12, .f32⟩ : BufTy).Contents (Elt F) → (⟨S8x12x12, .f32⟩ : BufTy).Contents (Elt F) → (⟨S8x12x12, .f32⟩ : BufTy).Contents (Elt F)) y_v48 y_v32
  let y_cst_14 : (⟨S_, .f32⟩ : BufTy).Contents (Elt F) := constant S_ .f32 0x00000000#32
  let y_v50 : (⟨S8x12x12, .f32⟩ : BufTy).Contents (Elt F) := (broadcastInDim S8x12x12 ![] bcast_S_S8x12x12 : (⟨S_, .f32⟩ : BufTy).Contents (Elt F) → (⟨S8x12x12, .f32⟩ : BufTy).Contents (Elt F)) y_cst_14
  let y_v51 : (⟨S8x12x12, .f32⟩ : BufTy).Contents (Elt F) := (maximumf : (⟨S8x12x12, .f32⟩ : BufTy).Contents (Elt F) → (⟨S8x12x12, .f32⟩ : BufTy).Contents (Elt F) → (⟨S8x12x12, .f32⟩ : BufTy).Contents (Elt F)) y_v49 y_v50
  let y_cst_15 : (⟨S_, .f32⟩ : BufTy).Contents (Elt F) := constant S_ .f32 0x00000000#32
  let y_v52 : (⟨S_, .f32⟩ : BufTy).Contents (Elt F) := ((fun x v => Host.reduceAdd x v reducesTo_S8x12x12_S_d0_1_2 h_S_) : (⟨S8x12x12, .f32⟩ : BufTy).Contents (Elt F) → (⟨S_, .f32⟩ : BufTy).Contents (Elt F) → (⟨S_, .f32⟩ : BufTy).Contents (Elt F)) y_v47 y_cst_15
  let y_cst_16 : (⟨S_, .f32⟩ : BufTy).Contents (Elt F) := constant S_ .f32 0x00000000#32
  let y_v53 : (⟨S_, .i1⟩ : BufTy).Contents (Elt F) := (cmpf .ogt : (⟨S_, .f32⟩ : BufTy).Contents (Elt F) → (⟨S_, .f32⟩ : BufTy).Contents (Elt F) → (⟨S_, .i1⟩ : BufTy).Contents (Elt F)) y_v52 y_cst_16
  let y_v54 : (⟨S8x12x12, .f32⟩ : BufTy).Contents (Elt F) := (mulf : (⟨S8x12x12, .f32⟩ : BufTy).Contents (Elt F) → (⟨S8x12x12, .f32⟩ : BufTy).Contents (Elt F) → (⟨S8x12x12, .f32⟩ : BufTy).Contents (Elt F)) y_v51 y_v47
  let y_cst_17 : (⟨S_, .f32⟩ : BufTy).Contents (Elt F) := constant S_ .f32 0x00000000#32
  let y_v55 : (⟨S_, .f32⟩ : BufTy).Contents (Elt F) := ((fun x v => Host.reduceAdd x v reducesTo_S8x12x12_S_d0_1_2 h_S_) : (⟨S8x12x12, .f32⟩ : BufTy).Contents (Elt F) → (⟨S_, .f32⟩ : BufTy).Contents (Elt F) → (⟨S_, .f32⟩ : BufTy).Contents (Elt F)) y_v54 y_cst_17
  let y_cst_18 : (⟨S_, .f32⟩ : BufTy).Contents (Elt F) := constant S_ .f32 0x3F800000#32
  let y_v56 : (⟨S_, .f32⟩ : BufTy).Contents (Elt F) := (maximumf : (⟨S_, .f32⟩ : BufTy).Contents (Elt F) → (⟨S_, .f32⟩ : BufTy).Contents (Elt F) → (⟨S_, .f32⟩ : BufTy).Contents (Elt F)) y_v52 y_cst_18
  let y_v57 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) y_v55 y_v56
  let y_v58 : (⟨S_, .f32⟩ : BufTy).Contents (Elt F) := select y_v53 y_v57 fb2
  let y_cst_20 : (⟨S_, .f32⟩ : BufTy).Contents (Elt F) := constant S_ .f32 0x3F800000#32
  let y_v59 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) y_v58 y_cst_20
  let y_v60 : (⟨S_, .f32⟩ : BufTy).Contents (Elt F) := (addf : (⟨S_, .f32⟩ : BufTy).Contents (Elt F) → (⟨S_, .f32⟩ : BufTy).Contents (Elt F) → (⟨S_, .f32⟩ : BufTy).Contents (Elt F)) y_v59 y_v18
  y_v60

/-- The kernel's tail: both fall-back values are the constant zero. -/
def tailK (cen : (⟨S8x12x16, .f32⟩ : BufTy).Contents (Elt F)) (cnt3 : (⟨S8x12x1, .f32⟩ : BufTy).Contents (Elt F))
    (pul3 : (⟨S8x12x1, .f32⟩ : BufTy).Contents (Elt F)) : (⟨S_, .f32⟩ : BufTy).Contents (Elt F) :=
  tailK' cen cnt3 pul3 (id (constant S_ .f32 0x00000000#32)) (id (constant S_ .f32 0x00000000#32))

end Cert.KerTail

end
-- ==== Proof.KerTailRun.lean ====
/- The host operations after the kernel, run from any contents of the device's buffers, leave in the result
   buffer the tail function `tailK` of the three arrays the kernel produced. -/
import proofs.«106792_j1022202216835_2_alg».proof.Proof.KerTail
import Idealize.ShloMosaic.Lib.StableHlo.Run

noncomputable section

namespace Cert.KerTail

open Cert.KernelIdeal Cert.KernelIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- After the 89 operations that follow the kernel, the result buffer holds `tailK` of what the centres,
    counts and pull-sum buffers held before them. -/
theorem after_tail (V : Valuation τ sig (Elt F)) :
    StableHlo.after (List.flatten [hostOps1, hostOps1_1, hostOps1_2, hostOps1_3, hostOps1_4, hostOps1_5, hostOps1_6, hostOps1_7, hostOps1_8, hostOps1_9, hostOps1_10]) V (Proc.devRef .tc main_v60)
      = tailK (F := F) (V (Proc.devRef .tc main_v2_0)) (V (Proc.devRef .tc main_v2_1)) (V (Proc.devRef .tc main_v2_2)) := by
  simp only [hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  after_results_simp
  rfl

end Cert.KerTail

end
-- ==== Proof.RefTail.lean ====
/- The reference's last operations, read as ONE function of four of its stages: the instance centres `cen`
   [8,12,16], the instance pixel counts `cnt` [8,12], the per-instance pull sums `pul` [8,12] and the feature
   array `feat` [8,16,235520] (which enters only through the two fall-back values).

   With valid(b,c) := counts(b,c) > 0 and d(b,c) := max(counts(b,c), 1), the result is push + pull,
   pull = (Σ_{b,c} [valid] · pul/d) / max(#valid, 1) when some instance is valid, else the fall-back value, and
   push = (Σ_{b,c,c'} max(6 − dist(b,c,c'), 0) · pair(b,c,c')) / max(#pairs, 1) when some pair exists, else the
   fall-back value; dist is the Euclidean distance of two centres of one batch and pair(b,c,c') says that c ≠ c'
   are both valid. The reference's fall-back value is 0 · mean(feat).

   `tailR'` leaves the two fall-back values as parameters; each of its lines is the reference's operation
   applied to the values of earlier lines, in program order; `tailR` supplies the reference's own fall-backs. -/
import proofs.«106792_j1022202216835_2_alg».proof.Proof.RefRead

noncomputable section

namespace Cert.RefTail

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- The reference's fall-back value: zero times the mean of all features. -/
def fbR (feat : (⟨S8x16x235520, .f32⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) (constant S_ .f32 0x00000000#32)
    ((Host.divf : (⟨S_, .f32⟩ : BufTy).Contents (Elt F) → (⟨S_, .f32⟩ : BufTy).Contents (Elt F) → (⟨S_, .f32⟩ : BufTy).Contents (Elt F))
      (((fun x v => Host.reduceAdd x v reducesTo_S8x16x235520_S_d0_1_2 h_S_) : (⟨S8x16x235520, .f32⟩ : BufTy).Contents (Elt F) → (⟨S_, .f32⟩ : BufTy).Contents (Elt F) → (⟨S_, .f32⟩ : BufTy).Contents (Elt F)) feat (constant S_ .f32 0x00000000#32))
      (constant S_ .f32 0x4BE60000#32))

/-- The tail with the two scalar fall-back values left as parameters. -/
def tailR' (cen : (⟨S8x12x16, .f32⟩ : BufTy).Contents (Elt F)) (cnt pul : (⟨S8x12, .f32⟩ : BufTy).Contents (Elt F))
    (fb1 fb2 : (⟨S_, .f32⟩ : BufTy).Contents (Elt F)) : (⟨S_, .f32⟩ : BufTy).Contents (Elt F) :=
  let r_cst_0 : (⟨S_, .f32⟩ : BufTy).Contents (Elt F) := constant S_ .f32 0x00000000#32
  let r_v12 : (⟨S8x12, .f32⟩ : BufTy).Contents (Elt F) := (broadcastInDim S8x12 ![] bcast_S_S8x12 : (⟨S_, .f32⟩ : BufTy).Contents (Elt F) → (⟨S8x12, .f32⟩ : BufTy).Contents (Elt F)) r_cst_0
  let r_v13 : (⟨S8x12, .i1⟩ : BufTy).Contents (Elt F) := (cmpf .ogt : (⟨S8x12, .f32⟩ : BufTy).Contents (Elt F) → (⟨S8x12, .f32⟩ : BufTy).Contents (Elt F) → (⟨S8x12, .i1⟩ : BufTy).Contents (Elt F)) cnt r_v12
  let r_cst_1 : (⟨S_, .f32⟩ : BufTy).Contents (Elt F) := constant S_ .f32 0x3F800000#32
  let r_v14 : (⟨S8x12, .f32⟩ : BufTy).Contents (Elt F) := (broadcastInDim S8x12 ![] bcast_S_S8x12 : (⟨S_, .f32⟩ : BufTy).Contents (Elt F) → (⟨S8x12, .f32⟩ : BufTy).Contents (Elt F)) r_cst_1
  let r_v15 : (⟨S8x12, .f32⟩ : BufTy).Contents (Elt F) := (maximumf : (⟨S8x12, .f32⟩ : BufTy).Contents (Elt F) → (⟨S8x12, .f32⟩ : BufTy).Contents (Elt F) → (⟨S8x12, .f32⟩ : BufTy).Contents (Elt F)) cnt r_v14
  let r_v48 : (⟨S8x12, .f32⟩ : BufTy).Contents (Elt F) := (Host.divf : (⟨S8x12, .f32⟩ : BufTy).Contents (Elt F) → (⟨S8x12, .f32⟩ : BufTy).Contents (Elt F) → (⟨S8x12, .f32⟩ : BufTy).Contents (Elt F)) pul r_v15
  let r_v49 : (⟨S8x12, .f32⟩ : BufTy).Contents (Elt F) := (uitofp .f32 : (⟨S8x12, .i1⟩ : BufTy).Contents (Elt F) → (⟨S8x12, .f32⟩ : BufTy).Contents (Elt F)) r_v13
  let r_cst_13 : (⟨S_, .f32⟩ : BufTy).Contents (Elt F) := constant S_ .f32 0x00000000#32
  let r_v50 : (⟨S_, .f32⟩ : BufTy).Contents (Elt F) := ((fun x v => Host.reduceAdd x v reducesTo_S8x12_S_d0_1 h_S_) : (⟨S8x12, .f32⟩ : BufTy).Contents (Elt F) → (⟨S_, .f32⟩ : BufTy).Contents (Elt F) → (⟨S_, .f32⟩ : BufTy).Contents (Elt F)) r_v49 r_cst_13
  let r_cst_14 : (⟨S_, .f32⟩ : BufTy).Contents (Elt F) := constant S_ .f32 0x00000000#32
  let r_v51 : (⟨S_, .i1⟩ : BufTy).Contents (Elt F) := (cmpf .ogt : (⟨S_, .f32⟩ : BufTy).Contents (Elt F) → (⟨S_, .f32⟩ : BufTy).Contents (Elt F) → (⟨S_, .i1⟩ : BufTy).Contents (Elt F)) r_v50 r_cst_14
  let r_cst_15 : (⟨S_, .f32⟩ : BufTy).Contents (Elt F) := constant S_ .f32 0x00000000#32
  let r_call2_v0 : (⟨S_, .f32⟩ : BufTy).Contents (Elt F) := id r_cst_15
  let r_call2_v1 : (⟨S8x12, .f32⟩ : BufTy).Contents (Elt F) := (broadcastInDim S8x12 ![] bcast_S_S8x12 : (⟨S_, .f32⟩ : BufTy).Contents (Elt F) → (⟨S8x12, .f32⟩ : BufTy).Contents (Elt F)) r_call2_v0
  let r_v52 : (⟨S8x12, .f32⟩ : BufTy).Contents (Elt F) := select r_v13 r_v48 r_call2_v1
  let r_cst_16 : (⟨S_, .f32⟩ : BufTy).Contents (Elt F) := constant S_ .f32 0x00000000#32
  let r_v53 : (⟨S_, .f32⟩ : BufTy).Contents (Elt F) := ((fun x v => Host.reduceAdd x v reducesTo_S8x12_S_d0_1 h_S_) : (⟨S8x12, .f32⟩ : BufTy).Contents (Elt F) → (⟨S_, .f32⟩ : BufTy).Contents (Elt F) → (⟨S_, .f32⟩ : BufTy).Contents (Elt F)) r_v52 r_cst_16
  let r_cst_17 : (⟨S_, .f32⟩ : BufTy).Contents (Elt F) := constant S_ .f32 0x3F800000#32
  let r_v54 : (⟨S_, .f32⟩ : BufTy).Contents (Elt F) := (maximumf : (⟨S_, .f32⟩ : BufTy).Contents (Elt F) → (⟨S_, .f32⟩ : BufTy).Contents (Elt F) → (⟨S_, .f32⟩ : BufTy).Contents (Elt F)) r_v50 r_cst_17
  let r_v55 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) r_v53 r_v54
  let r_v59 : (⟨S_, .f32⟩ : BufTy).Contents (Elt F) := select r_v51 r_v55 fb1
  let r_cst_21 : (⟨S_, .f32⟩ : BufTy).Contents (Elt F) := constant S_ .f32 0x3F800000#32
  let r_v60 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) r_v59 r_cst_21
  let r_v61 : (⟨S8x12x1x16, .f32⟩ : BufTy).Contents (Elt F) := (broadcastInDim S8x12x1x16 ![0, 1, 3] bcast_S8x12x16_S8x12x1x16_0_1_3 : (⟨S8x12x16, .f32⟩ : BufTy).Contents (Elt F) → (⟨S8x12x1x16, .f32⟩ : BufTy).Contents (Elt F)) cen
  let r_v62 : (⟨S8x1x12x16, .f32⟩ : BufTy).Contents (Elt F) := (broadcastInDim S8x1x12x16 ![0, 2, 3] bcast_S8x12x16_S8x1x12x16_0_2_3 : (⟨S8x12x16, .f32⟩ : BufTy).Contents (Elt F) → (⟨S8x1x12x16, .f32⟩ : BufTy).Contents (Elt F)) cen
  let r_v63 : (⟨S8x12x12x16, .f32⟩ : BufTy).Contents (Elt F) := (broadcastInDim S8x12x12x16 ![0, 1, 2, 3] bcast_S8x12x1x16_S8x12x12x16_0_1_2_3 : (⟨S8x12x1x16, .f32⟩ : BufTy).Contents (Elt F) → (⟨S8x12x12x16, .f32⟩ : BufTy).Contents (Elt F)) r_v61
  let r_v64 : (⟨S8x12x12x16, .f32⟩ : BufTy).Contents (Elt F) := (broadcastInDim S8x12x12x16 ![0, 1, 2, 3] bcast_S8x1x12x16_S8x12x12x16_0_1_2_3 : (⟨S8x1x12x16, .f32⟩ : BufTy).Contents (Elt F) → (⟨S8x12x12x16, .f32⟩ : BufTy).Contents (Elt F)) r_v62
  let r_v65 : (⟨S8x12x12x16, .f32⟩ : BufTy).Contents (Elt F) := (subf : (⟨S8x12x12x16, .f32⟩ : BufTy).Contents (Elt F) → (⟨S8x12x12x16, .f32⟩ : BufTy).Contents (Elt F) → (⟨S8x12x12x16, .f32⟩ : BufTy).Contents (Elt F)) r_v63 r_v64
  let r_v66 : (⟨S8x12x12x16, .f32⟩ : BufTy).Contents (Elt F) := (mulf : (⟨S8x12x12x16, .f32⟩ : BufTy).Contents (Elt F) → (⟨S8x12x12x16, .f32⟩ : BufTy).Contents (Elt F) → (⟨S8x12x12x16, .f32⟩ : BufTy).Contents (Elt F)) r_v65 r_v65
  let r_cst_22 : (⟨S_, .f32⟩ : BufTy).Contents (Elt F) := constant S_ .f32 0x00000000#32
  let r_v67 : (⟨S8x12x12, .f32⟩ : BufTy).Contents (Elt F) := ((fun x v => Host.reduceAdd x v reducesTo_S8x12x12x16_S8x12x12_d3 h_S_) : (⟨S8x12x12x16, .f32⟩ : BufTy).Contents (Elt F) → (⟨S_, .f32⟩ : BufTy).Contents (Elt F) → (⟨S8x12x12, .f32⟩ : BufTy).Contents (Elt F)) r_v66 r_cst_22
  let r_cst_23 : (⟨S_, .f32⟩ : BufTy).Contents (Elt F) := constant S_ .f32 0x00000000#32
  let r_v68 : (⟨S8x12x12, .f32⟩ : BufTy).Contents (Elt F) := (broadcastInDim S8x12x12 ![] bcast_S_S8x12x12 : (⟨S_, .f32⟩ : BufTy).Contents (Elt F) → (⟨S8x12x12, .f32⟩ : BufTy).Contents (Elt F)) r_cst_23
  let r_v69 : (⟨S8x12x12, .i1⟩ : BufTy).Contents (Elt F) := (cmpf .ogt : (⟨S8x12x12, .f32⟩ : BufTy).Contents (Elt F) → (⟨S8x12x12, .f32⟩ : BufTy).Contents (Elt F) → (⟨S8x12x12, .i1⟩ : BufTy).Contents (Elt F)) r_v67 r_v68
  let r_cst_24 : (⟨S_, .f32⟩ : BufTy).Contents (Elt F) := constant S_ .f32 0x00000000#32
  let r_v70 : (⟨S8x12x12, .f32⟩ : BufTy).Contents (Elt F) := (broadcastInDim S8x12x12 ![] bcast_S_S8x12x12 : (⟨S_, .f32⟩ : BufTy).Contents (Elt F) → (⟨S8x12x12, .f32⟩ : BufTy).Contents (Elt F)) r_cst_24
  let r_v71 : (⟨S8x12x12, .i1⟩ : BufTy).Contents (Elt F) := (cmpf .ogt : (⟨S8x12x12, .f32⟩ : BufTy).Contents (Elt F) → (⟨S8x12x12, .f32⟩ : BufTy).Contents (Elt F) → (⟨S8x12x12, .i1⟩ : BufTy).Contents (Elt F)) r_v67 r_v70
  let r_cst_25 : (⟨S_, .f32⟩ : BufTy).Contents (Elt F) := constant S_ .f32 0x3F800000#32
  let r_call4_v0 : (⟨S_, .f32⟩ : BufTy).Contents (Elt F) := id r_cst_25
  let r_call4_v1 : (⟨S8x12x12, .f32⟩ : BufTy).Contents (Elt F) := (broadcastInDim S8x12x12 ![] bcast_S_S8x12x12 : (⟨S_, .f32⟩ : BufTy).Contents (Elt F) → (⟨S8x12x12, .f32⟩ : BufTy).Contents (Elt F)) r_call4_v0
  let r_v72 : (⟨S8x12x12, .f32⟩ : BufTy).Contents (Elt F) := select r_v71 r_v67 r_call4_v1
  let r_v73 : (⟨S8x12x12, .f32⟩ : BufTy).Contents (Elt F) := (Host.sqrt : (⟨S8x12x12, .f32⟩ : BufTy).Contents (Elt F) → (⟨S8x12x12, .f32⟩ : BufTy).Contents (Elt F)) r_v72
  let r_cst_26 : (⟨S_, .f32⟩ : BufTy).Contents (Elt F) := constant S_ .f32 0x00000000#32
  let r_call5_v0 : (⟨S_, .f32⟩ : BufTy).Contents (Elt F) := id r_cst_26
  let r_call5_v1 : (⟨S8x12x12, .f32⟩ : BufTy).Contents (Elt F) := (broadcastInDim S8x12x12 ![] bcast_S_S8x12x12 : (⟨S_, .f32⟩ : BufTy).Contents (Elt F) → (⟨S8x12x12, .f32⟩ : BufTy).Contents (Elt F)) r_call5_v0
  let r_v74 : (⟨S8x12x12, .f32⟩ : BufTy).Contents (Elt F) := select r_v69 r_v73 r_call5_v1
  let r_v75 : (⟨S8x12x1, .i1⟩ : BufTy).Contents (Elt F) := (broadcastInDim S8x12x1 ![0, 1] bcast_S8x12_S8x12x1_0_1 : (⟨S8x12, .i1⟩ : BufTy).Contents (Elt F) → (⟨S8x12x1, .i1⟩ : BufTy).Contents (Elt F)) r_v13
  let r_v76 : (⟨S8x1x12, .i1⟩ : BufTy).Contents (Elt F) := (broadcastInDim S8x1x12 ![0, 2] bcast_S8x12_S8x1x12_0_2 : (⟨S8x12, .i1⟩ : BufTy).Contents (Elt F) → (⟨S8x1x12, .i1⟩ : BufTy).Contents (Elt F)) r_v13
  let r_v77 : (⟨S8x12x12, .i1⟩ : BufTy).Contents (Elt F) := (broadcastInDim S8x12x12 ![0, 1, 2] bcast_S8x12x1_S8x12x12_0_1_2 : (⟨S8x12x1, .i1⟩ : BufTy).Contents (Elt F) → (⟨S8x12x12, .i1⟩ : BufTy).Contents (Elt F)) r_v75
  let r_v78 : (⟨S8x12x12, .i1⟩ : BufTy).Contents (Elt F) := (broadcastInDim S8x12x12 ![0, 1, 2] bcast_S8x1x12_S8x12x12_0_1_2 : (⟨S8x1x12, .i1⟩ : BufTy).Contents (Elt F) → (⟨S8x12x12, .i1⟩ : BufTy).Contents (Elt F)) r_v76
  let r_v79 : (⟨S8x12x12, .i1⟩ : BufTy).Contents (Elt F) := (andi : (⟨S8x12x12, .i1⟩ : BufTy).Contents (Elt F) → (⟨S8x12x12, .i1⟩ : BufTy).Contents (Elt F) → (⟨S8x12x12, .i1⟩ : BufTy).Contents (Elt F)) r_v77 r_v78
  let r_v80 : (⟨S12x12, .i32⟩ : BufTy).Contents (Elt F) := iotaInDim S12x12 32 0
  let r_v81 : (⟨S12x12, .i32⟩ : BufTy).Contents (Elt F) := iotaInDim S12x12 32 1
  let r_c_27 : (⟨S_, .i32⟩ : BufTy).Contents (Elt F) := constantI S_ 32 0#32
  let r_v82 : (⟨S12x12, .i32⟩ : BufTy).Contents (Elt F) := (broadcastInDim S12x12 ![] bcast_S_S12x12 : (⟨S_, .i32⟩ : BufTy).Contents (Elt F) → (⟨S12x12, .i32⟩ : BufTy).Contents (Elt F)) r_c_27
  let r_v83 : (⟨S12x12, .i32⟩ : BufTy).Contents (Elt F) := (addi : (⟨S12x12, .i32⟩ : BufTy).Contents (Elt F) → (⟨S12x12, .i32⟩ : BufTy).Contents (Elt F) → (⟨S12x12, .i32⟩ : BufTy).Contents (Elt F)) r_v80 r_v82
  let r_v84 : (⟨S12x12, .i1⟩ : BufTy).Contents (Elt F) := (cmpi .eq : (⟨S12x12, .i32⟩ : BufTy).Contents (Elt F) → (⟨S12x12, .i32⟩ : BufTy).Contents (Elt F) → (⟨S12x12, .i1⟩ : BufTy).Contents (Elt F)) r_v83 r_v81
  let r_v85 : (⟨S12x12, .i1⟩ : BufTy).Contents (Elt F) := (noti : (⟨S12x12, .i1⟩ : BufTy).Contents (Elt F) → (⟨S12x12, .i1⟩ : BufTy).Contents (Elt F)) r_v84
  let r_v86 : (⟨S1x12x12, .i1⟩ : BufTy).Contents (Elt F) := (broadcastInDim S1x12x12 ![1, 2] bcast_S12x12_S1x12x12_1_2 : (⟨S12x12, .i1⟩ : BufTy).Contents (Elt F) → (⟨S1x12x12, .i1⟩ : BufTy).Contents (Elt F)) r_v85
  let r_v87 : (⟨S8x12x12, .i1⟩ : BufTy).Contents (Elt F) := (broadcastInDim S8x12x12 ![0, 1, 2] bcast_S1x12x12_S8x12x12_0_1_2 : (⟨S1x12x12, .i1⟩ : BufTy).Contents (Elt F) → (⟨S8x12x12, .i1⟩ : BufTy).Contents (Elt F)) r_v86
  let r_v88 : (⟨S8x12x12, .i1⟩ : BufTy).Contents (Elt F) := (andi : (⟨S8x12x12, .i1⟩ : BufTy).Contents (Elt F) → (⟨S8x12x12, .i1⟩ : BufTy).Contents (Elt F) → (⟨S8x12x12, .i1⟩ : BufTy).Contents (Elt F)) r_v79 r_v87
  let r_v89 : (⟨S8x12x12, .f32⟩ : BufTy).Contents (Elt F) := (uitofp .f32 : (⟨S8x12x12, .i1⟩ : BufTy).Contents (Elt F) → (⟨S8x12x12, .f32⟩ : BufTy).Contents (Elt F)) r_v88
  let r_cst_28 : (⟨S_, .f32⟩ : BufTy).Contents (Elt F) := constant S_ .f32 0x40C00000#32
  let r_v90 : (⟨S8x12x12, .f32⟩ : BufTy).Contents (Elt F) := (broadcastInDim S8x12x12 ![] bcast_S_S8x12x12 : (⟨S_, .f32⟩ : BufTy).Contents (Elt F) → (⟨S8x12x12, .f32⟩ : BufTy).Contents (Elt F)) r_cst_28
  let r_v91 : (⟨S8x12x12, .f32⟩ : BufTy).Contents (Elt F) := (subf : (⟨S8x12x12, .f32⟩ : BufTy).Contents (Elt F) → (⟨S8x12x12, .f32⟩ : BufTy).Contents (Elt F) → (⟨S8x12x12, .f32⟩ : BufTy).Contents (Elt F)) r_v90 r_v74
  let r_cst_29 : (⟨S_, .f32⟩ : BufTy).Contents (Elt F) := constant S_ .f32 0x00000000#32
  let r_v92 : (⟨S8x12x12, .f32⟩ : BufTy).Contents (Elt F) := (broadcastInDim S8x12x12 ![] bcast_S_S8x12x12 : (⟨S_, .f32⟩ : BufTy).Contents (Elt F) → (⟨S8x12x12, .f32⟩ : BufTy).Contents (Elt F)) r_cst_29
  let r_v93 : (⟨S8x12x12, .f32⟩ : BufTy).Contents (Elt F) := (maximumf : (⟨S8x12x12, .f32⟩ : BufTy).Contents (Elt F) → (⟨S8x12x12, .f32⟩ : BufTy).Contents (Elt F) → (⟨S8x12x12, .f32⟩ : BufTy).Contents (Elt F)) r_v91 r_v92
  let r_cst_30 : (⟨S_, .f32⟩ : BufTy).Contents (Elt F) := constant S_ .f32 0x00000000#32
  let r_v94 : (⟨S_, .f32⟩ : BufTy).Contents (Elt F) := ((fun x v => Host.reduceAdd x v reducesTo_S8x12x12_S_d0_1_2 h_S_) : (⟨S8x12x12, .f32⟩ : BufTy).Contents (Elt F) → (⟨S_, .f32⟩ : BufTy).Contents (Elt F) → (⟨S_, .f32⟩ : BufTy).Contents (Elt F)) r_v89 r_cst_30
  let r_cst_31 : (⟨S_, .f32⟩ : BufTy).Contents (Elt F) := constant S_ .f32 0x00000000#32
  let r_v95 : (⟨S_, .i1⟩ : BufTy).Contents (Elt F) := (cmpf .ogt : (⟨S_, .f32⟩ : BufTy).Contents (Elt F) → (⟨S_, .f32⟩ : BufTy).Contents (Elt F) → (⟨S_, .i1⟩ : BufTy).Contents (Elt F)) r_v94 r_cst_31
  let r_v96 : (⟨S8x12x12, .f32⟩ : BufTy).Contents (Elt F) := (mulf : (⟨S8x12x12, .f32⟩ : BufTy).Contents (Elt F) → (⟨S8x12x12, .f32⟩ : BufTy).Contents (Elt F) → (⟨S8x12x12, .f32⟩ : BufTy).Contents (Elt F)) r_v93 r_v89
  let r_cst_32 : (⟨S_, .f32⟩ : BufTy).Contents (Elt F) := constant S_ .f32 0x00000000#32
  let r_v97 : (⟨S_, .f32⟩ : BufTy).Contents (Elt F) := ((fun x v => Host.reduceAdd x v reducesTo_S8x12x12_S_d0_1_2 h_S_) : (⟨S8x12x12, .f32⟩ : BufTy).Contents (Elt F) → (⟨S_, .f32⟩ : BufTy).Contents (Elt F) → (⟨S_, .f32⟩ : BufTy).Contents (Elt F)) r_v96 r_cst_32
  let r_cst_33 : (⟨S_, .f32⟩ : BufTy).Contents (Elt F) := constant S_ .f32 0x3F800000#32
  let r_v98 : (⟨S_, .f32⟩ : BufTy).Contents (Elt F) := (maximumf : (⟨S_, .f32⟩ : BufTy).Contents (Elt F) → (⟨S_, .f32⟩ : BufTy).Contents (Elt F) → (⟨S_, .f32⟩ : BufTy).Contents (Elt F)) r_v94 r_cst_33
  let r_v99 : (⟨S_, .f32⟩ : BufTy).Contents (Elt F) := (Host.divf : (⟨S_, .f32⟩ : BufTy).Contents (Elt F) → (⟨S_, .f32⟩ : BufTy).Contents (Elt F) → (⟨S_, .f32⟩ : BufTy).Contents (Elt F)) r_v97 r_v98
  let r_v103 : (⟨S_, .f32⟩ : BufTy).Contents (Elt F) := select r_v95 r_v99 fb2
  let r_cst_37 : (⟨S_, .f32⟩ : BufTy).Contents (Elt F) := constant S_ .f32 0x3F800000#32
  let r_v104 : (⟨S_, .f32⟩ : BufTy).Contents (Elt F) := (mulf : (⟨S_, .f32⟩ : BufTy).Contents (Elt F) → (⟨S_, .f32⟩ : BufTy).Contents (Elt F) → (⟨S_, .f32⟩ : BufTy).Contents (Elt F)) r_v103 r_cst_37
  let r_v105 : (⟨S_, .f32⟩ : BufTy).Contents (Elt F) := (addf : (⟨S_, .f32⟩ : BufTy).Contents (Elt F) → (⟨S_, .f32⟩ : BufTy).Contents (Elt F) → (⟨S_, .f32⟩ : BufTy).Contents (Elt F)) r_v104 r_v60
  r_v105

/-- The reference's tail. -/
def tailR (cen : (⟨S8x12x16, .f32⟩ : BufTy).Contents (Elt F)) (cnt pul : (⟨S8x12, .f32⟩ : BufTy).Contents (Elt F))
    (feat : (⟨S8x16x235520, .f32⟩ : BufTy).Contents (Elt F)) : (⟨S_, .f32⟩ : BufTy).Contents (Elt F) :=
  tailR' cen cnt pul (fbR feat) (fbR feat)

/-- The reference's result is its tail applied to the stages of the centres, the counts, the pull sums and
    the reshaped features. -/
theorem val_main_v105_eq_tailR (x0 : (⟨S8x16x368x640, .f32⟩ : BufTy).Contents (Elt F)) (x1 : (⟨S8x1x368x640, .i32⟩ : BufTy).Contents (Elt F)) :
    val_main_v105 (F := F) x0 x1
      = tailR (val_main_v19 (F := F) x0 x1) (val_main_v11 (F := F) x1) (val_main_v47 (F := F) x0 x1) (val_main_v0 (F := F) x0) :=
  rfl

end Cert.RefTail

end
-- ==== Proof.TailEq.lean ====
/- The two tails are one function. Line by line the host operations after the kernel and the reference's last
   operations are the same operations on the same shapes; they differ only in the value each mean falls back
   to when it has nothing to average: the kernel's is the constant 0, the reference's is 0 · mean(feat). On the
   extended reals 0 · x = 0 for EVERY x (the infinities included), so the two fall-back values agree without
   any finiteness assumption on the features. -/
import proofs.«106792_j1022202216835_2_alg».proof.Proof.KerTail
import proofs.«106792_j1022202216835_2_alg».proof.Proof.RefTail
import Idealize.ShloMosaic.Lib.ValueIdx
import Idealize.ShloMosaic.PureOps.Ideal.Laws

noncomputable section

namespace Cert.TailEq

open Idealize.ShloMosaic

variable {F : FTy → Type} [FloatOps F]

/-- With the same fall-back values the two tails are the same composition of operations (for every float
    instance): the counts and the pull sums enter the reference's tail as [8,12] arrays, the kernel's as
    [8,12,1] arrays that its first operations reshape. -/
theorem tailK'_eq_tailR' (cen : (⟨Cert.KernelIdeal.S8x12x16, .f32⟩ : BufTy).Contents (Elt F))
    (cnt3 pul3 : (⟨Cert.KernelIdeal.S8x12x1, .f32⟩ : BufTy).Contents (Elt F))
    (fb1 fb2 : (⟨Cert.KernelIdeal.S_, .f32⟩ : BufTy).Contents (Elt F)) :
    Cert.KerTail.tailK' (F := F) cen cnt3 pul3 fb1 fb2
      = Cert.RefTail.tailR' (F := F) cen
          (shapeCast Cert.KernelIdeal.S8x12 cnt3 Cert.KernelIdeal.Gen.shapeCasts_S8x12x1_S8x12)
          (shapeCast Cert.KernelIdeal.S8x12 pul3 Cert.KernelIdeal.Gen.shapeCasts_S8x12x1_S8x12) fb1 fb2 :=
  rfl

/-- On the extended reals the reference's fall-back value 0 · mean(feat) is 0, whatever the features. -/
theorem fbR_eq (feat : (⟨Cert.ReferenceIdeal.S8x16x235520, .f32⟩ : BufTy).Contents (Elt Ideal)) :
    Cert.RefTail.fbR (F := Ideal) feat
      = (id (constant (F := Ideal) Cert.ReferenceIdeal.S_ .f32 0x00000000#32) : (⟨Cert.ReferenceIdeal.S_, .f32⟩ : BufTy).Contents (Elt Ideal)) := by
  funext i
  unfold Cert.RefTail.fbR
  rw [ValueIdx.mulf_apply, ValueIdx.constant_apply]
  show _ = Ideal.ofBits .f32 0x00000000#32
  rw [Ideal.ofBits_zero_f32, zero_mul]

/-- The kernel's tail is the reference's tail, at the ideal values, with no hypothesis on the features. -/
theorem tailK_eq_tailR (cen : (⟨Cert.KernelIdeal.S8x12x16, .f32⟩ : BufTy).Contents (Elt Ideal))
    (cnt3 pul3 : (⟨Cert.KernelIdeal.S8x12x1, .f32⟩ : BufTy).Contents (Elt Ideal))
    (feat : (⟨Cert.ReferenceIdeal.S8x16x235520, .f32⟩ : BufTy).Contents (Elt Ideal)) :
    Cert.KerTail.tailK (F := Ideal) cen cnt3 pul3
      = Cert.RefTail.tailR (F := Ideal) cen
          (shapeCast Cert.KernelIdeal.S8x12 cnt3 Cert.KernelIdeal.Gen.shapeCasts_S8x12x1_S8x12)
          (shapeCast Cert.KernelIdeal.S8x12 pul3 Cert.KernelIdeal.Gen.shapeCasts_S8x12x1_S8x12) feat := by
  unfold Cert.KerTail.tailK Cert.RefTail.tailR
  rw [fbR_eq]
  exact tailK'_eq_tailR' cen cnt3 pul3 _ _

end Cert.TailEq

end
-- ==== Proof.RefStages.lean ====
/- The reference's stages are the mathematics of `RefSpec`, index by index on the extended reals. The reshaped
   features X [8,16,235520] and labels L [8,235520] stay opaque: every statement is about the stages that follow
   the two reshapes. Each proof reads the stage at explicit coordinates through the operations that make it —
   a broadcast reads its operand at the kept coordinates, a sum over one axis is the initial value plus the sum
   over that coordinate, a batched contraction is the sum of products over the contracted coordinate. -/
import proofs.«106792_j1022202216835_2_alg».proof.Proof.RefRead
import proofs.«106792_j1022202216835_2_alg».proof.Proof.RefSpec

noncomputable section

open scoped BigOperators

namespace Cert.RefStages

open Cert.ReferenceIdeal Cert.ReferenceIdeal.Gen Cert.ReferenceIdeal.ReadP Idealize.ShloMosaic Idealize.ShloMosaic.ValueIdx Cert.RefSpec

variable (x0 : (⟨S8x16x368x640, .f32⟩ : BufTy).Contents (Elt Ideal)) (x1 : (⟨S8x1x368x640, .i32⟩ : BufTy).Contents (Elt Ideal))

/-- The mask stage at (b,c,p): the label of pixel p of batch b compared with c + 1, as 0 or 1. -/
theorem mask_apply (b : Fin 8) (c : Fin 12) (p : Fin 235520) :
    val_main_v10 (F := Ideal) x1 (ix3 b c p) = maskS (val_main_v1 (F := Ideal) x1 (ix2 b p)) c := by
  rw [val_main_v10_apply, val_main_v9_apply, val_main_v7_apply, val_main_v5_apply, val_main_v8_apply, val_main_v6_apply,
    val_main_v4_apply, val_main_v3_apply, val_main_c_apply, val_main_v2_apply]
  rw [show idx_main_v5 (idx_main_v7 (ix3 b c p)) = ix2 b p from funext fun a => Fin.ext (by match a with | ⟨0, _⟩ => rfl | ⟨1, _⟩ => rfl)]
  rfl

/-- The counts stage at (b,c): the sum of the mask over the pixels. -/
theorem counts_apply (b : Fin 8) (c : Fin 12) :
    val_main_v11 (F := Ideal) x1 (ix2 b c) = countsS (val_main_v1 (F := Ideal) x1) b c := by
  rw [val_main_v11_apply]
  unfold countsS
  refine congrArg₂ (· + ·) rfl (Finset.sum_congr rfl fun p _ => ?_)
  rw [show idx_main_v11 (ix2 b c) p = ix3 b c p from funext fun a => Fin.ext (by match a with | ⟨0, _⟩ => rfl | ⟨1, _⟩ => rfl | ⟨2, _⟩ => rfl)]
  exact mask_apply x1 b c p

/-- The centres stage at (b,c,n): the masked sum of channel n over the pixels, divided by max(counts, 1). -/
theorem center_apply (b : Fin 8) (c : Fin 12) (n : Fin 16) :
    val_main_v19 (F := Ideal) x0 x1 (ix3 b c n)
      = centerS (val_main_v0 (F := Ideal) x0) (val_main_v1 (F := Ideal) x1) b c n := by
  rw [val_main_v19_apply, val_main_v16_apply, val_main_v18_apply, val_main_v17_apply, val_main_v15_apply, val_main_v14_apply,
    val_main_cst_1_apply]
  rw [show idx_main_v17 (idx_main_v18 (ix3 b c n)) = ix2 b c from funext fun a => Fin.ext (by match a with | ⟨0, _⟩ => rfl | ⟨1, _⟩ => rfl)]
  rw [counts_apply]
  unfold centerS
  refine congrArg₂ Ideal.div (Finset.sum_congr rfl fun p _ => ?_) rfl
  rw [show lidx_main_v16 (ix3 b c n) p = ix3 b c p from funext fun a => Fin.ext (by match a with | ⟨0, _⟩ => rfl | ⟨1, _⟩ => rfl | ⟨2, _⟩ => rfl),
    show ridx_main_v16 (ix3 b c n) p = ix3 b n p from funext fun a => Fin.ext (by match a with | ⟨0, _⟩ => rfl | ⟨1, _⟩ => rfl | ⟨2, _⟩ => rfl), mask_apply]

/-- The squared norm of the features at (b,p): the sum over the channels of the squares. -/
theorem featsq_apply (b : Fin 8) (p : Fin 235520) :
    val_main_v21 (F := Ideal) x0 (ix2 b p) = featsqS (val_main_v0 (F := Ideal) x0) b p := by
  rw [val_main_v21_apply]
  unfold featsqS
  refine congrArg₂ (· + ·) rfl (Finset.sum_congr rfl fun n _ => ?_)
  rw [val_main_v20_apply, show idx_main_v21 (ix2 b p) n = ix3 b n p from funext fun a => Fin.ext (by match a with | ⟨0, _⟩ => rfl | ⟨1, _⟩ => rfl | ⟨2, _⟩ => rfl)]
  rfl

/-- The squared norm of a centre at (b,c): the sum over the channels of the squares. -/
theorem censq_apply (b : Fin 8) (c : Fin 12) :
    val_main_v23 (F := Ideal) x0 x1 (ix2 b c) = censqS (val_main_v19 (F := Ideal) x0 x1) b c := by
  rw [val_main_v23_apply]
  unfold censqS
  refine congrArg₂ (· + ·) rfl (Finset.sum_congr rfl fun n _ => ?_)
  rw [val_main_v22_apply, show idx_main_v23 (ix2 b c) n = ix3 b c n from funext fun a => Fin.ext (by match a with | ⟨0, _⟩ => rfl | ⟨1, _⟩ => rfl | ⟨2, _⟩ => rfl)]
  rfl

/-- The inner product of a centre with a pixel's features at (b,c,p): the sum over the channels. -/
theorem cross_apply (b : Fin 8) (c : Fin 12) (p : Fin 235520) :
    val_main_v24 (F := Ideal) x0 x1 (ix3 b c p)
      = crossS (val_main_v19 (F := Ideal) x0 x1) (val_main_v0 (F := Ideal) x0) b c p := by
  rw [val_main_v24_apply]
  unfold crossS
  refine Finset.sum_congr rfl fun n _ => ?_
  rw [show lidx_main_v24 (ix3 b c p) n = ix3 b c n from funext fun a => Fin.ext (by match a with | ⟨0, _⟩ => rfl | ⟨1, _⟩ => rfl | ⟨2, _⟩ => rfl),
    show ridx_main_v24 (ix3 b c p) n = ix3 b n p from funext fun a => Fin.ext (by match a with | ⟨0, _⟩ => rfl | ⟨1, _⟩ => rfl | ⟨2, _⟩ => rfl)]

/-- The hinge stage at (b,c,p) is the scalar chain `hingeS` of the three sums. -/
theorem hinge_apply (b : Fin 8) (c : Fin 12) (p : Fin 235520) :
    val_main_v45 (F := Ideal) x0 x1 (ix3 b c p)
      = hingeS (featsqS (val_main_v0 (F := Ideal) x0) b p) (censqS (val_main_v19 (F := Ideal) x0 x1) b c)
          (crossS (val_main_v19 (F := Ideal) x0 x1) (val_main_v0 (F := Ideal) x0) b c p) := by
  simp only [val_main_v45_apply, val_main_v44_apply, val_main_cst_11_apply, val_main_v43_apply, val_main_v42_apply,
    val_main_cst_10_apply, val_main_v41_apply, val_main_call1_v1_apply, val_main_call1_v0_apply, val_main_cst_9_apply,
    val_main_v40_apply, val_main_v39_apply, val_main_call0_v1_apply, val_main_call0_v0_apply, val_main_cst_8_apply,
    val_main_v38_apply, val_main_v37_apply, val_main_cst_7_apply, val_main_v36_apply, val_main_v35_apply, val_main_cst_6_apply,
    val_main_v34_apply, val_main_v33_apply, val_main_cst_5_apply, val_main_v32_apply, val_main_v31_apply, val_main_v30_apply,
    val_main_cst_4_apply, val_main_v29_apply, val_main_v28_apply, val_main_v27_apply, val_main_v26_apply, val_main_v25_apply]
  rw [show idx_main_v25 (idx_main_v27 (ix3 b c p)) = ix2 b p from funext fun a => Fin.ext (by match a with | ⟨0, _⟩ => rfl | ⟨1, _⟩ => rfl),
    show idx_main_v26 (idx_main_v28 (ix3 b c p)) = ix2 b c from funext fun a => Fin.ext (by match a with | ⟨0, _⟩ => rfl | ⟨1, _⟩ => rfl),
    featsq_apply, censq_apply, cross_apply]
  rfl

/-- The pull stage at (b,c): the sum over the pixels of hinge times mask. -/
theorem pull_apply (b : Fin 8) (c : Fin 12) :
    val_main_v47 (F := Ideal) x0 x1 (ix2 b c)
      = pullS (val_main_v19 (F := Ideal) x0 x1) (val_main_v0 (F := Ideal) x0) (val_main_v1 (F := Ideal) x1) b c := by
  rw [val_main_v47_apply]
  unfold pullS
  refine congrArg₂ (· + ·) rfl (Finset.sum_congr rfl fun p _ => ?_)
  rw [show idx_main_v47 (ix2 b c) p = ix3 b c p from funext fun a => Fin.ext (by match a with | ⟨0, _⟩ => rfl | ⟨1, _⟩ => rfl | ⟨2, _⟩ => rfl), val_main_v46_apply, hinge_apply, mask_apply]
  rfl

end Cert.RefStages

end
-- ==== Proof.Bridge.lean ====
/- The kernel's tail applied to the kernel's three arrays is the reference's result, once the three arrays are
   known index by index: the centres are the masked means, the counts the mask sums, the pull sums the hinge
   sums over those centres. The two tails are one function (`TailEq`); the centres array is then the reference's
   centres stage by extensionality, and the [8,12,1] counts and pull arrays, reshaped to [8,12] (element (b,c)
   of the reshape is element (b,c,0), by row-major order), are the reference's counts and pull stages. -/
import proofs.«106792_j1022202216835_2_alg».proof.Proof.TailEq
import proofs.«106792_j1022202216835_2_alg».proof.Proof.RefStages
import Idealize.ShloMosaic.Lib.Pipeline.Value

noncomputable section

open scoped BigOperators

namespace Cert.Bridge

open Cert.ReferenceIdeal.ReadP Idealize.ShloMosaic Idealize.ShloMosaic.ValueIdx Cert.RefSpec Cert.RefStages

/-- Element (b,c) of an [8,12,1] array reshaped to [8,12] is its element (b,c,0). -/
theorem reshape_col_apply {α : Type} (y : Cert.KernelIdeal.S8x12x1.Idx → α) (b : Fin 8) (c : Fin 12) :
    shapeCast Cert.KernelIdeal.S8x12 y Cert.KernelIdeal.Gen.shapeCasts_S8x12x1_S8x12 (ix2 b c) = y (ix3 b c (0 : Fin 1)) := by
  refine shapeCast_apply y Cert.KernelIdeal.Gen.shapeCasts_S8x12x1_S8x12 (ix2 b c) (ix3 b c (0 : Fin 1)) ?_
  rewrite [Shape.rowMajor_val_three, Shape.rowMajor_val_two]
  show (b.val * 12 + c.val) * 1 + 0 = b.val * 12 + c.val
  omega

/-- The kernel's tail of arrays that are, index by index, the masked means, the mask sums and the hinge sums is
    the reference's result. -/
theorem bridge (x0 : (⟨Cert.ReferenceIdeal.S8x16x368x640, .f32⟩ : BufTy).Contents (Elt Ideal))
    (x1 : (⟨Cert.ReferenceIdeal.S8x1x368x640, .i32⟩ : BufTy).Contents (Elt Ideal))
    (cenK : Cert.KernelIdeal.S8x12x16.Idx → EReal) (cnt3K pul3K : Cert.KernelIdeal.S8x12x1.Idx → EReal)
    (hcen : ∀ (b : Fin 8) (c : Fin 12) (n : Fin 16),
      cenK (ix3 b c n) = centerS (val_main_v0 (F := Ideal) x0) (val_main_v1 (F := Ideal) x1) b c n)
    (hcnt : ∀ (b : Fin 8) (c : Fin 12), cnt3K (ix3 b c (0 : Fin 1)) = countsS (val_main_v1 (F := Ideal) x1) b c)
    (hpul : ∀ (b : Fin 8) (c : Fin 12),
      pul3K (ix3 b c (0 : Fin 1)) = pullS cenK (val_main_v0 (F := Ideal) x0) (val_main_v1 (F := Ideal) x1) b c) :
    Cert.KerTail.tailK (F := Ideal) cenK cnt3K pul3K = val_main_v105 (F := Ideal) x0 x1 := by
  have hc : cenK = val_main_v19 (F := Ideal) x0 x1 := by
    funext i
    obtain ⟨b, c, n, rfl⟩ : ∃ (b : Fin 8) (c : Fin 12) (n : Fin 16), i = ix3 b c n := ⟨i 0, i 1, i 2, eq_ix3 i⟩
    rw [hcen, center_apply]
  subst hc
  have hn : shapeCast Cert.KernelIdeal.S8x12 cnt3K Cert.KernelIdeal.Gen.shapeCasts_S8x12x1_S8x12
      = val_main_v11 (F := Ideal) x1 := by
    funext i
    obtain ⟨b, c, rfl⟩ : ∃ (b : Fin 8) (c : Fin 12), i = ix2 b c := ⟨i 0, i 1, eq_ix2 i⟩
    rw [reshape_col_apply, hcnt, counts_apply]
  have hp : shapeCast Cert.KernelIdeal.S8x12 pul3K Cert.KernelIdeal.Gen.shapeCasts_S8x12x1_S8x12
      = val_main_v47 (F := Ideal) x0 x1 := by
    funext i
    obtain ⟨b, c, rfl⟩ : ∃ (b : Fin 8) (c : Fin 12), i = ix2 b c := ⟨i 0, i 1, eq_ix2 i⟩
    rw [reshape_col_apply, hpul, pull_apply]
  rw [Cert.TailEq.tailK_eq_tailR _ cnt3K pul3K (val_main_v0 (F := Ideal) x0), hn, hp,
    Cert.RefTail.val_main_v105_eq_tailR]

end Cert.Bridge

end
-- ==== Proof.KerResult.lean ====
/- The host operations after the kernel, run from any contents of the device's buffers in which the kernel's
   three result arrays are the masked means, the mask sums and the hinge sums, leave the reference's result in
   the result buffer: the operations compute the tail function of the three arrays, and that tail of such arrays
   is the reference's result. -/
import proofs.«106792_j1022202216835_2_alg».proof.Proof.KerTailRun
import proofs.«106792_j1022202216835_2_alg».proof.Proof.Bridge

noncomputable section

open scoped BigOperators

namespace Cert.KerResult

open Cert.KernelIdeal Cert.KernelIdeal.Gen Idealize.ShloMosaic Idealize.ShloMosaic.TcCoe Idealize.SL.Sem Idealize.ShloMosaic.StableHlo Idealize.ShloMosaic.ValueIdx Cert.RefSpec

/-- After the 89 operations that follow the kernel the result buffer holds the reference's result, given the
    three arrays index by index. -/
theorem after_eq_reference (W : Valuation τ sig (Elt Ideal))
    (x0 : (⟨Cert.ReferenceIdeal.S8x16x368x640, .f32⟩ : BufTy).Contents (Elt Ideal))
    (x1 : (⟨Cert.ReferenceIdeal.S8x1x368x640, .i32⟩ : BufTy).Contents (Elt Ideal))
    (hcen : ∀ (b : Fin 8) (c : Fin 12) (n : Fin 16), W (Proc.devRef .tc main_v2_0) (ix3 b c n)
      = centerS (Cert.ReferenceIdeal.ReadP.val_main_v0 (F := Ideal) x0) (Cert.ReferenceIdeal.ReadP.val_main_v1 (F := Ideal) x1) b c n)
    (hcnt : ∀ (b : Fin 8) (c : Fin 12), W (Proc.devRef .tc main_v2_1) (ix3 b c (0 : Fin 1))
      = countsS (Cert.ReferenceIdeal.ReadP.val_main_v1 (F := Ideal) x1) b c)
    (hpul : ∀ (b : Fin 8) (c : Fin 12), W (Proc.devRef .tc main_v2_2) (ix3 b c (0 : Fin 1))
      = pullS (W (Proc.devRef .tc main_v2_0)) (Cert.ReferenceIdeal.ReadP.val_main_v0 (F := Ideal) x0) (Cert.ReferenceIdeal.ReadP.val_main_v1 (F := Ideal) x1) b c) :
    StableHlo.after (List.flatten [hostOps1, hostOps1_1, hostOps1_2, hostOps1_3, hostOps1_4, hostOps1_5, hostOps1_6, hostOps1_7, hostOps1_8, hostOps1_9, hostOps1_10]) W (Proc.devRef .tc main_v60)
      = Cert.ReferenceIdeal.ReadP.val_main_v105 (F := Ideal) x0 x1 :=
  (Cert.KerTail.after_tail (F := Ideal) W).trans
    (Cert.Bridge.bridge x0 x1 (W (Proc.devRef .tc main_v2_0)) (W (Proc.devRef .tc main_v2_1)) (W (Proc.devRef .tc main_v2_2))
      hcen hcnt hpul)

end Cert.KerResult

end
-- ==== Proof.RefArrays.lean ====
/- The reference's three stages as whole arrays, and the labels read through either of the two reshapes.

   The stages: an index of a rank-3 (rank-2) array is its three (two) coordinates, so the index-by-index closed
   forms of `RefStages` give each stage as one function of the index.

   The labels: the reference reshapes the labels [8,1,368,640] to [8,235520], the kernel's host side reshapes
   them to [8,1,235520]. Row-major order makes element (b,p) of the first and element (b,0,p) of the second
   the same element (b, 0, p / 640, p % 640) of the argument. -/
import proofs.«106792_j1022202216835_2_alg».proof.Proof.RefStages
import proofs.«106792_j1022202216835_2_alg».proof.Proof.Gen.KernelIdeal

noncomputable section

open scoped BigOperators

namespace Cert.RefArrays

open Cert.ReferenceIdeal Cert.ReferenceIdeal.Gen Cert.ReferenceIdeal.ReadP Idealize.ShloMosaic Idealize.ShloMosaic.ValueIdx Cert.RefSpec Cert.RefStages

section Stages

variable (x0 : (⟨S8x16x368x640, .f32⟩ : BufTy).Contents (Elt Ideal)) (x1 : (⟨S8x1x368x640, .i32⟩ : BufTy).Contents (Elt Ideal))

/-- The counts stage as an array. -/
theorem counts_eq : val_main_v11 (F := Ideal) x1 = fun i => countsS (val_main_v1 (F := Ideal) x1) (i 0) (i 1) := by
  funext i
  obtain ⟨b, c, rfl⟩ : ∃ (b : Fin 8) (c : Fin 12), i = ix2 b c := ⟨i 0, i 1, eq_ix2 i⟩
  exact counts_apply x1 b c

/-- The centres stage as an array. -/
theorem center_eq : val_main_v19 (F := Ideal) x0 x1
    = fun i => centerS (val_main_v0 (F := Ideal) x0) (val_main_v1 (F := Ideal) x1) (i 0) (i 1) (i 2) := by
  funext i
  obtain ⟨b, c, n, rfl⟩ : ∃ (b : Fin 8) (c : Fin 12) (n : Fin 16), i = ix3 b c n := ⟨i 0, i 1, i 2, eq_ix3 i⟩
  exact center_apply x0 x1 b c n

/-- The pull stage as an array. -/
theorem pull_eq : val_main_v47 (F := Ideal) x0 x1
    = fun i => pullS (val_main_v19 (F := Ideal) x0 x1) (val_main_v0 (F := Ideal) x0) (val_main_v1 (F := Ideal) x1) (i 0) (i 1) := by
  funext i
  obtain ⟨b, c, rfl⟩ : ∃ (b : Fin 8) (c : Fin 12), i = ix2 b c := ⟨i 0, i 1, eq_ix2 i⟩
  exact pull_apply x0 x1 b c

end Stages

section Labels

variable {F : FTy → Type} [FloatOps F]

/-- Element (b,p) of the labels as [8,235520] is element (b,0,p) of the labels as [8,1,235520]. -/
theorem labels_eq (x1 : (⟨S8x1x368x640, .i32⟩ : BufTy).Contents (Elt F)) (b : Fin 8) (p : Fin 235520) :
    val_main_v1 (F := F) x1 (ix2 b p)
      = shapeCast Cert.KernelIdeal.S8x1x235520 x1 Cert.KernelIdeal.Gen.shapeCasts_S8x1x368x640_S8x1x235520
          (ix3 b (0 : Fin 1) p) := by
  rw [val_main_v1_apply]
  refine (shapeCast_apply x1 Cert.KernelIdeal.Gen.shapeCasts_S8x1x368x640_S8x1x235520 (ix3 b (0 : Fin 1) p)
    (idx_main_v1 (ix2 b p)) ?_).symm
  rewrite [Shape.rowMajor_val_four, Shape.rowMajor_val_three]
  have hb : b.val < 8 := b.isLt
  have hp : p.val < 235520 := p.isLt
  show (((b.val * 235520 + p.val) / 235520 * 1 + 0) * 368 + (b.val * 235520 + p.val) / 640 % 368) * 640
      + (b.val * 235520 + p.val) % 640 = (b.val * 1 + 0) * 235520 + p.val
  omega

end Labels

end Cert.RefArrays

end
-- ==== Proof.KI.Final.lean ====
/-
  The kernel's program computes the reference's result. After the run the three result arrays hold, row by row, what each
  batch element's eighth point left in the output windows' buffers; those blocks are the body's arithmetic chained over the
  batch element's eight tiles, which at the extended reals is the specification's counts, centre and pull of the reshaped
  feature map and labels; and the host operations after the kernel turn three such arrays into the reference's result.
-/
import proofs.«106792_j1022202216835_2_alg».proof.Proof.KI.Arrays
import proofs.«106792_j1022202216835_2_alg».proof.Proof.KI.Blocks
import proofs.«106792_j1022202216835_2_alg».proof.Proof.KI.Batch
import proofs.«106792_j1022202216835_2_alg».proof.Proof.KerRows
import proofs.«106792_j1022202216835_2_alg».proof.Proof.KerResult
import proofs.«106792_j1022202216835_2_alg».proof.Proof.RefArrays

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ)

variable (c : Dev nD)

/-! ## The tiles of batch element b, and what their blocks hold -/

section Tiles

variable (b : Fin 8)

/-- The point of tile k of phase 0 of batch element b … -/
abbrev pt0 (k : Fin 4) : Fin cfg0.N :=
  ⟨8 * b.val + k.val, by have := b.isLt; have := k.isLt; have hN : cfg0.N = 64 := N_0; omega⟩
/-- … and of phase 1. -/
abbrev pt1 (k : Fin 4) : Fin cfg0.N :=
  ⟨8 * b.val + (4 + k.val), by have := b.isLt; have := k.isLt; have hN : cfg0.N = 64 := N_0; omega⟩

/-- The feature and label blocks of the four tiles, in phase 0 and in phase 1. -/
abbrev XT0 (k : Fin 4) : Vec Ideal S1x16x58880 .f32 := iblk m c 0 (pt0 b k)
abbrev LT0 (k : Fin 4) : Vec Ideal S1x1x58880 .i32 := iblk m c 1 (pt0 b k)
abbrev XT1 (k : Fin 4) : Vec Ideal S1x16x58880 .f32 := iblk m c 0 (pt1 b k)
abbrev LT1 (k : Fin 4) : Vec Ideal S1x1x58880 .i32 := iblk m c 1 (pt1 b k)

/-- The reshaped feature map and labels the region reads. -/
abbrev featV : S8x16x235520.Idx → EReal := (V m c main_v0 : S8x16x235520.Idx → Elt Ideal .f32)
abbrev labV : S8x1x235520.Idx → BitVec 32 := (V m c main_v1 : S8x1x235520.Idx → Elt Ideal .i32)

theorem xt0_apply (k : Fin 4) (n : Fin 16) (q : Fin 58880) :
    XT0 m c b k (ix3 (0 : Fin 1) n q) = featV m c (ix3 b n (Cert.KerBody.pix k q)) := by
  refine (iblk0_apply m c (pt0 b k) n q).trans ?_
  refine congrArg₂ (fun (bb : Fin 8) (kk : Fin 4) => featV m c (ix3 bb n (Cert.KerBody.pix kk q))) (Fin.ext ?_) (Fin.ext ?_)
  · show (8 * b.val + k.val) / 8 = b.val
    have := k.isLt; omega
  · show (8 * b.val + k.val) % 4 = k.val
    have := k.isLt; omega

theorem xt1_apply (k : Fin 4) (n : Fin 16) (q : Fin 58880) :
    XT1 m c b k (ix3 (0 : Fin 1) n q) = featV m c (ix3 b n (Cert.KerBody.pix k q)) := by
  refine (iblk0_apply m c (pt1 b k) n q).trans ?_
  refine congrArg₂ (fun (bb : Fin 8) (kk : Fin 4) => featV m c (ix3 bb n (Cert.KerBody.pix kk q))) (Fin.ext ?_) (Fin.ext ?_)
  · show (8 * b.val + (4 + k.val)) / 8 = b.val
    have := k.isLt; omega
  · show (8 * b.val + (4 + k.val)) % 4 = k.val
    have := k.isLt; omega

theorem lt0_apply (k : Fin 4) (q : Fin 58880) :
    LT0 m c b k (ix3 (0 : Fin 1) (0 : Fin 1) q) = labV m c (ix3 b (0 : Fin 1) (Cert.KerBody.pix k q)) := by
  refine (iblk1_apply m c (pt0 b k) q).trans ?_
  refine congrArg₂ (fun (bb : Fin 8) (kk : Fin 4) => labV m c (ix3 bb (0 : Fin 1) (Cert.KerBody.pix kk q))) (Fin.ext ?_) (Fin.ext ?_)
  · show (8 * b.val + k.val) / 8 = b.val
    have := k.isLt; omega
  · show (8 * b.val + k.val) % 4 = k.val
    have := k.isLt; omega

theorem lt1_apply (k : Fin 4) (q : Fin 58880) :
    LT1 m c b k (ix3 (0 : Fin 1) (0 : Fin 1) q) = labV m c (ix3 b (0 : Fin 1) (Cert.KerBody.pix k q)) := by
  refine (iblk1_apply m c (pt1 b k) q).trans ?_
  refine congrArg₂ (fun (bb : Fin 8) (kk : Fin 4) => labV m c (ix3 bb (0 : Fin 1) (Cert.KerBody.pix kk q))) (Fin.ext ?_) (Fin.ext ?_)
  · show (8 * b.val + (4 + k.val)) / 8 = b.val
    have := k.isLt; omega
  · show (8 * b.val + (4 + k.val)) % 4 = k.val
    have := k.isLt; omega

end Tiles

/-! ## The reshaped arrays are the reference's -/

/-- The feature map the region reads is the reference's first stage. -/
theorem featV_eq : featV m c
    = Cert.ReferenceIdeal.ReadP.val_main_v0 (F := Ideal) (m ((c : Thread nD τ).loc main_arg0)) :=
  (V_feat m c).trans rfl

/-- The labels the region reads, at (b, 0, p), are the reference's second stage at (b, p). -/
theorem labV_eq (b : Fin 8) (p : Fin 235520) : labV m c (ix3 b (0 : Fin 1) p)
    = Cert.ReferenceIdeal.ReadP.val_main_v1 (F := Ideal) (m ((c : Thread nD τ).loc main_arg1)) (ix2 b p) :=
  (congrFun (V_lab m c) _).trans (Cert.RefArrays.labels_eq (m ((c : Thread nD τ).loc main_arg1)) b p).symm

/-! ## The buffers' contents the tail runs from -/

/-- Every array of the region at what the write-backs wrote, every other buffer as the region found it. -/
abbrev WF : Valuation τ sig (Elt Ideal) :=
  Pipeline.withArrays spec0 c (V0 m c) (fun w => (dats m 0 c).arrAt w cfg0.N)

theorem WF_cen : WF m c (Proc.devRef .tc main_v2_0) = cenArr m c :=
  (Pipeline.withArrays_arr spec0 launch0.win.arr_inj c _ _ 2).trans (final_cen m c)
theorem WF_cnt : WF m c (Proc.devRef .tc main_v2_1) = cntArr m c :=
  (Pipeline.withArrays_arr spec0 launch0.win.arr_inj c _ _ 3).trans (final_cnt m c)
theorem WF_pul : WF m c (Proc.devRef .tc main_v2_2) = pulArr m c :=
  (Pipeline.withArrays_arr spec0 launch0.win.arr_inj c _ _ 4).trans (final_pul m c)

/-! ## Batch element b's blocks after its eighth point, as the chains over its tiles -/

section Rows

variable (b : Fin 8)

theorem hb8 : 8 * b.val + 7 < cfg0.N := by have := b.isLt; have hN : cfg0.N = 64 := N_0; omega

theorem cnt7 : (outsAt m c (8 * b.val + 7) (hb8 b)).cnt = Cert.KerBody.cntRow (LT0 m c b) :=
  (congrArg Outs.cnt (batch_outs m c b.val (hb8 b))).trans rfl

theorem cen7 : (outsAt m c (8 * b.val + 7) (hb8 b)).cen = Cert.KerBody.cenRow (XT0 m c b) (LT0 m c b) :=
  (congrArg Outs.cen (batch_outs m c b.val (hb8 b))).trans rfl

theorem pul7 : (outsAt m c (8 * b.val + 7) (hb8 b)).pul
    = Cert.KerBody.pulRow (XT0 m c b) (XT1 m c b) (LT0 m c b) (LT1 m c b) :=
  (congrArg Outs.pul (batch_outs m c b.val (hb8 b))).trans rfl

end Rows

/-! ## The three result arrays are the specification's, row by row -/

/-- The counts array. -/
theorem row_cnt (b : Fin 8) (cc : Fin 12) :
    WF m c (Proc.devRef .tc main_v2_1) (ix3 b cc (0 : Fin 1))
      = Cert.RefSpec.countsS (Cert.ReferenceIdeal.ReadP.val_main_v1 (F := Ideal) (m ((c : Thread nD τ).loc main_arg1))) b cc := by
  refine (congrFun (WF_cnt m c) _).trans ?_
  refine (cntArr_apply m c b cc).trans ?_
  refine (congrFun (cnt7 m c b) _).trans ?_
  exact Cert.KerBody.cntRow_spec b (labV m c) _ (LT0 m c b) (lt0_apply m c b) (labV_eq m c b) cc

/-- The centers array. -/
theorem row_cen (b : Fin 8) (cc : Fin 12) (n : Fin 16) :
    WF m c (Proc.devRef .tc main_v2_0) (ix3 b cc n)
      = Cert.RefSpec.centerS (Cert.ReferenceIdeal.ReadP.val_main_v0 (F := Ideal) (m ((c : Thread nD τ).loc main_arg0)))
          (Cert.ReferenceIdeal.ReadP.val_main_v1 (F := Ideal) (m ((c : Thread nD τ).loc main_arg1))) b cc n := by
  refine (congrFun (WF_cen m c) _).trans ?_
  refine (cenArr_apply m c b cc n).trans ?_
  refine (congrFun (cen7 m c b) _).trans ?_
  have h := Cert.KerBody.cenRow_spec b (featV m c) (labV m c)
    (Cert.ReferenceIdeal.ReadP.val_main_v1 (F := Ideal) (m ((c : Thread nD τ).loc main_arg1))) (XT0 m c b) (LT0 m c b)
    (xt0_apply m c b) (lt0_apply m c b) (labV_eq m c b) cc n
  exact h.trans (congrArg (fun f => Cert.RefSpec.centerS f
    (Cert.ReferenceIdeal.ReadP.val_main_v1 (F := Ideal) (m ((c : Thread nD τ).loc main_arg1))) b cc n) (featV_eq m c))

/-- The pull array, against the centers array. -/
theorem row_pul (b : Fin 8) (cc : Fin 12) :
    WF m c (Proc.devRef .tc main_v2_2) (ix3 b cc (0 : Fin 1))
      = Cert.RefSpec.pullS (WF m c (Proc.devRef .tc main_v2_0))
          (Cert.ReferenceIdeal.ReadP.val_main_v0 (F := Ideal) (m ((c : Thread nD τ).loc main_arg0)))
          (Cert.ReferenceIdeal.ReadP.val_main_v1 (F := Ideal) (m ((c : Thread nD τ).loc main_arg1))) b cc := by
  refine (congrFun (WF_pul m c) _).trans ?_
  refine (pulArr_apply m c b cc).trans ?_
  refine (congrFun (pul7 m c b) _).trans ?_
  have hcen : ∀ n : Fin 16, Cert.KerBody.cenRow (XT0 m c b) (LT0 m c b) (ix3 (0 : Fin 1) cc n)
      = (WF m c (Proc.devRef .tc main_v2_0) : Cert.RefSpec.CTy) (ix3 b cc n) := fun n =>
    ((congrFun (WF_cen m c) _).trans ((cenArr_apply m c b cc n).trans (congrFun (cen7 m c b) _))).symm
  have h := Cert.KerBody.pulRow_spec b (featV m c) (labV m c)
    (Cert.ReferenceIdeal.ReadP.val_main_v1 (F := Ideal) (m ((c : Thread nD τ).loc main_arg1)))
    (XT0 m c b) (XT1 m c b) (LT0 m c b) (LT1 m c b) (xt1_apply m c b) (lt1_apply m c b) (labV_eq m c b)
    (WF m c (Proc.devRef .tc main_v2_0)) cc hcen
  exact h.trans (congrArg (fun f => Cert.RefSpec.pullS (WF m c (Proc.devRef .tc main_v2_0)) f
    (Cert.ReferenceIdeal.ReadP.val_main_v1 (F := Ideal) (m ((c : Thread nD τ).loc main_arg1))) b cc) (featV_eq m c))

/-! ## The result -/

/-- What the program leaves in its result buffer is the reference's result of the same two arguments. -/
theorem kernel_value : Pipeline.afterTail₀ cfgs (dats m) 0 (V0 m) tailOps c main_v60
    = Cert.ReferenceIdeal.ReadP.val_main_v105 (F := Ideal) (m ((c : Thread nD τ).loc main_arg0))
        (m ((c : Thread nD τ).loc main_arg1)) := by
  unfold Pipeline.afterTail₀
  exact Cert.KerResult.after_eq_reference (WF m c) _ _ (row_cen m c) (row_cnt m c) (row_pul m c)

end Cert.KernelIdeal.Frm

end
-- ==== Proof.lean ====
/-
  The certificate of the fused push-pull loss kernel against its jnp reference, over the extended reals.

  The kernel walks, for each of 8 batch elements, the 235520 pixels twice in 4 tiles of 58880. The first walk accumulates,
  for each of the 12 instance ids, the count of its pixels and the sum of their 16-channel features, and at the last tile
  divides the sums by max(count, 1) — the instance centers — and keeps each center's squared norm. The second walk
  accumulates the hinged distances max(d − 0.5, 0) of each pixel to its own instance's center, with
  d² = max(|x|² + |center|² − 2⟨center, x⟩, 0). The host then forms the pull and push losses from the three result arrays.
  The reference computes the same quantities from whole arrays. Over the extended reals the two agree: a sum over all
  pixels is the sum of the four tiles' sums (addition is commutative and associative there, infinities included), a
  change of float format is the identity, and the reference's two fall-back values 0 · mean(features) are 0, as the
  kernel's are. Nothing in the argument needs the inputs finite.

  frame_Kernel, frame_KernelIdeal: the region's frame, case by case of the body's five conditions (Proof/K, Proof/KI).
  frame_ReferenceIdeal: the reference's run with the result dropped.
  preserves: the idealization rewrote nothing.
  algebraic: the kernel's result is the tail's operations applied to the three result arrays, which hold the counts, the
  centers and the pull sums of the reference's own stages; so the two results are one term.
-/
import proofs.«106792_j1022202216835_2_alg».proof.Defs
import proofs.«106792_j1022202216835_2_alg».proof.Proof.Gen.Kernel
import proofs.«106792_j1022202216835_2_alg».proof.Proof.Gen.KernelIdeal
import proofs.«106792_j1022202216835_2_alg».proof.Proof.Gen.ReferenceIdeal
import proofs.«106792_j1022202216835_2_alg».proof.Proof.Gen.Pre_finite_inputs
import proofs.«106792_j1022202216835_2_alg».proof.Proof.K.Frame
import proofs.«106792_j1022202216835_2_alg».proof.Proof.KI.RunValue
import proofs.«106792_j1022202216835_2_alg».proof.Proof.KI.Final
import proofs.«106792_j1022202216835_2_alg».proof.Proof.RefRead
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Frm.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Frm.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.ValueP.run (F := Ideal) m ρ)

theorem preserves : Cert.preserves_Kernel_KernelIdeal := trivial

/-- Both programs end, from memories agreeing on the arguments, with the same scalar: the kernel's is the reference's
    term of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Frm.result m c, Cert.KernelIdeal.Frm.run_value (F := Ideal) m ρ, ?_⟩
  refine (θ_run Cert.ReferenceIdeal.defs _ _).mono (fun _ h c => ⟨?_, (h c).2.1, (h c).2.2⟩)
    (Cert.ReferenceIdeal.ValueP.run (F := Ideal) m' ρ')
  rw [(h c).1, Cert.ReferenceIdeal.ReadP.val_main_v105_eq, (hagree c).1, (hagree c).2]
  exact (Cert.KernelIdeal.Frm.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
